-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S8192x2 .f32 .bf16
  ∧ IdealRules.truncf_extf.Statement Cert.KernelIdeal.S256x2 .f32 .bf16
  ∧ IdealRules.truncf_extf.Statement Cert.KernelIdeal.S2x8192 .f32 .bf16
  ∧ IdealRules.truncf_extf.Statement Cert.KernelIdeal.S512x2 .f32 .bf16
  ∧ IdealRules.truncf_extf.Statement Cert.KernelIdeal.S2x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2x8x2 : Shape := ⟨3, ![2, 8, 2]⟩
abbrev S2x1x8 : Shape := ⟨3, ![2, 1, 8]⟩
abbrev S4096x8 : Shape := ⟨2, ![4096, 8]⟩
abbrev S8192x2 : Shape := ⟨2, ![8192, 2]⟩
abbrev S_ : Shape := ⟨0, ![]⟩

class Facts : Prop where
  bcast_S_S2x8x2 : S_.BroadcastsInDim S2x8x2 (![] : Fin 0 → Fin S2x8x2.rank)
  reducesTo_S2x8x2_S_d0_1_2 : S2x8x2.ReducesTo [0, 1, 2] S_
  h_S_ : 0 < S_.numel
  bcast_S_S2x1x8 : S_.BroadcastsInDim S2x1x8 (![] : Fin 0 → Fin S2x1x8.rank)
  reducesTo_S2x1x8_S_d0_1_2 : S2x1x8.ReducesTo [0, 1, 2] S_
  bcast_S_S4096x8 : S_.BroadcastsInDim S4096x8 (![] : Fin 0 → Fin S4096x8.rank)
  reducesTo_S4096x8_S_d0_1 : S4096x8.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  main_v18

def fn {F : FTy → Type} [FloatOps F] (main_arg0 : IVec S4096x8192 32) (main_arg1 : FVec F S2x8x2 .f32) (main_arg2 : FVec F S2x1x8 .f32) (main_arg3 : FVec F S4096x8 .f32) (main_arg4 : FVec F S8192x2 .f32) : IVec S_ 1 :=
  let main_v0 : FVec F S2x8x2 .f32 := Host.absf main_arg1
  let main_cst : FVec F S_ .f32 := constant S_ .f32 0x7F800000#32
  let main_v1 : FVec F S2x8x2 .f32 := broadcastInDim S2x8x2 ![] bcast_S_S2x8x2 main_cst
  let main_v2 : IVec S2x8x2 1 := cmpf .olt main_v0 main_v1
  let main_c : IVec S_ 1 := constantI S_ 1 1#1
  let main_v3 : IVec S_ 1 := (fun x v => Host.reduce IntOp.andi x v reducesTo_S2x8x2_S_d0_1_2 h_S_) main_v2 main_c
  let main_v4 : FVec F S2x1x8 .f32 := Host.absf main_arg2
  let main_cst_0 : FVec F S_ .f32 := constant S_ .f32 0x7F800000#32
  let main_v5 : FVec F S2x1x8 .f32 := broadcastInDim S2x1x8 ![] bcast_S_S2x1x8 main_cst_0
  let main_v6 : IVec S2x1x8 1 := cmpf .olt main_v4 main_v5
  let main_c_1 : IVec S_ 1 := constantI S_ 1 1#1
  let main_v7 : IVec S_ 1 := (fun x v => Host.reduce IntOp.andi x v reducesTo_S2x1x8_S_d0_1_2 h_S_) main_v6 main_c_1
  let main_v8 : IVec S_ 1 := andi main_v3 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S8192x2 .f32 := Host.absf main_arg4
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_v13 main_v16
-- ==== Kernel.lean ====
abbrev S4096x8192 : Shape := ⟨2, ![4096, 8192]⟩
abbrev S2x8x2 : Shape := ⟨3, ![2, 8, 2]⟩
abbrev S2x1x8 : Shape := ⟨3, ![2, 1, 8]⟩
abbrev S4096x8 : Shape := ⟨2, ![4096, 8]⟩
abbrev S8192x2 : Shape := ⟨2, ![8192, 2]⟩
abbrev S2x8 : Shape := ⟨2, ![2, 8]⟩
abbrev S1x8x2 : Shape := ⟨3, ![1, 8, 2]⟩
abbrev S8x2 : Shape := ⟨2, ![8, 2]⟩
abbrev S2x8192 : Shape := ⟨2, ![2, 8192]⟩
abbrev S256x8192 : Shape := ⟨2, ![256, 8192]⟩
abbrev S4x8192 : Shape := ⟨2, ![4, 8192]⟩
abbrev S1x8 : Shape := ⟨2, ![1, 8]⟩
abbrev S8192x4 : Shape := ⟨2, ![8192, 4]⟩
abbrev S1x8192 : Shape := ⟨2, ![1, 8192]⟩
abbrev S1x1x8192 : Shape := ⟨3, ![1, 1, 8192]⟩
abbrev S1 : Shape := ⟨1, ![1]⟩
abbrev S1x1x1 : Shape := ⟨3, ![1, 1, 1]⟩
abbrev S256x4 : Shape := ⟨2, ![256, 4]⟩
abbrev S256x2 : Shape := ⟨2, ![256, 2]⟩
abbrev S256x8 : Shape := ⟨2, ![256, 8]⟩
abbrev S256x1 : Shape := ⟨2, ![256, 1]⟩
abbrev S8x1 : Shape := ⟨2, ![8, 1]⟩
abbrev S8 : Shape := ⟨1, ![8]⟩
abbrev S256 : Shape := ⟨1, ![256]⟩
abbrev S1x1x8 : Shape := ⟨3, ![1, 1, 8]⟩
abbrev S512x8192 : Shape := ⟨2, ![512, 8192]⟩
abbrev S512x4 : Shape := ⟨2, ![512, 4]⟩
abbrev S512x2 : Shape := ⟨2, ![512, 2]⟩
abbrev S512x8 : Shape := ⟨2, ![512, 8]⟩
abbrev S512x1 : Shape := ⟨2, ![512, 1]⟩
abbrev S512 : Shape := ⟨1, ![512]⟩

abbrev nBuf : Space → Nat
  | .hbm => 18
  | .vmem => 29
  | .smem => 0
  | _ => 0

abbrev bufTy : (tb : Table) → Fin (tcTables nBuf tb) → BufTy
  | .hbm, ⟨0, _⟩ => ⟨S4096x8192, .i32⟩
  | .hbm, ⟨1, _⟩ => ⟨S2x8x2, .f32⟩
  | .hbm, ⟨2, _⟩ => ⟨S2x1x8, .f32⟩
  | .hbm, ⟨3, _⟩ => ⟨S4096x8, .f32⟩
  | .hbm, ⟨4, _⟩ => ⟨S8192x2, .f32⟩
  | .hbm, ⟨5, _⟩ => ⟨S2x8, .f32⟩
  | .hbm, ⟨6, _⟩ => ⟨S1x8x2, .f32⟩
  | .hbm, ⟨7, _⟩ => ⟨S8x2, .f32⟩
  | .hbm, ⟨8, _⟩ => ⟨S1x8x2, .f32⟩
  | .hbm, ⟨9, _⟩ => ⟨S8x2, .f32⟩
  | .hbm, ⟨10, _⟩ => ⟨S8x2, .f32⟩
  | .hbm, ⟨11, _⟩ => ⟨S1x8x2, .f32⟩
  | .hbm, ⟨12, _⟩ => ⟨S8x2, .f32⟩
  | .hbm, ⟨13, _⟩ => ⟨S4096x8192, .bf16⟩
  | .hbm, ⟨14, _⟩ => ⟨S4096x8, .f32⟩
  | .hbm, ⟨15, _⟩ => ⟨S2x8192, .f32⟩
  | .hbm, ⟨16, _⟩ => ⟨S4096x8, .f32⟩
  | .hbm, ⟨17, _⟩ => ⟨S8192x2, .f32⟩
  | .local _ .vmem, ⟨0, _⟩ => ⟨S256x8192, .i32⟩
  | .local _ .vmem, ⟨1, _⟩ => ⟨S256x8192, .i32⟩
  | .local _ .vmem, ⟨2, _⟩ => ⟨S2x8, .f32⟩
  | .local _ .vmem, ⟨3, _⟩ => ⟨S8x2, .f32⟩
  | .local _ .vmem, ⟨4, _⟩ => ⟨S8x2, .f32⟩
  | .local _ .vmem, ⟨5, _⟩ => ⟨S4096x8, .f32⟩
  | .local _ .vmem, ⟨6, _⟩ => ⟨S8192x2, .f32⟩
  | .local _ .vmem, ⟨7, _⟩ => ⟨S256x8192, .bf16⟩
  | .local _ .vmem, ⟨8, _⟩ => ⟨S256x8192, .bf16⟩
  | .local _ .vmem, ⟨9, _⟩ => ⟨S4096x8, .f32⟩
  | .local _ .vmem, ⟨10, _⟩ => ⟨S2x8192, .f32⟩
  | .local _ .vmem, ⟨11, _⟩ => ⟨S4x8192, .f32⟩
  | .local _ .vmem, ⟨12, _⟩ => ⟨S1x8, .f32⟩
  | .local _ .vmem, ⟨13, _⟩ => ⟨S2x8192, .f32⟩
  | .local _ .vmem, ⟨14, _⟩ => ⟨S8192x4, .bf16⟩
  | .local _ .vmem, ⟨15, _⟩ => ⟨S512x8192, .bf16⟩
  | .local _ .vmem, ⟨16, _⟩ => ⟨S512x8192, .bf16⟩
  | .local _ .vmem, ⟨17, _⟩ => ⟨S2x8, .f32⟩
  | .local _ .vmem, ⟨18, _⟩ => ⟨S8x2, .f32⟩
  | .local _ .vmem, ⟨19, _⟩ => ⟨S8x2, .f32⟩
  | .local _ .vmem, ⟨20, _⟩ => ⟨S4096x8, .f32⟩
  | .local _ .vmem, ⟨21, _⟩ => ⟨S2x8192, .f32⟩
  | .local _ .vmem, ⟨22, _⟩ => ⟨S4096x8, .f32⟩
  | .local _ .vmem, ⟨23, _⟩ => ⟨S8192x2, .f32⟩
  | .local _ .vmem, ⟨24, _⟩ => ⟨S4096x8, .f32⟩
  | .local _ .vmem, ⟨25, _⟩ => ⟨S4x8192, .f32⟩
  | .local _ .vmem, ⟨26, _⟩ => ⟨S1x8, .f32⟩
  | .local _ .vmem, ⟨27, _⟩ => ⟨S2x8192, .f32⟩
  | .local _ .vmem, ⟨28, _⟩ => ⟨S8192x4, .bf16⟩
  | _, _ => ⟨S4096x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8_0 : Ref sig .tc := ⟨.hbm, 13, rfl⟩
abbrev main_call0_v8_1 : Ref sig .tc := ⟨.hbm, 14, rfl⟩
abbrev main_call0_v8_2 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc1_scratch4 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v18 : BitVec 32 := Scalar.muli arg0 c256_i32
  let v19 : Index := Scalar.indexCast v18
  let c0_11 : Index := 0#32
  ![v19.toNat, 0]
def k0_cond2 (i : grid0.Coords) : BitVec 1 :=
  let arg0 : BitVec 32 := BitVec.ofNat 32 (i 0).val
  let c15_i32 : BitVec 32 := 15#32
  let v74 : BitVec 1 := Scalar.cmpi .eq arg0 c15_i32
  let v75 : BitVec 32 := Scalar.extui v74
  let c0_i32_28 : BitVec 32 := 0#32
  let v76 : BitVec 1 := Scalar.cmpi .ne v75 c0_i32_28
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![4, 8], ![false, false]⟩

def k1_off1 (i : grid1.Coords) : Fin 2 → Nat :=
  let arg1 : BitVec 32 := BitVec.ofNat 32 (i 1).val
  let c512_i32 : BitVec 32 := 512#32
  let v22 : BitVec 32 := Scalar.muli arg1 c512_i32
  let v23 : Index := Scalar.indexCast v22
  let c0_12 : Index := 0#32
  ![v23.toNat, 0]
def k1_cond4 (i : grid1.Coords) : BitVec 1 :=
  let arg0 : BitVec 32 := BitVec.ofNat 32 (i 0).val
  let c3_i32 : BitVec 32 := 3#32
  let v82 : BitVec 1 := Scalar.cmpi .eq arg0 c3_i32
  let arg1 : BitVec 32 := BitVec.ofNat 32 (i 1).val
  let c7_i32_30 : BitVec 32 := 7#32
  let v83 : BitVec 1 := Scalar.cmpi .eq arg1 c7_i32_30
  let v84 : BitVec 1 := Scalar.andi v82 v83
  let v85 : BitVec 32 := Scalar.extui v84
  let c0_i32_31 : BitVec 32 := 0#32
  let v86 : BitVec 1 := Scalar.cmpi .ne v85 c0_i32_31
  v86

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4096x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8192x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

class Facts₀ : Prop where
  shapeCasts_S2x1x8_S2x8 : S2x1x8.ShapeCasts S2x8
  slices_S2x8x2_S1x8x2_1_0_0 : S2x8x2.Slices ![1, 0, 0] S1x8x2
  shapeCasts_S1x8x2_S8x2 : S1x8x2.ShapeCasts S8x2
  slices_S2x8x2_S1x8x2_0_0_0 : S2x8x2.Slices ![0, 0, 0] S1x8x2
  inb_S8192x2_S8192x2_0_0 : ∀ a, (![0, 0] : Fin 2 → Nat) a + S8192x2.size a ≤ S8192x2.size a
  h_S8192x2 : 0 < S8192x2.numel
  bitsLt_bf16_f32 : FTy.bits .bf16 < FTy.bits .f32
  concatenates_S8192x2_S8192x2_S8192x4_d1 : Shape.Concatenates [S8192x2, S8192x2] S8192x4 1
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  packedbf16_S8192x4_S8192x4_0_0 : (Rect.unit (s := S8192x4) ![0, 0] S8192x4.size inb_S8192x4_S8192x4_0_0).PackedRows (EltTy.packing .bf16)
  transposes_S8192x2_p1_0_S2x8192 : S8192x2.Transposes [1, 0] S2x8192
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S4096x8_S4096x8_0_0 : ∀ a, (![0, 0] : Fin 2 → Nat) a + S4096x8.size a ≤ S4096x8.size a
  h_S4096x8 : 0 < S4096x8.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S2x8192_S1x8192_0_0 : ∀ a, (![0, 0] : Fin 2 → Nat) a + S1x8192.size a ≤ S2x8192.size a
  h_S1x8192 : 0 < S1x8192.numel
  shapeCasts_S1x8192_S1x1x8192 : S1x8192.ShapeCasts S1x1x8192
  reduces_S1x1x8192_S1 : S1x1x8192.Reduces [1, 2] S1
  shapeCasts_S1_S1x1x1 : S1.ShapeCasts S1x1x1
  inpos_S1x1x1_p0_0_0 : ∀ a, (![0, 0, 0] : Fin 3 → Nat) a < S1x1x1.size a
  slices_S256x4_o0_0_S256x2 : S256x4.Slices ![0, 0] S256x2
  slices_S256x4_o0_2_S256x2 : S256x4.Slices ![0, 2] S256x2
  inb_S2x8_S2x8_0_0 : ∀ a, (![0, 0] : Fin 2 → Nat) a + S2x8.size a ≤ S2x8.size a
  h_S2x8 : 0 < S2x8.numel
  shapeCasts_S2x8_S2x8 : S2x8.ShapeCasts S2x8
  h_S256x8 : 0 < S256x8.numel
  shapeCasts_S256x8_S256x8 : S256x8.ShapeCasts S256x8
  slices_S256x2_o0_0_S256x1 : S256x2.Slices ![0, 0] S256x1
  slices_S2x8_o0_0_S1x8 : S2x8.Slices ![0, 0] S1x8
  broadcasts_S256x1_S256x8 : S256x1.Broadcasts S256x8
  broadcasts_S1x8_S256x8 : S1x8.Broadcasts S256x8
  slices_S256x2_o0_1_S256x1 : S256x2.Slices ![0, 1] S256x1
  slices_S2x8_o1_0_S1x8 : S2x8.Slices ![1, 0] S1x8
  inb_S8x2_S8x2_0_0 : ∀ a, (![0, 0] : Fin 2 → Nat) a + S8x2.size a ≤ S8x2.size a
  h_S8x2 : 0 < S8x2.numel
  shapeCasts_S8x2_S8x2 : S8x2.ShapeCasts S8x2
  slices_S8x2_o0_0_S8x1 : S8x2.Slices ![0, 0] S8x1
  shapeCasts_S8x1_S8 : S8x1.ShapeCasts S8
  shapeCasts_S8_S1x8 : S8.ShapeCasts S1x8
  reduces_S256x8_S256 : S256x8.Reduces [1] S256
  shapeCasts_S256_S256x1 : S256.ShapeCasts S256x1
  slices_S8x2_o0_1_S8x1 : S8x2.Slices ![0, 1] S8x1
  concatenates_S256x1_S256x1_S256x2_d1 : Shape.Concatenates [S256x1, S256x1] S256x2 1
  concatenates_S256x2_S256x2_S256x4_d1 : Shape.Concatenates [S256x2, S256x2] S256x4 1
  reduces_S256x8_S8 : S256x8.Reduces [0] S8
  shapeCasts_S1x8_S1x1x8 : S1x8.ShapeCasts S1x1x8
  reduces_S1x1x8_S1 : S1x1x8.Reduces [1, 2] S1
  inb_S4x8192_S2x8192_0_0 : ∀ a, (![0, 0] : Fin 2 → Nat) a + S2x8192.size a ≤ S4x8192.size a
  inb_S4x8192_S2x8192_2_0 : ∀ a, (![2, 0] : Fin 2 → Nat) a + S2x8192.size a ≤ S4x8192.size a
  concatenates_S1x8192_S1x8192_S2x8192_d0 : Shape.Concatenates [S1x8192, S1x8192] S2x8192 0
  shapeCasts_S4096x8_S4096x8 : S4096x8.ShapeCasts S4096x8
  concatenates_S2x8192_S2x8192_S4x8192_d0 : Shape.Concatenates [S2x8192, S2x8192] S4x8192 0
  transposes_S4x8192_p1_0_S8192x4 : S4x8192.Transposes [1, 0] S8192x4
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  slices_S512x4_o0_0_S512x2 : S512x4.Slices ![0, 0] S512x2
  slices_S512x4_o0_2_S512x2 : S512x4.Slices ![0, 2] S512x2
  h_S512x8 : 0 < S512x8.numel
  slices_S512x2_o0_0_S512x1 : S512x2.Slices ![0, 0] S512x1
  broadcasts_S512x1_S512x8 : S512x1.Broadcasts S512x8
  broadcasts_S1x8_S512x8 : S1x8.Broadcasts S512x8
  slices_S512x2_o0_1_S512x1 : S512x2.Slices ![0, 1] S512x1
  shapeCasts_S512x8_S512x8 : S512x8.ShapeCasts S512x8
  reduces_S512x8_S512 : S512x8.Reduces [1] S512
  shapeCasts_S512_S512x1 : S512.ShapeCasts S512x1
  concatenates_S512x1_S512x1_S512x2_d1 : Shape.Concatenates [S512x1, S512x1] S512x2 1
  concatenates_S512x2_S512x2_S512x4_d1 : Shape.Concatenates [S512x2, S512x2] S512x4 1
  reduces_S512x8_S8 : S512x8.Reduces [0] S8
  transposes_S2x8192_p1_0_S8192x2 : S2x8192.Transposes [1, 0] S8192x2
  dot_S256x8192_S8192x4_S256x4_1_0_0_1_n_n_wf : DotDims.WF S256x8192 S8192x4 S256x4 [1] [0] [0] [1] [] []
  dot_S256x4_S256x8192_S4x8192_0_0_1_1_n_n_wf : DotDims.WF S256x4 S256x8192 S4x8192 [0] [0] [1] [1] [] []
  dot_S512x8192_S8192x4_S512x4_1_0_0_1_n_n_wf : DotDims.WF S512x8192 S8192x4 S512x4 [1] [0] [0] [1] [] []
  dot_S512x4_S512x8192_S4x8192_0_0_1_1_n_n_wf : DotDims.WF S512x4 S512x8192 S4x8192 [0] [0] [1] [1] [] []
  hrank0 : 0 < grid0.rank
  k0_off1_inb : ∀ i : grid0.Coords, ∀ a, (k0_off1 i) a + S256x8.size a ≤ S4096x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .i32 = 32 ∨ (Rect.block (s := S4096x8192) S256x8192.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8.size a ≤ S2x8.size a
  hwx0_1 : ∀ i : grid0.Coords, EltTy.bits .f32 = 32 ∨ (Rect.block (s := S2x8) S2x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2.size a ≤ S8x2.size a
  hwx0_2 : ∀ i : grid0.Coords, EltTy.bits .f32 = 32 ∨ (Rect.block (s := S8x2) S8x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S8x2.size a
  hwx0_3 : ∀ i : grid0.Coords, EltTy.bits .f32 = 32 ∨ (Rect.block (s := S8x2) S8x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x8.size a ≤ S4096x8.size a
  hwx0_4 : ∀ i : grid0.Coords, EltTy.bits .f32 = 32 ∨ (Rect.block (s := S4096x8) S4096x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x2.size a ≤ S8192x2.size a
  hwx0_5 : ∀ i : grid0.Coords, EltTy.bits .f32 = 32 ∨ (Rect.block (s := S8192x2) S8192x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8192.size a ≤ S4096x8192.size a
  hwx0_6 : ∀ i : grid0.Coords, EltTy.bits .bf16 = 32 ∨ (Rect.block (s := S4096x8192) S256x8192.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x8.size a ≤ S4096x8.size a
  hwx0_7 : ∀ i : grid0.Coords, EltTy.bits .f32 = 32 ∨ (Rect.block (s := S4096x8) S4096x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x8192.size a ≤ S2x8192.size a
  hwx0_8 : ∀ i : grid0.Coords, EltTy.bits .f32 = 32 ∨ (Rect.block (s := S2x8192) S2x8192.size (cc0_transform_8 i) (hinb0_8 i)).WholeWords (EltTy.packing .f32)
  hrank1 : 0 < grid1.rank
  k1_off1_inb : ∀ i : grid1.Coords, ∀ a, (k1_off1 i) a + S512x8.size a ≤ S4096x8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S4096x8192.size a
  hwx1_0 : ∀ i : grid1.Coords, EltTy.bits .bf16 = 32 ∨ (Rect.block (s := S4096x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8.size a ≤ S2x8.size a
  hwx1_1 : ∀ i : grid1.Coords, EltTy.bits .f32 = 32 ∨ (Rect.block (s := S2x8) S2x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2.size a ≤ S8x2.size a
  hwx1_2 : ∀ i : grid1.Coords, EltTy.bits .f32 = 32 ∨ (Rect.block (s := S8x2) S8x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x2.size a ≤ S8x2.size a
  hwx1_3 : ∀ i : grid1.Coords, EltTy.bits .f32 = 32 ∨ (Rect.block (s := S8x2) S8x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x8.size a ≤ S4096x8.size a
  hwx1_4 : ∀ i : grid1.Coords, EltTy.bits .f32 = 32 ∨ (Rect.block (s := S4096x8) S4096x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x8192.size a ≤ S2x8192.size a
  hwx1_5 : ∀ i : grid1.Coords, EltTy.bits .f32 = 32 ∨ (Rect.block (s := S2x8192) S2x8192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x8.size a ≤ S4096x8.size a
  hwx1_6 : ∀ i : grid1.Coords, EltTy.bits .f32 = 32 ∨ (Rect.block (s := S4096x8) S4096x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8192x2.size a ≤ S8192x2.size a
  hwx1_7 : ∀ i : grid1.Coords, EltTy.bits .f32 = 32 ∨ (Rect.block (s := S8192x2) S8192x2.size (cc1_transform_7 i) (hinb1_7 i)).WholeWords (EltTy.packing .f32)

variable [Facts₀]

def dot_S256x8192_S8192x4_S256x4_1_0_0_1_n_n : DotDims S256x8192 S8192x4 S256x4 where
  lhsContracting := [1]
  rhsContracting := [0]
  lhsNonContracting := [0]
  rhsNonContracting := [1]
  lhsBatch := []
  rhsBatch := []
  wf := dot_S256x8192_S8192x4_S256x4_1_0_0_1_n_n_wf
def dot_S256x4_S256x8192_S4x8192_0_0_1_1_n_n : DotDims S256x4 S256x8192 S4x8192 where
  lhsContracting := [0]
  rhsContracting := [0]
  lhsNonContracting := [1]
  rhsNonContracting := [1]
  lhsBatch := []
  rhsBatch := []
  wf := dot_S256x4_S256x8192_S4x8192_0_0_1_1_n_n_wf
def dot_S512x8192_S8192x4_S512x4_1_0_0_1_n_n : DotDims S512x8192 S8192x4 S512x4 where
  lhsContracting := [1]
  rhsContracting := [0]
  lhsNonContracting := [0]
  rhsNonContracting := [1]
  lhsBatch := []
  rhsBatch := []
  wf := dot_S512x8192_S8192x4_S512x4_1_0_0_1_n_n_wf
def dot_S512x4_S512x8192_S4x8192_0_0_1_1_n_n : DotDims S512x4 S512x8192 S4x8192 where
  lhsContracting := [0]
  rhsContracting := [0]
  lhsNonContracting := [1]
  rhsNonContracting := [1]
  lhsBatch := []
  rhsBatch := []
  wf := dot_S512x4_S512x8192_S4x8192_0_0_1_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S8x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S8x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4096x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8192x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8_0) S256x8192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8_1) S4096x8.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8_2) S2x8192.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_call0_v8_0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S2x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S8x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S8x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8_1) S4096x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8_2) S2x8192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0_0) S4096x8.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0_1) S8192x2.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond4 i == 1#1) | 7 => fun i => !(k1_cond4 i == 1#1) | ⟨_ + 8, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2x8x2 : Shape := ⟨3, ![2, 8, 2]⟩
abbrev S2x1x8 : Shape := ⟨3, ![2, 1, 8]⟩
abbrev S4096x8 : Shape := ⟨2, ![4096, 8]⟩
abbrev S8192x2 : Shape := ⟨2, ![8192, 2]⟩
abbrev S_ : Shape := ⟨0, ![]⟩
abbrev S8192x1 : Shape := ⟨2, ![8192, 1]⟩
abbrev S1x1x8 : Shape := ⟨3, ![1, 1, 8]⟩
abbrev S8 : Shape := ⟨1, ![8]⟩
abbrev S1x8 : Shape := ⟨2, ![1, 8]⟩
abbrev S8192x8 : Shape := ⟨2, ![8192, 8]⟩
abbrev S1x8x2 : Shape := ⟨3, ![1, 8, 2]⟩
abbrev S8x2 : Shape := ⟨2, ![8, 2]⟩
abbrev S4096x2 : Shape := ⟨2, ![4096, 2]⟩
abbrev S8192x4096 : Shape := ⟨2, ![8192, 4096]⟩

abbrev nBuf : Space → Nat
  | .hbm => 159
  | .vmem => 0
  | .smem => 0
  | _ => 0

abbrev hbmTy0_0 (i : Nat) : BufTy := match i % 128 with
  | 0 => ⟨S4096x8192, .i32⟩
  | 1 => ⟨S2x8x2, .f32⟩
  | 2 => ⟨S2x1x8, .f32⟩
  | 3 => ⟨S4096x8, .f32⟩
  | 4 => ⟨S8192x2, .f32⟩
  | 5 => ⟨S4096x8192, .f32⟩
  | 6 => ⟨S_, .f32⟩
  | 7 => ⟨S4096x8192, .f32⟩
  | 8 => ⟨S4096x8192, .f32⟩
  | 9 => ⟨S8192x1, .f32⟩
  | 10 => ⟨S1x1x8, .f32⟩
  | 11 => ⟨S8, .f32⟩
  | 12 => ⟨S1x8, .f32⟩
  | 13 => ⟨S8192x8, .f32⟩
  | 14 => ⟨S8192x8, .f32⟩
  | 15 => ⟨S8192x8, .f32⟩
  | 16 => ⟨S4096x8, .f32⟩
  | 17 => ⟨S4096x8, .f32⟩
  | 18 => ⟨S8192x1, .f32⟩
  | 19 => ⟨S1x1x8, .f32⟩
  | 20 => ⟨S8, .f32⟩
  | 21 => ⟨S1x8, .f32⟩
  | 22 => ⟨S8192x8, .f32⟩
  | 23 => ⟨S8192x8, .f32⟩
  | 24 => ⟨S8192x8, .f32⟩
  | 25 => ⟨S4096x8, .f32⟩
  | 26 => ⟨S4096x8, .f32⟩
  | 27 => ⟨S1x8x2, .f32⟩
  | 28 => ⟨S8x2, .f32⟩
  | 29 => ⟨S4096x2, .f32⟩
  | 30 => ⟨S8192x4096, .f32⟩
  | 31 => ⟨S8192x2, .f32⟩
  | 32 => ⟨S8192x2, .f32⟩
  | 33 => ⟨S1x8x2, .f32⟩
  | 34 => ⟨S8x2, .f32⟩
  | 35 => ⟨S4096x2, .f32⟩
  | 36 => ⟨S8192x4096, .f32⟩
  | 37 => ⟨S8192x2, .f32⟩
  | 38 => ⟨S8192x2, .f32⟩
  | 39 => ⟨S8192x1, .f32⟩
  | 40 => ⟨S1x1x8, .f32⟩
  | 41 => ⟨S8, .f32⟩
  | 42 => ⟨S1x8, .f32⟩
  | 43 => ⟨S8192x8, .f32⟩
  | 44 => ⟨S8192x8, .f32⟩
  | 45 => ⟨S8192x8, .f32⟩
  | 46 => ⟨S4096x8, .f32⟩
  | 47 => ⟨S4096x8, .f32⟩
  | 48 => ⟨S8192x1, .f32⟩
  | 49 => ⟨S1x1x8, .f32⟩
  | 50 => ⟨S8, .f32⟩
  | 51 => ⟨S1x8, .f32⟩
  | 52 => ⟨S8192x8, .f32⟩
  | 53 => ⟨S8192x8, .f32⟩
  | 54 => ⟨S8192x8, .f32⟩
  | 55 => ⟨S4096x8, .f32⟩
  | 56 => ⟨S4096x8, .f32⟩
  | 57 => ⟨S1x8x2, .f32⟩
  | 58 => ⟨S8x2, .f32⟩
  | 59 => ⟨S4096x2, .f32⟩
  | 60 => ⟨S8192x4096, .f32⟩
  | 61 => ⟨S8192x2, .f32⟩
  | 62 => ⟨S8192x2, .f32⟩
  | 63 => ⟨S1x8x2, .f32⟩
  | 64 => ⟨S8x2, .f32⟩
  | 65 => ⟨S4096x2, .f32⟩
  | 66 => ⟨S8192x4096, .f32⟩
  | 67 => ⟨S8192x2, .f32⟩
  | 68 => ⟨S8192x2, .f32⟩
  | 69 => ⟨S8192x1, .f32⟩
  | 70 => ⟨S1x1x8, .f32⟩
  | 71 => ⟨S8, .f32⟩
  | 72 => ⟨S1x8, .f32⟩
  | 73 => ⟨S8192x8, .f32⟩
  | 74 => ⟨S8192x8, .f32⟩
  | 75 => ⟨S8192x8, .f32⟩
  | 76 => ⟨S4096x8, .f32⟩
  | 77 => ⟨S4096x8, .f32⟩
  | 78 => ⟨S8192x1, .f32⟩
  | 79 => ⟨S1x1x8, .f32⟩
  | 80 => ⟨S8, .f32⟩
  | 81 => ⟨S1x8, .f32⟩
  | 82 => ⟨S8192x8, .f32⟩
  | 83 => ⟨S8192x8, .f32⟩
  | 84 => ⟨S8192x8, .f32⟩
  | 85 => ⟨S4096x8, .f32⟩
  | 86 => ⟨S4096x8, .f32⟩
  | 87 => ⟨S1x8x2, .f32⟩
  | 88 => ⟨S8x2, .f32⟩
  | 89 => ⟨S4096x2, .f32⟩
  | 90 => ⟨S8192x4096, .f32⟩
  | 91 => ⟨S8192x2, .f32⟩
  | 92 => ⟨S8192x2, .f32⟩
  | 93 => ⟨S1x8x2, .f32⟩
  | 94 => ⟨S8x2, .f32⟩
  | 95 => ⟨S4096x2, .f32⟩
  | 96 => ⟨S8192x4096, .f32⟩
  | 97 => ⟨S8192x2, .f32⟩
  | 98 => ⟨S8192x2, .f32⟩
  | 99 => ⟨S8192x1, .f32⟩
  | 100 => ⟨S1x1x8, .f32⟩
  | 101 => ⟨S8, .f32⟩
  | 102 => ⟨S1x8, .f32⟩
  | 103 => ⟨S8192x8, .f32⟩
  | 104 => ⟨S8192x8, .f32⟩
  | 105 => ⟨S8192x8, .f32⟩
  | 106 => ⟨S4096x8, .f32⟩
  | 107 => ⟨S4096x8, .f32⟩
  | 108 => ⟨S8192x1, .f32⟩
  | 109 => ⟨S1x1x8, .f32⟩
  | 110 => ⟨S8, .f32⟩
  | 111 => ⟨S1x8, .f32⟩
  | 112 => ⟨S8192x8, .f32⟩
  | 113 => ⟨S8192x8, .f32⟩
  | 114 => ⟨S8192x8, .f32⟩
  | 115 => ⟨S4096x8, .f32⟩
  | 116 => ⟨S4096x8, .f32⟩
  | 117 => ⟨S1x8x2, .f32⟩
  | 118 => ⟨S8x2, .f32⟩
  | 119 => ⟨S4096x2, .f32⟩
  | 120 => ⟨S8192x4096, .f32⟩
  | 121 => ⟨S8192x2, .f32⟩
  | 122 => ⟨S8192x2, .f32⟩
  | 123 => ⟨S1x8x2, .f32⟩
  | 124 => ⟨S8x2, .f32⟩
  | 125 => ⟨S4096x2, .f32⟩
  | 126 => ⟨S8192x4096, .f32⟩
  | 127 => ⟨S8192x2, .f32⟩
  | _ => ⟨S4096x8192, .i32⟩

abbrev hbmTy0_1 (i : Nat) : BufTy := match i % 128 with
  | 0 => ⟨S8192x2, .f32⟩
  | 1 => ⟨S8192x1, .f32⟩
  | 2 => ⟨S1x1x8, .f32⟩
  | 3 => ⟨S8, .f32⟩
  | 4 => ⟨S1x8, .f32⟩
  | 5 => ⟨S8192x8, .f32⟩
  | 6 => ⟨S8192x8, .f32⟩
  | 7 => ⟨S8192x8, .f32⟩
  | 8 => ⟨S4096x8, .f32⟩
  | 9 => ⟨S4096x8, .f32⟩
  | 10 => ⟨S8192x1, .f32⟩
  | 11 => ⟨S1x1x8, .f32⟩
  | 12 => ⟨S8, .f32⟩
  | 13 => ⟨S1x8, .f32⟩
  | 14 => ⟨S8192x8, .f32⟩
  | 15 => ⟨S8192x8, .f32⟩
  | 16 => ⟨S8192x8, .f32⟩
  | 17 => ⟨S4096x8, .f32⟩
  | 18 => ⟨S4096x8, .f32⟩
  | 19 => ⟨S1x8x2, .f32⟩
  | 20 => ⟨S8x2, .f32⟩
  | 21 => ⟨S4096x2, .f32⟩
  | 22 => ⟨S8192x4096, .f32⟩
  | 23 => ⟨S8192x2, .f32⟩
  | 24 => ⟨S8192x2, .f32⟩
  | 25 => ⟨S1x8x2, .f32⟩
  | 26 => ⟨S8x2, .f32⟩
  | 27 => ⟨S4096x2, .f32⟩
  | 28 => ⟨S8192x4096, .f32⟩
  | 29 => ⟨S8192x2, .f32⟩
  | 30 => ⟨S8192x2, .f32⟩
  | _ => ⟨S4096x8192, .i32⟩

abbrev hbmTy (i : Nat) : BufTy := match i / 128 with
  | 0 => hbmTy0_0 i
  | 1 => hbmTy0_1 i
  | _ => ⟨S4096x8192, .i32⟩

abbrev bufTy : (tb : Table) → Fin (tcTables nBuf tb) → BufTy
  | .hbm, ⟨i, _⟩ => hbmTy i
  | _, _ => ⟨S4096x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  slices_S8192x2_S8192x1_0_0 : S8192x2.Slices ![0, 0] S8192x1
  slices_S2x1x8_S1x1x8_0_0_0 : S2x1x8.Slices ![0, 0, 0] S1x1x8
  shapeCasts_S1x1x8_S8 : S1x1x8.ShapeCasts S8
  bcast_S8_S1x8_1 : S8.BroadcastsInDim S1x8 (![1] : Fin 1 → Fin S1x8.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  slices_S8192x2_S8192x1_0_1 : S8192x2.Slices ![0, 1] S8192x1
  slices_S2x1x8_S1x1x8_1_0_0 : S2x1x8.Slices ![1, 0, 0] S1x1x8
  slices_S2x8x2_S1x8x2_0_0_0 : S2x8x2.Slices ![0, 0, 0] S1x8x2
  shapeCasts_S1x8x2_S8x2 : S1x8x2.ShapeCasts S8x2
  transposes_S4096x8192_S8192x4096_1_0 : S4096x8192.Transposes [1, 0] S8192x4096
  slices_S2x8x2_S1x8x2_1_0_0 : S2x8x2.Slices ![1, 0, 0] S1x8x2
  dot_S4096x8192_S8192x8_S4096x8_1_0_0_1_n_n_wf : DotDims.WF S4096x8192 S8192x8 S4096x8 [1] [0] [0] [1] [] []
  dot_S4096x8_S8x2_S4096x2_1_0_0_1_n_n_wf : DotDims.WF S4096x8 S8x2 S4096x2 [1] [0] [0] [1] [] []
  dot_S8192x4096_S4096x2_S8192x2_1_0_0_1_n_n_wf : DotDims.WF S8192x4096 S4096x2 S8192x2 [1] [0] [0] [1] [] []

variable [Facts₀]

def dot_S4096x8192_S8192x8_S4096x8_1_0_0_1_n_n : DotDims S4096x8192 S8192x8 S4096x8 where
  lhsContracting := [1]
  rhsContracting := [0]
  lhsNonContracting := [0]
  rhsNonContracting := [1]
  lhsBatch := []
  rhsBatch := []
  wf := dot_S4096x8192_S8192x8_S4096x8_1_0_0_1_n_n_wf
def dot_S4096x8_S8x2_S4096x2_1_0_0_1_n_n : DotDims S4096x8 S8x2 S4096x2 where
  lhsContracting := [1]
  rhsContracting := [0]
  lhsNonContracting := [0]
  rhsNonContracting := [1]
  lhsBatch := []
  rhsBatch := []
  wf := dot_S4096x8_S8x2_S4096x2_1_0_0_1_n_n_wf
def dot_S8192x4096_S4096x2_S8192x2_1_0_0_1_n_n : DotDims S8192x4096 S4096x2 S8192x2 where
  lhsContracting := [1]
  rhsContracting := [0]
  lhsNonContracting := [0]
  rhsNonContracting := [1]
  lhsBatch := []
  rhsBatch := []
  wf := dot_S8192x4096_S4096x2_S8192x2_1_0_0_1_n_n_wf

class Facts : Prop extends Facts₀ where

variable [Facts]
-- ==== Proof.RefFrame.lean ====
/-
  The reference program is host operations only: its frame (it runs to the end, faults nowhere and leaves its
  argument arrays as launched) is its run with the results forgotten.  The idealized kernel differs from the
  printed one by five removed bf16 round trips (a value rounded to bf16 and widened back to f32), each of which
  is the identity on the extended reals.
-/
import proofs.«170901_g57982058496645_cont_sun_m_527_4_alg».proof.Defs
import proofs.«170901_g57982058496645_cont_sun_m_527_4_alg».proof.Proof.Gen.ReferenceIdeal
import proofs.«170901_g57982058496645_cont_sun_m_527_4_alg».proof.Proof.Gen.ReferenceIdeal.Run
import proofs.«170901_g57982058496645_cont_sun_m_527_4_alg».proof.Proof.Gen.Pre_finite_inputs

noncomputable section

namespace Cert.Proof.Ref

open Idealize.ShloMosaic Idealize.SL.Sem

attribute [local instance] Cert.ReferenceIdeal.Gen.facts Cert.Pre_finite_inputs.Gen.facts

/-- Every weakly fair execution of the reference terminates without a fault with its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- Rounding to bf16 and widening back is the identity at the ideal instance, at each of the five sites. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

end Cert.Proof.Ref

end
-- ==== Proof.B0.Conds.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's two branch conditions

  The body of the first region runs at 16 grid points, one per block of 256 rows of the label matrix.  It
  initialises the carried state under the first condition (the point is the first) and finishes the step under
  the second (the point is the last).  -/

/-- The point is the first of the grid: the scalar chain the body computes from the grid coordinate. -/
abbrev cond0_0 (i : grid0.Coords) : Prop :=
  (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-- The point is the last of the grid. -/
abbrev cond0_1 (i : grid0.Coords) : Prop := k0_cond2 i = 1#1
/-- It holds exactly at point 15. -/
theorem hcond0_1 : ∀ t : Fin cfg0.N, cond0_1 (grid0.coords t) ↔ t.val = 15 :=
  (by decide +kernel : ∀ t : Fin grid0.N, cond0_1 (grid0.coords t) ↔ t.val = 15)

end Cert.Kernel.Hand

end
-- ==== Proof.B0.RunA.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.Conds
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at the first point

  The first branch is taken: the carried state is initialised from the arguments (the task state transposed
  and its hi/lo copy, the worker array copied whole into its output buffer, both accumulators zeroed), all by
  stores that cover their buffers, so nothing is assumed of what the output and scratch buffers held.  Then
  the point's own work as at every point.  The lists are what the stores leave, last first.  -/

set_option maxHeartbeats 4000000 in
noncomputable def run0_A (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) :
    Σ' (L6 : List (View.Piece (Elt F) S256x8192 .bf16)) (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S2x8192 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xi8
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LA) ∗ owns (c : Thread nD τ) arg9 fullShare xi8
                ∗ (∃ f, arg10.view.loc (c : Thread nD τ) ↦[arg10.view.set]{fullShare} arg10.view.writes (Elt F) f LV) ∗ (∃ f, arg11.view.loc (c : Thread nD τ) ↦[arg11.view.set]{fullShare} arg11.view.writes (Elt F) f LC) ∗ (∃ f, arg12.view.loc (c : Thread nD τ) ↦[arg12.view.set]{fullShare} arg12.view.writes (Elt F) f LT) ∗ (∃ f, arg13.view.loc (c : Thread nD τ) ↦[arg13.view.set]{fullShare} arg13.view.writes (Elt F) f LR)) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi8 E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%da, %fa, -, HA⟩, ⟨%f8, %hf8, H8⟩, ⟨%dv, %fv, -, HV⟩, ⟨%dc, %fc, -, HC⟩, ⟨%dt, %ft, -, HT⟩, ⟨%dr, %fr, -, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexists _; iexact HA
    isplitl [H8]
    · iexists _; isplitr; · ipureintro; exact harg9.read_unread _
      iexact H8
    isplitl [HV]; · iexists _; iexact HV
    isplitl [HC]; · iexists _; iexact HC
    isplitl [HT]; · iexists _; iexact HT
    iexists _; iexact HR

end Cert.Kernel.Hand

end
-- ==== Proof.B0.RunB.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.Conds
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at a middle point

  Neither branch is taken.  The body reads the point's 256 rows of labels, stores them converted; reads the
  carried state (the wide task state, its hi/lo copy, the two accumulators) and the point's 256 rows of the
  worker array, and stores the updated rows and the two updated accumulators.  Everything else is handed back
  as found.  The lists are what the stores leave, last first, found by running the body.  -/

set_option maxHeartbeats 4000000 in
noncomputable def run0_B (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : ¬cond0_0 i) (hc1 : ¬cond0_1 i)
    (x0 : Vec F S256x8192 .i32) (x1 : Vec F S2x8 .f32) (x2 : Vec F S8x2 .f32) (x3 : Vec F S8x2 .f32) (x4 : Vec F S4096x8 .f32) (x5 : Vec F S8192x2 .f32)
    (xa : Vec F S4096x8 .f32) (xv : Vec F S4x8192 .f32) (xc : Vec F S1x8 .f32) (xt : Vec F S2x8192 .f32) (xr : Vec F S8192x4 .bf16) :
    Σ' (L6 : List (View.Piece (Elt F) S256x8192 .bf16)) (LA : List (View.Piece (Elt F) S4096x8 .f32)) (LV : List (View.Piece (Elt F) S4x8192 .f32)),
      { LC : List (View.Piece (Elt F) S1x8 .f32) //
      ∀ (xi8 : Vec F S2x8192 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xa ∗ owns (c : Thread nD τ) arg9 fullShare xi8
            ∗ owns (c : Thread nD τ) arg10 fullShare xv ∗ owns (c : Thread nD τ) arg11 fullShare xc ∗ owns (c : Thread nD τ) arg12 fullShare xt ∗ owns (c : Thread nD τ) arg13 fullShare xr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (arg8.view.loc (c : Thread nD τ) ↦[arg8.view.set]{fullShare} arg8.view.writes (Elt F) (harg8.unread xa) LA) ∗ owns (c : Thread nD τ) arg9 fullShare xi8
                ∗ (arg10.view.loc (c : Thread nD τ) ↦[arg10.view.set]{fullShare} arg10.view.writes (Elt F) (harg10.unread xv) LV) ∗ (arg11.view.loc (c : Thread nD τ) ↦[arg11.view.set]{fullShare} arg11.view.writes (Elt F) (harg11.unread xc) LC)
                ∗ owns (c : Thread nD τ) arg12 fullShare xt ∗ owns (c : Thread nD τ) arg13 fullShare xr) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi8 E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%f8, %hf8, H8⟩, ⟨%fv, %hfv, HV⟩, ⟨%fc, %hfc, HC⟩, ⟨%ft, %hft, HT⟩, ⟨%fr, %hfr, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfa; obtain rfl := harg9.eq_unread hf8
    obtain rfl := harg10.eq_unread hfv; obtain rfl := harg11.eq_unread hfc; obtain rfl := harg12.eq_unread hft; obtain rfl := harg13.eq_unread hfr
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexact HA
    isplitl [H8]
    · iexists _; isplitr; · ipureintro; exact harg9.read_unread _
      iexact H8
    isplitl [HV]; · iexact HV
    isplitl [HC]; · iexact HC
    isplitl [HT]
    · iexists _; isplitr; · ipureintro; exact harg12.read_unread _
      iexact HT
    iexists _; isplitr; · ipureintro; exact harg13.read_unread _
    iexact HR

end Cert.Kernel.Hand

end
-- ==== Proof.B0.RunC.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.Conds
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at the last point

  The second branch is taken: after the point's own work the step is finished — the column sums of the
  updated worker array times the label-0 weights, plus the folded accumulator rows, are added to the wide task
  state, which is then stored whole into its output buffer.  The lists are what the stores leave, last first.  -/

set_option maxHeartbeats 4000000 in
noncomputable def run0_C (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32)
    (xa : Vec F S4096x8 .f32) (xv : Vec F S4x8192 .f32) (xc : Vec F S1x8 .f32) (xt : Vec F S2x8192 .f32) (xr : Vec F S8192x4 .bf16) :
    Σ' (L6 : List (View.Piece (Elt F) S256x8192 .bf16)) (LA : List (View.Piece (Elt F) S4096x8 .f32)) (L8 : List (View.Piece (Elt F) S2x8192 .f32)) (LV : List (View.Piece (Elt F) S4x8192 .f32)) (LC : List (View.Piece (Elt F) S1x8 .f32)),
      { LT : List (View.Piece (Elt F) S2x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xa ∗ (∃ d, owns (c : Thread nD τ) arg9 fullShare d)
            ∗ owns (c : Thread nD τ) arg10 fullShare xv ∗ owns (c : Thread nD τ) arg11 fullShare xc ∗ owns (c : Thread nD τ) arg12 fullShare xt ∗ owns (c : Thread nD τ) arg13 fullShare xr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xa) LA) ∗ (∃ f, arg9.view.loc (c : Thread nD τ) ↦[arg9.view.set]{fullShare} arg9.view.writes (Elt F) f L8)
                ∗ (arg10.view.loc (c : Thread nD τ) ↦[arg10.view.set]{fullShare} arg10.view.writes (Elt F) (harg10.unread xv) LV) ∗ (arg11.view.loc (c : Thread nD τ) ↦[arg11.view.set]{fullShare} arg11.view.writes (Elt F) (harg11.unread xc) LC) ∗ (arg12.view.loc (c : Thread nD τ) ↦[arg12.view.set]{fullShare} arg12.view.writes (Elt F) (harg12.unread xt) LT) ∗ owns (c : Thread nD τ) arg13 fullShare xr) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%d8, %f8, -, H8⟩, ⟨%fv, %hfv, HV⟩, ⟨%fc, %hfc, HC⟩, ⟨%ft, %hft, HT⟩, ⟨%fr, %hfr, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfa
    obtain rfl := harg10.eq_unread hfv; obtain rfl := harg11.eq_unread hfc; obtain rfl := harg12.eq_unread hft; obtain rfl := harg13.eq_unread hfr
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexact HA
    isplitl [H8]; · iexists _; iexact H8
    isplitl [HV]; · iexact HV
    isplitl [HC]; · iexact HC
    isplitl [HT]; · iexact HT
    iexists _; isplitr; · ipureintro; exact harg13.read_unread _
    iexact HR

end Cert.Kernel.Hand

end
-- ==== Proof.LibWritesCongr.lean ====
/-
  Reading back what unmasked stores through rectangles of a shape leave.

  (1) What a list of stores leaves, read back through the view, depends on the prior contents only through what
  they read as.  (2) One more store, read back, is the store's payload laid over what the earlier stores left.
  (3) A store through the whole shape, last, leaves its payload; a load through a rectangle of what one whole
  store left reads the payload at the rectangle; a load through the whole shape reads the contents.
-/
import Idealize.ShloMosaic.Lib.Writes
import Idealize.ShloMosaic.Lib.Memref
import Idealize.ShloMosaic.Lib.Pipeline.FrameBody
import Idealize.ShloMosaic.Lib.Pipeline.Value

namespace Cert.Lib

open Idealize.ShloMosaic Idealize.ShloMosaic.View

variable {sig sig' : RefSig} {κ κ' : Kind} {sp sp' : Space} {s : Shape} {e : EltTy} {Val : EltTy → Type}

/-- After the same stores, two views whose prior contents read alike still read alike: an index under the last
    store reads its payload on both sides, any other index reads what the earlier stores left. -/
theorem read_writes_congr (v : View sig κ sp s e) (f : v.ty.Contents Val) (v' : View sig' κ' sp' s e) (f' : v'.ty.Contents Val)
    (h : v.read Val f = v'.read Val f') :
    ∀ L : List (Piece Val s e), v.read Val (v.writes Val f L) = v'.read Val (v'.writes Val f' L)
  | [] => h
  | ⟨r, w⟩ :: L => funext fun y => by
      by_cases hy : y ∈ r.set
      · obtain ⟨x, rfl⟩ : ∃ x, r.emb x = y := r.exists_idx_of_mem hy
        rw [read_writes_cons_emb, read_writes_cons_emb]
      · have hy' : y ∉ Finset.univ.map r.emb := by rwa [Rect.map_emb_univ]
        rw [writes_cons, writes_cons, read_slice_write_of_not_mem r _ _ _ hy', read_slice_write_of_not_mem r _ _ _ hy']
        exact congrFun (read_writes_congr v f v' f' h L) y

/-- One more store, read back: its payload laid over what the earlier stores left. -/
theorem read_writes_cons_overlay (v : View sig κ sp s e) (f : v.ty.Contents Val) (r : Rect s) (w : r.shape.Idx → Val e)
    (L : List (Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [read_writes_cons_emb, Rect.overlay_emb]
  · have hy' : y ∉ Finset.univ.map r.emb := by rwa [Rect.map_emb_univ]
    rw [writes_cons, read_slice_write_of_not_mem r _ _ _ hy', Rect.overlay_of_not_mem _ _ _ hy]

variable {sz : Fin 2 → ℕ}

/-- Laying a payload over anything through the whole shape (zero offsets, however spelt) leaves the payload. -/
theorem overlay_unit_zero {α : Type} {S : Shape} {off : Fin S.rank → Nat} (h : off = fun _ => 0)
    (inb : ∀ a, off a + S.size a ≤ S.size a) (X w : S.Idx → α) : (Rect.unit off S.size inb).overlay X w = w := by
  subst h; funext y
  have e := Rect.overlay_emb (Rect.whole S) X w y
  rw [Rect.emb_whole_apply] at e
  exact e

theorem overlay_whole2 {α : Type} (inb : ∀ a, (![0, 0] : Fin 2 → ℕ) a + sz a ≤ sz a) (X : (⟨2, sz⟩ : Shape).Idx → α)
    (w : (⟨2, sz⟩ : Shape).Idx → α) : (Rect.unit (s := ⟨2, sz⟩) ![0, 0] sz inb).overlay X w = w :=
  overlay_unit_zero (S := ⟨2, sz⟩) (by funext a; fin_cases a <;> rfl) inb X w

/-- A load through the whole shape reads the contents. -/
theorem ld_whole2 (inb : ∀ a, (![0, 0] : Fin 2 → ℕ) a + sz a ≤ sz a) (X : (⟨2, sz⟩ : Shape).Idx → Val e) :
    View.ld X (Rect.unit (s := ⟨2, sz⟩) ![0, 0] sz inb) = X :=
  View.ld_unit_zero (S := ⟨2, sz⟩) (by funext a; fin_cases a <;> rfl) inb X

/-- A load of what one whole store left (over anything) reads the payload through the load's rectangle. -/
theorem readCov_whole2 [∀ e, Nonempty (Val e)] (v : View sig κ sp ⟨2, sz⟩ e) (inb : ∀ a, (![0, 0] : Fin 2 → ℕ) a + sz a ≤ sz a)
    (w : (⟨2, sz⟩ : Shape).Idx → Val e) (B : Rect ⟨2, sz⟩) :
    v.readCov [(⟨Rect.unit (s := ⟨2, sz⟩) ![0, 0] sz inb, w⟩ : Piece Val ⟨2, sz⟩ e)] B.toLoadRect = View.ld w B := by
  have hz : (![0, 0] : Fin 2 → ℕ) = fun _ => 0 := by funext a; fin_cases a <;> rfl
  rw [View.readCov_eq_canon_ld _ _ _ (fun y => ⟨_, List.mem_singleton_self _, View.mem_set_unit_zero hz inb y⟩),
    View.canon_unit_zero hz]

end Cert.Lib
-- ==== Proof.B0.Outs.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.RunA
import proofs.«170901_g57982058496645_cont_sun_m_527_4_alg».proof.Proof.B0.RunB
import proofs.«170901_g57982058496645_cont_sun_m_527_4_alg».proof.Proof.B0.RunC
import proofs.«170901_g57982058496645_cont_sun_m_527_4_alg».proof.Proof.LibWritesCongr
import Idealize.ShloMosaic.Lib.Pipeline.Frame
import Idealize.ShloMosaic.Lib.Ring
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first region's buffers hold after each grid point

  The first region makes one pass over the label matrix in 16 blocks of 256 rows.  Between points it carries:
  the worker array's output buffer (whole array resident, the point's 256 rows rewritten), the two accumulators
  (the four hi/lo rows of the task-side products, and the column sums of the updated worker rows), the wide task
  state and its hi/lo column copy.  The state after a point is the point's case run on the state the point
  before left; the first point initialises everything from the arguments.  -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ### The memrefs the body is called with -/
abbrev ms0_0 (t : Fin cfg0.N) : Memref sig .tc .vmem S256x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x8192 .f32 := win0_8.stage (cfg0.slots t 8)
abbrev hs0_8 (t : Fin cfg0.N) : (ms0_8 t).IsWhole := hstage0_8 ((cfg0.slots t 8).cast nbuf0_8)
abbrev scM0_0 : Memref sig .tc .vmem S4x8192 .f32 := Memref.whole cc0_scratch0
abbrev hsc0_0 : scM0_0.IsWhole := Memref.isWhole_whole _
abbrev scM0_1 : Memref sig .tc .vmem S1x8 .f32 := Memref.whole cc0_scratch1
abbrev hsc0_1 : scM0_1.IsWhole := Memref.isWhole_whole _
abbrev scM0_2 : Memref sig .tc .vmem S2x8192 .f32 := Memref.whole cc0_scratch2
abbrev hsc0_2 : scM0_2.IsWhole := Memref.isWhole_whole _
abbrev scM0_3 : Memref sig .tc .vmem S8192x4 .bf16 := Memref.whole cc0_scratch3
abbrev hsc0_3 : scM0_3.IsWhole := Memref.isWhole_whole _
/-- One whole buffer of each output and scratch shape, through which contents are stated. -/
abbrev MO6 : Memref sig .tc .vmem S256x8192 .bf16 := Memref.whole cc0_stg6_0
abbrev MOA : Memref sig .tc .vmem S4096x8 .f32 := Memref.whole cc0_stg7_0
abbrev MO8 : Memref sig .tc .vmem S2x8192 .f32 := Memref.whole cc0_stg8_0
abbrev hMO6 : (MO6).IsWhole := Memref.isWhole_whole _
abbrev hMOA : (MOA).IsWhole := Memref.isWhole_whole _
abbrev hMO8 : (MO8).IsWhole := Memref.isWhole_whole _

/-- The carried state: the three output buffers and the four scratch buffers. -/
structure St0 (F : FTy → Type) [FloatOps F] where
  o6 : Vec F S256x8192 .bf16
  oA : Vec F S4096x8 .f32
  o8 : Vec F S2x8192 .f32
  sV : Vec F S4x8192 .f32
  sC : Vec F S1x8 .f32
  sT : Vec F S2x8192 .f32
  sR : Vec F S8192x4 .bf16

/-- After the first point: every buffer but the task output is covered by the point's stores. -/
def caseA (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) : St0 F where
  o6 := MO6.view.read (Elt F) (MO6.view.writes (Elt F) MO6.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1)
  oA := MOA.view.read (Elt F) (MOA.view.writes (Elt F) MOA.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)
  o8 := MO8.view.read (Elt F) MO8.view.junk
  sV := scM0_0.view.read (Elt F) (scM0_0.view.writes (Elt F) scM0_0.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)
  sC := scM0_1.view.read (Elt F) (scM0_1.view.writes (Elt F) scM0_1.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)
  sT := scM0_2.view.read (Elt F) (scM0_2.view.writes (Elt F) scM0_2.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)
  sR := scM0_3.view.read (Elt F) (scM0_3.view.writes (Elt F) scM0_3.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- After a middle point, over the state `p` the point before left. -/
def caseB (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) : St0 F where
  o6 := MO6.view.read (Elt F) (MO6.view.writes (Elt F) MO6.view.junk (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1)
  oA := MOA.view.read (Elt F) (MOA.view.writes (Elt F) (hMOA.unread p.oA) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.1)
  o8 := p.o8
  sV := scM0_0.view.read (Elt F) (scM0_0.view.writes (Elt F) (hsc0_0.unread p.sV) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1)
  sC := scM0_1.view.read (Elt F) (scM0_1.view.writes (Elt F) (hsc0_1.unread p.sC) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.1)
  sT := p.sT
  sR := p.sR

/-- After the last point, over the state `p` the point before left. -/
def caseC (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) : St0 F where
  o6 := MO6.view.read (Elt F) (MO6.view.writes (Elt F) MO6.view.junk (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1)
  oA := MOA.view.read (Elt F) (MOA.view.writes (Elt F) (hMOA.unread p.oA) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.1)
  o8 := MO8.view.read (Elt F) (MO8.view.writes (Elt F) MO8.view.junk (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1)
  sV := scM0_0.view.read (Elt F) (scM0_0.view.writes (Elt F) (hsc0_0.unread p.sV) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.1)
  sC := scM0_1.view.read (Elt F) (scM0_1.view.writes (Elt F) (hsc0_1.unread p.sC) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.2.1)
  sT := scM0_2.view.read (Elt F) (scM0_2.view.writes (Elt F) (hsc0_2.unread p.sT) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.2.2.1)
  sR := p.sR

/-! ### Covers: where a case's stores fill a buffer, what it held before does not matter -/

theorem coverA_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S256x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1 S256x8192.size (by sl_kernel_rfl) y
theorem coverA_A (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S4096x8.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 S4096x8.size (by sl_kernel_rfl) y
theorem coverA_V (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S4x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S4x8192.size (by sl_kernel_rfl) y
theorem coverA_C (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S1x8.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x8.size (by sl_kernel_rfl) y
theorem coverA_T (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S2x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S2x8192.size (by sl_kernel_rfl) y
theorem coverA_R (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S8192x4.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S8192x4.size (by sl_kernel_rfl) y
theorem coverB_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S256x8192.Idx) :
    ∃ pc ∈ (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1, y ∈ pc.1.set :=
  View.cover_of_tiledL (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1 S256x8192.size (by sl_kernel_rfl) y
theorem coverC_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S256x8192.Idx) :
    ∃ pc ∈ (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1, y ∈ pc.1.set :=
  View.cover_of_tiledL (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1 S256x8192.size (by sl_kernel_rfl) y
theorem coverC_8 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S2x8192.Idx) :
    ∃ pc ∈ (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1, y ∈ pc.1.set :=
  View.cover_of_tiledL (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1 S2x8192.size (by sl_kernel_rfl) y

/-! ### The recursion over the points -/

theorem N0_16 : cfg0.N = 16 := N_0

/-- The state after point `t` when it is the first, -/
def atA (c : Dev nD) (t : Fin cfg0.N) (h0 : t.val = 0) : St0 F :=
  caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 ((hcond0_0 t).mpr h0)
    (fun h => by have := (hcond0_1 t).mp h; omega) (iblk0 V c 0 t) (iblk0 V c 1 t) (iblk0 V c 2 t) (iblk0 V c 3 t) (iblk0 V c 4 t) (iblk0 V c 5 t)
/-- a middle one, -/
def atB (c : Dev nD) (t : Fin cfg0.N) (h0 : t.val ≠ 0) (h1 : t.val ≠ 15) (p : St0 F) : St0 F :=
  caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 (fun h => h0 ((hcond0_0 t).mp h))
    (fun h => h1 ((hcond0_1 t).mp h)) (iblk0 V c 0 t) (iblk0 V c 1 t) (iblk0 V c 2 t) (iblk0 V c 3 t) (iblk0 V c 4 t) (iblk0 V c 5 t) p
/-- or the last. -/
def atC (c : Dev nD) (t : Fin cfg0.N) (h0 : t.val ≠ 0) (h1 : t.val = 15) (p : St0 F) : St0 F :=
  caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 (fun h => h0 ((hcond0_0 t).mp h))
    ((hcond0_1 t).mpr h1) (iblk0 V c 0 t) (iblk0 V c 1 t) (iblk0 V c 2 t) (iblk0 V c 3 t) (iblk0 V c 4 t) (iblk0 V c 5 t) p

/-- What the buffers hold after the body at position `n`. -/
def outsAt0 (c : Dev nD) : (n : ℕ) → n < cfg0.N → St0 F
  | 0, hn => atA V c ⟨0, hn⟩ rfl
  | n + 1, hn =>
    if h1 : n + 1 = 15 then atC V c ⟨n + 1, hn⟩ (Nat.succ_ne_zero n) h1 (outsAt0 c n (Nat.lt_of_succ_lt hn))
    else atB V c ⟨n + 1, hn⟩ (Nat.succ_ne_zero n) h1 (outsAt0 c n (Nat.lt_of_succ_lt hn))

theorem outsAt0_A (c : Dev nD) (t : Fin cfg0.N) (h0 : t.val = 0) : outsAt0 V c t.val t.isLt = atA V c t h0 := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 15) :
    outsAt0 V c t.val t.isLt = atB V c t h0 h1 (outsAt0 V c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 15) :
    outsAt0 V c t.val t.isLt = atC V c t h0 h1 (outsAt0 V c (t.val - 1) (Nat.lt_of_le_of_lt (Nat.sub_le _ _) t.isLt)) := by
  obtain ⟨n, hn⟩ := t
  cases n with
  | zero => exact absurd rfl h0
  | succ n => exact (dif_pos h1).trans rfl

/-! ### The invariant between points -/

/-- The scoped buffers the first region does not use (the second region's staging and scratch buffers), each at
    some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f))

/-- Before the first point every scratch buffer holds anything; afterwards each holds what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).sV ∗ owns (c : Thread nD τ) scM0_1 fullShare (outsAt0 V c n hn).sC
      ∗ owns (c : Thread nD τ) scM0_2 fullShare (outsAt0 V c n hn).sT ∗ owns (c : Thread nD τ) scM0_3 fullShare (outsAt0 V c n hn).sR ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).sV ∗ owns (c : Thread nD τ) scM0_1 fullShare (outsAt0 V c n hn).sC
      ∗ owns (c : Thread nD τ) scM0_2 fullShare (outsAt0 V c n hn).sT ∗ owns (c : Thread nD τ) scM0_3 fullShare (outsAt0 V c n hn).sR ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).sV ∗ owns (c : Thread nD τ) scM0_1 fullShare (outsAt0 V c (n - 1) (by omega)).sC
      ∗ owns (c : Thread nD τ) scM0_2 fullShare (outsAt0 V c (n - 1) (by omega)).sT ∗ owns (c : Thread nD τ) scM0_3 fullShare (outsAt0 V c (n - 1) (by omega)).sR ∗ Rest0 c) ∗ (∃ r, prngReg c r)) := by
  cases n with
  | zero => exact absurd rfl hz
  | succ n => rfl

/-- The class invariant with the region's four scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d) ∗ Rest0 c) ∗ (∃ r, prngReg c r)) := by
  unfold Pipeline.ΦA Rest0; rw [scopedRest0_eq]; simp only [scM0_0, scM0_1, scM0_2, scM0_3, owns_whole]; try rfl

/-! ### The proof data -/

/-- The arrays as the region finds them; after the body at point `t` each input's buffer at its block, each
    output's at the carried state's component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).o6
    | ⟨7, _⟩ => (outsAt0 V c t.val t.isLt).oA
    | ⟨8, _⟩ => (outsAt0 V c t.val t.isLt).o8
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).oA := by dsimp only [dat0]
theorem after0_8 (c : Dev nD) (t : Fin cfg0.N) : (dat0 V c).after 8 t = (outsAt0 V c t.val t.isLt).o8 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- The worker array's output buffer is written back at the last point only, -/
theorem noFlush0_7 (t : Fin cfg0.N) (ht : t.val ≠ 15) : (cfg0.win 7).flush t = false := by
  cases h : (cfg0.win 7).flush t
  · rfl
  · exact absurd ((flush0_7 t).mp h) (by have := t.isLt; have hN : cfg0.N = 16 := N_0; omega)

/-- so after the first point it holds what the point before left in it. -/
theorem before0_7_pos (c : Dev nD) (t : Fin cfg0.N) (ht : t.val ≠ 0) (d) :
    (dat0 V c).before 7 t d = (outsAt0 V c (t.val - 1) (Nat.lt_of_le_of_lt (Nat.sub_le _ _) t.isLt)).oA :=
  ((dat0 V c).before_out_kept 7 rfl t ht (noFlush0_7 _ (by have := t.isLt; have hN : cfg0.N = 16 := N_0; dsimp only; omega)) (fun _ => rfl) (fun _ _ => rfl) d).trans
    (after0_7 V c _)

/-! ### Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

end Cert.Kernel.Hand

end
-- ==== Proof.B0.Body.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.Outs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body obligation

  At every grid point: from the invariant (the scratch buffers at what the point before left, at anything before
  the first point), nothing owed, and every window's staging buffer at what it then holds, the body runs to the
  invariant at the next point and every staging buffer at what the proof data says the body leaves.  By cases on
  the point (first, middle, last), each case its own run.  -/

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  have hN : t.val < 16 := lt_of_lt_of_eq t.isLt N0_16
  by_cases h0 : t.val = 0
  · -- the first point: everything is initialised by covering stores
    have hc0 : cond0_0 (grid0.coords t) := (hcond0_0 t).mpr h0
    have hc1 : ¬cond0_1 (grid0.coords t) := fun h => by have := (hcond0_1 t).mp h; omega
    rw [Dat.leavesExact_idle (dat0 V c) 8 t (idleAt0_8 t hc1) (noFlush0_8 t hc1)]
    rw [outsAt0_A V c t h0]
    unfold atA caseA; (try dsimp only)
    rw [PhiS_castSucc V c t, PhiS_zero V c _ _ h0, PhiA0_eq]
    iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, ⟨%e6, H6⟩, ⟨%eA, HA⟩, H8, ⟨%eV, HV⟩, ⟨%eC, HC⟩, ⟨%eT, HT⟩, ⟨%eR, HR⟩⟩
    isplitl [HV HC HT HR Hrest Hg]
    · isplitl [HV HC HT HR Hrest]
      · isplitl [HV]
        · unfold owns; iexists _; isplitr
          swap; · iexact HV
          ipureintro; exact View.read_writes_of_cover _ _ _ _ _ (coverA_V c _ _ _ _ _ _ _ _ _ _ _ _ _ _ _ _ _ _ _ _ _ _ _ _ _ _ _ _ _ _ _ _ _ _ _)
        isplitl [HC]
        · unfold owns; iexists _; isplitr
          swap; · iexact HC
          ipureintro; exact View.read_writes_of_cover _ _ _ _ _ (coverA_C c _ _ _ _ _ _ _ _ _ _ _ _ _ _ _ _ _ _ _ _ _ _ _ _ _ _ _ _ _ _ _ _ _ _ _)
        isplitl [HT]
        · unfold owns; iexists _; isplitr
          swap; · iexact HT
          ipureintro; exact View.read_writes_of_cover _ _ _ _ _ (coverA_T c _ _ _ _ _ _ _ _ _ _ _ _ _ _ _ _ _ _ _ _ _ _ _ _ _ _ _ _ _ _ _ _ _ _ _)
        isplitl [HR]
        · unfold owns; iexists _; isplitr
          swap; · iexact HR
          ipureintro; exact View.read_writes_of_cover _ _ _ _ _ (coverA_R c _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA_6 c _ _ _ _ _ _ _ _ _ _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverA_A c _ _ _ _ _ _ _ _ _ _ _ _ _ _ _ _ _ _ _ _ _ _ _ _ _ _ _ _ _ _ _ _ _ _ _)
    iexists _; iexact H8
  · by_cases h1 : t.val = 15
    · -- the last point: the step is finished and the task state stored into its output buffer
      have hc0 : ¬cond0_0 (grid0.coords t) := fun h => h0 ((hcond0_0 t).mp h)
      have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [outsAt0_C V c t h0 h1]
      unfold atC caseC; (try dsimp only)
      rw [PhiS_castSucc V c t, PhiS_pos V c _ _ h0]
      simp only [before0_7_pos V c t h0]
      iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, ⟨%e6, H6⟩, HA, ⟨%e8, H8⟩, HV, HC, HT, HR⟩
      isplitl [HV HC HT HR Hrest Hg]
      · isplitl [HV HC HT HR Hrest]
        · isplitl [HV]
          · unfold owns; iexists _; isplitr
            swap; · iexact HV
            ipureintro; rfl
          isplitl [HC]
          · unfold owns; iexists _; isplitr
            swap; · iexact HC
            ipureintro; rfl
          isplitl [HT]
          · unfold owns; iexists _; isplitr
            swap; · iexact HT
            ipureintro; rfl
          isplitl [HR]; · iexact HR
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_6 c _ _ _ _ _ _ _ _ _ _ _ _ _ _ _ _ _ _ _ _ _ _ _ _ _ _ _ _ _ _ _ _ _ _ _ _)
      isplitl [HA]
      · unfold owns; iexists _; isplitr
        swap; · iexact HA
        ipureintro; exact Cert.Lib.read_writes_congr _ _ _ _ ((Memref.IsWhole.read_unread _ _).trans (Memref.IsWhole.read_unread hMOA _).symm) _
      unfold owns; iexists _; isplitr
      swap; · iexact H8
      ipureintro; exact View.read_writes_of_cover _ _ _ _ _ (coverC_8 c _ _ _ _ _ _ _ _ _ _ _ _ _ _ _ _ _ _ _ _ _ _ _ _ _ _ _ _ _ _ _ _ _ _ _ _)
    · -- a middle point
      have hc0 : ¬cond0_0 (grid0.coords t) := fun h => h0 ((hcond0_0 t).mp h)
      have hc1 : ¬cond0_1 (grid0.coords t) := fun h => h1 ((hcond0_1 t).mp h)
      rw [Dat.leavesExact_idle (dat0 V c) 8 t (idleAt0_8 t hc1) (noFlush0_8 t hc1)]
      rw [outsAt0_B V c t h0 h1]
      unfold atB caseB; (try dsimp only)
      rw [PhiS_castSucc V c t, PhiS_pos V c _ _ h0]
      simp only [before0_7_pos V c t h0]
      iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, ⟨%e6, H6⟩, HA, H8, HV, HC, HT, HR⟩
      isplitl [HV HC HT HR Hrest Hg]
      · isplitl [HV HC HT HR Hrest]
        · isplitl [HV]
          · unfold owns; iexists _; isplitr
            swap; · iexact HV
            ipureintro; rfl
          isplitl [HC]
          · unfold owns; iexists _; isplitr
            swap; · iexact HC
            ipureintro; rfl
          isplitl [HT]; · iexact HT
          isplitl [HR]; · iexact HR
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _ _ _ _ _ _ _ _ _ _)
      isplitl [HA]
      · unfold owns; iexists _; isplitr
        swap; · iexact HA
        ipureintro; exact Cert.Lib.read_writes_congr _ _ _ _ ((Memref.IsWhole.read_unread _ _).trans (Memref.IsWhole.read_unread hMOA _).symm) _
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hrest⟩, Hg⟩
  isplitl [HS0 HS1 HS2 HS3 Hrest]
  · isplitl [HS0]; · iexists _; iexact HS0
    isplitl [HS1]; · iexists _; iexact HS1
    isplitl [HS2]; · iexists _; iexact HS2
    isplitl [HS3]; · iexists _; iexact HS3
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.B1.Conds.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's four branch conditions

  The body of the second region runs at 32 grid points: point `t = 8 s + i` is block `i` (512 rows of the
  label matrix) of message-passing step `s + 2`.  It initialises the carried state under the first condition
  (the first point of all), zeroes the two accumulators under the second (the first block of a step), finishes
  the step under the third (the last block of a step) and stores the results under the fourth (the last point
  of all).  -/

/-- The point is the first of the grid: the scalar chain the body computes from the two grid coordinates. -/
abbrev cond1_0 (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1
/-- It holds exactly at point 0. -/
theorem hcond1_0 : ∀ t : Fin cfg1.N, cond1_0 (grid1.coords t) ↔ t.val = 0 :=
  (by decide +kernel : ∀ t : Fin grid1.N, cond1_0 (grid1.coords t) ↔ t.val = 0)

/-- The point is the first block of its step. -/
abbrev cond1_1 (i : grid1.Coords) : Prop :=
  (Scalar.cmpi .ne (Scalar.extui (Scalar.cmpi .eq (BitVec.ofNat 32 (i 1).val) 0#32)) 0#32) = 1#1
/-- It holds exactly at the points 0, 8, 16, 24. -/
theorem hcond1_1 : ∀ t : Fin cfg1.N, cond1_1 (grid1.coords t) ↔ t.val % 8 = 0 :=
  (by decide +kernel : ∀ t : Fin grid1.N, cond1_1 (grid1.coords t) ↔ t.val % 8 = 0)

/-- The point is the last block of its step. -/
abbrev cond1_2 (i : grid1.Coords) : Prop :=
  (Scalar.cmpi .ne (Scalar.extui (Scalar.cmpi .eq (BitVec.ofNat 32 (i 1).val) 7#32)) 0#32) = 1#1
/-- It holds exactly at the points 7, 15, 23, 31. -/
theorem hcond1_2 : ∀ t : Fin cfg1.N, cond1_2 (grid1.coords t) ↔ t.val % 8 = 7 :=
  (by decide +kernel : ∀ t : Fin grid1.N, cond1_2 (grid1.coords t) ↔ t.val % 8 = 7)

/-- The point is the last of the grid. -/
abbrev cond1_3 (i : grid1.Coords) : Prop := k1_cond4 i = 1#1
/-- It holds exactly at point 31. -/
theorem hcond1_3 : ∀ t : Fin cfg1.N, cond1_3 (grid1.coords t) ↔ t.val = 31 :=
  (by decide +kernel : ∀ t : Fin grid1.N, cond1_3 (grid1.coords t) ↔ t.val = 31)

end Cert.Kernel.Hand

end
-- ==== Proof.B1.RunA.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.Conds
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the first point of all

  The first two branches are taken: the carried state is initialised from the arguments (the worker array
  copied whole into its scratch buffer, the wide task state copied whole and its hi/lo copy rebuilt from it,
  both accumulators zeroed), all by stores that cover their buffers, so nothing is assumed of what the scratch
  buffers held.  Then the point's own work as at every point.  The two outputs' buffers are not touched.  The
  lists are what the stores leave, last first, found by running the body.  -/

set_option maxHeartbeats 4000000 in
noncomputable def run1_A (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : cond1_0 i) (hc1 : cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32) :
    Σ' (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (∃ f, arg10.view.loc (c : Thread nD τ) ↦[arg10.view.set]{fullShare} arg10.view.writes (Elt F) f LA) ∗ (∃ f, arg11.view.loc (c : Thread nD τ) ↦[arg11.view.set]{fullShare} arg11.view.writes (Elt F) f LV) ∗ (∃ f, arg12.view.loc (c : Thread nD τ) ↦[arg12.view.set]{fullShare} arg12.view.writes (Elt F) f LC)
                ∗ (∃ f, arg13.view.loc (c : Thread nD τ) ↦[arg13.view.set]{fullShare} arg13.view.writes (Elt F) f LT) ∗ (∃ f, arg14.view.loc (c : Thread nD τ) ↦[arg14.view.set]{fullShare} arg14.view.writes (Elt F) f LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%da, %fa, -, HA⟩, ⟨%dv, %fv, -, HV⟩, ⟨%dc, %fc, -, HC⟩, ⟨%dt, %ft, -, HT⟩, ⟨%dr, %fr, -, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexists _; iexact HA
    isplitl [HV]; · iexists _; iexact HV
    isplitl [HC]; · iexists _; iexact HC
    isplitl [HT]; · iexists _; iexact HT
    iexists _; iexact HR

end Cert.Kernel.Hand

end
-- ==== Proof.B1.RunB.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.RunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the first block of a later step

  Only the second branch is taken: the two accumulators are zeroed by stores that cover them, so nothing is
  assumed of what they held.  Then the point's own work: it reads the point's 512 rows of labels, the wide
  task state and its hi/lo copy, and the point's 512 rows of the worker array, and stores the updated rows and
  the two updated accumulators.  Everything else is handed back as found.  The lists are what the stores
  leave, last first, found by running the body.  -/

set_option maxHeartbeats 4000000 in
noncomputable def run1_B (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xt : Vec F S2x8192 .f32) (xr : Vec F S8192x4 .bf16) :
    Σ' (LA : List (View.Piece (Elt F) S4096x8 .f32)) (LV : List (View.Piece (Elt F) S4x8192 .f32)),
      { LC : List (View.Piece (Elt F) S1x8 .f32) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ (∃ d, owns (c : Thread nD τ) arg11 fullShare d) ∗ (∃ d, owns (c : Thread nD τ) arg12 fullShare d) ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (∃ f, arg11.view.loc (c : Thread nD τ) ↦[arg11.view.set]{fullShare} arg11.view.writes (Elt F) f LV) ∗ (∃ f, arg12.view.loc (c : Thread nD τ) ↦[arg12.view.set]{fullShare} arg12.view.writes (Elt F) f LC)
                ∗ owns (c : Thread nD τ) arg13 fullShare xt ∗ owns (c : Thread nD τ) arg14 fullShare xr) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%dv, %fv, -, HV⟩, ⟨%dc, %fc, -, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg13.eq_unread hft; obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexists _; iexact HV
    isplitl [HC]; · iexists _; iexact HC
    isplitl [HT]
    · iexists _; isplitr; · ipureintro; exact harg13.read_unread _
      iexact HT
    iexists _; isplitr; · ipureintro; exact harg14.read_unread _
    iexact HR

end Cert.Kernel.Hand

end
-- ==== Proof.B1.RunC.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.RunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at a middle block of a step

  No branch is taken.  The body reads the point's 512 rows of labels, the carried state (the wide task state,
  its hi/lo copy, the two accumulators) and the point's 512 rows of the worker array, and stores the updated
  rows and the two updated accumulators.  Everything else is handed back as found.  The lists are what the
  stores leave, last first, found by running the body.  -/

set_option maxHeartbeats 4000000 in
noncomputable def run1_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (LA : List (View.Piece (Elt F) S4096x8 .f32)) (LV : List (View.Piece (Elt F) S4x8192 .f32)),
      { LC : List (View.Piece (Elt F) S1x8 .f32) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV) ∗ (arg12.view.loc (c : Thread nD τ) ↦[arg12.view.set]{fullShare} arg12.view.writes (Elt F) (harg12.unread xc) LC)
                ∗ owns (c : Thread nD τ) arg13 fullShare xt ∗ owns (c : Thread nD τ) arg14 fullShare xr) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg11.eq_unread hfv; obtain rfl := harg12.eq_unread hfc; obtain rfl := harg13.eq_unread hft
    obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexact HV
    isplitl [HC]; · iexact HC
    isplitl [HT]
    · iexists _; isplitr; · ipureintro; exact harg13.read_unread _
      iexact HT
    iexists _; isplitr; · ipureintro; exact harg14.read_unread _
    iexact HR

end Cert.Kernel.Hand

end
-- ==== Proof.B1.RunD.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the last block of a step that is not the last

  Only the third branch is taken: after the point's own work the step is finished — the column sums of the
  updated worker array times the label-0 weights, plus the folded accumulator rows, are added to the wide task
  state, and its hi/lo copy is rebuilt from the result.  The two outputs' buffers are not touched.  The lists
  are what the stores leave, last first, found by running the body.  -/

set_option maxHeartbeats 4000000 in
noncomputable def run1_D (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV) ∗ (arg12.view.loc (c : Thread nD τ) ↦[arg12.view.set]{fullShare} arg12.view.writes (Elt F) (harg12.unread xc) LC)
                ∗ (arg13.view.loc (c : Thread nD τ) ↦[arg13.view.set]{fullShare} arg13.view.writes (Elt F) (harg13.unread xt) LT) ∗ (arg14.view.loc (c : Thread nD τ) ↦[arg14.view.set]{fullShare} arg14.view.writes (Elt F) (harg14.unread xr) LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg11.eq_unread hfv; obtain rfl := harg12.eq_unread hfc; obtain rfl := harg13.eq_unread hft
    obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexact HV
    isplitl [HC]; · iexact HC
    isplitl [HT]; · iexact HT
    iexact HR

end Cert.Kernel.Hand

end
-- ==== Proof.B1.RunE.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.RunD
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the last point of all

  The last two branches are taken: after the point's own work the step is finished as at the end of every
  step, and then the worker array is stored whole into its output buffer and the wide task state, transposed,
  into its own; both stores cover their buffers, so nothing is assumed of what these held.  The lists are what
  the stores leave, last first, found by running the body.  -/

set_option maxHeartbeats 4000000 in
noncomputable def run1_E (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : cond1_2 i) (hc3 : cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (L8 : List (View.Piece (Elt F) S4096x8 .f32)) (L9 : List (View.Piece (Elt F) S8192x2 .f32)) (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (∃ d, owns (c : Thread nD τ) arg9 fullShare d) ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV)
                ∗ (arg12.view.loc (c : Thread nD τ) ↦[arg12.view.set]{fullShare} arg12.view.writes (Elt F) (harg12.unread xc) LC) ∗ (arg13.view.loc (c : Thread nD τ) ↦[arg13.view.set]{fullShare} arg13.view.writes (Elt F) (harg13.unread xt) LT) ∗ (arg14.view.loc (c : Thread nD τ) ↦[arg14.view.set]{fullShare} arg14.view.writes (Elt F) (harg14.unread xr) LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfa; obtain rfl := harg11.eq_unread hfv; obtain rfl := harg12.eq_unread hfc
    obtain rfl := harg13.eq_unread hft; obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [HA]; · iexact HA
    isplitl [HV]; · iexact HV
    isplitl [HC]; · iexact HC
    isplitl [HT]; · iexact HT
    iexact HR

end Cert.Kernel.Hand

end
-- ==== Proof.B1.Outs.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.RunE
import Idealize.ShloMosaic.Lib.Pipeline.Frame
import Idealize.ShloMosaic.Lib.Ring
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the second region's buffers hold after each grid point

  The second region makes four passes over the label matrix (message-passing steps 2 to 5), each in 8 blocks of
  512 rows: point `t = 8 s + i` is block `i` of pass `s`.  Between points it carries five scratch buffers: the
  worker array (whole array resident, the point's 512 rows rewritten), the two accumulators (the four hi/lo rows
  of the task-side products, and the column sums of the updated worker rows; zeroed at the first block of a
  pass), the wide task state and its hi/lo column copy (rewritten at the last block of a pass).  The two outputs'
  buffers are stored at the last point only.  The state after a point is the point's case run on the state the
  point before left; the first point initialises everything from the arguments.  -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### The memrefs the body is called with -/
abbrev ms1_0 (t : Fin cfg1.N) : Memref sig .tc .vmem S512x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x8192 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8192x2 .f32 := win1_7.stage (cfg1.slots t 7)
abbrev hs1_7 (t : Fin cfg1.N) : (ms1_7 t).IsWhole := hstage1_7 ((cfg1.slots t 7).cast nbuf1_7)
abbrev scM1_0 : Memref sig .tc .vmem S4096x8 .f32 := Memref.whole cc1_scratch0
abbrev hsc1_0 : scM1_0.IsWhole := Memref.isWhole_whole _
abbrev scM1_1 : Memref sig .tc .vmem S4x8192 .f32 := Memref.whole cc1_scratch1
abbrev hsc1_1 : scM1_1.IsWhole := Memref.isWhole_whole _
abbrev scM1_2 : Memref sig .tc .vmem S1x8 .f32 := Memref.whole cc1_scratch2
abbrev hsc1_2 : scM1_2.IsWhole := Memref.isWhole_whole _
abbrev scM1_3 : Memref sig .tc .vmem S2x8192 .f32 := Memref.whole cc1_scratch3
abbrev hsc1_3 : scM1_3.IsWhole := Memref.isWhole_whole _
abbrev scM1_4 : Memref sig .tc .vmem S8192x4 .bf16 := Memref.whole cc1_scratch4
abbrev hsc1_4 : scM1_4.IsWhole := Memref.isWhole_whole _
/-- One whole buffer of each output shape, through which contents are stated. -/
abbrev MP8 : Memref sig .tc .vmem S4096x8 .f32 := Memref.whole cc1_stg6_0
abbrev MP9 : Memref sig .tc .vmem S8192x2 .f32 := Memref.whole cc1_stg7_0
abbrev hMP8 : (MP8).IsWhole := Memref.isWhole_whole _
abbrev hMP9 : (MP9).IsWhole := Memref.isWhole_whole _

/-- The carried state: the two output buffers and the five scratch buffers. -/
structure St1 (F : FTy → Type) [FloatOps F] where
  o8 : Vec F S4096x8 .f32
  o9 : Vec F S8192x2 .f32
  sA : Vec F S4096x8 .f32
  sV : Vec F S4x8192 .f32
  sC : Vec F S1x8 .f32
  sT : Vec F S2x8192 .f32
  sR : Vec F S8192x4 .bf16

/-- After the first point of all: every scratch buffer is covered by the point's stores; the two outputs' buffers are not touched. -/
def caseA1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) : St1 F where
  o8 := MP8.view.read (Elt F) MP8.view.junk
  o9 := MP9.view.read (Elt F) MP9.view.junk
  sA := scM1_0.view.read (Elt F) (scM1_0.view.writes (Elt F) scM1_0.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1)
  sV := scM1_1.view.read (Elt F) (scM1_1.view.writes (Elt F) scM1_1.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1)
  sC := scM1_2.view.read (Elt F) (scM1_2.view.writes (Elt F) scM1_2.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1)
  sT := scM1_3.view.read (Elt F) (scM1_3.view.writes (Elt F) scM1_3.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1)
  sR := scM1_4.view.read (Elt F) (scM1_4.view.writes (Elt F) scM1_4.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1)

/-- After the first block of a later step, over the state `p` the point before left: the two accumulators are covered, the point's rows of the worker array rewritten. -/
def caseB1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).1)
  sV := scM1_1.view.read (Elt F) (scM1_1.view.writes (Elt F) scM1_1.view.junk (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1)
  sC := scM1_2.view.read (Elt F) (scM1_2.view.writes (Elt F) scM1_2.view.junk (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1)
  sT := p.sT
  sR := p.sR

/-- After a middle block of a step, over the state `p` the point before left. -/
def caseC1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  sV := scM1_1.view.read (Elt F) (scM1_1.view.writes (Elt F) (hsc1_1.unread p.sV) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sC := scM1_2.view.read (Elt F) (scM1_2.view.writes (Elt F) (hsc1_2.unread p.sC) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sT := p.sT
  sR := p.sR

/-- After the last block of a step that is not the last, over the state `p` the point before left. -/
def caseD1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  sV := scM1_1.view.read (Elt F) (scM1_1.view.writes (Elt F) (hsc1_1.unread p.sV) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sC := scM1_2.view.read (Elt F) (scM1_2.view.writes (Elt F) (hsc1_2.unread p.sC) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sT := scM1_3.view.read (Elt F) (scM1_3.view.writes (Elt F) (hsc1_3.unread p.sT) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.1)
  sR := scM1_4.view.read (Elt F) (scM1_4.view.writes (Elt F) (hsc1_4.unread p.sR) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.1)

/-- After the last point of all, over the state `p` the point before left: both outputs' buffers are covered. -/
def caseE1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := MP8.view.read (Elt F) (MP8.view.writes (Elt F) MP8.view.junk (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  o9 := MP9.view.read (Elt F) (MP9.view.writes (Elt F) MP9.view.junk (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sA := scM1_0.view.read (Elt F) (scM1_0.view.writes (Elt F) (hsc1_0.unread p.sA) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sV := scM1_1.view.read (Elt F) (scM1_1.view.writes (Elt F) (hsc1_1.unread p.sV) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.1)
  sC := scM1_2.view.read (Elt F) (scM1_2.view.writes (Elt F) (hsc1_2.unread p.sC) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.1)
  sT := scM1_3.view.read (Elt F) (scM1_3.view.writes (Elt F) (hsc1_3.unread p.sT) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.2.1)
  sR := scM1_4.view.read (Elt F) (scM1_4.view.writes (Elt F) (hsc1_4.unread p.sR) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.2.2.1)

/-! ### Covers: where a case's stores fill a buffer, what it held before does not matter -/

theorem cover1A_A (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S4096x8.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1 S4096x8.size (by sl_kernel_rfl) y
theorem cover1A_V (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S4x8192.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1 S4x8192.size (by sl_kernel_rfl) y
theorem cover1A_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S1x8.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1 S1x8.size (by sl_kernel_rfl) y
theorem cover1A_T (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S2x8192.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1 S2x8192.size (by sl_kernel_rfl) y
theorem cover1A_R (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S8192x4.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1 S8192x4.size (by sl_kernel_rfl) y
theorem cover1B_V (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S4x8192.Idx) :
    ∃ pc ∈ (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1, y ∈ pc.1.set :=
  View.cover_of_tiledL (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1 S4x8192.size (by sl_kernel_rfl) y
theorem cover1B_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S1x8.Idx) :
    ∃ pc ∈ (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1, y ∈ pc.1.set :=
  View.cover_of_tiledL (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1 S1x8.size (by sl_kernel_rfl) y
theorem cover1E_8 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S4096x8.Idx) :
    ∃ pc ∈ (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1, y ∈ pc.1.set :=
  View.cover_of_tiledL (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1 S4096x8.size (by sl_kernel_rfl) y
theorem cover1E_9 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S8192x2.Idx) :
    ∃ pc ∈ (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1, y ∈ pc.1.set :=
  View.cover_of_tiledL (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1 S8192x2.size (by sl_kernel_rfl) y

/-! ### The recursion over the points -/

theorem N1_32 : cfg1.N = 32 := N_1

/-- The state after point `t` when it is the first of all, -/
def atA1 (c : Dev nD) (t : Fin cfg1.N) (h0 : t.val = 0) : St1 F :=
  caseA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    ((hcond1_0 t).mpr h0) ((hcond1_1 t).mpr (by omega)) (fun h => by have := (hcond1_2 t).mp h; omega) (fun h => by have := (hcond1_3 t).mp h; omega)
    (iblk1 V c 0 t) (iblk1 V c 1 t) (iblk1 V c 2 t) (iblk1 V c 3 t) (iblk1 V c 4 t) (iblk1 V c 5 t)
/-- the first block of a later step, -/
def atB1 (c : Dev nD) (t : Fin cfg1.N) (h0 : t.val ≠ 0) (hm : t.val % 8 = 0) (p : St1 F) : St1 F :=
  caseB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => h0 ((hcond1_0 t).mp h)) ((hcond1_1 t).mpr hm) (fun h => by have := (hcond1_2 t).mp h; omega) (fun h => by have := (hcond1_3 t).mp h; omega)
    (iblk1 V c 0 t) (iblk1 V c 1 t) (iblk1 V c 2 t) (iblk1 V c 3 t) (iblk1 V c 4 t) (iblk1 V c 5 t) p
/-- a middle block of a step, -/
def atC1 (c : Dev nD) (t : Fin cfg1.N) (hm : t.val % 8 ≠ 0) (hl : t.val % 8 ≠ 7) (p : St1 F) : St1 F :=
  caseC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => hm ((hcond1_1 t).mp h)) (fun h => hl ((hcond1_2 t).mp h)) (fun h => by have := (hcond1_3 t).mp h; omega)
    (iblk1 V c 0 t) (iblk1 V c 1 t) (iblk1 V c 2 t) (iblk1 V c 3 t) (iblk1 V c 4 t) (iblk1 V c 5 t) p
/-- the last block of a step that is not the last, -/
def atD1 (c : Dev nD) (t : Fin cfg1.N) (hl : t.val % 8 = 7) (h31 : t.val ≠ 31) (p : St1 F) : St1 F :=
  caseD1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => by have := (hcond1_1 t).mp h; omega) ((hcond1_2 t).mpr hl) (fun h => h31 ((hcond1_3 t).mp h))
    (iblk1 V c 0 t) (iblk1 V c 1 t) (iblk1 V c 2 t) (iblk1 V c 3 t) (iblk1 V c 4 t) (iblk1 V c 5 t) p
/-- or the last point of all. -/
def atE1 (c : Dev nD) (t : Fin cfg1.N) (h31 : t.val = 31) (p : St1 F) : St1 F :=
  caseE1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => by have := (hcond1_1 t).mp h; omega) ((hcond1_2 t).mpr (by omega)) ((hcond1_3 t).mpr h31)
    (iblk1 V c 0 t) (iblk1 V c 1 t) (iblk1 V c 2 t) (iblk1 V c 3 t) (iblk1 V c 4 t) (iblk1 V c 5 t) p

/-- What the buffers hold after the body at position `n`. -/
def outsAt1 (c : Dev nD) : (n : ℕ) → n < cfg1.N → St1 F
  | 0, hn => atA1 V c ⟨0, hn⟩ rfl
  | n + 1, hn =>
    if hl : (n + 1) % 8 = 7 then
      if h31 : n + 1 = 31 then atE1 V c ⟨n + 1, hn⟩ h31 (outsAt1 c n (Nat.lt_of_succ_lt hn))
      else atD1 V c ⟨n + 1, hn⟩ hl h31 (outsAt1 c n (Nat.lt_of_succ_lt hn))
    else
      if hm : (n + 1) % 8 = 0 then atB1 V c ⟨n + 1, hn⟩ (Nat.succ_ne_zero n) hm (outsAt1 c n (Nat.lt_of_succ_lt hn))
      else atC1 V c ⟨n + 1, hn⟩ hm hl (outsAt1 c n (Nat.lt_of_succ_lt hn))

theorem outsAt1_A (c : Dev nD) (t : Fin cfg1.N) (h0 : t.val = 0) : outsAt1 V c t.val t.isLt = atA1 V c t h0 := by
  obtain ⟨n, hn⟩ := t
  cases n with
  | zero => rfl
  | succ n => exact absurd h0 (Nat.succ_ne_zero n)

theorem outsAt1_B (c : Dev nD) (t : Fin cfg1.N) (h0 : t.val ≠ 0) (hm : t.val % 8 = 0) :
    outsAt1 V c t.val t.isLt = atB1 V c t h0 hm (outsAt1 V c (t.val - 1) (Nat.lt_of_le_of_lt (Nat.sub_le _ _) t.isLt)) := by
  obtain ⟨n, hn⟩ := t
  cases n with
  | zero => exact absurd rfl h0
  | succ n => exact (dif_neg (by dsimp only at hm; omega)).trans ((dif_pos hm).trans rfl)

theorem outsAt1_C (c : Dev nD) (t : Fin cfg1.N) (hm : t.val % 8 ≠ 0) (hl : t.val % 8 ≠ 7) :
    outsAt1 V c t.val t.isLt = atC1 V c t hm hl (outsAt1 V c (t.val - 1) (Nat.lt_of_le_of_lt (Nat.sub_le _ _) t.isLt)) := by
  obtain ⟨n, hn⟩ := t
  cases n with
  | zero => exact absurd (Nat.zero_mod 8) hm
  | succ n => exact (dif_neg hl).trans ((dif_neg hm).trans rfl)

theorem outsAt1_D (c : Dev nD) (t : Fin cfg1.N) (hl : t.val % 8 = 7) (h31 : t.val ≠ 31) :
    outsAt1 V c t.val t.isLt = atD1 V c t hl h31 (outsAt1 V c (t.val - 1) (Nat.lt_of_le_of_lt (Nat.sub_le _ _) t.isLt)) := by
  obtain ⟨n, hn⟩ := t
  cases n with
  | zero => exact (by exfalso; (try dsimp only at hl); omega)
  | succ n => exact (dif_pos hl).trans ((dif_neg h31).trans rfl)

theorem outsAt1_E (c : Dev nD) (t : Fin cfg1.N) (h31 : t.val = 31) :
    outsAt1 V c t.val t.isLt = atE1 V c t h31 (outsAt1 V c (t.val - 1) (Nat.lt_of_le_of_lt (Nat.sub_le _ _) t.isLt)) := by
  obtain ⟨n, hn⟩ := t
  cases n with
  | zero => exact (by exfalso; (try dsimp only at h31); omega)
  | succ n => exact (dif_pos (by dsimp only at h31; omega)).trans ((dif_pos h31).trans rfl)

/-! ### The invariant between points -/

/-- The scoped buffers the second region does not use (the first region's staging and scratch buffers), each at
    some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- Before the first point every scratch buffer holds anything; afterwards each holds what the point before left. -/
def PhiS1 (c : Dev nD) : (n : ℕ) → n ≤ cfg1.N → sProp 𝕄
  | 0, _ => Pipeline.ΦA spec1 c
  | n + 1, hn => iprop(iprop(Rest1 c ∗ owns (c : Thread nD τ) scM1_0 fullShare (outsAt1 V c n hn).sA ∗ owns (c : Thread nD τ) scM1_1 fullShare (outsAt1 V c n hn).sV ∗ owns (c : Thread nD τ) scM1_2 fullShare (outsAt1 V c n hn).sC ∗ owns (c : Thread nD τ) scM1_3 fullShare (outsAt1 V c n hn).sT ∗ owns (c : Thread nD τ) scM1_4 fullShare (outsAt1 V c n hn).sR) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 c ∗ owns (c : Thread nD τ) scM1_0 fullShare (outsAt1 V c n hn).sA ∗ owns (c : Thread nD τ) scM1_1 fullShare (outsAt1 V c n hn).sV ∗ owns (c : Thread nD τ) scM1_2 fullShare (outsAt1 V c n hn).sC ∗ owns (c : Thread nD τ) scM1_3 fullShare (outsAt1 V c n hn).sT ∗ owns (c : Thread nD τ) scM1_4 fullShare (outsAt1 V c n hn).sR) ∗ (∃ r, prngReg c r)) := rfl

theorem PhiS1_pos (c : Dev nD) (n : ℕ) (h : n ≤ cfg1.N) (hz : n ≠ 0) :
    PhiS1 V c n h = iprop(iprop(Rest1 c ∗ owns (c : Thread nD τ) scM1_0 fullShare (outsAt1 V c (n - 1) (by omega)).sA ∗ owns (c : Thread nD τ) scM1_1 fullShare (outsAt1 V c (n - 1) (by omega)).sV ∗ owns (c : Thread nD τ) scM1_2 fullShare (outsAt1 V c (n - 1) (by omega)).sC ∗ owns (c : Thread nD τ) scM1_3 fullShare (outsAt1 V c (n - 1) (by omega)).sT ∗ owns (c : Thread nD τ) scM1_4 fullShare (outsAt1 V c (n - 1) (by omega)).sR) ∗ (∃ r, prngReg c r)) := by
  cases n with
  | zero => exact absurd rfl hz
  | succ n => rfl

/-- Separating conjunction is associative, as an equation between assertions. -/
theorem sep_assoc_eq1 (P Q R : sProp 𝕄) : iprop((P ∗ Q) ∗ R) = iprop(P ∗ Q ∗ R) :=
  BI.equiv_iff.mp ⟨Idealize.SL.BI.sep_assoc, Idealize.SL.BI.sep_assoc'⟩

/-- The class invariant with the region's five scratch buffers as memrefs owned at some contents. -/
theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d)) ∗ (∃ r, prngReg c r)) := by
  unfold Pipeline.ΦA Rest1; rw [scopedRest1_eq]; simp only [scM1_0, scM1_1, scM1_2, scM1_3, scM1_4, owns_whole, sep_assoc_eq1]; try rfl

/-! ### The proof data -/

/-- The arrays as the region finds them; after the body at point `t` each input's buffer at its block, each
    output's at the carried state's component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).o8
    | ⟨7, _⟩ => (outsAt1 V c t.val t.isLt).o9
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).o8 := by dsimp only [dat1]
theorem after1_7 (c : Dev nD) (t : Fin cfg1.N) : (dat1 V c).after 7 t = (outsAt1 V c t.val t.isLt).o9 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ### Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel
theorem idleAt1_7 : ∀ t : Fin cfg1.N, ¬cond1_3 (grid1.coords t) → cfg1.idle 7 (grid1.coords t) = true := by decide +kernel
theorem noFlush1_7 : ∀ t : Fin cfg1.N, ¬cond1_3 (grid1.coords t) → (cfg1.win 7).flush t = false := by decide +kernel
theorem liveAt1_7 : ∀ t : Fin cfg1.N, cond1_3 (grid1.coords t) → cfg1.idle 7 (grid1.coords t) = false := by decide +kernel

end Cert.Kernel.Hand

end
-- ==== Proof.B1.Body.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B1.Outs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body obligation

  At every grid point: from the invariant (the scratch buffers at what the point before left, at anything before
  the first point), nothing owed, and every window's staging buffer at what it then holds, the body runs to the
  invariant at the next point and every staging buffer at what the proof data says the body leaves.  By cases on
  the point (the first of all; the first, a middle or the last block of a pass; the last of all), each case its
  own run.  -/

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 32 := lt_of_lt_of_eq t.isLt N1_32
  by_cases h0 : t.val = 0
  · -- the first point of all: everything is initialised by covering stores
    have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [Dat.leavesExact_idle (dat1 V c) 7 t (idleAt1_7 t hc3) (noFlush1_7 t hc3)]
    rw [outsAt1_A V c t h0]
    unfold atA1 caseA1; (try dsimp only)
    rw [PhiS1_castSucc V c t, PhiS1_zero V c _ _ h0, PhiA1_eq]
    iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_A c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H8, H9, ⟨%eA, HA⟩, ⟨%eV, HV⟩, ⟨%eC, HC⟩, ⟨%eT, HT⟩, ⟨%eR, HR⟩⟩
    isplitl [Hrest HA HV HC HT HR Hg]
    · isplitl [Hrest HA HV HC HT HR]
      · isplitl [Hrest]; · iexact Hrest
        isplitl [HA]
        · unfold owns; iexists _; isplitr
          swap; · iexact HA
          ipureintro; exact View.read_writes_of_cover _ _ _ _ _ (cover1A_A c _ _ _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (cover1A_V c _ _ _ _ _ _ _ _ _ _ _ _ _ _ _ _ _ _ _ _ _ _ _ _ _ _ _ _ _ _ _ _ _ _ _ _ _)
        isplitl [HC]
        · unfold owns; iexists _; isplitr
          swap; · iexact HC
          ipureintro; exact View.read_writes_of_cover _ _ _ _ _ (cover1A_C c _ _ _ _ _ _ _ _ _ _ _ _ _ _ _ _ _ _ _ _ _ _ _ _ _ _ _ _ _ _ _ _ _ _ _ _ _)
        isplitl [HT]
        · unfold owns; iexists _; isplitr
          swap; · iexact HT
          ipureintro; exact View.read_writes_of_cover _ _ _ _ _ (cover1A_T c _ _ _ _ _ _ _ _ _ _ _ _ _ _ _ _ _ _ _ _ _ _ _ _ _ _ _ _ _ _ _ _ _ _ _ _ _)
        unfold owns; iexists _; isplitr
        swap; · iexact HR
        ipureintro; exact View.read_writes_of_cover _ _ _ _ _ (cover1A_R c _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H8]; · iexists _; iexact H8
    iexists _; iexact H9
  · by_cases hl : t.val % 8 = 7
    · by_cases h31 : t.val = 31
      · -- the last point of all: the pass is finished and both results stored into their output buffers
        have hc0 : ¬cond1_0 (grid1.coords t) := fun h => h0 ((hcond1_0 t).mp h)
        have hc1 : ¬cond1_1 (grid1.coords t) := fun h => by have := (hcond1_1 t).mp h; omega
        have hc2 : cond1_2 (grid1.coords t) := (hcond1_2 t).mpr hl
        have hc3 : cond1_3 (grid1.coords t) := (hcond1_3 t).mpr h31
        rw [show (dat1 V c).leavesExact 6 t = owns (c : Thread nD τ) (ms1_6 t) fullShare ((dat1 V c).after 6 t) from by
          unfold Dat.leavesExact; rw [liveAt1_6 t hc3], after1_6]
        rw [show (dat1 V c).leavesExact 7 t = owns (c : Thread nD τ) (ms1_7 t) fullShare ((dat1 V c).after 7 t) from by
          unfold Dat.leavesExact; rw [liveAt1_7 t hc3], after1_7]
        rw [outsAt1_E V c t h31]
        unfold atE1 caseE1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_E c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e8, H8⟩, ⟨%e9, H9⟩, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]
            · unfold owns; iexists _; isplitr
              swap; · iexact HT
              ipureintro; rfl
            unfold owns; iexists _; isplitr
            swap; · iexact HR
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]
        · unfold owns; iexists _; isplitr
          swap; · iexact H8
          ipureintro; exact View.read_writes_of_cover _ _ _ _ _ (cover1E_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover1E_9 c _ _ _ _ _ _ _ _ _ _ _ _ _ _ _ _ _ _ _ _ _ _ _ _ _ _ _ _ _ _ _ _ _ _ _ _ _ _)
      · -- the last block of an earlier pass: the pass is finished
        have hc0 : ¬cond1_0 (grid1.coords t) := fun h => h0 ((hcond1_0 t).mp h)
        have hc1 : ¬cond1_1 (grid1.coords t) := fun h => by have := (hcond1_1 t).mp h; omega
        have hc2 : cond1_2 (grid1.coords t) := (hcond1_2 t).mpr hl
        have hc3 : ¬cond1_3 (grid1.coords t) := fun h => h31 ((hcond1_3 t).mp h)
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_D V c t hl h31]
        unfold atD1 caseD1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_D c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, H8, H9, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]
            · unfold owns; iexists _; isplitr
              swap; · iexact HT
              ipureintro; rfl
            unfold owns; iexists _; isplitr
            swap; · iexact HR
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9
    · by_cases hm : t.val % 8 = 0
      · -- the first block of a later pass: the accumulators are zeroed
        have hc0 : ¬cond1_0 (grid1.coords t) := fun h => h0 ((hcond1_0 t).mp h)
        have hc1 : cond1_1 (grid1.coords t) := (hcond1_1 t).mpr hm
        have hc2 : ¬cond1_2 (grid1.coords t) := fun h => hl ((hcond1_2 t).mp h)
        have hc3 : ¬cond1_3 (grid1.coords t) := fun h => by have := (hcond1_3 t).mp h; omega
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_B V c t h0 hm]
        unfold atB1 caseB1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_B c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexists _; iexact HS1
        isplitl [HS2]; · iexists _; iexact HS2
        isplitl [HS3]; · iexact HS3
        isplitl [HS4]; · iexact HS4
        iintro ⟨H0, H1, H2, H3, H4, H5, H8, H9, HA, ⟨%eV, HV⟩, ⟨%eC, HC⟩, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; exact View.read_writes_of_cover _ _ _ _ _ (cover1B_V c _ _ _ _ _ _ _ _ _ _ _ _ _ _ _ _ _ _ _ _ _ _ _ _ _ _ _ _ _ _ _ _ _ _ _ _ _ _)
            isplitl [HC]
            · unfold owns; iexists _; isplitr
              swap; · iexact HC
              ipureintro; exact View.read_writes_of_cover _ _ _ _ _ (cover1B_C c _ _ _ _ _ _ _ _ _ _ _ _ _ _ _ _ _ _ _ _ _ _ _ _ _ _ _ _ _ _ _ _ _ _ _ _ _ _)
            isplitl [HT]; · iexact HT
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9
      · -- a middle block
        have hc0 : ¬cond1_0 (grid1.coords t) := fun h => h0 ((hcond1_0 t).mp h)
        have hc1 : ¬cond1_1 (grid1.coords t) := fun h => hm ((hcond1_1 t).mp h)
        have hc2 : ¬cond1_2 (grid1.coords t) := fun h => hl ((hcond1_2 t).mp h)
        have hc3 : ¬cond1_3 (grid1.coords t) := fun h => by have := (hcond1_3 t).mp h; omega
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_C V c t hm hl]
        unfold atC1 caseC1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_C c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, H8, H9, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]; · iexact HT
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hrest, HS0, HS1, HS2, HS3, HS4⟩, Hg⟩
  isplitl [Hrest HS0 HS1 HS2 HS3 HS4]
  · isplitl [Hrest]; · iexact Hrest
    isplitl [HS0]; · iexists _; iexact HS0
    isplitl [HS1]; · iexists _; iexact HS1
    isplitl [HS2]; · iexists _; iexact HS2
    isplitl [HS3]; · iexists _; iexact HS3
    iexists _; iexact HS4
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.MainB.lean ====
import proofs.«170901_g57982058496645_cont_sun_m_527_4_alg».proof.Proof.Gen.Kernel.Launch
import proofs.«170901_g57982058496645_cont_sun_m_527_4_alg».proof.Proof.Gen.Kernel.Skeleton
import proofs.«170901_g57982058496645_cont_sun_m_527_4_alg».proof.Proof.Gen.Kernel.Points
import Idealize.ShloMosaic.Lib.Pipeline.FrameBody
import Idealize.ShloMosaic.Lib.Tactic
import proofs.«170901_g57982058496645_cont_sun_m_527_4_alg».proof.Proof.B0.Body
import proofs.«170901_g57982058496645_cont_sun_m_527_4_alg».proof.Proof.B1.Body
import Idealize.ShloMosaic.Lib.Pipeline.RegionsLoop
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole run

  The program is eight host operations (the parameter blocks cut and subtracted), then the two regions.  The
  buffers' contents at each boundary are a fold from the launch memory: after the host operations; after the
  first region (its arrays at what its write-backs leave, every other buffer untouched); after the second
  likewise.  Every weakly fair execution terminates and ends with every unscoped buffer at the last boundary's
  contents: the arguments as launched, the two results at what the second region's last point wrote back.  -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered from every unscoped buffer at the boundary's contents, its arrays
    split out and put back at what its write-backs leave; the scoped rest and the generator register go into the
    invariant before the first point and come back after the last; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, its arrays
    split out and put back at what its write-backs leave; the scoped rest and the generator register go into the
    invariant before the first point and come back after the last; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.K0.Conds.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's two branch conditions

  The body of the first region runs at 16 grid points, one per block of 256 rows of the label matrix.  It
  initialises the carried state under the first condition (the point is the first) and finishes the step under
  the second (the point is the last).  -/

/-- The point is the first of the grid: the scalar chain the body computes from the grid coordinate. -/
abbrev cond0_0 (i : grid0.Coords) : Prop :=
  (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-- The point is the last of the grid. -/
abbrev cond0_1 (i : grid0.Coords) : Prop := k0_cond2 i = 1#1
/-- It holds exactly at point 15. -/
theorem hcond0_1 : ∀ t : Fin cfg0.N, cond0_1 (grid0.coords t) ↔ t.val = 15 :=
  (by decide +kernel : ∀ t : Fin grid0.N, cond0_1 (grid0.coords t) ↔ t.val = 15)

end Cert.KernelIdeal.Hand

end
-- ==== Proof.K0.RunA.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Conds
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at the first point

  The first branch is taken: the carried state is initialised from the arguments (the task state transposed
  and its hi/lo copy, the worker array copied whole into its output buffer, both accumulators zeroed), all by
  stores that cover their buffers, so nothing is assumed of what the output and scratch buffers held.  Then
  the point's own work as at every point.  The lists are what the stores leave, last first.  -/

set_option maxHeartbeats 4000000 in
noncomputable def run0_A (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) :
    Σ' (L6 : List (View.Piece (Elt F) S256x8192 .bf16)) (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S2x8192 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xi8
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LA) ∗ owns (c : Thread nD τ) arg9 fullShare xi8
                ∗ (∃ f, arg10.view.loc (c : Thread nD τ) ↦[arg10.view.set]{fullShare} arg10.view.writes (Elt F) f LV) ∗ (∃ f, arg11.view.loc (c : Thread nD τ) ↦[arg11.view.set]{fullShare} arg11.view.writes (Elt F) f LC) ∗ (∃ f, arg12.view.loc (c : Thread nD τ) ↦[arg12.view.set]{fullShare} arg12.view.writes (Elt F) f LT) ∗ (∃ f, arg13.view.loc (c : Thread nD τ) ↦[arg13.view.set]{fullShare} arg13.view.writes (Elt F) f LR)) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi8 E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%da, %fa, -, HA⟩, ⟨%f8, %hf8, H8⟩, ⟨%dv, %fv, -, HV⟩, ⟨%dc, %fc, -, HC⟩, ⟨%dt, %ft, -, HT⟩, ⟨%dr, %fr, -, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexists _; iexact HA
    isplitl [H8]
    · iexists _; isplitr; · ipureintro; exact harg9.read_unread _
      iexact H8
    isplitl [HV]; · iexists _; iexact HV
    isplitl [HC]; · iexists _; iexact HC
    isplitl [HT]; · iexists _; iexact HT
    iexists _; iexact HR

end Cert.KernelIdeal.Hand

end
-- ==== Proof.K0.RunB.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Conds
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at a middle point

  Neither branch is taken.  The body reads the point's 256 rows of labels, stores them converted; reads the
  carried state (the wide task state, its hi/lo copy, the two accumulators) and the point's 256 rows of the
  worker array, and stores the updated rows and the two updated accumulators.  Everything else is handed back
  as found.  The lists are what the stores leave, last first, found by running the body.  -/

set_option maxHeartbeats 4000000 in
noncomputable def run0_B (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : ¬cond0_0 i) (hc1 : ¬cond0_1 i)
    (x0 : Vec F S256x8192 .i32) (x1 : Vec F S2x8 .f32) (x2 : Vec F S8x2 .f32) (x3 : Vec F S8x2 .f32) (x4 : Vec F S4096x8 .f32) (x5 : Vec F S8192x2 .f32)
    (xa : Vec F S4096x8 .f32) (xv : Vec F S4x8192 .f32) (xc : Vec F S1x8 .f32) (xt : Vec F S2x8192 .f32) (xr : Vec F S8192x4 .bf16) :
    Σ' (L6 : List (View.Piece (Elt F) S256x8192 .bf16)) (LA : List (View.Piece (Elt F) S4096x8 .f32)) (LV : List (View.Piece (Elt F) S4x8192 .f32)),
      { LC : List (View.Piece (Elt F) S1x8 .f32) //
      ∀ (xi8 : Vec F S2x8192 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xa ∗ owns (c : Thread nD τ) arg9 fullShare xi8
            ∗ owns (c : Thread nD τ) arg10 fullShare xv ∗ owns (c : Thread nD τ) arg11 fullShare xc ∗ owns (c : Thread nD τ) arg12 fullShare xt ∗ owns (c : Thread nD τ) arg13 fullShare xr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (arg8.view.loc (c : Thread nD τ) ↦[arg8.view.set]{fullShare} arg8.view.writes (Elt F) (harg8.unread xa) LA) ∗ owns (c : Thread nD τ) arg9 fullShare xi8
                ∗ (arg10.view.loc (c : Thread nD τ) ↦[arg10.view.set]{fullShare} arg10.view.writes (Elt F) (harg10.unread xv) LV) ∗ (arg11.view.loc (c : Thread nD τ) ↦[arg11.view.set]{fullShare} arg11.view.writes (Elt F) (harg11.unread xc) LC)
                ∗ owns (c : Thread nD τ) arg12 fullShare xt ∗ owns (c : Thread nD τ) arg13 fullShare xr) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi8 E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%f8, %hf8, H8⟩, ⟨%fv, %hfv, HV⟩, ⟨%fc, %hfc, HC⟩, ⟨%ft, %hft, HT⟩, ⟨%fr, %hfr, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfa; obtain rfl := harg9.eq_unread hf8
    obtain rfl := harg10.eq_unread hfv; obtain rfl := harg11.eq_unread hfc; obtain rfl := harg12.eq_unread hft; obtain rfl := harg13.eq_unread hfr
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexact HA
    isplitl [H8]
    · iexists _; isplitr; · ipureintro; exact harg9.read_unread _
      iexact H8
    isplitl [HV]; · iexact HV
    isplitl [HC]; · iexact HC
    isplitl [HT]
    · iexists _; isplitr; · ipureintro; exact harg12.read_unread _
      iexact HT
    iexists _; isplitr; · ipureintro; exact harg13.read_unread _
    iexact HR

end Cert.KernelIdeal.Hand

end
-- ==== Proof.K0.RunC.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Conds
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body at the last point

  The second branch is taken: after the point's own work the step is finished — the column sums of the
  updated worker array times the label-0 weights, plus the folded accumulator rows, are added to the wide task
  state, which is then stored whole into its output buffer.  The lists are what the stores leave, last first.  -/

set_option maxHeartbeats 4000000 in
noncomputable def run0_C (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole)
    (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32)
    (xa : Vec F S4096x8 .f32) (xv : Vec F S4x8192 .f32) (xc : Vec F S1x8 .f32) (xt : Vec F S2x8192 .f32) (xr : Vec F S8192x4 .bf16) :
    Σ' (L6 : List (View.Piece (Elt F) S256x8192 .bf16)) (LA : List (View.Piece (Elt F) S4096x8 .f32)) (L8 : List (View.Piece (Elt F) S2x8192 .f32)) (LV : List (View.Piece (Elt F) S4x8192 .f32)) (LC : List (View.Piece (Elt F) S1x8 .f32)),
      { LT : List (View.Piece (Elt F) S2x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xa ∗ (∃ d, owns (c : Thread nD τ) arg9 fullShare d)
            ∗ owns (c : Thread nD τ) arg10 fullShare xv ∗ owns (c : Thread nD τ) arg11 fullShare xc ∗ owns (c : Thread nD τ) arg12 fullShare xt ∗ owns (c : Thread nD τ) arg13 fullShare xr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xa) LA) ∗ (∃ f, arg9.view.loc (c : Thread nD τ) ↦[arg9.view.set]{fullShare} arg9.view.writes (Elt F) f L8)
                ∗ (arg10.view.loc (c : Thread nD τ) ↦[arg10.view.set]{fullShare} arg10.view.writes (Elt F) (harg10.unread xv) LV) ∗ (arg11.view.loc (c : Thread nD τ) ↦[arg11.view.set]{fullShare} arg11.view.writes (Elt F) (harg11.unread xc) LC) ∗ (arg12.view.loc (c : Thread nD τ) ↦[arg12.view.set]{fullShare} arg12.view.writes (Elt F) (harg12.unread xt) LT) ∗ owns (c : Thread nD τ) arg13 fullShare xr) -∗ K ⟨⟩))
          ⊢ wp frame (wpE (defs₀ (F := F)) Variants.none c none) E (cc0__body1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__body1_eq_skeleton]; unfold cc0__body1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%d8, %f8, -, H8⟩, ⟨%fv, %hfv, HV⟩, ⟨%fc, %hfc, HC⟩, ⟨%ft, %hft, HT⟩, ⟨%fr, %hfr, HR⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfa
    obtain rfl := harg10.eq_unread hfv; obtain rfl := harg11.eq_unread hfc; obtain rfl := harg12.eq_unread hft; obtain rfl := harg13.eq_unread hfr
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HA]; · iexact HA
    isplitl [H8]; · iexists _; iexact H8
    isplitl [HV]; · iexact HV
    isplitl [HC]; · iexact HC
    isplitl [HT]; · iexact HT
    iexists _; isplitr; · ipureintro; exact harg13.read_unread _
    iexact HR

end Cert.KernelIdeal.Hand

end
-- ==== Proof.K0.Outs.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.RunA
import proofs.«170901_g57982058496645_cont_sun_m_527_4_alg».proof.Proof.K0.RunB
import proofs.«170901_g57982058496645_cont_sun_m_527_4_alg».proof.Proof.K0.RunC
import proofs.«170901_g57982058496645_cont_sun_m_527_4_alg».proof.Proof.LibWritesCongr
import Idealize.ShloMosaic.Lib.Pipeline.Frame
import Idealize.ShloMosaic.Lib.Ring
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first region's buffers hold after each grid point

  The first region makes one pass over the label matrix in 16 blocks of 256 rows.  Between points it carries:
  the worker array's output buffer (whole array resident, the point's 256 rows rewritten), the two accumulators
  (the four hi/lo rows of the task-side products, and the column sums of the updated worker rows), the wide task
  state and its hi/lo column copy.  The state after a point is the point's case run on the state the point
  before left; the first point initialises everything from the arguments.  -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ### The memrefs the body is called with -/
abbrev ms0_0 (t : Fin cfg0.N) : Memref sig .tc .vmem S256x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x8192 .f32 := win0_8.stage (cfg0.slots t 8)
abbrev hs0_8 (t : Fin cfg0.N) : (ms0_8 t).IsWhole := hstage0_8 ((cfg0.slots t 8).cast nbuf0_8)
abbrev scM0_0 : Memref sig .tc .vmem S4x8192 .f32 := Memref.whole cc0_scratch0
abbrev hsc0_0 : scM0_0.IsWhole := Memref.isWhole_whole _
abbrev scM0_1 : Memref sig .tc .vmem S1x8 .f32 := Memref.whole cc0_scratch1
abbrev hsc0_1 : scM0_1.IsWhole := Memref.isWhole_whole _
abbrev scM0_2 : Memref sig .tc .vmem S2x8192 .f32 := Memref.whole cc0_scratch2
abbrev hsc0_2 : scM0_2.IsWhole := Memref.isWhole_whole _
abbrev scM0_3 : Memref sig .tc .vmem S8192x4 .bf16 := Memref.whole cc0_scratch3
abbrev hsc0_3 : scM0_3.IsWhole := Memref.isWhole_whole _
/-- One whole buffer of each output and scratch shape, through which contents are stated. -/
abbrev MO6 : Memref sig .tc .vmem S256x8192 .bf16 := Memref.whole cc0_stg6_0
abbrev MOA : Memref sig .tc .vmem S4096x8 .f32 := Memref.whole cc0_stg7_0
abbrev MO8 : Memref sig .tc .vmem S2x8192 .f32 := Memref.whole cc0_stg8_0
abbrev hMO6 : (MO6).IsWhole := Memref.isWhole_whole _
abbrev hMOA : (MOA).IsWhole := Memref.isWhole_whole _
abbrev hMO8 : (MO8).IsWhole := Memref.isWhole_whole _

/-- The carried state: the three output buffers and the four scratch buffers. -/
structure St0 (F : FTy → Type) [FloatOps F] where
  o6 : Vec F S256x8192 .bf16
  oA : Vec F S4096x8 .f32
  o8 : Vec F S2x8192 .f32
  sV : Vec F S4x8192 .f32
  sC : Vec F S1x8 .f32
  sT : Vec F S2x8192 .f32
  sR : Vec F S8192x4 .bf16

/-- After the first point: every buffer but the task output is covered by the point's stores. -/
def caseA (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) : St0 F where
  o6 := MO6.view.read (Elt F) (MO6.view.writes (Elt F) MO6.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1)
  oA := MOA.view.read (Elt F) (MOA.view.writes (Elt F) MOA.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)
  o8 := MO8.view.read (Elt F) MO8.view.junk
  sV := scM0_0.view.read (Elt F) (scM0_0.view.writes (Elt F) scM0_0.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)
  sC := scM0_1.view.read (Elt F) (scM0_1.view.writes (Elt F) scM0_1.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)
  sT := scM0_2.view.read (Elt F) (scM0_2.view.writes (Elt F) scM0_2.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)
  sR := scM0_3.view.read (Elt F) (scM0_3.view.writes (Elt F) scM0_3.view.junk (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- After a middle point, over the state `p` the point before left. -/
def caseB (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) : St0 F where
  o6 := MO6.view.read (Elt F) (MO6.view.writes (Elt F) MO6.view.junk (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1)
  oA := MOA.view.read (Elt F) (MOA.view.writes (Elt F) (hMOA.unread p.oA) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.1)
  o8 := p.o8
  sV := scM0_0.view.read (Elt F) (scM0_0.view.writes (Elt F) (hsc0_0.unread p.sV) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1)
  sC := scM0_1.view.read (Elt F) (scM0_1.view.writes (Elt F) (hsc0_1.unread p.sC) (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.1)
  sT := p.sT
  sR := p.sR

/-- After the last point, over the state `p` the point before left. -/
def caseC (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) : St0 F where
  o6 := MO6.view.read (Elt F) (MO6.view.writes (Elt F) MO6.view.junk (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1)
  oA := MOA.view.read (Elt F) (MOA.view.writes (Elt F) (hMOA.unread p.oA) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.1)
  o8 := MO8.view.read (Elt F) (MO8.view.writes (Elt F) MO8.view.junk (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1)
  sV := scM0_0.view.read (Elt F) (scM0_0.view.writes (Elt F) (hsc0_0.unread p.sV) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.1)
  sC := scM0_1.view.read (Elt F) (scM0_1.view.writes (Elt F) (hsc0_1.unread p.sC) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.2.1)
  sT := scM0_2.view.read (Elt F) (scM0_2.view.writes (Elt F) (hsc0_2.unread p.sT) (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.2.2.2.1)
  sR := p.sR

/-! ### Covers: where a case's stores fill a buffer, what it held before does not matter -/

theorem coverA_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S256x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1 S256x8192.size (by sl_kernel_rfl) y
theorem coverA_A (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S4096x8.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 S4096x8.size (by sl_kernel_rfl) y
theorem coverA_V (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S4x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S4x8192.size (by sl_kernel_rfl) y
theorem coverA_C (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S1x8.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x8.size (by sl_kernel_rfl) y
theorem coverA_T (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S2x8192.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S2x8192.size (by sl_kernel_rfl) y
theorem coverA_R (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32)  (y : S8192x4.Idx) :
    ∃ pc ∈ (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (run0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S8192x4.size (by sl_kernel_rfl) y
theorem coverB_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S256x8192.Idx) :
    ∃ pc ∈ (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1, y ∈ pc.1.set :=
  View.cover_of_tiledL (run0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1 S256x8192.size (by sl_kernel_rfl) y
theorem coverC_6 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S256x8192.Idx) :
    ∃ pc ∈ (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1, y ∈ pc.1.set :=
  View.cover_of_tiledL (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).1 S256x8192.size (by sl_kernel_rfl) y
theorem coverC_8 (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) (y : S2x8192.Idx) :
    ∃ pc ∈ (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1, y ∈ pc.1.set :=
  View.cover_of_tiledL (run0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p.oA p.sV p.sC p.sT p.sR).2.2.1 S2x8192.size (by sl_kernel_rfl) y

/-! ### The recursion over the points -/

theorem N0_16 : cfg0.N = 16 := N_0

/-- The state after point `t` when it is the first, -/
def atA (c : Dev nD) (t : Fin cfg0.N) (h0 : t.val = 0) : St0 F :=
  caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 ((hcond0_0 t).mpr h0)
    (fun h => by have := (hcond0_1 t).mp h; omega) (iblk0 V c 0 t) (iblk0 V c 1 t) (iblk0 V c 2 t) (iblk0 V c 3 t) (iblk0 V c 4 t) (iblk0 V c 5 t)
/-- a middle one, -/
def atB (c : Dev nD) (t : Fin cfg0.N) (h0 : t.val ≠ 0) (h1 : t.val ≠ 15) (p : St0 F) : St0 F :=
  caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 (fun h => h0 ((hcond0_0 t).mp h))
    (fun h => h1 ((hcond0_1 t).mp h)) (iblk0 V c 0 t) (iblk0 V c 1 t) (iblk0 V c 2 t) (iblk0 V c 3 t) (iblk0 V c 4 t) (iblk0 V c 5 t) p
/-- or the last. -/
def atC (c : Dev nD) (t : Fin cfg0.N) (h0 : t.val ≠ 0) (h1 : t.val = 15) (p : St0 F) : St0 F :=
  caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 hsc0_0 scM0_1 hsc0_1 scM0_2 hsc0_2 scM0_3 hsc0_3 (fun h => h0 ((hcond0_0 t).mp h))
    ((hcond0_1 t).mpr h1) (iblk0 V c 0 t) (iblk0 V c 1 t) (iblk0 V c 2 t) (iblk0 V c 3 t) (iblk0 V c 4 t) (iblk0 V c 5 t) p

/-- What the buffers hold after the body at position `n`. -/
def outsAt0 (c : Dev nD) : (n : ℕ) → n < cfg0.N → St0 F
  | 0, hn => atA V c ⟨0, hn⟩ rfl
  | n + 1, hn =>
    if h1 : n + 1 = 15 then atC V c ⟨n + 1, hn⟩ (Nat.succ_ne_zero n) h1 (outsAt0 c n (Nat.lt_of_succ_lt hn))
    else atB V c ⟨n + 1, hn⟩ (Nat.succ_ne_zero n) h1 (outsAt0 c n (Nat.lt_of_succ_lt hn))

theorem outsAt0_A (c : Dev nD) (t : Fin cfg0.N) (h0 : t.val = 0) : outsAt0 V c t.val t.isLt = atA V c t h0 := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 15) :
    outsAt0 V c t.val t.isLt = atB V c t h0 h1 (outsAt0 V c (t.val - 1) (Nat.lt_of_le_of_lt (Nat.sub_le _ _) t.isLt)) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 15) :
    outsAt0 V c t.val t.isLt = atC V c t h0 h1 (outsAt0 V c (t.val - 1) (Nat.lt_of_le_of_lt (Nat.sub_le _ _) t.isLt)) := by
  obtain ⟨n, hn⟩ := t
  cases n with
  | zero => exact absurd rfl h0
  | succ n => exact (dif_pos h1).trans rfl

/-! ### The invariant between points -/

/-- The scoped buffers the first region does not use (the second region's staging and scratch buffers), each at
    some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f))

/-- Before the first point every scratch buffer holds anything; afterwards each holds what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).sV ∗ owns (c : Thread nD τ) scM0_1 fullShare (outsAt0 V c n hn).sC
      ∗ owns (c : Thread nD τ) scM0_2 fullShare (outsAt0 V c n hn).sT ∗ owns (c : Thread nD τ) scM0_3 fullShare (outsAt0 V c n hn).sR ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).sV ∗ owns (c : Thread nD τ) scM0_1 fullShare (outsAt0 V c n hn).sC
      ∗ owns (c : Thread nD τ) scM0_2 fullShare (outsAt0 V c n hn).sT ∗ owns (c : Thread nD τ) scM0_3 fullShare (outsAt0 V c n hn).sR ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).sV ∗ owns (c : Thread nD τ) scM0_1 fullShare (outsAt0 V c (n - 1) (by omega)).sC
      ∗ owns (c : Thread nD τ) scM0_2 fullShare (outsAt0 V c (n - 1) (by omega)).sT ∗ owns (c : Thread nD τ) scM0_3 fullShare (outsAt0 V c (n - 1) (by omega)).sR ∗ Rest0 c) ∗ (∃ r, prngReg c r)) := by
  cases n with
  | zero => exact absurd rfl hz
  | succ n => rfl

/-- The class invariant with the region's four scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d) ∗ Rest0 c) ∗ (∃ r, prngReg c r)) := by
  unfold Pipeline.ΦA Rest0; rw [scopedRest0_eq]; simp only [scM0_0, scM0_1, scM0_2, scM0_3, owns_whole]; try rfl

/-! ### The proof data -/

/-- The arrays as the region finds them; after the body at point `t` each input's buffer at its block, each
    output's at the carried state's component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).o6
    | ⟨7, _⟩ => (outsAt0 V c t.val t.isLt).oA
    | ⟨8, _⟩ => (outsAt0 V c t.val t.isLt).o8
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).oA := by dsimp only [dat0]
theorem after0_8 (c : Dev nD) (t : Fin cfg0.N) : (dat0 V c).after 8 t = (outsAt0 V c t.val t.isLt).o8 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- The worker array's output buffer is written back at the last point only, -/
theorem noFlush0_7 (t : Fin cfg0.N) (ht : t.val ≠ 15) : (cfg0.win 7).flush t = false := by
  cases h : (cfg0.win 7).flush t
  · rfl
  · exact absurd ((flush0_7 t).mp h) (by have := t.isLt; have hN : cfg0.N = 16 := N_0; omega)

/-- so after the first point it holds what the point before left in it. -/
theorem before0_7_pos (c : Dev nD) (t : Fin cfg0.N) (ht : t.val ≠ 0) (d) :
    (dat0 V c).before 7 t d = (outsAt0 V c (t.val - 1) (Nat.lt_of_le_of_lt (Nat.sub_le _ _) t.isLt)).oA :=
  ((dat0 V c).before_out_kept 7 rfl t ht (noFlush0_7 _ (by have := t.isLt; have hN : cfg0.N = 16 := N_0; dsimp only; omega)) (fun _ => rfl) (fun _ _ => rfl) d).trans
    (after0_7 V c _)

/-! ### Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

end Cert.KernelIdeal.Hand

end
-- ==== Proof.K0.Body.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Outs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's body obligation

  At every grid point: from the invariant (the scratch buffers at what the point before left, at anything before
  the first point), nothing owed, and every window's staging buffer at what it then holds, the body runs to the
  invariant at the next point and every staging buffer at what the proof data says the body leaves.  By cases on
  the point (first, middle, last), each case its own run.  -/

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  have hN : t.val < 16 := lt_of_lt_of_eq t.isLt N0_16
  by_cases h0 : t.val = 0
  · -- the first point: everything is initialised by covering stores
    have hc0 : cond0_0 (grid0.coords t) := (hcond0_0 t).mpr h0
    have hc1 : ¬cond0_1 (grid0.coords t) := fun h => by have := (hcond0_1 t).mp h; omega
    rw [Dat.leavesExact_idle (dat0 V c) 8 t (idleAt0_8 t hc1) (noFlush0_8 t hc1)]
    rw [outsAt0_A V c t h0]
    unfold atA caseA; (try dsimp only)
    rw [PhiS_castSucc V c t, PhiS_zero V c _ _ h0, PhiA0_eq]
    iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, ⟨%e6, H6⟩, ⟨%eA, HA⟩, H8, ⟨%eV, HV⟩, ⟨%eC, HC⟩, ⟨%eT, HT⟩, ⟨%eR, HR⟩⟩
    isplitl [HV HC HT HR Hrest Hg]
    · isplitl [HV HC HT HR Hrest]
      · isplitl [HV]
        · unfold owns; iexists _; isplitr
          swap; · iexact HV
          ipureintro; exact View.read_writes_of_cover _ _ _ _ _ (coverA_V c _ _ _ _ _ _ _ _ _ _ _ _ _ _ _ _ _ _ _ _ _ _ _ _ _ _ _ _ _ _ _ _ _ _ _)
        isplitl [HC]
        · unfold owns; iexists _; isplitr
          swap; · iexact HC
          ipureintro; exact View.read_writes_of_cover _ _ _ _ _ (coverA_C c _ _ _ _ _ _ _ _ _ _ _ _ _ _ _ _ _ _ _ _ _ _ _ _ _ _ _ _ _ _ _ _ _ _ _)
        isplitl [HT]
        · unfold owns; iexists _; isplitr
          swap; · iexact HT
          ipureintro; exact View.read_writes_of_cover _ _ _ _ _ (coverA_T c _ _ _ _ _ _ _ _ _ _ _ _ _ _ _ _ _ _ _ _ _ _ _ _ _ _ _ _ _ _ _ _ _ _ _)
        isplitl [HR]
        · unfold owns; iexists _; isplitr
          swap; · iexact HR
          ipureintro; exact View.read_writes_of_cover _ _ _ _ _ (coverA_R c _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA_6 c _ _ _ _ _ _ _ _ _ _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverA_A c _ _ _ _ _ _ _ _ _ _ _ _ _ _ _ _ _ _ _ _ _ _ _ _ _ _ _ _ _ _ _ _ _ _ _)
    iexists _; iexact H8
  · by_cases h1 : t.val = 15
    · -- the last point: the step is finished and the task state stored into its output buffer
      have hc0 : ¬cond0_0 (grid0.coords t) := fun h => h0 ((hcond0_0 t).mp h)
      have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [outsAt0_C V c t h0 h1]
      unfold atC caseC; (try dsimp only)
      rw [PhiS_castSucc V c t, PhiS_pos V c _ _ h0]
      simp only [before0_7_pos V c t h0]
      iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, ⟨%e6, H6⟩, HA, ⟨%e8, H8⟩, HV, HC, HT, HR⟩
      isplitl [HV HC HT HR Hrest Hg]
      · isplitl [HV HC HT HR Hrest]
        · isplitl [HV]
          · unfold owns; iexists _; isplitr
            swap; · iexact HV
            ipureintro; rfl
          isplitl [HC]
          · unfold owns; iexists _; isplitr
            swap; · iexact HC
            ipureintro; rfl
          isplitl [HT]
          · unfold owns; iexists _; isplitr
            swap; · iexact HT
            ipureintro; rfl
          isplitl [HR]; · iexact HR
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_6 c _ _ _ _ _ _ _ _ _ _ _ _ _ _ _ _ _ _ _ _ _ _ _ _ _ _ _ _ _ _ _ _ _ _ _ _)
      isplitl [HA]
      · unfold owns; iexists _; isplitr
        swap; · iexact HA
        ipureintro; exact Cert.Lib.read_writes_congr _ _ _ _ ((Memref.IsWhole.read_unread _ _).trans (Memref.IsWhole.read_unread hMOA _).symm) _
      unfold owns; iexists _; isplitr
      swap; · iexact H8
      ipureintro; exact View.read_writes_of_cover _ _ _ _ _ (coverC_8 c _ _ _ _ _ _ _ _ _ _ _ _ _ _ _ _ _ _ _ _ _ _ _ _ _ _ _ _ _ _ _ _ _ _ _ _)
    · -- a middle point
      have hc0 : ¬cond0_0 (grid0.coords t) := fun h => h0 ((hcond0_0 t).mp h)
      have hc1 : ¬cond0_1 (grid0.coords t) := fun h => h1 ((hcond0_1 t).mp h)
      rw [Dat.leavesExact_idle (dat0 V c) 8 t (idleAt0_8 t hc1) (noFlush0_8 t hc1)]
      rw [outsAt0_B V c t h0 h1]
      unfold atB caseB; (try dsimp only)
      rw [PhiS_castSucc V c t, PhiS_pos V c _ _ h0]
      simp only [before0_7_pos V c t h0]
      iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, ⟨%e6, H6⟩, HA, H8, HV, HC, HT, HR⟩
      isplitl [HV HC HT HR Hrest Hg]
      · isplitl [HV HC HT HR Hrest]
        · isplitl [HV]
          · unfold owns; iexists _; isplitr
            swap; · iexact HV
            ipureintro; rfl
          isplitl [HC]
          · unfold owns; iexists _; isplitr
            swap; · iexact HC
            ipureintro; rfl
          isplitl [HT]; · iexact HT
          isplitl [HR]; · iexact HR
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _ _ _ _ _ _ _ _ _ _)
      isplitl [HA]
      · unfold owns; iexists _; isplitr
        swap; · iexact HA
        ipureintro; exact Cert.Lib.read_writes_congr _ _ _ _ ((Memref.IsWhole.read_unread _ _).trans (Memref.IsWhole.read_unread hMOA _).symm) _
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hrest⟩, Hg⟩
  isplitl [HS0 HS1 HS2 HS3 Hrest]
  · isplitl [HS0]; · iexists _; iexact HS0
    isplitl [HS1]; · iexists _; iexact HS1
    isplitl [HS2]; · iexists _; iexact HS2
    isplitl [HS3]; · iexists _; iexact HS3
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.K1.Conds.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's four branch conditions

  The body of the second region runs at 32 grid points: point `t = 8 s + i` is block `i` (512 rows of the
  label matrix) of message-passing step `s + 2`.  It initialises the carried state under the first condition
  (the first point of all), zeroes the two accumulators under the second (the first block of a step), finishes
  the step under the third (the last block of a step) and stores the results under the fourth (the last point
  of all).  -/

/-- The point is the first of the grid: the scalar chain the body computes from the two grid coordinates. -/
abbrev cond1_0 (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1
/-- It holds exactly at point 0. -/
theorem hcond1_0 : ∀ t : Fin cfg1.N, cond1_0 (grid1.coords t) ↔ t.val = 0 :=
  (by decide +kernel : ∀ t : Fin grid1.N, cond1_0 (grid1.coords t) ↔ t.val = 0)

/-- The point is the first block of its step. -/
abbrev cond1_1 (i : grid1.Coords) : Prop :=
  (Scalar.cmpi .ne (Scalar.extui (Scalar.cmpi .eq (BitVec.ofNat 32 (i 1).val) 0#32)) 0#32) = 1#1
/-- It holds exactly at the points 0, 8, 16, 24. -/
theorem hcond1_1 : ∀ t : Fin cfg1.N, cond1_1 (grid1.coords t) ↔ t.val % 8 = 0 :=
  (by decide +kernel : ∀ t : Fin grid1.N, cond1_1 (grid1.coords t) ↔ t.val % 8 = 0)

/-- The point is the last block of its step. -/
abbrev cond1_2 (i : grid1.Coords) : Prop :=
  (Scalar.cmpi .ne (Scalar.extui (Scalar.cmpi .eq (BitVec.ofNat 32 (i 1).val) 7#32)) 0#32) = 1#1
/-- It holds exactly at the points 7, 15, 23, 31. -/
theorem hcond1_2 : ∀ t : Fin cfg1.N, cond1_2 (grid1.coords t) ↔ t.val % 8 = 7 :=
  (by decide +kernel : ∀ t : Fin grid1.N, cond1_2 (grid1.coords t) ↔ t.val % 8 = 7)

/-- The point is the last of the grid. -/
abbrev cond1_3 (i : grid1.Coords) : Prop := k1_cond4 i = 1#1
/-- It holds exactly at point 31. -/
theorem hcond1_3 : ∀ t : Fin cfg1.N, cond1_3 (grid1.coords t) ↔ t.val = 31 :=
  (by decide +kernel : ∀ t : Fin grid1.N, cond1_3 (grid1.coords t) ↔ t.val = 31)

end Cert.KernelIdeal.Hand

end
-- ==== Proof.K1.RunA.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.Conds
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the first point of all

  The first two branches are taken: the carried state is initialised from the arguments (the worker array
  copied whole into its scratch buffer, the wide task state copied whole and its hi/lo copy rebuilt from it,
  both accumulators zeroed), all by stores that cover their buffers, so nothing is assumed of what the scratch
  buffers held.  Then the point's own work as at every point.  The two outputs' buffers are not touched.  The
  lists are what the stores leave, last first, found by running the body.  -/

set_option maxHeartbeats 4000000 in
noncomputable def run1_A (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : cond1_0 i) (hc1 : cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32) :
    Σ' (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (∃ f, arg10.view.loc (c : Thread nD τ) ↦[arg10.view.set]{fullShare} arg10.view.writes (Elt F) f LA) ∗ (∃ f, arg11.view.loc (c : Thread nD τ) ↦[arg11.view.set]{fullShare} arg11.view.writes (Elt F) f LV) ∗ (∃ f, arg12.view.loc (c : Thread nD τ) ↦[arg12.view.set]{fullShare} arg12.view.writes (Elt F) f LC)
                ∗ (∃ f, arg13.view.loc (c : Thread nD τ) ↦[arg13.view.set]{fullShare} arg13.view.writes (Elt F) f LT) ∗ (∃ f, arg14.view.loc (c : Thread nD τ) ↦[arg14.view.set]{fullShare} arg14.view.writes (Elt F) f LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%da, %fa, -, HA⟩, ⟨%dv, %fv, -, HV⟩, ⟨%dc, %fc, -, HC⟩, ⟨%dt, %ft, -, HT⟩, ⟨%dr, %fr, -, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexists _; iexact HA
    isplitl [HV]; · iexists _; iexact HV
    isplitl [HC]; · iexists _; iexact HC
    isplitl [HT]; · iexists _; iexact HT
    iexists _; iexact HR

end Cert.KernelIdeal.Hand

end
-- ==== Proof.K1.RunB.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the first block of a later step

  Only the second branch is taken: the two accumulators are zeroed by stores that cover them, so nothing is
  assumed of what they held.  Then the point's own work: it reads the point's 512 rows of labels, the wide
  task state and its hi/lo copy, and the point's 512 rows of the worker array, and stores the updated rows and
  the two updated accumulators.  Everything else is handed back as found.  The lists are what the stores
  leave, last first, found by running the body.  -/

set_option maxHeartbeats 4000000 in
noncomputable def run1_B (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xt : Vec F S2x8192 .f32) (xr : Vec F S8192x4 .bf16) :
    Σ' (LA : List (View.Piece (Elt F) S4096x8 .f32)) (LV : List (View.Piece (Elt F) S4x8192 .f32)),
      { LC : List (View.Piece (Elt F) S1x8 .f32) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ (∃ d, owns (c : Thread nD τ) arg11 fullShare d) ∗ (∃ d, owns (c : Thread nD τ) arg12 fullShare d) ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (∃ f, arg11.view.loc (c : Thread nD τ) ↦[arg11.view.set]{fullShare} arg11.view.writes (Elt F) f LV) ∗ (∃ f, arg12.view.loc (c : Thread nD τ) ↦[arg12.view.set]{fullShare} arg12.view.writes (Elt F) f LC)
                ∗ owns (c : Thread nD τ) arg13 fullShare xt ∗ owns (c : Thread nD τ) arg14 fullShare xr) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%dv, %fv, -, HV⟩, ⟨%dc, %fc, -, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg13.eq_unread hft; obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexists _; iexact HV
    isplitl [HC]; · iexists _; iexact HC
    isplitl [HT]
    · iexists _; isplitr; · ipureintro; exact harg13.read_unread _
      iexact HT
    iexists _; isplitr; · ipureintro; exact harg14.read_unread _
    iexact HR

end Cert.KernelIdeal.Hand

end
-- ==== Proof.K1.RunC.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at a middle block of a step

  No branch is taken.  The body reads the point's 512 rows of labels, the carried state (the wide task state,
  its hi/lo copy, the two accumulators) and the point's 512 rows of the worker array, and stores the updated
  rows and the two updated accumulators.  Everything else is handed back as found.  The lists are what the
  stores leave, last first, found by running the body.  -/

set_option maxHeartbeats 4000000 in
noncomputable def run1_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : ¬cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (LA : List (View.Piece (Elt F) S4096x8 .f32)) (LV : List (View.Piece (Elt F) S4x8192 .f32)),
      { LC : List (View.Piece (Elt F) S1x8 .f32) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV) ∗ (arg12.view.loc (c : Thread nD τ) ↦[arg12.view.set]{fullShare} arg12.view.writes (Elt F) (harg12.unread xc) LC)
                ∗ owns (c : Thread nD τ) arg13 fullShare xt ∗ owns (c : Thread nD τ) arg14 fullShare xr) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg11.eq_unread hfv; obtain rfl := harg12.eq_unread hfc; obtain rfl := harg13.eq_unread hft
    obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexact HV
    isplitl [HC]; · iexact HC
    isplitl [HT]
    · iexists _; isplitr; · ipureintro; exact harg13.read_unread _
      iexact HT
    iexists _; isplitr; · ipureintro; exact harg14.read_unread _
    iexact HR

end Cert.KernelIdeal.Hand

end
-- ==== Proof.K1.RunD.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the last block of a step that is not the last

  Only the third branch is taken: after the point's own work the step is finished — the column sums of the
  updated worker array times the label-0 weights, plus the folded accumulator rows, are added to the wide task
  state, and its hi/lo copy is rebuilt from the result.  The two outputs' buffers are not touched.  The lists
  are what the stores leave, last first, found by running the body.  -/

set_option maxHeartbeats 4000000 in
noncomputable def run1_D (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : cond1_2 i) (hc3 : ¬cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (xi8 : Vec F S4096x8 .f32) (xi9 : Vec F S8192x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
            ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi8 ∗ owns (c : Thread nD τ) arg9 fullShare xi9
                ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV) ∗ (arg12.view.loc (c : Thread nD τ) ↦[arg12.view.set]{fullShare} arg12.view.writes (Elt F) (harg12.unread xc) LC)
                ∗ (arg13.view.loc (c : Thread nD τ) ↦[arg13.view.set]{fullShare} arg13.view.writes (Elt F) (harg13.unread xt) LT) ∗ (arg14.view.loc (c : Thread nD τ) ↦[arg14.view.set]{fullShare} arg14.view.writes (Elt F) (harg14.unread xr) LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi8 xi9 E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf8; obtain rfl := harg9.eq_unread hf9; obtain rfl := harg10.eq_unread hfa
    obtain rfl := harg11.eq_unread hfv; obtain rfl := harg12.eq_unread hfc; obtain rfl := harg13.eq_unread hft
    obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HA]; · iexact HA
    isplitl [HV]; · iexact HV
    isplitl [HC]; · iexact HC
    isplitl [HT]; · iexact HT
    iexact HR

end Cert.KernelIdeal.Hand

end
-- ==== Proof.K1.RunE.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.RunD
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body at the last point of all

  The last two branches are taken: after the point's own work the step is finished as at the end of every
  step, and then the worker array is stored whole into its output buffer and the wide task state, transposed,
  into its own; both stores cover their buffers, so nothing is assumed of what these held.  The lists are what
  the stores leave, last first, found by running the body.  -/

set_option maxHeartbeats 4000000 in
noncomputable def run1_E (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole)
    (hc0 : ¬cond1_0 i) (hc1 : ¬cond1_1 i) (hc2 : cond1_2 i) (hc3 : cond1_3 i)
    (x0 : Vec F S512x8192 .bf16) (x1 : Vec F S2x8 .f32) (x2 : Vec F S8x2 .f32) (x3 : Vec F S8x2 .f32) (x4 : Vec F S4096x8 .f32) (x5 : Vec F S2x8192 .f32)
    (xa : Vec F S4096x8 .f32) (xv : Vec F S4x8192 .f32) (xc : Vec F S1x8 .f32) (xt : Vec F S2x8192 .f32) (xr : Vec F S8192x4 .bf16) :
    Σ' (L8 : List (View.Piece (Elt F) S4096x8 .f32)) (L9 : List (View.Piece (Elt F) S8192x2 .f32)) (LA : List (View.Piece (Elt F) S4096x8 .f32)) (LV : List (View.Piece (Elt F) S4x8192 .f32)) (LC : List (View.Piece (Elt F) S1x8 .f32)) (LT : List (View.Piece (Elt F) S2x8192 .f32)),
      { LR : List (View.Piece (Elt F) S8192x4 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (∃ d, owns (c : Thread nD τ) arg9 fullShare d) ∗ owns (c : Thread nD τ) arg10 fullShare xa ∗ owns (c : Thread nD τ) arg11 fullShare xv ∗ owns (c : Thread nD τ) arg12 fullShare xc ∗ owns (c : Thread nD τ) arg13 fullShare xt ∗ owns (c : Thread nD τ) arg14 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread xa) LA) ∗ (arg11.view.loc (c : Thread nD τ) ↦[arg11.view.set]{fullShare} arg11.view.writes (Elt F) (harg11.unread xv) LV)
                ∗ (arg12.view.loc (c : Thread nD τ) ↦[arg12.view.set]{fullShare} arg12.view.writes (Elt F) (harg12.unread xc) LC) ∗ (arg13.view.loc (c : Thread nD τ) ↦[arg13.view.set]{fullShare} arg13.view.writes (Elt F) (harg13.unread xt) LT) ∗ (arg14.view.loc (c : Thread nD τ) ↦[arg14.view.set]{fullShare} arg14.view.writes (Elt F) (harg14.unread xr) LR)) -∗ K ⟨⟩))
          ⊢ wp frame (wpE (defs₀ (F := F)) Variants.none c none) E (cc1__body2 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc1__body2_eq_skeleton]; unfold cc1__body2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%fa, %hfa, HA⟩, ⟨%fv, %hfv, HV⟩, ⟨%fc, %hfc, HC⟩, ⟨%ft, %hft, HT⟩, ⟨%fr, %hfr, HR⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfa; obtain rfl := harg11.eq_unread hfv; obtain rfl := harg12.eq_unread hfc
    obtain rfl := harg13.eq_unread hft; obtain rfl := harg14.eq_unread hfr
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [HA]; · iexact HA
    isplitl [HV]; · iexact HV
    isplitl [HC]; · iexact HC
    isplitl [HT]; · iexact HT
    iexact HR

end Cert.KernelIdeal.Hand

end
-- ==== Proof.K1.Outs.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.RunE
import Idealize.ShloMosaic.Lib.Pipeline.Frame
import Idealize.ShloMosaic.Lib.Ring
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the second region's buffers hold after each grid point

  The second region makes four passes over the label matrix (message-passing steps 2 to 5), each in 8 blocks of
  512 rows: point `t = 8 s + i` is block `i` of pass `s`.  Between points it carries five scratch buffers: the
  worker array (whole array resident, the point's 512 rows rewritten), the two accumulators (the four hi/lo rows
  of the task-side products, and the column sums of the updated worker rows; zeroed at the first block of a
  pass), the wide task state and its hi/lo column copy (rewritten at the last block of a pass).  The two outputs'
  buffers are stored at the last point only.  The state after a point is the point's case run on the state the
  point before left; the first point initialises everything from the arguments.  -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### The memrefs the body is called with -/
abbrev ms1_0 (t : Fin cfg1.N) : Memref sig .tc .vmem S512x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x8192 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8192x2 .f32 := win1_7.stage (cfg1.slots t 7)
abbrev hs1_7 (t : Fin cfg1.N) : (ms1_7 t).IsWhole := hstage1_7 ((cfg1.slots t 7).cast nbuf1_7)
abbrev scM1_0 : Memref sig .tc .vmem S4096x8 .f32 := Memref.whole cc1_scratch0
abbrev hsc1_0 : scM1_0.IsWhole := Memref.isWhole_whole _
abbrev scM1_1 : Memref sig .tc .vmem S4x8192 .f32 := Memref.whole cc1_scratch1
abbrev hsc1_1 : scM1_1.IsWhole := Memref.isWhole_whole _
abbrev scM1_2 : Memref sig .tc .vmem S1x8 .f32 := Memref.whole cc1_scratch2
abbrev hsc1_2 : scM1_2.IsWhole := Memref.isWhole_whole _
abbrev scM1_3 : Memref sig .tc .vmem S2x8192 .f32 := Memref.whole cc1_scratch3
abbrev hsc1_3 : scM1_3.IsWhole := Memref.isWhole_whole _
abbrev scM1_4 : Memref sig .tc .vmem S8192x4 .bf16 := Memref.whole cc1_scratch4
abbrev hsc1_4 : scM1_4.IsWhole := Memref.isWhole_whole _
/-- One whole buffer of each output shape, through which contents are stated. -/
abbrev MP8 : Memref sig .tc .vmem S4096x8 .f32 := Memref.whole cc1_stg6_0
abbrev MP9 : Memref sig .tc .vmem S8192x2 .f32 := Memref.whole cc1_stg7_0
abbrev hMP8 : (MP8).IsWhole := Memref.isWhole_whole _
abbrev hMP9 : (MP9).IsWhole := Memref.isWhole_whole _

/-- The carried state: the two output buffers and the five scratch buffers. -/
structure St1 (F : FTy → Type) [FloatOps F] where
  o8 : Vec F S4096x8 .f32
  o9 : Vec F S8192x2 .f32
  sA : Vec F S4096x8 .f32
  sV : Vec F S4x8192 .f32
  sC : Vec F S1x8 .f32
  sT : Vec F S2x8192 .f32
  sR : Vec F S8192x4 .bf16

/-- After the first point of all: every scratch buffer is covered by the point's stores; the two outputs' buffers are not touched. -/
def caseA1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) : St1 F where
  o8 := MP8.view.read (Elt F) MP8.view.junk
  o9 := MP9.view.read (Elt F) MP9.view.junk
  sA := scM1_0.view.read (Elt F) (scM1_0.view.writes (Elt F) scM1_0.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1)
  sV := scM1_1.view.read (Elt F) (scM1_1.view.writes (Elt F) scM1_1.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1)
  sC := scM1_2.view.read (Elt F) (scM1_2.view.writes (Elt F) scM1_2.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1)
  sT := scM1_3.view.read (Elt F) (scM1_3.view.writes (Elt F) scM1_3.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1)
  sR := scM1_4.view.read (Elt F) (scM1_4.view.writes (Elt F) scM1_4.view.junk (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1)

/-- After the first block of a later step, over the state `p` the point before left: the two accumulators are covered, the point's rows of the worker array rewritten. -/
def caseB1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).1)
  sV := scM1_1.view.read (Elt F) (scM1_1.view.writes (Elt F) scM1_1.view.junk (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1)
  sC := scM1_2.view.read (Elt F) (scM1_2.view.writes (Elt F) scM1_2.view.junk (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1)
  sT := p.sT
  sR := p.sR

/-- After a middle block of a step, over the state `p` the point before left. -/
def caseC1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  sV := scM1_1.view.read (Elt F) (scM1_1.view.writes (Elt F) (hsc1_1.unread p.sV) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sC := scM1_2.view.read (Elt F) (scM1_2.view.writes (Elt F) (hsc1_2.unread p.sC) (run1_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sT := p.sT
  sR := p.sR

/-- After the last block of a step that is not the last, over the state `p` the point before left. -/
def caseD1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := p.o8
  o9 := p.o9
  sA := scM1_0.view.read (Elt F) (scM1_0.view.writes (Elt F) (hsc1_0.unread p.sA) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  sV := scM1_1.view.read (Elt F) (scM1_1.view.writes (Elt F) (hsc1_1.unread p.sV) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sC := scM1_2.view.read (Elt F) (scM1_2.view.writes (Elt F) (hsc1_2.unread p.sC) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sT := scM1_3.view.read (Elt F) (scM1_3.view.writes (Elt F) (hsc1_3.unread p.sT) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.1)
  sR := scM1_4.view.read (Elt F) (scM1_4.view.writes (Elt F) (hsc1_4.unread p.sR) (run1_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.1)

/-- After the last point of all, over the state `p` the point before left: both outputs' buffers are covered. -/
def caseE1 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) : St1 F where
  o8 := MP8.view.read (Elt F) (MP8.view.writes (Elt F) MP8.view.junk (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1)
  o9 := MP9.view.read (Elt F) (MP9.view.writes (Elt F) MP9.view.junk (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1)
  sA := scM1_0.view.read (Elt F) (scM1_0.view.writes (Elt F) (hsc1_0.unread p.sA) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.1)
  sV := scM1_1.view.read (Elt F) (scM1_1.view.writes (Elt F) (hsc1_1.unread p.sV) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.1)
  sC := scM1_2.view.read (Elt F) (scM1_2.view.writes (Elt F) (hsc1_2.unread p.sC) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.1)
  sT := scM1_3.view.read (Elt F) (scM1_3.view.writes (Elt F) (hsc1_3.unread p.sT) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.2.1)
  sR := scM1_4.view.read (Elt F) (scM1_4.view.writes (Elt F) (hsc1_4.unread p.sR) (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.2.2.2.2.2.1)

/-! ### Covers: where a case's stores fill a buffer, what it held before does not matter -/

theorem cover1A_A (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S4096x8.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1 S4096x8.size (by sl_kernel_rfl) y
theorem cover1A_V (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S4x8192.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.1 S4x8192.size (by sl_kernel_rfl) y
theorem cover1A_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S1x8.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1 S1x8.size (by sl_kernel_rfl) y
theorem cover1A_T (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S2x8192.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1 S2x8192.size (by sl_kernel_rfl) y
theorem cover1A_R (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (y : S8192x4.Idx) :
    ∃ pc ∈ (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1, y ∈ pc.1.set :=
  View.cover_of_tiledL (run1_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1 S8192x4.size (by sl_kernel_rfl) y
theorem cover1B_V (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S4x8192.Idx) :
    ∃ pc ∈ (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1, y ∈ pc.1.set :=
  View.cover_of_tiledL (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.1 S4x8192.size (by sl_kernel_rfl) y
theorem cover1B_C (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S1x8.Idx) :
    ∃ pc ∈ (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1, y ∈ pc.1.set :=
  View.cover_of_tiledL (run1_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sT p.sR).2.2.1 S1x8.size (by sl_kernel_rfl) y
theorem cover1E_8 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S4096x8.Idx) :
    ∃ pc ∈ (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1, y ∈ pc.1.set :=
  View.cover_of_tiledL (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).1 S4096x8.size (by sl_kernel_rfl) y
theorem cover1E_9 (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) (y : S8192x2.Idx) :
    ∃ pc ∈ (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1, y ∈ pc.1.set :=
  View.cover_of_tiledL (run1_E c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p.sA p.sV p.sC p.sT p.sR).2.1 S8192x2.size (by sl_kernel_rfl) y

/-! ### The recursion over the points -/

theorem N1_32 : cfg1.N = 32 := N_1

/-- The state after point `t` when it is the first of all, -/
def atA1 (c : Dev nD) (t : Fin cfg1.N) (h0 : t.val = 0) : St1 F :=
  caseA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    ((hcond1_0 t).mpr h0) ((hcond1_1 t).mpr (by omega)) (fun h => by have := (hcond1_2 t).mp h; omega) (fun h => by have := (hcond1_3 t).mp h; omega)
    (iblk1 V c 0 t) (iblk1 V c 1 t) (iblk1 V c 2 t) (iblk1 V c 3 t) (iblk1 V c 4 t) (iblk1 V c 5 t)
/-- the first block of a later step, -/
def atB1 (c : Dev nD) (t : Fin cfg1.N) (h0 : t.val ≠ 0) (hm : t.val % 8 = 0) (p : St1 F) : St1 F :=
  caseB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => h0 ((hcond1_0 t).mp h)) ((hcond1_1 t).mpr hm) (fun h => by have := (hcond1_2 t).mp h; omega) (fun h => by have := (hcond1_3 t).mp h; omega)
    (iblk1 V c 0 t) (iblk1 V c 1 t) (iblk1 V c 2 t) (iblk1 V c 3 t) (iblk1 V c 4 t) (iblk1 V c 5 t) p
/-- a middle block of a step, -/
def atC1 (c : Dev nD) (t : Fin cfg1.N) (hm : t.val % 8 ≠ 0) (hl : t.val % 8 ≠ 7) (p : St1 F) : St1 F :=
  caseC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => hm ((hcond1_1 t).mp h)) (fun h => hl ((hcond1_2 t).mp h)) (fun h => by have := (hcond1_3 t).mp h; omega)
    (iblk1 V c 0 t) (iblk1 V c 1 t) (iblk1 V c 2 t) (iblk1 V c 3 t) (iblk1 V c 4 t) (iblk1 V c 5 t) p
/-- the last block of a step that is not the last, -/
def atD1 (c : Dev nD) (t : Fin cfg1.N) (hl : t.val % 8 = 7) (h31 : t.val ≠ 31) (p : St1 F) : St1 F :=
  caseD1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => by have := (hcond1_1 t).mp h; omega) ((hcond1_2 t).mpr hl) (fun h => h31 ((hcond1_3 t).mp h))
    (iblk1 V c 0 t) (iblk1 V c 1 t) (iblk1 V c 2 t) (iblk1 V c 3 t) (iblk1 V c 4 t) (iblk1 V c 5 t) p
/-- or the last point of all. -/
def atE1 (c : Dev nD) (t : Fin cfg1.N) (h31 : t.val = 31) (p : St1 F) : St1 F :=
  caseE1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 scM1_4 hsc1_4
    (fun h => by have := (hcond1_0 t).mp h; omega) (fun h => by have := (hcond1_1 t).mp h; omega) ((hcond1_2 t).mpr (by omega)) ((hcond1_3 t).mpr h31)
    (iblk1 V c 0 t) (iblk1 V c 1 t) (iblk1 V c 2 t) (iblk1 V c 3 t) (iblk1 V c 4 t) (iblk1 V c 5 t) p

/-- What the buffers hold after the body at position `n`. -/
def outsAt1 (c : Dev nD) : (n : ℕ) → n < cfg1.N → St1 F
  | 0, hn => atA1 V c ⟨0, hn⟩ rfl
  | n + 1, hn =>
    if hl : (n + 1) % 8 = 7 then
      if h31 : n + 1 = 31 then atE1 V c ⟨n + 1, hn⟩ h31 (outsAt1 c n (Nat.lt_of_succ_lt hn))
      else atD1 V c ⟨n + 1, hn⟩ hl h31 (outsAt1 c n (Nat.lt_of_succ_lt hn))
    else
      if hm : (n + 1) % 8 = 0 then atB1 V c ⟨n + 1, hn⟩ (Nat.succ_ne_zero n) hm (outsAt1 c n (Nat.lt_of_succ_lt hn))
      else atC1 V c ⟨n + 1, hn⟩ hm hl (outsAt1 c n (Nat.lt_of_succ_lt hn))

theorem outsAt1_A (c : Dev nD) (t : Fin cfg1.N) (h0 : t.val = 0) : outsAt1 V c t.val t.isLt = atA1 V c t h0 := by
  obtain ⟨n, hn⟩ := t
  cases n with
  | zero => rfl
  | succ n => exact absurd h0 (Nat.succ_ne_zero n)

theorem outsAt1_B (c : Dev nD) (t : Fin cfg1.N) (h0 : t.val ≠ 0) (hm : t.val % 8 = 0) :
    outsAt1 V c t.val t.isLt = atB1 V c t h0 hm (outsAt1 V c (t.val - 1) (Nat.lt_of_le_of_lt (Nat.sub_le _ _) t.isLt)) := by
  obtain ⟨n, hn⟩ := t
  cases n with
  | zero => exact absurd rfl h0
  | succ n => exact (dif_neg (by dsimp only at hm; omega)).trans ((dif_pos hm).trans rfl)

theorem outsAt1_C (c : Dev nD) (t : Fin cfg1.N) (hm : t.val % 8 ≠ 0) (hl : t.val % 8 ≠ 7) :
    outsAt1 V c t.val t.isLt = atC1 V c t hm hl (outsAt1 V c (t.val - 1) (Nat.lt_of_le_of_lt (Nat.sub_le _ _) t.isLt)) := by
  obtain ⟨n, hn⟩ := t
  cases n with
  | zero => exact absurd (Nat.zero_mod 8) hm
  | succ n => exact (dif_neg hl).trans ((dif_neg hm).trans rfl)

theorem outsAt1_D (c : Dev nD) (t : Fin cfg1.N) (hl : t.val % 8 = 7) (h31 : t.val ≠ 31) :
    outsAt1 V c t.val t.isLt = atD1 V c t hl h31 (outsAt1 V c (t.val - 1) (Nat.lt_of_le_of_lt (Nat.sub_le _ _) t.isLt)) := by
  obtain ⟨n, hn⟩ := t
  cases n with
  | zero => exact (by exfalso; (try dsimp only at hl); omega)
  | succ n => exact (dif_pos hl).trans ((dif_neg h31).trans rfl)

theorem outsAt1_E (c : Dev nD) (t : Fin cfg1.N) (h31 : t.val = 31) :
    outsAt1 V c t.val t.isLt = atE1 V c t h31 (outsAt1 V c (t.val - 1) (Nat.lt_of_le_of_lt (Nat.sub_le _ _) t.isLt)) := by
  obtain ⟨n, hn⟩ := t
  cases n with
  | zero => exact (by exfalso; (try dsimp only at h31); omega)
  | succ n => exact (dif_pos (by dsimp only at h31; omega)).trans ((dif_pos h31).trans rfl)

/-! ### The invariant between points -/

/-- The scoped buffers the second region does not use (the first region's staging and scratch buffers), each at
    some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- Before the first point every scratch buffer holds anything; afterwards each holds what the point before left. -/
def PhiS1 (c : Dev nD) : (n : ℕ) → n ≤ cfg1.N → sProp 𝕄
  | 0, _ => Pipeline.ΦA spec1 c
  | n + 1, hn => iprop(iprop(Rest1 c ∗ owns (c : Thread nD τ) scM1_0 fullShare (outsAt1 V c n hn).sA ∗ owns (c : Thread nD τ) scM1_1 fullShare (outsAt1 V c n hn).sV ∗ owns (c : Thread nD τ) scM1_2 fullShare (outsAt1 V c n hn).sC ∗ owns (c : Thread nD τ) scM1_3 fullShare (outsAt1 V c n hn).sT ∗ owns (c : Thread nD τ) scM1_4 fullShare (outsAt1 V c n hn).sR) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 c ∗ owns (c : Thread nD τ) scM1_0 fullShare (outsAt1 V c n hn).sA ∗ owns (c : Thread nD τ) scM1_1 fullShare (outsAt1 V c n hn).sV ∗ owns (c : Thread nD τ) scM1_2 fullShare (outsAt1 V c n hn).sC ∗ owns (c : Thread nD τ) scM1_3 fullShare (outsAt1 V c n hn).sT ∗ owns (c : Thread nD τ) scM1_4 fullShare (outsAt1 V c n hn).sR) ∗ (∃ r, prngReg c r)) := rfl

theorem PhiS1_pos (c : Dev nD) (n : ℕ) (h : n ≤ cfg1.N) (hz : n ≠ 0) :
    PhiS1 V c n h = iprop(iprop(Rest1 c ∗ owns (c : Thread nD τ) scM1_0 fullShare (outsAt1 V c (n - 1) (by omega)).sA ∗ owns (c : Thread nD τ) scM1_1 fullShare (outsAt1 V c (n - 1) (by omega)).sV ∗ owns (c : Thread nD τ) scM1_2 fullShare (outsAt1 V c (n - 1) (by omega)).sC ∗ owns (c : Thread nD τ) scM1_3 fullShare (outsAt1 V c (n - 1) (by omega)).sT ∗ owns (c : Thread nD τ) scM1_4 fullShare (outsAt1 V c (n - 1) (by omega)).sR) ∗ (∃ r, prngReg c r)) := by
  cases n with
  | zero => exact absurd rfl hz
  | succ n => rfl

/-- Separating conjunction is associative, as an equation between assertions. -/
theorem sep_assoc_eq1 (P Q R : sProp 𝕄) : iprop((P ∗ Q) ∗ R) = iprop(P ∗ Q ∗ R) :=
  BI.equiv_iff.mp ⟨Idealize.SL.BI.sep_assoc, Idealize.SL.BI.sep_assoc'⟩

/-- The class invariant with the region's five scratch buffers as memrefs owned at some contents. -/
theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d)) ∗ (∃ r, prngReg c r)) := by
  unfold Pipeline.ΦA Rest1; rw [scopedRest1_eq]; simp only [scM1_0, scM1_1, scM1_2, scM1_3, scM1_4, owns_whole, sep_assoc_eq1]; try rfl

/-! ### The proof data -/

/-- The arrays as the region finds them; after the body at point `t` each input's buffer at its block, each
    output's at the carried state's component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).o8
    | ⟨7, _⟩ => (outsAt1 V c t.val t.isLt).o9
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).o8 := by dsimp only [dat1]
theorem after1_7 (c : Dev nD) (t : Fin cfg1.N) : (dat1 V c).after 7 t = (outsAt1 V c t.val t.isLt).o9 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ### Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel
theorem idleAt1_7 : ∀ t : Fin cfg1.N, ¬cond1_3 (grid1.coords t) → cfg1.idle 7 (grid1.coords t) = true := by decide +kernel
theorem noFlush1_7 : ∀ t : Fin cfg1.N, ¬cond1_3 (grid1.coords t) → (cfg1.win 7).flush t = false := by decide +kernel
theorem liveAt1_7 : ∀ t : Fin cfg1.N, cond1_3 (grid1.coords t) → cfg1.idle 7 (grid1.coords t) = false := by decide +kernel

end Cert.KernelIdeal.Hand

end
-- ==== Proof.K1.Body.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.Outs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's body obligation

  At every grid point: from the invariant (the scratch buffers at what the point before left, at anything before
  the first point), nothing owed, and every window's staging buffer at what it then holds, the body runs to the
  invariant at the next point and every staging buffer at what the proof data says the body leaves.  By cases on
  the point (the first of all; the first, a middle or the last block of a pass; the last of all), each case its
  own run.  -/

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 32 := lt_of_lt_of_eq t.isLt N1_32
  by_cases h0 : t.val = 0
  · -- the first point of all: everything is initialised by covering stores
    have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [Dat.leavesExact_idle (dat1 V c) 7 t (idleAt1_7 t hc3) (noFlush1_7 t hc3)]
    rw [outsAt1_A V c t h0]
    unfold atA1 caseA1; (try dsimp only)
    rw [PhiS1_castSucc V c t, PhiS1_zero V c _ _ h0, PhiA1_eq]
    iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_A c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H8, H9, ⟨%eA, HA⟩, ⟨%eV, HV⟩, ⟨%eC, HC⟩, ⟨%eT, HT⟩, ⟨%eR, HR⟩⟩
    isplitl [Hrest HA HV HC HT HR Hg]
    · isplitl [Hrest HA HV HC HT HR]
      · isplitl [Hrest]; · iexact Hrest
        isplitl [HA]
        · unfold owns; iexists _; isplitr
          swap; · iexact HA
          ipureintro; exact View.read_writes_of_cover _ _ _ _ _ (cover1A_A c _ _ _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (cover1A_V c _ _ _ _ _ _ _ _ _ _ _ _ _ _ _ _ _ _ _ _ _ _ _ _ _ _ _ _ _ _ _ _ _ _ _ _ _)
        isplitl [HC]
        · unfold owns; iexists _; isplitr
          swap; · iexact HC
          ipureintro; exact View.read_writes_of_cover _ _ _ _ _ (cover1A_C c _ _ _ _ _ _ _ _ _ _ _ _ _ _ _ _ _ _ _ _ _ _ _ _ _ _ _ _ _ _ _ _ _ _ _ _ _)
        isplitl [HT]
        · unfold owns; iexists _; isplitr
          swap; · iexact HT
          ipureintro; exact View.read_writes_of_cover _ _ _ _ _ (cover1A_T c _ _ _ _ _ _ _ _ _ _ _ _ _ _ _ _ _ _ _ _ _ _ _ _ _ _ _ _ _ _ _ _ _ _ _ _ _)
        unfold owns; iexists _; isplitr
        swap; · iexact HR
        ipureintro; exact View.read_writes_of_cover _ _ _ _ _ (cover1A_R c _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H8]; · iexists _; iexact H8
    iexists _; iexact H9
  · by_cases hl : t.val % 8 = 7
    · by_cases h31 : t.val = 31
      · -- the last point of all: the pass is finished and both results stored into their output buffers
        have hc0 : ¬cond1_0 (grid1.coords t) := fun h => h0 ((hcond1_0 t).mp h)
        have hc1 : ¬cond1_1 (grid1.coords t) := fun h => by have := (hcond1_1 t).mp h; omega
        have hc2 : cond1_2 (grid1.coords t) := (hcond1_2 t).mpr hl
        have hc3 : cond1_3 (grid1.coords t) := (hcond1_3 t).mpr h31
        rw [show (dat1 V c).leavesExact 6 t = owns (c : Thread nD τ) (ms1_6 t) fullShare ((dat1 V c).after 6 t) from by
          unfold Dat.leavesExact; rw [liveAt1_6 t hc3], after1_6]
        rw [show (dat1 V c).leavesExact 7 t = owns (c : Thread nD τ) (ms1_7 t) fullShare ((dat1 V c).after 7 t) from by
          unfold Dat.leavesExact; rw [liveAt1_7 t hc3], after1_7]
        rw [outsAt1_E V c t h31]
        unfold atE1 caseE1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_E c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e8, H8⟩, ⟨%e9, H9⟩, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]
            · unfold owns; iexists _; isplitr
              swap; · iexact HT
              ipureintro; rfl
            unfold owns; iexists _; isplitr
            swap; · iexact HR
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]
        · unfold owns; iexists _; isplitr
          swap; · iexact H8
          ipureintro; exact View.read_writes_of_cover _ _ _ _ _ (cover1E_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover1E_9 c _ _ _ _ _ _ _ _ _ _ _ _ _ _ _ _ _ _ _ _ _ _ _ _ _ _ _ _ _ _ _ _ _ _ _ _ _ _)
      · -- the last block of an earlier pass: the pass is finished
        have hc0 : ¬cond1_0 (grid1.coords t) := fun h => h0 ((hcond1_0 t).mp h)
        have hc1 : ¬cond1_1 (grid1.coords t) := fun h => by have := (hcond1_1 t).mp h; omega
        have hc2 : cond1_2 (grid1.coords t) := (hcond1_2 t).mpr hl
        have hc3 : ¬cond1_3 (grid1.coords t) := fun h => h31 ((hcond1_3 t).mp h)
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_D V c t hl h31]
        unfold atD1 caseD1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_D c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, H8, H9, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]
            · unfold owns; iexists _; isplitr
              swap; · iexact HT
              ipureintro; rfl
            unfold owns; iexists _; isplitr
            swap; · iexact HR
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9
    · by_cases hm : t.val % 8 = 0
      · -- the first block of a later pass: the accumulators are zeroed
        have hc0 : ¬cond1_0 (grid1.coords t) := fun h => h0 ((hcond1_0 t).mp h)
        have hc1 : cond1_1 (grid1.coords t) := (hcond1_1 t).mpr hm
        have hc2 : ¬cond1_2 (grid1.coords t) := fun h => hl ((hcond1_2 t).mp h)
        have hc3 : ¬cond1_3 (grid1.coords t) := fun h => by have := (hcond1_3 t).mp h; omega
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_B V c t h0 hm]
        unfold atB1 caseB1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_B c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexists _; iexact HS1
        isplitl [HS2]; · iexists _; iexact HS2
        isplitl [HS3]; · iexact HS3
        isplitl [HS4]; · iexact HS4
        iintro ⟨H0, H1, H2, H3, H4, H5, H8, H9, HA, ⟨%eV, HV⟩, ⟨%eC, HC⟩, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; exact View.read_writes_of_cover _ _ _ _ _ (cover1B_V c _ _ _ _ _ _ _ _ _ _ _ _ _ _ _ _ _ _ _ _ _ _ _ _ _ _ _ _ _ _ _ _ _ _ _ _ _ _)
            isplitl [HC]
            · unfold owns; iexists _; isplitr
              swap; · iexact HC
              ipureintro; exact View.read_writes_of_cover _ _ _ _ _ (cover1B_C c _ _ _ _ _ _ _ _ _ _ _ _ _ _ _ _ _ _ _ _ _ _ _ _ _ _ _ _ _ _ _ _ _ _ _ _ _ _)
            isplitl [HT]; · iexact HT
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9
      · -- a middle block
        have hc0 : ¬cond1_0 (grid1.coords t) := fun h => h0 ((hcond1_0 t).mp h)
        have hc1 : ¬cond1_1 (grid1.coords t) := fun h => hm ((hcond1_1 t).mp h)
        have hc2 : ¬cond1_2 (grid1.coords t) := fun h => hl ((hcond1_2 t).mp h)
        have hc3 : ¬cond1_3 (grid1.coords t) := fun h => by have := (hcond1_3 t).mp h; omega
        rw [Dat.leavesExact_idle (dat1 V c) 6 t (idleAt1_6 t hc3) (noFlush1_6 t hc3)]
        rw [Dat.leavesExact_idle (dat1 V c) 7 t (idleAt1_7 t hc3) (noFlush1_7 t hc3)]
        rw [outsAt1_C V c t hm hl]
        unfold atC1 caseC1; (try dsimp only)
        rw [PhiS1_castSucc V c t, PhiS1_pos V c _ _ h0]
        iintro ⟨⟨⟨Hrest, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((run1_C c (grid1.coords t) _ _ _ _ _ _ _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) _ _ _ _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, H8, H9, HA, HV, HC, HT, HR⟩
        isplitl [Hrest HA HV HC HT HR Hg]
        · isplitl [Hrest HA HV HC HT HR]
          · isplitl [Hrest]; · iexact Hrest
            isplitl [HA]
            · unfold owns; iexists _; isplitr
              swap; · iexact HA
              ipureintro; rfl
            isplitl [HV]
            · unfold owns; iexists _; isplitr
              swap; · iexact HV
              ipureintro; rfl
            isplitl [HC]
            · unfold owns; iexists _; isplitr
              swap; · iexact HC
              ipureintro; rfl
            isplitl [HT]; · iexact HT
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H8]; · iexists _; iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hrest, HS0, HS1, HS2, HS3, HS4⟩, Hg⟩
  isplitl [Hrest HS0 HS1 HS2 HS3 HS4]
  · isplitl [Hrest]; · iexact Hrest
    isplitl [HS0]; · iexists _; iexact HS0
    isplitl [HS1]; · iexists _; iexact HS1
    isplitl [HS2]; · iexists _; iexact HS2
    isplitl [HS3]; · iexists _; iexact HS3
    iexists _; iexact HS4
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.MainK.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Body
import proofs.«170901_g57982058496645_cont_sun_m_527_4_alg».proof.Proof.K1.Body
import Idealize.ShloMosaic.Lib.Pipeline.RegionsLoop
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole run

  The program is eight host operations (the parameter blocks cut and subtracted), then the two regions.  The
  buffers' contents at each boundary are a fold from the launch memory: after the host operations; after the
  first region (its arrays at what its write-backs leave, every other buffer untouched); after the second
  likewise.  Every weakly fair execution terminates and ends with every unscoped buffer at the last boundary's
  contents: the arguments as launched, the two results at what the second region's last point wrote back.  -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered from every unscoped buffer at the boundary's contents, its arrays
    split out and put back at what its write-backs leave; the scoped rest and the generator register go into the
    invariant before the first point and come back after the last; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, its arrays
    split out and put back at what its write-backs leave; the scoped rest and the generator register go into the
    invariant before the first point and come back after the last; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.Spec.Step.lean ====
import Mathlib

/-!
# One message-passing step, in two arrangements

A step updates a pair `(a, t)` of real matrices from a 0/1-style mask `M`
(any real matrix works) and two small weight tensors.  `stepRef` is the
arrangement "mask, then multiply"; `stepKer` moves every sum over the big
index to a single product with `M` and uses
`∑ k, (1 - M p k) * x k = (∑ k, x k) - ∑ k, M p k * x k`.
Both are stated for arbitrary finite index types.
-/

namespace Cert.Spec

open Finset

variable {P K Q : Type} [Fintype P] [Fintype K] [Fintype Q]

/-- The updated `a`, reference arrangement. -/
def aRef (M : P → K → ℝ) (A2 : Fin 2 → Q → ℝ) (a : P → Q → ℝ) (t : K → Fin 2 → ℝ) :
    P → Q → ℝ := fun p q =>
  a p q + ∑ k, (1 - M p k) * (t k 0 * A2 0 q) + ∑ k, M p k * (t k 1 * A2 1 q)

/-- The updated `t` from an already updated `a'`, reference arrangement. -/
def tRef (M : P → K → ℝ) (W : Fin 2 → Q → Fin 2 → ℝ) (a' : P → Q → ℝ) (t : K → Fin 2 → ℝ) :
    K → Fin 2 → ℝ := fun k j =>
  t k j + ∑ p, (1 - M p k) * (∑ q, a' p q * W 0 q j) + ∑ p, M p k * (∑ q, a' p q * W 1 q j)

/-- One step, reference arrangement. -/
def stepRef (M : P → K → ℝ) (A2 : Fin 2 → Q → ℝ) (W : Fin 2 → Q → Fin 2 → ℝ)
    (s : (P → Q → ℝ) × (K → Fin 2 → ℝ)) : (P → Q → ℝ) × (K → Fin 2 → ℝ) :=
  (aRef M A2 s.1 s.2, tRef M W (aRef M A2 s.1 s.2) s.2)

/-- The updated `a`, kernel arrangement: `u p j = ∑ k, M p k * t k j`, `s0 = ∑ k, t k 0`. -/
def aKer (M : P → K → ℝ) (A2 : Fin 2 → Q → ℝ) (a : P → Q → ℝ) (t : K → Fin 2 → ℝ) :
    P → Q → ℝ := fun p q =>
  a p q + ((∑ k, t k 0) - ∑ k, M p k * t k 0) * A2 0 q + (∑ k, M p k * t k 1) * A2 1 q

/-- The updated `t` from an already updated `a'`, kernel arrangement:
`g p j = ∑ q, a' p q * (W 1 q j - W 0 q j)`, `c j = ∑ q, (∑ p, a' p q) * W 0 q j`. -/
def tKer (M : P → K → ℝ) (W : Fin 2 → Q → Fin 2 → ℝ) (a' : P → Q → ℝ) (t : K → Fin 2 → ℝ) :
    K → Fin 2 → ℝ := fun k j =>
  t k j + (∑ q, (∑ p, a' p q) * W 0 q j) + ∑ p, (∑ q, a' p q * (W 1 q j - W 0 q j)) * M p k

/-- One step, kernel arrangement. -/
def stepKer (M : P → K → ℝ) (A2 : Fin 2 → Q → ℝ) (W : Fin 2 → Q → Fin 2 → ℝ)
    (s : (P → Q → ℝ) × (K → Fin 2 → ℝ)) : (P → Q → ℝ) × (K → Fin 2 → ℝ) :=
  (aKer M A2 s.1 s.2, tKer M W (aKer M A2 s.1 s.2) s.2)

theorem aRef_eq_aKer (M : P → K → ℝ) (A2 : Fin 2 → Q → ℝ) (a : P → Q → ℝ)
    (t : K → Fin 2 → ℝ) : aRef M A2 a t = aKer M A2 a t := by
  funext p q
  simp only [aRef, aKer]
  have h0 : ∑ k, (1 - M p k) * (t k 0 * A2 0 q)
      = ((∑ k, t k 0) - ∑ k, M p k * t k 0) * A2 0 q := by
    rw [← Finset.sum_sub_distrib, Finset.sum_mul]
    exact Finset.sum_congr rfl fun k _ => by ring
  have h1 : ∑ k, M p k * (t k 1 * A2 1 q) = (∑ k, M p k * t k 1) * A2 1 q := by
    rw [Finset.sum_mul]
    exact Finset.sum_congr rfl fun k _ => by ring
  rw [h0, h1]

theorem tRef_eq_tKer (M : P → K → ℝ) (W : Fin 2 → Q → Fin 2 → ℝ) (a' : P → Q → ℝ)
    (t : K → Fin 2 → ℝ) : tRef M W a' t = tKer M W a' t := by
  funext k j
  simp only [tRef, tKer]
  have hc : ∑ q, (∑ p, a' p q) * W 0 q j = ∑ p, ∑ q, a' p q * W 0 q j := by
    rw [Finset.sum_comm]
    exact Finset.sum_congr rfl fun q _ => by rw [Finset.sum_mul]
  have hg : ∀ p, (∑ q, a' p q * (W 1 q j - W 0 q j))
      = (∑ q, a' p q * W 1 q j) - ∑ q, a' p q * W 0 q j := by
    intro p
    rw [← Finset.sum_sub_distrib]
    exact Finset.sum_congr rfl fun q _ => by ring
  rw [hc, add_assoc, add_assoc, ← Finset.sum_add_distrib, ← Finset.sum_add_distrib]
  congr 1
  exact Finset.sum_congr rfl fun p _ => by rw [hg p]; ring

/-- The two arrangements of a step agree. -/
theorem stepRef_eq_stepKer (M : P → K → ℝ) (A2 : Fin 2 → Q → ℝ) (W : Fin 2 → Q → Fin 2 → ℝ) :
    stepRef M A2 W = stepKer M A2 W := by
  funext s
  simp only [stepRef, stepKer, aRef_eq_aKer, tRef_eq_tKer]

/-- Iterating the two arrangements agrees. -/
theorem stepRef_iterate_eq (M : P → K → ℝ) (A2 : Fin 2 → Q → ℝ) (W : Fin 2 → Q → Fin 2 → ℝ)
    (n : ℕ) : (stepRef M A2 W)^[n] = (stepKer M A2 W)^[n] := by
  rw [stepRef_eq_stepKer]

end Cert.Spec
-- ==== Proof.Spec.Closed.lean ====
import proofs.«170901_g57982058496645_cont_sun_m_527_4_alg».proof.Proof.Spec.Step
import Idealize.ShloMosaic.Lib.ValueIdx

/-!
# The result as a function of the five argument arrays

The integer array is read as the real matrix of its entries' signed values; each float array is
read entry by entry through `EReal.toReal` (under the precondition every entry is a real, so
nothing is lost).  The result is five reference steps from the two initial matrices, coerced
back to extended reals.
-/

noncomputable section

namespace Cert.Spec

open Idealize.ShloMosaic Idealize.ShloMosaic.ValueIdx

/-- The mask: the signed value of each integer entry. -/
def realM (x0 : IVec ⟨2, ![4096, 8192]⟩ 32) : Fin 4096 → Fin 8192 → ℝ :=
  fun p k => ((x0 (ix2 p k)).toInt : ℝ)

/-- The weights of the second update: `W e q j` is entry `(e, q, j)`. -/
def realW (x1 : FVec Ideal ⟨3, ![2, 8, 2]⟩ .f32) : Fin 2 → Fin 8 → Fin 2 → ℝ :=
  fun e q j => (x1 (ix3 e q j)).toReal

/-- The weights of the first update: `A2 e q` is entry `(e, 0, q)`. -/
def realA2 (x2 : FVec Ideal ⟨3, ![2, 1, 8]⟩ .f32) : Fin 2 → Fin 8 → ℝ :=
  fun e q => (x2 (ix3 e (0 : Fin 1) q)).toReal

/-- A float matrix read as a real matrix. -/
def real2 {m n : ℕ} (x : FVec Ideal ⟨2, ![m, n]⟩ .f32) : Fin m → Fin n → ℝ :=
  fun p q => (x (ix2 p q)).toReal

/-- Five reference steps from the initial matrices. -/
def refOut (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) :
    (Fin 4096 → Fin 8 → ℝ) × (Fin 8192 → Fin 2 → ℝ) :=
  (stepRef (realM x0) (realA2 x2) (realW x1))^[5] (real2 x3, real2 x4)

/-- The first result array. -/
def out0 (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) : FVec Ideal ⟨2, ![4096, 8]⟩ .f32 :=
  fun i => (((refOut x0 x1 x2 x3 x4).1 (i 0) (i 1) : ℝ) : EReal)

/-- The second result array. -/
def out1 (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) : FVec Ideal ⟨2, ![8192, 2]⟩ .f32 :=
  fun i => (((refOut x0 x1 x2 x3 x4).2 (i 0) (i 1) : ℝ) : EReal)

/-- Five steps in the kernel's arrangement. -/
def kerOut (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) :
    (Fin 4096 → Fin 8 → ℝ) × (Fin 8192 → Fin 2 → ℝ) :=
  (stepKer (realM x0) (realA2 x2) (realW x1))^[5] (real2 x3, real2 x4)

/-- The two arrangements give the same five steps. -/
theorem kerOut_eq_refOut (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) : kerOut x0 x1 x2 x3 x4 = refOut x0 x1 x2 x3 x4 := by
  unfold kerOut refOut
  rw [stepRef_iterate_eq]

/-- The same five steps in the kernel's arrangement. -/
theorem refOut_eq_ker (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) :
    refOut x0 x1 x2 x3 x4 = (stepKer (realM x0) (realA2 x2) (realW x1))^[5] (real2 x3, real2 x4) := by
  unfold refOut
  rw [stepRef_iterate_eq]

/-- An extended real that is a real is the coercion of its real part. -/
theorem coe_toReal_of_real {x : EReal} (h : ∃ r : ℝ, x = (r : EReal)) : ((x.toReal : ℝ) : EReal) = x := by
  obtain ⟨r, rfl⟩ := h
  rfl

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Spec

end
-- ==== Proof.Spec.Read.lean ====
import Idealize.ShloMosaic.Lib.ValueLayout
import Idealize.ShloMosaic.PureOps.Ideal.Laws

/-!
# Operations read at an index

A matrix product with one contracted axis read at `(p, q)` is the sum over the contracted
coordinate; a column of a two-column array repeated along eight columns, a row of a `[2, 1, 8]`
array repeated along all rows, and a slab of a `[2, 8, 2]` array seen as a matrix each read one
entry of the array they are cut from.
-/

noncomputable section

namespace Cert.Spec

open Idealize.ShloMosaic Idealize.ShloMosaic.ValueIdx

/-- A product "rows × contraction times contraction × columns" at `(p, q)` is
`∑ x, l (p, x) * r (x, q)`. -/
theorem dot_plain_apply {m k n : ℕ} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![m, k]⟩ φ₁) (r : FVec Ideal ⟨2, ![k, n]⟩ φ₂) (p : Fin m) (q : Fin n) :
    Host.dotGeneral D none l r (ix2 p q) = ∑ x : Fin k, l (ix2 p x) * r (ix2 x q) := by
  obtain ⟨lc, rc, ln, rn, lb, rb, wf⟩ := D
  simp only at h1 h2 h3 h4 h5 h6
  subst h1 h2 h3 h4 h5 h6
  generalize hD : (⟨[1], [0], [0], [1], [], [], wf⟩ : DotDims ⟨2, ![m, k]⟩ ⟨2, ![k, n]⟩ ⟨2, ![m, n]⟩) = D
  have h1 : D.lhsContracting = [1] := by rw [← hD]
  have h2 : D.rhsContracting = [0] := by rw [← hD]
  have hr : D.contr.rank = 1 := by rw [D.rank_contr, h1]; rfl
  have hs : D.contr.size ⟨0, by omega⟩ = k := by
    rw [D.size_contr 0 (by rw [h1]; exact Nat.one_pos)]; simp [h1]
  show FloatOps.dotGeneral D none .single l r (ix2 p q) = _
  rw [Ideal.dotGeneral_apply, ← Equiv.sum_comp (contrEquiv1 D k hr hs).symm]
  refine Finset.sum_congr rfl fun x _ => ?_
  have el : D.lhsIdx (ix2 p q) ((contrEquiv1 D k hr hs).symm x) = ix2 p x := by
    funext a
    match a with
    | ⟨0, _⟩ =>
      refine Fin.ext ?_
      subst hD
      simp [DotDims.lhsIdx] <;> rfl
    | ⟨1, _⟩ =>
      exact Fin.ext ((D.lhsIdx_val_of_single h1 _ _).trans (contrEquiv1_symm_val D k hr hs x))
  have er : D.rhsIdx (ix2 p q) ((contrEquiv1 D k hr hs).symm x) = ix2 x q := by
    funext a
    match a with
    | ⟨0, _⟩ =>
      exact Fin.ext ((D.rhsIdx_val_of_single h2 _ _).trans (contrEquiv1_symm_val D k hr hs x))
    | ⟨1, _⟩ =>
      refine Fin.ext ?_
      subst hD
      simp [DotDims.rhsIdx] <;> rfl
  rw [el, er]

variable {α : Type}

/-- Column `e` of a two-column array, repeated along eight columns, reads the array's `(k, e)`. -/
theorem col_apply (o : ℕ) (t : (⟨2, ![8192, 2]⟩ : Shape).Idx → α)
    (h : (⟨2, ![8192, 2]⟩ : Shape).Slices ![0, o] ⟨2, ![8192, 1]⟩)
    (hb : (⟨2, ![8192, 1]⟩ : Shape).BroadcastsInDim ⟨2, ![8192, 8]⟩ (![0, 1] : Fin 2 → Fin 2))
    (e : Fin 2) (he : e.val = o) (k : Fin 8192) (q : Fin 8) :
    broadcastInDim ⟨2, ![8192, 8]⟩ ![0, 1] hb (extractStridedSlice ⟨2, ![8192, 1]⟩ ![0, o] t h) (ix2 k q)
      = t (ix2 k e) := by
  refine (broadcastInDim_apply _ hb _ (ix2 k q) (ix2 k (0 : Fin 1)) fun a => ?_).trans
    (slice2_axis1_apply o t h k 0 e (by simp [he]))
  match a with
  | ⟨0, _⟩ => rfl
  | ⟨1, _⟩ => rfl

/-- Row `(e, 0, ·)` of a `[2, 1, 8]` array, repeated along 8192 rows, reads the array's `(e, 0, q)`. -/
theorem row_apply (o : ℕ) (x2 : (⟨3, ![2, 1, 8]⟩ : Shape).Idx → α)
    (h : (⟨3, ![2, 1, 8]⟩ : Shape).Slices ![o, 0, 0] ⟨3, ![1, 1, 8]⟩)
    (hc : (⟨3, ![1, 1, 8]⟩ : Shape).ShapeCasts ⟨1, ![8]⟩)
    (hb1 : (⟨1, ![8]⟩ : Shape).BroadcastsInDim ⟨2, ![1, 8]⟩ (![1] : Fin 1 → Fin 2))
    (hb2 : (⟨2, ![1, 8]⟩ : Shape).BroadcastsInDim ⟨2, ![8192, 8]⟩ (![0, 1] : Fin 2 → Fin 2))
    (e : Fin 2) (he : e.val = o) (k : Fin 8192) (q : Fin 8) :
    broadcastInDim ⟨2, ![8192, 8]⟩ ![0, 1] hb2 (broadcastInDim ⟨2, ![1, 8]⟩ ![1] hb1
        (shapeCast ⟨1, ![8]⟩ (extractStridedSlice ⟨3, ![1, 1, 8]⟩ ![o, 0, 0] x2 h) hc)) (ix2 k q)
      = x2 (ix3 e (0 : Fin 1) q) := by
  refine (broadcastInDim_apply _ hb2 _ (ix2 k q) (ix2 (0 : Fin 1) q) fun a => ?_).trans ?_
  · match a with
    | ⟨0, _⟩ => rfl
    | ⟨1, _⟩ => rfl
  refine (broadcastInDim_apply _ hb1 _ (ix2 (0 : Fin 1) q) (ix1 q) fun a => ?_).trans ?_
  · match a with
    | ⟨0, _⟩ => rfl
  refine (shapeCast_apply _ hc (ix1 q) (ix3 (0 : Fin 1) (0 : Fin 1) q) ?_).trans ?_
  · rw [Shape.rowMajor_val_three, Shape.rowMajor_val_one]
    show (0 * 1 + 0) * 8 + q.val = q.val
    omega
  refine extractStridedSlice_apply _ _ h _ (ix3 e (0 : Fin 1) q) fun a => ?_
  match a with
  | ⟨0, _⟩ => show e.val = o + 0; omega
  | ⟨1, _⟩ => rfl
  | ⟨2, _⟩ => show q.val = 0 + q.val; omega

/-- Slab `e` of a `[2, 8, 2]` array as an `[8, 2]` matrix reads the array's `(e, q, j)`. -/
theorem slab_apply (o : ℕ) (x1 : (⟨3, ![2, 8, 2]⟩ : Shape).Idx → α)
    (h : (⟨3, ![2, 8, 2]⟩ : Shape).Slices ![o, 0, 0] ⟨3, ![1, 8, 2]⟩)
    (hc : (⟨3, ![1, 8, 2]⟩ : Shape).ShapeCasts ⟨2, ![8, 2]⟩)
    (e : Fin 2) (he : e.val = o) (q : Fin 8) (j : Fin 2) :
    shapeCast ⟨2, ![8, 2]⟩ (extractStridedSlice ⟨3, ![1, 8, 2]⟩ ![o, 0, 0] x1 h) hc (ix2 q j)
      = x1 (ix3 e q j) := by
  refine (shapeCast_1ab_ab_apply _ hc q j).trans ?_
  refine extractStridedSlice_apply _ _ h _ (ix3 e q j) fun a => ?_
  match a with
  | ⟨0, _⟩ => show e.val = o + 0; omega
  | ⟨1, _⟩ => show q.val = 0 + q.val; omega
  | ⟨2, _⟩ => show j.val = 0 + j.val; omega

/-- The word of `1.0` denotes one. -/
theorem ofBits_one_f32 : Ideal.ofBits .f32 0x3F800000#32 = 1 := by
  simp [Ideal.ofBits, Ideal.ieee, -EReal.coe_mul]; norm_num

end Cert.Spec

end
-- ==== Proof.Spec.Finite.lean ====
import proofs.«170901_g57982058496645_cont_sun_m_527_4_alg».proof.Proof.Gen.Pre_finite_inputs
import proofs.«170901_g57982058496645_cont_sun_m_527_4_alg».proof.Pre_finite_inputs
import Idealize.ShloMosaic.Lib.ReduceAll
import Idealize.ShloMosaic.Lib.ValueIdx
import Idealize.ShloMosaic.PureOps.Ideal.Laws

/-!
# The precondition says every float input is a real number

The precondition is the conjunction, over the four float arguments, of "every entry has
absolute value below +∞".  On the extended reals `max x (-x) < ⊤` excludes exactly `⊤` and `⊥`,
so every entry is the coercion of a real.
-/

noncomputable section

namespace Cert.Spec

open Idealize.ShloMosaic Idealize.ShloMosaic.ValueIdx

/-- The word of +∞ denotes the top element. -/
theorem ofBits_inf_f32 : Ideal.ofBits .f32 0x7F800000#32 = ⊤ := by simp [Ideal.ofBits, Ideal.ieee]

/-- An extended real whose absolute value is below `⊤` is a real. -/
theorem real_of_abs_lt_top (x : EReal) (h : max x (-x) < ⊤) : ∃ r : ℝ, x = (r : EReal) := by
  induction x using EReal.rec with
  | bot => simp at h
  | top => simp at h
  | coe r => exact ⟨r, rfl⟩

instance : Subsingleton (⟨0, ![]⟩ : Shape).Idx := ⟨fun a b => funext fun d => d.elim0⟩

/-- One conjunct of the precondition, for an array of any shape: if the conjunction over all entries
of "`|x i| < +∞`" is true then every entry is a real. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1)
    (j : (⟨0, ![]⟩ : Shape).Idx)
    (e : Host.reduce IntOp.andi
        (cmpf .olt (Host.absf x) (broadcastInDim s ![] hb (constant (F := Ideal) ⟨0, ![]⟩ .f32 0x7F800000#32)))
        init hr hu j = 1#1) (i : s.Idx) : ∃ r : ℝ, x i = (r : EReal) := by
  have h1 := Host.reduce_andi_all _ init hr hu j e i
  have h2 : Ideal.cmp .olt (max (x i) (-(x i))) (Ideal.ofBits .f32 0x7F800000#32) = 1#1 := h1
  rw [ofBits_inf_f32] at h2
  refine real_of_abs_lt_top (x i) ?_
  by_contra hn
  simp [Ideal.cmp, hn] at h2

variable [Cert.Pre_finite_inputs.Facts]

/-- The precondition, decoded: every entry of each of the four float arguments is a real number. -/
theorem finite_of_pre (x0 : IVec Cert.Pre_finite_inputs.S4096x8192 32)
    (x1 : FVec Ideal Cert.Pre_finite_inputs.S2x8x2 .f32) (x2 : FVec Ideal Cert.Pre_finite_inputs.S2x1x8 .f32)
    (x3 : FVec Ideal Cert.Pre_finite_inputs.S4096x8 .f32) (x4 : FVec Ideal Cert.Pre_finite_inputs.S8192x2 .f32)
    (h : Cert.Pre_finite_inputs.fn (F := Ideal) x0 x1 x2 x3 x4 = fun _ => 1#1) :
    (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x1 _ _ _ _ _ h1, all_real x2 _ _ _ _ _ h2, all_real x3 _ _ _ _ _ h3, all_real x4 _ _ _ _ _ h4⟩

end Cert.Spec

end
-- ==== Proof.Spec.RefRun.lean ====
import proofs.«170901_g57982058496645_cont_sun_m_527_4_alg».proof.Proof.Gen.ReferenceIdeal.Run
import proofs.«170901_g57982058496645_cont_sun_m_527_4_alg».proof.Proof.Spec.Closed
import proofs.«170901_g57982058496645_cont_sun_m_527_4_alg».proof.Proof.Spec.Read
import proofs.«170901_g57982058496645_cont_sun_m_527_4_alg».proof.Proof.Spec.Finite

/-!
# The reference computes five reference steps

The reference program repeats one block of operations five times.  One block, as a function of
the mask `Mf`, its complement `Mc = 1 - Mf`, the two weight arrays and the current pair
`(a, t)`, is `stepA` followed by `stepT`.  Read at an index these are the sums of the
specification's `aRef` and `tRef` over extended reals; when every entry involved is a real
the coercion moves outside the sums, so a block maps real data to the real step `stepRef`.
Five blocks give `stepRef^[5]`.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.ReferenceIdeal.Value

/-- The update of `a` in one block. -/
def stepA (Mf Mc : FVec Ideal S4096x8192 .f32) (x2 : FVec Ideal S2x1x8 .f32) (a : FVec Ideal S4096x8 .f32)
    (t : FVec Ideal S8192x2 .f32) : FVec Ideal S4096x8 .f32 :=
  addf (addf a (Host.dotGeneral dot_S4096x8192_S8192x8_S4096x8_1_0_0_1_n_n none Mc (mulf (broadcastInDim S8192x8 ![0, 1] bcast_S8192x1_S8192x8_0_1 (extractStridedSlice S8192x1 ![0, 0] t slices_S8192x2_S8192x1_0_0)) (broadcastInDim S8192x8 ![0, 1] bcast_S1x8_S8192x8_0_1 (broadcastInDim S1x8 ![1] bcast_S8_S1x8_1 (shapeCast _ (extractStridedSlice S1x1x8 ![0, 0, 0] x2 slices_S2x1x8_S1x1x8_0_0_0) shapeCasts_S1x1x8_S8)))))) (Host.dotGeneral dot_S4096x8192_S8192x8_S4096x8_1_0_0_1_n_n none Mf (mulf (broadcastInDim S8192x8 ![0, 1] bcast_S8192x1_S8192x8_0_1 (extractStridedSlice S8192x1 ![0, 1] t slices_S8192x2_S8192x1_0_1)) (broadcastInDim S8192x8 ![0, 1] bcast_S1x8_S8192x8_0_1 (broadcastInDim S1x8 ![1] bcast_S8_S1x8_1 (shapeCast _ (extractStridedSlice S1x1x8 ![1, 0, 0] x2 slices_S2x1x8_S1x1x8_1_0_0) shapeCasts_S1x1x8_S8)))))

/-- The update of `t` in one block, from the already updated `a'`. -/
def stepT (Mf Mc : FVec Ideal S4096x8192 .f32) (x1 : FVec Ideal S2x8x2 .f32) (a' : FVec Ideal S4096x8 .f32)
    (t : FVec Ideal S8192x2 .f32) : FVec Ideal S8192x2 .f32 :=
  addf (addf t (Host.dotGeneral dot_S8192x4096_S4096x2_S8192x2_1_0_0_1_n_n none (transpose S8192x4096 [1, 0] Mc transposes_S4096x8192_S8192x4096_1_0) (Host.dotGeneral dot_S4096x8_S8x2_S4096x2_1_0_0_1_n_n none a' (shapeCast _ (extractStridedSlice S1x8x2 ![0, 0, 0] x1 slices_S2x8x2_S1x8x2_0_0_0) shapeCasts_S1x8x2_S8x2)))) (Host.dotGeneral dot_S8192x4096_S4096x2_S8192x2_1_0_0_1_n_n none (transpose S8192x4096 [1, 0] Mf transposes_S4096x8192_S8192x4096_1_0) (Host.dotGeneral dot_S4096x8_S8x2_S4096x2_1_0_0_1_n_n none a' (shapeCast _ (extractStridedSlice S1x8x2 ![1, 0, 0] x1 slices_S2x8x2_S1x8x2_1_0_0) shapeCasts_S1x8x2_S8x2)))

/-- `stepA` at `(p, q)`, over extended reals. -/
theorem stepA_apply (Mf Mc : FVec Ideal S4096x8192 .f32) (x2 : FVec Ideal S2x1x8 .f32) (a : FVec Ideal S4096x8 .f32)
    (t : FVec Ideal S8192x2 .f32) (p : Fin 4096) (q : Fin 8) :
    stepA Mf Mc x2 a t (ix2 p q)
      = a (ix2 p q) + ∑ k : Fin 8192, Mc (ix2 p k) * (t (ix2 k (0 : Fin 2)) * x2 (ix3 (0 : Fin 2) (0 : Fin 1) q))
        + ∑ k : Fin 8192, Mf (ix2 p k) * (t (ix2 k (1 : Fin 2)) * x2 (ix3 (1 : Fin 2) (0 : Fin 1) q)) := by
  unfold stepA
  show a (ix2 p q) + _ + _ = _
  refine congrArg₂ (· + ·) (congrArg₂ (· + ·) rfl ?_) ?_
  · refine (dot_plain_apply _ rfl rfl rfl rfl rfl rfl _ _ p q).trans (Finset.sum_congr rfl fun k _ => ?_)
    exact congrArg₂ (· * ·) rfl (congrArg₂ (· * ·) (col_apply 0 t _ _ 0 rfl k q) (row_apply 0 x2 _ _ _ _ 0 rfl k q))
  · refine (dot_plain_apply _ rfl rfl rfl rfl rfl rfl _ _ p q).trans (Finset.sum_congr rfl fun k _ => ?_)
    exact congrArg₂ (· * ·) rfl (congrArg₂ (· * ·) (col_apply 1 t _ _ 1 rfl k q) (row_apply 1 x2 _ _ _ _ 1 rfl k q))

/-- `stepT` at `(k, j)`, over extended reals. -/
theorem stepT_apply (Mf Mc : FVec Ideal S4096x8192 .f32) (x1 : FVec Ideal S2x8x2 .f32) (a' : FVec Ideal S4096x8 .f32)
    (t : FVec Ideal S8192x2 .f32) (k : Fin 8192) (j : Fin 2) :
    stepT Mf Mc x1 a' t (ix2 k j)
      = t (ix2 k j) + ∑ p : Fin 4096, Mc (ix2 p k) * (∑ q : Fin 8, a' (ix2 p q) * x1 (ix3 (0 : Fin 2) q j))
        + ∑ p : Fin 4096, Mf (ix2 p k) * (∑ q : Fin 8, a' (ix2 p q) * x1 (ix3 (1 : Fin 2) q j)) := by
  unfold stepT
  show t (ix2 k j) + _ + _ = _
  refine congrArg₂ (· + ·) (congrArg₂ (· + ·) rfl ?_) ?_
  · refine (dot_plain_apply _ rfl rfl rfl rfl rfl rfl _ _ k j).trans (Finset.sum_congr rfl fun p _ => ?_)
    refine congrArg₂ (· * ·) (transpose_ix2_apply Mc _ k p) ?_
    refine (dot_plain_apply _ rfl rfl rfl rfl rfl rfl _ _ p j).trans (Finset.sum_congr rfl fun q _ => ?_)
    exact congrArg₂ (· * ·) rfl (slab_apply 0 x1 _ _ 0 rfl q j)
  · refine (dot_plain_apply _ rfl rfl rfl rfl rfl rfl _ _ k j).trans (Finset.sum_congr rfl fun p _ => ?_)
    refine congrArg₂ (· * ·) (transpose_ix2_apply Mf _ k p) ?_
    refine (dot_plain_apply _ rfl rfl rfl rfl rfl rfl _ _ p j).trans (Finset.sum_congr rfl fun q _ => ?_)
    exact congrArg₂ (· * ·) rfl (slab_apply 1 x1 _ _ 1 rfl q j)

section Real

variable {Mf Mc : FVec Ideal S4096x8192 .f32} {x1 : FVec Ideal S2x8x2 .f32} {x2 : FVec Ideal S2x1x8 .f32}
  {M : Fin 4096 → Fin 8192 → ℝ} {A2 : Fin 2 → Fin 8 → ℝ} {W : Fin 2 → Fin 8 → Fin 2 → ℝ}

/-- On real data `stepA` is the coercion of the specification's `aRef`. -/
theorem stepA_real (hMf : ∀ p k, Mf (ix2 p k) = ((M p k : ℝ) : EReal))
    (hMc : ∀ p k, Mc (ix2 p k) = ((1 - M p k : ℝ) : EReal))
    (hx2 : ∀ (e : Fin 2) q, x2 (ix3 e (0 : Fin 1) q) = ((A2 e q : ℝ) : EReal))
    {a : FVec Ideal S4096x8 .f32} {t : FVec Ideal S8192x2 .f32}
    {ar : Fin 4096 → Fin 8 → ℝ} {tr : Fin 8192 → Fin 2 → ℝ}
    (ha : ∀ p q, a (ix2 p q) = ((ar p q : ℝ) : EReal)) (ht : ∀ k j, t (ix2 k j) = ((tr k j : ℝ) : EReal))
    (p : Fin 4096) (q : Fin 8) : stepA Mf Mc x2 a t (ix2 p q) = ((aRef M A2 ar tr p q : ℝ) : EReal) := by
  rw [stepA_apply]
  simp only [hMf, hMc, hx2, ha, ht]
  unfold aRef
  rw [EReal.coe_add, EReal.coe_add, coe_sum, coe_sum]
  simp only [EReal.coe_mul]

/-- On real data `stepT` is the coercion of the specification's `tRef`. -/
theorem stepT_real (hMf : ∀ p k, Mf (ix2 p k) = ((M p k : ℝ) : EReal))
    (hMc : ∀ p k, Mc (ix2 p k) = ((1 - M p k : ℝ) : EReal))
    (hx1 : ∀ (e : Fin 2) q j, x1 (ix3 e q j) = ((W e q j : ℝ) : EReal))
    {a' : FVec Ideal S4096x8 .f32} {t : FVec Ideal S8192x2 .f32}
    {ar : Fin 4096 → Fin 8 → ℝ} {tr : Fin 8192 → Fin 2 → ℝ}
    (ha : ∀ p q, a' (ix2 p q) = ((ar p q : ℝ) : EReal)) (ht : ∀ k j, t (ix2 k j) = ((tr k j : ℝ) : EReal))
    (k : Fin 8192) (j : Fin 2) : stepT Mf Mc x1 a' t (ix2 k j) = ((tRef M W ar tr k j : ℝ) : EReal) := by
  rw [stepT_apply]
  simp only [hMf, hMc, hx1, ha, ht]
  unfold tRef
  rw [EReal.coe_add, EReal.coe_add, coe_sum, coe_sum]
  simp only [EReal.coe_mul, coe_sum]

/-- One block on real data: the pair `(stepA …, stepT …)` is the coercion of `stepRef` of the pair. -/
theorem block_real (hMf : ∀ p k, Mf (ix2 p k) = ((M p k : ℝ) : EReal))
    (hMc : ∀ p k, Mc (ix2 p k) = ((1 - M p k : ℝ) : EReal))
    (hx1 : ∀ (e : Fin 2) q j, x1 (ix3 e q j) = ((W e q j : ℝ) : EReal))
    (hx2 : ∀ (e : Fin 2) q, x2 (ix3 e (0 : Fin 1) q) = ((A2 e q : ℝ) : EReal))
    {a : FVec Ideal S4096x8 .f32} {t : FVec Ideal S8192x2 .f32}
    {s : (Fin 4096 → Fin 8 → ℝ) × (Fin 8192 → Fin 2 → ℝ)}
    (ha : ∀ p q, a (ix2 p q) = ((s.1 p q : ℝ) : EReal)) (ht : ∀ k j, t (ix2 k j) = ((s.2 k j : ℝ) : EReal)) :
    (∀ p q, stepA Mf Mc x2 a t (ix2 p q) = (((stepRef M A2 W s).1 p q : ℝ) : EReal))
      ∧ ∀ k j, stepT Mf Mc x1 (stepA Mf Mc x2 a t) t (ix2 k j) = (((stepRef M A2 W s).2 k j : ℝ) : EReal) :=
  ⟨stepA_real hMf hMc hx2 ha ht, stepT_real hMf hMc hx1 (stepA_real hMf hMc hx2 ha ht) ht⟩

end Real

section Run

set_option maxRecDepth 8192

variable (V0 : Valuation τ sig (Elt Ideal))

/-- The mask array is the coercion of the integer entries' signed values. -/
theorem mask_real (p : Fin 4096) (k : Fin 8192) :
    res_main_v0 V0 (ix2 p k) = ((realM (V0 (Proc.devRef .tc main_arg0)) p k : ℝ) : EReal) := rfl

/-- The complement array is the coercion of one minus those. -/
theorem comp_real (p : Fin 4096) (k : Fin 8192) :
    res_main_v2 V0 (ix2 p k) = ((1 - realM (V0 (Proc.devRef .tc main_arg0)) p k : ℝ) : EReal) := by
  show Ideal.ofBits .f32 0x3F800000#32 - ((realM (V0 (Proc.devRef .tc main_arg0)) p k : ℝ) : EReal) = _
  rw [ofBits_one_f32, EReal.coe_sub, EReal.coe_one]

/-- Under finiteness of the four float arguments, the reference's two results are the closed forms. -/
theorem ref_value
    (h1 : ∀ i, ∃ r : ℝ, V0 (Proc.devRef .tc main_arg1) i = (r : EReal))
    (h2 : ∀ i, ∃ r : ℝ, V0 (Proc.devRef .tc main_arg2) i = (r : EReal))
    (h3 : ∀ i, ∃ r : ℝ, V0 (Proc.devRef .tc main_arg3) i = (r : EReal))
    (h4 : ∀ i, ∃ r : ℝ, V0 (Proc.devRef .tc main_arg4) i = (r : EReal)) :
    res_main_v140 V0 = out0 (V0 (Proc.devRef .tc main_arg0)) (V0 (Proc.devRef .tc main_arg1))
        (V0 (Proc.devRef .tc main_arg2)) (V0 (Proc.devRef .tc main_arg3)) (V0 (Proc.devRef .tc main_arg4))
      ∧ stepT (res_main_v0 V0) (res_main_v2 V0) (V0 (Proc.devRef .tc main_arg1)) (res_main_v140 V0) (res_main_v122 V0)
        = out1 (V0 (Proc.devRef .tc main_arg0)) (V0 (Proc.devRef .tc main_arg1))
        (V0 (Proc.devRef .tc main_arg2)) (V0 (Proc.devRef .tc main_arg3)) (V0 (Proc.devRef .tc main_arg4)) := by
  have hMf := mask_real V0
  have hMc := comp_real V0
  have hx1 : ∀ (e : Fin 2) (q : Fin 8) (j : Fin 2), V0 (Proc.devRef .tc main_arg1) (ix3 e q j)
      = ((realW (V0 (Proc.devRef .tc main_arg1)) e q j : ℝ) : EReal) :=
    fun e q j => (coe_toReal_of_real (h1 _)).symm
  have hx2 : ∀ (e : Fin 2) (q : Fin 8), V0 (Proc.devRef .tc main_arg2) (ix3 e (0 : Fin 1) q)
      = ((realA2 (V0 (Proc.devRef .tc main_arg2)) e q : ℝ) : EReal) :=
    fun e q => (coe_toReal_of_real (h2 _)).symm
  have ha0 : ∀ (p : Fin 4096) (q : Fin 8), V0 (Proc.devRef .tc main_arg3) (ix2 p q)
      = ((real2 (V0 (Proc.devRef .tc main_arg3)) p q : ℝ) : EReal) :=
    fun p q => (coe_toReal_of_real (h3 _)).symm
  have ht0 : ∀ (k : Fin 8192) (j : Fin 2), V0 (Proc.devRef .tc main_arg4) (ix2 k j)
      = ((real2 (V0 (Proc.devRef .tc main_arg4)) k j : ℝ) : EReal) :=
    fun k j => (coe_toReal_of_real (h4 _)).symm
  obtain ⟨a1, t1⟩ := block_real hMf hMc hx1 hx2
    (s := (real2 (V0 (Proc.devRef .tc main_arg3)), real2 (V0 (Proc.devRef .tc main_arg4)))) ha0 ht0
  obtain ⟨a2, t2⟩ := block_real hMf hMc hx1 hx2 a1 t1
  obtain ⟨a3, t3⟩ := block_real hMf hMc hx1 hx2 a2 t2
  obtain ⟨a4, t4⟩ := block_real hMf hMc hx1 hx2 a3 t3
  obtain ⟨a5, t5⟩ := block_real hMf hMc hx1 hx2 a4 t4
  refine ⟨funext fun i => ?_, funext fun i => ?_⟩
  · obtain ⟨p, q, rfl⟩ : ∃ (p : Fin 4096) (q : Fin 8), i = ix2 p q := ⟨i 0, i 1, eq_ix2 i⟩
    exact a5 p q
  · obtain ⟨k, j, rfl⟩ : ∃ (k : Fin 8192) (j : Fin 2), i = ix2 k j := ⟨i 0, i 1, eq_ix2 i⟩
    exact t5 k j

end Run

variable [Cert.Pre_finite_inputs.Facts]

set_option maxRecDepth 8192 in
/-- The reference's run under the precondition: both results at the closed forms of the launch
contents of the five arguments, the arguments unchanged. -/
theorem ref_results (m : (ℓ : Loc nD τ sig) → Buf (Elt Ideal) ℓ) (ρ : Dev nD → PrngReg)
    (hpre : ∀ c : Dev nD, Cert.Pre_finite_inputs.fn (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) = fun _ => 1#1) :
    θ_run defs (onTc (τ := τ) (main (F := Ideal))) ⟨m, fun _ => 0, ρ⟩ fun r => ∀ c : Dev nD,
      r.2.mem ((c.tc : Thread nD τ).loc main_v140)
          = out0 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_v152)
          = out1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨f1, f2, f3, f4⟩ := finite_of_pre _ _ _ _ _ (hpre c)
    obtain ⟨e0, e1⟩ := ref_value (launchContents m c) f1 f2 f3 f4
    exact ⟨(h c).1.trans e0, (h c).2.1.trans e1, (h c).2.2⟩) (Value.run (F := Ideal) m ρ)

end Cert.ReferenceIdeal.RefValue

end
-- ==== Proof.Alg.lean ====
/-
  The two idealized programs, started from memories that agree on the five argument arrays, end with equal
  results: each result array of either is the same closed form of the launch contents of the arguments
  (five message-passing steps, coerced back to extended reals), and neither writes its arguments.
-/
import proofs.«170901_g57982058496645_cont_sun_m_527_4_alg».proof.Defs
import proofs.«170901_g57982058496645_cont_sun_m_527_4_alg».proof.Proof.Gen.Kernel
import proofs.«170901_g57982058496645_cont_sun_m_527_4_alg».proof.Proof.Gen.KernelIdeal
import proofs.«170901_g57982058496645_cont_sun_m_527_4_alg».proof.Proof.Gen.ReferenceIdeal
import proofs.«170901_g57982058496645_cont_sun_m_527_4_alg».proof.Proof.Gen.Pre_finite_inputs
import proofs.«170901_g57982058496645_cont_sun_m_527_4_alg».proof.Proof.RefFrame
import proofs.«170901_g57982058496645_cont_sun_m_527_4_alg».proof.Proof.Spec.Closed
import proofs.«170901_g57982058496645_cont_sun_m_527_4_alg».proof.Proof.Spec.RefRun

noncomputable section

namespace Cert.Proof.Alg

open Idealize.ShloMosaic Idealize.SL.Sem

attribute [local instance] Cert.Kernel.Gen.facts Cert.KernelIdeal.Gen.facts Cert.ReferenceIdeal.Gen.facts
  Cert.Pre_finite_inputs.Gen.facts

/-- The idealized kernel's run under the precondition: both results at the closed forms of the launch
    contents of the five arguments, the arguments unchanged. -/
@[reducible] def KernelValue : Prop :=
  ∀ (m : (ℓ : Loc Cert.KernelIdeal.nD Cert.KernelIdeal.τ Cert.KernelIdeal.sig) → Buf (Elt Ideal) ℓ)
    (g : Dev Cert.KernelIdeal.nD → PrngReg), Cert.Pre_KernelIdeal m →
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
      r.2.mem ((c.tc : Thread Cert.KernelIdeal.nD Cert.KernelIdeal.τ).loc Cert.KernelIdeal.main_v0_0)
          = Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v0_1)
          = Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The precondition moves along the agreement of the argument arrays. -/
theorem pre_transport
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ∀ c : Dev Cert.ReferenceIdeal.nD, Cert.Pre_finite_inputs.fn (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = fun _ => 1#1 := by
  intro c
  obtain ⟨e0, e1, e2, e3, e4⟩ := hagree c
  rw [e0, e1, e2, e3, e4]
  exact hpre c

/-- From the kernel's run at the closed forms: the two idealized programs agree. -/
theorem algebraic_of (hK : KernelValue) : Cert.algebraic_KernelIdeal_ReferenceIdeal := by
  intro m g m' g' hpre hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    hK m g hpre, ?_⟩
  refine (θ_run _ _ _).mono (fun r h c => ?_)
    (Cert.ReferenceIdeal.RefValue.ref_results m' g' (pre_transport m m' hpre hagree))
  obtain ⟨e0, e1, e2, e3, e4⟩ := hagree c
  obtain ⟨h0, h1, hrest⟩ := h c
  refine ⟨?_, ?_, hrest⟩
  · rw [h0, e0, e1, e2, e3, e4]
  · rw [h1, e0, e1, e2, e3, e4]

/-- The whole claim, from the two kernels' frames and the idealized kernel's run at the closed forms. -/
theorem claim_of (hFK : Cert.frame_Kernel) (hFKI : Cert.frame_KernelIdeal) (hK : KernelValue) : Cert.Claim :=
  ⟨Cert.Kernel.Gen.facts, Cert.KernelIdeal.Gen.facts, Cert.ReferenceIdeal.Gen.facts,
    Cert.Pre_finite_inputs.Gen.facts, hFK, hFKI, Cert.Proof.Ref.frame_ri, Cert.Proof.Ref.preserves,
    algebraic_of hK⟩

end Cert.Proof.Alg

end
-- ==== Proof.K0.Next.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Outs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's cases as explicit state transitions

  What each case's stores leave, with every load read back: the carried state after a point is a function of
  the point's input blocks and the state before it, written over the body's pure payloads.  -/

/-- Row 0 of the wide task state, the point's rows of the worker array, and the two halves of the accumulator. -/
abbrev row0R : Rect S2x8192 := Rect.unit (s := S2x8192) ![0, 0] S1x8192.size inb_S2x8192_S1x8192_0_0
abbrev rowsR (i : grid0.Coords) : Rect S4096x8 := Rect.unit (s := S4096x8) (k0_off1 i) S256x8.size (k0_off1_inb i)
abbrev v01R : Rect S4x8192 := Rect.unit (s := S4x8192) ![0, 0] S2x8192.size inb_S4x8192_S2x8192_0_0
abbrev v23R : Rect S4x8192 := Rect.unit (s := S4x8192) ![2, 0] S2x8192.size inb_S4x8192_S2x8192_2_0

/-- The point's rewritten rows of the worker array. -/
def rows0 (i : grid0.Coords) (x0 : Vec F S256x8192 .i32) (x1 : Vec F S2x8 .f32) (oA : Vec F S4096x8 .f32) (sT : Vec F S2x8192 .f32)
    (sR : Vec F S8192x4 .bf16) : Vec F S256x8 .f32 :=
  k0_pay9 x0 (View.ld sT row0R) sR x1 (View.ld oA (rowsR i))

/-- A middle point. -/
def nextB (i : grid0.Coords) (x0 : Vec F S256x8192 .i32) (x1 : Vec F S2x8 .f32) (x2 : Vec F S8x2 .f32) (p : St0 F) : St0 F where
  o6 := k0_pay8 x0
  oA := (rowsR i).overlay p.oA (rows0 i x0 x1 p.oA p.sT p.sR)
  o8 := p.o8
  sV := k0_pay1 (k0_pay8 x0) (rows0 i x0 x1 p.oA p.sT p.sR) x2 p.sV
  sC := k0_pay2 (rows0 i x0 x1 p.oA p.sT p.sR) p.sC
  sT := p.sT
  sR := p.sR

/-- The first point: the state initialised from the worker and task arguments, then the point's work. -/
def nextA (i : grid0.Coords) (x0 : Vec F S256x8192 .i32) (x1 : Vec F S2x8 .f32) (x2 : Vec F S8x2 .f32) (x4 : Vec F S4096x8 .f32)
    (x5 : Vec F S8192x2 .f32) : St0 F where
  o6 := k0_pay8 x0
  oA := (rowsR i).overlay x4 (rows0 i x0 x1 x4 (k0_pay5 x5) (k0_pay4 x5))
  o8 := MO8.view.read (Elt F) MO8.view.junk
  sV := k0_pay1 (k0_pay8 x0) (rows0 i x0 x1 x4 (k0_pay5 x5) (k0_pay4 x5)) x2 k0_pay6
  sC := k0_pay2 (rows0 i x0 x1 x4 (k0_pay5 x5) (k0_pay4 x5)) k0_pay7
  sT := k0_pay5 x5
  sR := k0_pay4 x5

/-- The wide task state after the step is finished. -/
def fin0 (x3 : Vec F S8x2 .f32) (sC : Vec F S1x8 .f32) (sV : Vec F S4x8192 .f32) (sT : Vec F S2x8192 .f32) : Vec F S2x8192 .f32 :=
  k0_pay3 x3 sC (View.ld sV v01R) (View.ld sV v23R) sT

/-- The last point: the point's work, then the step finished and the task state stored to its output buffer. -/
def nextC (i : grid0.Coords) (x0 : Vec F S256x8192 .i32) (x1 : Vec F S2x8 .f32) (x2 x3 : Vec F S8x2 .f32) (p : St0 F) : St0 F where
  o6 := k0_pay8 x0
  oA := (rowsR i).overlay p.oA (rows0 i x0 x1 p.oA p.sT p.sR)
  o8 := fin0 x3 (k0_pay2 (rows0 i x0 x1 p.oA p.sT p.sR) p.sC) (k0_pay1 (k0_pay8 x0) (rows0 i x0 x1 p.oA p.sT p.sR) x2 p.sV) p.sT
  sV := k0_pay1 (k0_pay8 x0) (rows0 i x0 x1 p.oA p.sT p.sR) x2 p.sV
  sC := k0_pay2 (rows0 i x0 x1 p.oA p.sT p.sR) p.sC
  sT := fin0 x3 (k0_pay2 (rows0 i x0 x1 p.oA p.sT p.sR) p.sC) (k0_pay1 (k0_pay8 x0) (rows0 i x0 x1 p.oA p.sT p.sR) x2 p.sV) p.sT
  sR := p.sR

set_option maxHeartbeats 2000000 in
theorem caseB_eq (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) :
    caseB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p = nextB i x0 x1 x2 p := by
  unfold caseB run0_B nextB rows0
  dsimp only
  try sl_unfold_run_names
  have hA : View.read (Elt F) (View.whole cc0_stg7_0) (hMOA.unread p.oA) = p.oA := hMOA.read_unread _
  simp only [View.readAt_eq_ld, Memref.IsWhole.read_unread, Cert.Lib.read_writes_cons_overlay, View.writes_nil,
    Cert.Lib.overlay_whole2, Cert.Lib.ld_whole2, Cert.Lib.readCov_whole2, hA]
  try rfl

set_option maxHeartbeats 2000000 in
theorem caseA_eq (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : cond0_0 i) (hc1 : ¬cond0_1 i) (x0 : Vec F S256x8192 .i32) (x1 : Vec F S2x8 .f32) (x2 : Vec F S8x2 .f32) (x3 : Vec F S8x2 .f32) (x4 : Vec F S4096x8 .f32) (x5 : Vec F S8192x2 .f32) :
    caseA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = nextA i x0 x1 x2 x4 x5 := by
  unfold caseA run0_A nextA rows0
  dsimp only
  try sl_unfold_run_names
  simp only [View.readAt_eq_ld, Memref.IsWhole.read_unread, Cert.Lib.read_writes_cons_overlay, View.writes_nil,
    Cert.Lib.overlay_whole2, Cert.Lib.ld_whole2, Cert.Lib.readCov_whole2]
  try rfl

set_option maxHeartbeats 2000000 in
theorem caseC_eq (c : Dev nD) (i : grid0.Coords) (arg1 : Memref sig .tc .vmem S256x8192 .i32) (harg1 : arg1.IsWhole) (arg2 : Memref sig .tc .vmem S2x8 .f32) (harg2 : arg2.IsWhole) (arg3 : Memref sig .tc .vmem S8x2 .f32) (harg3 : arg3.IsWhole) (arg4 : Memref sig .tc .vmem S8x2 .f32) (harg4 : arg4.IsWhole) (arg5 : Memref sig .tc .vmem S4096x8 .f32) (harg5 : arg5.IsWhole) (arg6 : Memref sig .tc .vmem S8192x2 .f32) (harg6 : arg6.IsWhole) (arg7 : Memref sig .tc .vmem S256x8192 .bf16) (harg7 : arg7.IsWhole) (arg8 : Memref sig .tc .vmem S4096x8 .f32) (harg8 : arg8.IsWhole) (arg9 : Memref sig .tc .vmem S2x8192 .f32) (harg9 : arg9.IsWhole) (arg10 : Memref sig .tc .vmem S4x8192 .f32) (harg10 : arg10.IsWhole) (arg11 : Memref sig .tc .vmem S1x8 .f32) (harg11 : arg11.IsWhole) (arg12 : Memref sig .tc .vmem S2x8192 .f32) (harg12 : arg12.IsWhole) (arg13 : Memref sig .tc .vmem S8192x4 .bf16) (harg13 : arg13.IsWhole) (hc0 : ¬cond0_0 i) (hc1 : cond0_1 i) (x0 : Vec F S256x8192 .i32) (x1 : Vec F S2x8 .f32) (x2 : Vec F S8x2 .f32) (x3 : Vec F S8x2 .f32) (x4 : Vec F S4096x8 .f32) (x5 : Vec F S8192x2 .f32) (p : St0 F) :
    caseC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 p = nextC i x0 x1 x2 x3 p := by
  unfold caseC run0_C nextC fin0 rows0
  dsimp only
  try sl_unfold_run_names
  have hA : View.read (Elt F) (View.whole cc0_stg7_0) (hMOA.unread p.oA) = p.oA := hMOA.read_unread _
  simp only [View.readAt_eq_ld, Memref.IsWhole.read_unread, Cert.Lib.read_writes_cons_overlay, View.writes_nil,
    Cert.Lib.overlay_whole2, Cert.Lib.ld_whole2, Cert.Lib.readCov_whole2, hA]
  try rfl

end Cert.KernelIdeal.Hand

end
-- ==== Proof.K0.Final.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Next
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first region leaves in its output arrays

  The worker array and the task state are written back once, whole, at the last point: they end holding the
  last point's buffers.  The converted label matrix is written back block by block: it ends holding the
  conversion of the label matrix, entry by entry.  -/

variable (V : (c : Dev nD) → (b : Ref sig .tc) → Buf (Elt F) ((c : Thread nD τ).loc b))

/-- Output window 7's block is the whole array at every point, -/
theorem idx0_7 : ∀ t : Fin cfg0.N, win0_7.index t (0 : Fin 2) = 0 ∧ win0_7.index t (1 : Fin 2) = 0 :=
  (by decide +kernel : ∀ t : Fin grid0.N, _)
theorem blk0_7_emb (t : Fin cfg0.N) (j : S4096x8.Idx) : ((cfg0.win 7).blk t).view.emb j = j := by
  obtain ⟨e0, e1⟩ := idx0_7 t
  funext a; apply Fin.ext
  match a with
  | ⟨0, _⟩ => show win0_7.index t (0 : Fin 2) * 4096 + 1 * (j 0).val = (j 0).val; omega
  | ⟨1, _⟩ => show win0_7.index t (1 : Fin 2) * 8 + 1 * (j 1).val = (j 1).val; omega

theorem mem_blk0_7 (t : Fin cfg0.N) (i : S4096x8.Idx) :
    i ∈ ((cfg0.win 7).blk t).view.set ↔ ∀ a : Fin 2, win0_7.index t a * (cfg0.win 7).block.size a ≤ (i a).val ∧ (i a).val < win0_7.index t a * (cfg0.win 7).block.size a + (cfg0.win 7).block.size a := by
  show i ∈ ((View.whole main_call0_v8_1).slice (win0_7.rect t)).set ↔ _
  rw [View.set_slice_whole, Rect.mem_set_unit]
  exact Iff.rfl
/-- and it is written back at the last point only: the array ends holding what the last point left in the buffer. -/
theorem final0_7 (c : Dev nD) : (dat0 V c).arrAt 7 cfg0.N = (outsAt0 V c 15 (by rw [N0_16]; omega)).oA := by
  refine (dat0 V c).arrAt_eq_of_cover 7 _ (fun t hf => ?_) (fun i => ?_)
  · have ht : t.val = 15 := by have := (flush0_7 t).mp hf; have := t.isLt; have hN : cfg0.N = 16 := N_0; omega
    obtain ⟨tv, htv⟩ := t
    dsimp only at ht; subst ht
    show (cfg0.win 7).cut (grid0.coords ⟨15, htv⟩) ((dat0 V c).after 7 ⟨15, htv⟩) = _
    rw [after0_7]
    funext j
    show _ = (outsAt0 V c 15 _).oA (((cfg0.win 7).blk ⟨15, htv⟩).view.emb j)
    rw [blk0_7_emb]
  · refine ⟨⟨15, by rw [N0_16]; omega⟩, (flush0_7 _).mpr (by rfl), ?_⟩
    rw [mem_blk0_7]
    obtain ⟨e0, e1⟩ := idx0_7 ⟨15, by rw [N0_16]; omega⟩
    intro a
    match a with
    | ⟨0, _⟩ => show win0_7.index _ (0 : Fin 2) * 4096 ≤ (i 0).val ∧ (i 0).val < win0_7.index _ (0 : Fin 2) * 4096 + 4096; have hi0 : (i 0).val < 4096 := (i 0).isLt; omega
    | ⟨1, _⟩ => show win0_7.index _ (1 : Fin 2) * 8 ≤ (i 1).val ∧ (i 1).val < win0_7.index _ (1 : Fin 2) * 8 + 8; have hi1 : (i 1).val < 8 := (i 1).isLt; omega

/-- Output window 8's block is the whole array at every point, -/
theorem idx0_8 : ∀ t : Fin cfg0.N, win0_8.index t (0 : Fin 2) = 0 ∧ win0_8.index t (1 : Fin 2) = 0 :=
  (by decide +kernel : ∀ t : Fin grid0.N, _)
theorem blk0_8_emb (t : Fin cfg0.N) (j : S2x8192.Idx) : ((cfg0.win 8).blk t).view.emb j = j := by
  obtain ⟨e0, e1⟩ := idx0_8 t
  funext a; apply Fin.ext
  match a with
  | ⟨0, _⟩ => show win0_8.index t (0 : Fin 2) * 2 + 1 * (j 0).val = (j 0).val; omega
  | ⟨1, _⟩ => show win0_8.index t (1 : Fin 2) * 8192 + 1 * (j 1).val = (j 1).val; omega

theorem mem_blk0_8 (t : Fin cfg0.N) (i : S2x8192.Idx) :
    i ∈ ((cfg0.win 8).blk t).view.set ↔ ∀ a : Fin 2, win0_8.index t a * (cfg0.win 8).block.size a ≤ (i a).val ∧ (i a).val < win0_8.index t a * (cfg0.win 8).block.size a + (cfg0.win 8).block.size a := by
  show i ∈ ((View.whole main_call0_v8_2).slice (win0_8.rect t)).set ↔ _
  rw [View.set_slice_whole, Rect.mem_set_unit]
  exact Iff.rfl
/-- and it is written back at the last point only: the array ends holding what the last point left in the buffer. -/
theorem final0_8 (c : Dev nD) : (dat0 V c).arrAt 8 cfg0.N = (outsAt0 V c 15 (by rw [N0_16]; omega)).o8 := by
  refine (dat0 V c).arrAt_eq_of_cover 8 _ (fun t hf => ?_) (fun i => ?_)
  · have ht : t.val = 15 := by have := (flush0_8 t).mp hf; have := t.isLt; have hN : cfg0.N = 16 := N_0; omega
    obtain ⟨tv, htv⟩ := t
    dsimp only at ht; subst ht
    show (cfg0.win 8).cut (grid0.coords ⟨15, htv⟩) ((dat0 V c).after 8 ⟨15, htv⟩) = _
    rw [after0_8]
    funext j
    show _ = (outsAt0 V c 15 _).o8 (((cfg0.win 8).blk ⟨15, htv⟩).view.emb j)
    rw [blk0_8_emb]
  · refine ⟨⟨15, by rw [N0_16]; omega⟩, (flush0_8 _).mpr (by rfl), ?_⟩
    rw [mem_blk0_8]
    obtain ⟨e0, e1⟩ := idx0_8 ⟨15, by rw [N0_16]; omega⟩
    intro a
    match a with
    | ⟨0, _⟩ => show win0_8.index _ (0 : Fin 2) * 2 ≤ (i 0).val ∧ (i 0).val < win0_8.index _ (0 : Fin 2) * 2 + 2; have hi0 : (i 0).val < 2 := (i 0).isLt; omega
    | ⟨1, _⟩ => show win0_8.index _ (1 : Fin 2) * 8192 ≤ (i 1).val ∧ (i 1).val < win0_8.index _ (1 : Fin 2) * 8192 + 8192; have hi1 : (i 1).val < 8192 := (i 1).isLt; omega

/-- At every point the converted block is the conversion of the point's block of labels. -/
theorem o6_eq (c : Dev nD) (t : Fin cfg0.N) : (outsAt0 V c t.val t.isLt).o6 = k0_pay8 (iblk0 V c 0 t) := by
  by_cases h0 : t.val = 0
  · rw [outsAt0_A V c t h0]; unfold atA; rw [caseA_eq]; rfl
  · by_cases h1 : t.val = 15
    · rw [outsAt0_C V c t h0 h1]; unfold atC; rw [caseC_eq]; rfl
    · rw [outsAt0_B V c t h0 h1]; unfold atB; rw [caseB_eq]; rfl

/-- The label window and the converted-label window move together: block `t` of the rows, all the columns. -/
theorem idx0_06 : ∀ t : Fin cfg0.N, win0_0.index t (0 : Fin 2) = t.val ∧ win0_0.index t (1 : Fin 2) = 0
    ∧ win0_6.index t (0 : Fin 2) = t.val ∧ win0_6.index t (1 : Fin 2) = 0 :=
  (by decide +kernel : ∀ t : Fin grid0.N, _)

theorem mem_blk0_6 (t : Fin cfg0.N) (i : S4096x8192.Idx) :
    i ∈ ((cfg0.win 6).blk t).view.set ↔ ∀ a : Fin 2, win0_6.index t a * (cfg0.win 6).block.size a ≤ (i a).val ∧ (i a).val < win0_6.index t a * (cfg0.win 6).block.size a + (cfg0.win 6).block.size a := by
  show i ∈ ((View.whole main_call0_v8_0).slice (win0_6.rect t)).set ↔ _
  rw [View.set_slice_whole, Rect.mem_set_unit]
  exact Iff.rfl

/-- The converted label matrix after the region: entry by entry the conversion of the label. -/
theorem final0_6 (c : Dev nD) :
    (dat0 V c).arrAt 6 cfg0.N = (fun i => FloatOps.sitofp (F := F) .bf16 (V c main_arg0 i)) := by
  refine (dat0 V c).arrAt_eq_of_cover 6 _ (fun t _ => ?_) (fun i => ?_)
  · show (cfg0.win 6).cut (grid0.coords t) ((dat0 V c).after 6 t) = _
    rw [after0_6, o6_eq]
    obtain ⟨e0, e1, e2, e3⟩ := idx0_06 t
    funext j
    show FloatOps.sitofp (F := F) .bf16 (V c main_arg0 (((cfg0.win 0).blk t).view.emb j)) = FloatOps.sitofp (F := F) .bf16 (V c main_arg0 (((cfg0.win 6).blk t).view.emb j))
    have h : ((cfg0.win 0).blk t).view.emb j = ((cfg0.win 6).blk t).view.emb j := by
      funext a; apply Fin.ext
      match a with
      | ⟨0, _⟩ => show win0_0.index t (0 : Fin 2) * 256 + 1 * (j 0).val = win0_6.index t (0 : Fin 2) * 256 + 1 * (j 0).val; omega
      | ⟨1, _⟩ => show win0_0.index t (1 : Fin 2) * 8192 + 1 * (j 1).val = win0_6.index t (1 : Fin 2) * 8192 + 1 * (j 1).val; omega
    rw [h]
  · have hi0 : (i 0).val < 4096 := (i 0).isLt
    have hi1 : (i 1).val < 8192 := (i 1).isLt
    refine ⟨⟨(i 0).val / 256, by rw [N0_16]; omega⟩, flush0_6 _, ?_⟩
    rw [mem_blk0_6]
    obtain ⟨e0, e1, e2, e3⟩ := idx0_06 ⟨(i 0).val / 256, by rw [N0_16]; omega⟩
    dsimp only at e2
    intro a
    match a with
    | ⟨0, _⟩ => show win0_6.index _ (0 : Fin 2) * 256 ≤ (i 0).val ∧ (i 0).val < win0_6.index _ (0 : Fin 2) * 256 + 256; omega
    | ⟨1, _⟩ => show win0_6.index _ (1 : Fin 2) * 8192 ≤ (i 1).val ∧ (i 1).val < win0_6.index _ (1 : Fin 2) * 8192 + 8192; omega

end Cert.KernelIdeal.Hand

end
-- ==== Proof.Pay.Ops.lean ====
/-
  Vector operations read at an index, at the ideal values (floats are extended reals, every operation exact).
  Layout operations on matrices whose second or first extent is one (a column cast to a vector and back, a column
  broadcast along the rows, one column or one row cut out of a matrix), two pieces laid side by side or one over the
  other read entry by entry, the sum along the rows or down the columns of a matrix and the sum of a one-row matrix as
  `Fin`-indexed sums, and the four block products of this kernel (a block of rows times a four-column matrix; the
  transposed four-column matrix times a block of rows) as sums over the contracted coordinate.
-/
import proofs.«170901_g57982058496645_cont_sun_m_527_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.SL.Sem Idealize.ShloMosaic.ValueIdx Cert.KernelIdeal Cert.KernelIdeal.Gen

variable {α : Type}

/-! ## Layout operations at an index: the column forms -/

/-- A column `[a, 1]` cast to a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix cut to its column `o` reads, at `(p, u)`, the matrix at `(p, o)`. -/
theorem slice_col_apply {a b : ℕ} (o : ℕ) (X : (⟨2, ![a, b]⟩ : Shape).Idx → α)
    (h : (⟨2, ![a, b]⟩ : Shape).Slices ![0, o] ⟨2, ![a, 1]⟩) (p : Fin a) (u : Fin 1) (k : Fin b) (hk : k.val = o) :
    extractStridedSlice ⟨2, ![a, 1]⟩ ![0, o] X h (ix2 p u) = X (ix2 p k) :=
  slice2_axis1_apply o X h p u k (by have : u.val = 0 := by omega
                                     omega)

/-- A matrix cut to its row `o` reads, at `(u, q)`, the matrix at `(o, q)`. -/
theorem slice_row_apply {a b : ℕ} (o : ℕ) (X : (⟨2, ![a, b]⟩ : Shape).Idx → α)
    (h : (⟨2, ![a, b]⟩ : Shape).Slices ![o, 0] ⟨2, ![1, b]⟩) (u : Fin 1) (q : Fin b) (k : Fin a) (hk : k.val = o) :
    extractStridedSlice ⟨2, ![1, b]⟩ ![o, 0] X h (ix2 u q) = X (ix2 k q) :=
  slice2_axis0_apply o X h u q k (by have : u.val = 0 := by omega
                                     omega)

/-! ## Sums at the ideal values -/

/-- The sum over every entry of a one-row matrix is the sum along the row. -/
theorem sum_row {M : Type*} [AddCommMonoid M] {n : ℕ} (f : (⟨2, ![1, n]⟩ : Shape).Idx → M) :
    ∑ i, f i = ∑ k : Fin n, f (ix2 (0 : Fin 1) k) := by
  rw [sum_idx2, Fin.sum_univ_one]

/-! ## Two pieces laid side by side or one over the other -/

/-- Two blocks of columns side by side, read in the first block. -/
theorem concat_cols_left {a m n t : ℕ} (x₁ : (⟨2, ![a, m]⟩ : Shape).Idx → α) (x₂ : (⟨2, ![a, n]⟩ : Shape).Idx → α)
    (h : Shape.Concatenates [⟨2, ![a, m]⟩, ⟨2, ![a, n]⟩] ⟨2, ![a, t]⟩ 1) (p : Fin a) (j : Fin t) (i : Fin m) (hi : i.val = j.val) :
    concatenate ⟨2, ![a, t]⟩ 1 [⟨⟨2, ![a, m]⟩, x₁⟩, ⟨⟨2, ![a, n]⟩, x₂⟩] h (ix2 p j) = x₁ (ix2 p i) :=
  concatenate_pair_apply_left 1 x₁ x₂ h (ix2 p j) rfl (ix2 p i) (fun b => by
    match b with
    | ⟨0, _⟩ => rfl
    | ⟨1, _⟩ => exact hi)

/-- Two blocks of columns side by side, read in the second block. -/
theorem concat_cols_right {a m n t : ℕ} (x₁ : (⟨2, ![a, m]⟩ : Shape).Idx → α) (x₂ : (⟨2, ![a, n]⟩ : Shape).Idx → α)
    (h : Shape.Concatenates [⟨2, ![a, m]⟩, ⟨2, ![a, n]⟩] ⟨2, ![a, t]⟩ 1) (p : Fin a) (j : Fin t) (i : Fin n) (hi : i.val + m = j.val) :
    concatenate ⟨2, ![a, t]⟩ 1 [⟨⟨2, ![a, m]⟩, x₁⟩, ⟨⟨2, ![a, n]⟩, x₂⟩] h (ix2 p j) = x₂ (ix2 p i) :=
  concatenate_pair_apply_right 1 x₁ x₂ h (ix2 p j) rfl rfl (ix2 p i) (fun b hb => by
    match b, hb with
    | ⟨0, _⟩, _ => rfl
    | ⟨1, _⟩, hb => exact absurd rfl hb) hi

/-- Two blocks of rows one over the other, read in the first block. -/
theorem concat_rows_left {b m n t : ℕ} (x₁ : (⟨2, ![m, b]⟩ : Shape).Idx → α) (x₂ : (⟨2, ![n, b]⟩ : Shape).Idx → α)
    (h : Shape.Concatenates [⟨2, ![m, b]⟩, ⟨2, ![n, b]⟩] ⟨2, ![t, b]⟩ 0) (j : Fin t) (q : Fin b) (i : Fin m) (hi : i.val = j.val) :
    concatenate ⟨2, ![t, b]⟩ 0 [⟨⟨2, ![m, b]⟩, x₁⟩, ⟨⟨2, ![n, b]⟩, x₂⟩] h (ix2 j q) = x₁ (ix2 i q) :=
  concatenate_pair_apply_left 0 x₁ x₂ h (ix2 j q) rfl (ix2 i q) (fun c => by
    match c with
    | ⟨0, _⟩ => exact hi
    | ⟨1, _⟩ => rfl)

/-- Two blocks of rows one over the other, read in the second block. -/
theorem concat_rows_right {b m n t : ℕ} (x₁ : (⟨2, ![m, b]⟩ : Shape).Idx → α) (x₂ : (⟨2, ![n, b]⟩ : Shape).Idx → α)
    (h : Shape.Concatenates [⟨2, ![m, b]⟩, ⟨2, ![n, b]⟩] ⟨2, ![t, b]⟩ 0) (j : Fin t) (q : Fin b) (i : Fin n) (hi : i.val + m = j.val) :
    concatenate ⟨2, ![t, b]⟩ 0 [⟨⟨2, ![m, b]⟩, x₁⟩, ⟨⟨2, ![n, b]⟩, x₂⟩] h (ix2 j q) = x₂ (ix2 i q) :=
  concatenate_pair_apply_right 0 x₁ x₂ h (ix2 j q) rfl rfl (ix2 i q) (fun c hc => by
    match c, hc with
    | ⟨0, _⟩, hc => exact absurd rfl hc
    | ⟨1, _⟩, _ => rfl) hi

/-- Two columns side by side: entry `(p, e)` is the first column's at `e = 0`, the second's at `e = 1`. -/
theorem pair_cols_apply {a : ℕ} (u w : (⟨2, ![a, 1]⟩ : Shape).Idx → α)
    (h : Shape.Concatenates [⟨2, ![a, 1]⟩, ⟨2, ![a, 1]⟩] ⟨2, ![a, 2]⟩ 1) (p : Fin a) (e : Fin 2) :
    concatenate ⟨2, ![a, 2]⟩ 1 [⟨⟨2, ![a, 1]⟩, u⟩, ⟨⟨2, ![a, 1]⟩, w⟩] h (ix2 p e)
      = ![u (ix2 p (0 : Fin 1)), w (ix2 p (0 : Fin 1))] e := by
  match e with
  | ⟨0, _⟩ => exact concat_cols_left u w h p _ (0 : Fin 1) rfl
  | ⟨1, _⟩ => exact concat_cols_right u w h p _ (0 : Fin 1) rfl

/-- Two rows one over the other: entry `(e, k)` is the first row's at `e = 0`, the second's at `e = 1`. -/
theorem pair_rows_apply {b : ℕ} (u w : (⟨2, ![1, b]⟩ : Shape).Idx → α)
    (h : Shape.Concatenates [⟨2, ![1, b]⟩, ⟨2, ![1, b]⟩] ⟨2, ![2, b]⟩ 0) (e : Fin 2) (k : Fin b) :
    concatenate ⟨2, ![2, b]⟩ 0 [⟨⟨2, ![1, b]⟩, u⟩, ⟨⟨2, ![1, b]⟩, w⟩] h (ix2 e k)
      = ![u (ix2 (0 : Fin 1) k), w (ix2 (0 : Fin 1) k)] e := by
  match e with
  | ⟨0, _⟩ => exact concat_rows_left u w h _ k (0 : Fin 1) rfl
  | ⟨1, _⟩ => exact concat_rows_right u w h _ k (0 : Fin 1) rfl

/-- A two-column block beside a second one: entry `(p, r)` by the column `r`. -/
theorem quad_cols_apply {a : ℕ} (u w : (⟨2, ![a, 2]⟩ : Shape).Idx → α)
    (h : Shape.Concatenates [⟨2, ![a, 2]⟩, ⟨2, ![a, 2]⟩] ⟨2, ![a, 4]⟩ 1) (p : Fin a) (r : Fin 4) :
    concatenate ⟨2, ![a, 4]⟩ 1 [⟨⟨2, ![a, 2]⟩, u⟩, ⟨⟨2, ![a, 2]⟩, w⟩] h (ix2 p r)
      = ![u (ix2 p (0 : Fin 2)), u (ix2 p (1 : Fin 2)), w (ix2 p (0 : Fin 2)), w (ix2 p (1 : Fin 2))] r := by
  match r with
  | ⟨0, _⟩ => exact concat_cols_left u w h p _ (0 : Fin 2) rfl
  | ⟨1, _⟩ => exact concat_cols_left u w h p _ (1 : Fin 2) rfl
  | ⟨2, _⟩ => exact concat_cols_right u w h p _ (0 : Fin 2) rfl
  | ⟨3, _⟩ => exact concat_cols_right u w h p _ (1 : Fin 2) rfl

/-- A two-row block over a second one: entry `(r, k)` by the row `r`. -/
theorem quad_rows_apply {b : ℕ} (u w : (⟨2, ![2, b]⟩ : Shape).Idx → α)
    (h : Shape.Concatenates [⟨2, ![2, b]⟩, ⟨2, ![2, b]⟩] ⟨2, ![4, b]⟩ 0) (r : Fin 4) (k : Fin b) :
    concatenate ⟨2, ![4, b]⟩ 0 [⟨⟨2, ![2, b]⟩, u⟩, ⟨⟨2, ![2, b]⟩, w⟩] h (ix2 r k)
      = ![u (ix2 (0 : Fin 2) k), u (ix2 (1 : Fin 2) k), w (ix2 (0 : Fin 2) k), w (ix2 (1 : Fin 2) k)] r := by
  match r with
  | ⟨0, _⟩ => exact concat_rows_left u w h _ k (0 : Fin 2) rfl
  | ⟨1, _⟩ => exact concat_rows_left u w h _ k (1 : Fin 2) rfl
  | ⟨2, _⟩ => exact concat_rows_right u w h _ k (0 : Fin 2) rfl
  | ⟨3, _⟩ => exact concat_rows_right u w h _ k (1 : Fin 2) rfl

/-! ## A matrix reduced along its rows or down its columns -/

/-- The sum along each row of a matrix, as the kernel's reduction over axis 1 computes it. -/
theorem rowSum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16) (hacc : (0x00000000#32 : BitVec 32) = 0x00000000#32) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun c => by
      match c with
      | ⟨0, _⟩ => rfl
      | ⟨1, _⟩ => rfl))

/-- The sum down each column of a matrix, as the kernel's reduction over axis 0 computes it. -/
theorem colSum_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16) (hacc : (0x00000000#32 : BitVec 32) = 0x00000000#32) (q : Fin b) :
    multiReduction (F := Ideal) .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src (funext fun c => by
      match c with
      | ⟨0, _⟩ => rfl
      | ⟨1, _⟩ => rfl))

/-! ## The printed reductions, read as sums -/

/-- The sum of a one-row matrix over its 8192 entries, as the kernel computes it (cast to `[1, 1, n]`, reduced over
    the last two axes, the one result extracted): the sum along the row. -/
theorem total_S1x8192 (v : Vec Ideal S1x8192 .f32) (hφ : FTy.f32 = FTy.f32 ∨ FTy.f32 = FTy.bf16) (hacc : (0x00000000#32 : BitVec 32) = 0x00000000#32) :
    extractAt ![0, 0, 0] (shapeCast S1x1x1 (multiReduction (F := Ideal) .add [1, 2] S1 (shapeCast S1x1x8192 v shapeCasts_S1x8192_S1x1x8192) 0x00000000#32 reduces_S1x1x8192_S1 hφ hacc) shapeCasts_S1_S1x1x1) inpos_S1x1x1_p0_0_0
      = ∑ k : Fin 8192, v (ix2 (0 : Fin 1) k) := by
  unfold extractAt
  unfold shapeCast
  refine (Ideal.multiReduction_add_total _ _ reduces_S1x1x8192_S1 (fun b => by match b with | ⟨0, _⟩ => rfl) hφ hacc _).trans ?_
  refine (Equiv.sum_comp (Shape.reshapeEquiv shapeCasts_S1x8192_S1x1x8192) v).trans ?_
  exact sum_row v

/-- The same for a one-row matrix of 8 entries. -/
theorem total_S1x8 (v : FVec Ideal S1x8 .f32) (hφ : FTy.f32 = FTy.f32 ∨ FTy.f32 = FTy.bf16) (hacc : (0x00000000#32 : BitVec 32) = 0x00000000#32) :
    extractAt ![0, 0, 0] (shapeCast S1x1x1 (multiReduction (F := Ideal) .add [1, 2] S1 (shapeCast S1x1x8 v shapeCasts_S1x8_S1x1x8) 0x00000000#32 reduces_S1x1x8_S1 hφ hacc) shapeCasts_S1_S1x1x1) inpos_S1x1x1_p0_0_0
      = ∑ k : Fin 8, v (ix2 (0 : Fin 1) k) := by
  unfold extractAt
  unfold shapeCast
  refine (Ideal.multiReduction_add_total _ _ reduces_S1x1x8_S1 (fun b => by match b with | ⟨0, _⟩ => rfl) hφ hacc _).trans ?_
  refine (Equiv.sum_comp (Shape.reshapeEquiv shapeCasts_S1x8_S1x1x8) v).trans ?_
  exact sum_row v

/-! ## The four block products -/

theorem mm256_lhs (p : Fin 256) (q : Fin 4) (c : Fin 8192) :
    dot_S256x8192_S8192x4_S256x4_1_0_0_1_n_n.lhsIdx (ix2 p q) ((contrEquiv1 dot_S256x8192_S8192x4_S256x4_1_0_0_1_n_n 8192 rfl rfl).symm c) = ix2 p c := by
  funext a
  match a with
  | ⟨0, _⟩ => exact Fin.ext (by simp [DotDims.lhsIdx, dot_S256x8192_S8192x4_S256x4_1_0_0_1_n_n]; rfl)
  | ⟨1, _⟩ => exact Fin.ext ((dot_S256x8192_S8192x4_S256x4_1_0_0_1_n_n.lhsIdx_val_of_single (cl := 1) rfl _ _).trans (contrEquiv1_symm_val dot_S256x8192_S8192x4_S256x4_1_0_0_1_n_n 8192 rfl rfl c))

theorem mm256_rhs (p : Fin 256) (q : Fin 4) (c : Fin 8192) :
    dot_S256x8192_S8192x4_S256x4_1_0_0_1_n_n.rhsIdx (ix2 p q) ((contrEquiv1 dot_S256x8192_S8192x4_S256x4_1_0_0_1_n_n 8192 rfl rfl).symm c) = ix2 c q := by
  funext a
  match a with
  | ⟨0, _⟩ => exact Fin.ext ((dot_S256x8192_S8192x4_S256x4_1_0_0_1_n_n.rhsIdx_val_of_single (cr := 0) rfl _ _).trans (contrEquiv1_symm_val dot_S256x8192_S8192x4_S256x4_1_0_0_1_n_n 8192 rfl rfl c))
  | ⟨1, _⟩ => exact Fin.ext (by simp [DotDims.rhsIdx, dot_S256x8192_S8192x4_S256x4_1_0_0_1_n_n]; rfl)

/-- The block product into a zero accumulator, at `(p, q)`: the sum over the contracted coordinate of the
    operands' products. -/
theorem mm256_apply {φ₁ φ₂ : FTy} (A : FVec Ideal S256x8192 φ₁) (B : FVec Ideal S8192x4 φ₂) (p : Fin 256) (q : Fin 4) :
    matmul (F := Ideal) dot_S256x8192_S8192x4_S256x4_1_0_0_1_n_n none A B (constant S256x4 .f32 0x00000000#32) (ix2 p q)
      = ∑ c : Fin 8192, A (ix2 p c) * B (ix2 c q) := by
  refine (Ideal.matmul_constant_zero_apply _ none A B (ix2 p q)).trans ?_
  rw [← Equiv.sum_comp (contrEquiv1 dot_S256x8192_S8192x4_S256x4_1_0_0_1_n_n 8192 rfl rfl).symm]
  exact Finset.sum_congr rfl fun c _ => by rw [mm256_lhs, mm256_rhs]

theorem mmT256_lhs (p : Fin 4) (q : Fin 8192) (c : Fin 256) :
    dot_S256x4_S256x8192_S4x8192_0_0_1_1_n_n.lhsIdx (ix2 p q) ((contrEquiv1 dot_S256x4_S256x8192_S4x8192_0_0_1_1_n_n 256 rfl rfl).symm c) = ix2 c p := by
  funext a
  match a with
  | ⟨0, _⟩ => exact Fin.ext ((dot_S256x4_S256x8192_S4x8192_0_0_1_1_n_n.lhsIdx_val_of_single (cl := 0) rfl _ _).trans (contrEquiv1_symm_val dot_S256x4_S256x8192_S4x8192_0_0_1_1_n_n 256 rfl rfl c))
  | ⟨1, _⟩ => exact Fin.ext (by simp [DotDims.lhsIdx, dot_S256x4_S256x8192_S4x8192_0_0_1_1_n_n]; rfl)

theorem mmT256_rhs (p : Fin 4) (q : Fin 8192) (c : Fin 256) :
    dot_S256x4_S256x8192_S4x8192_0_0_1_1_n_n.rhsIdx (ix2 p q) ((contrEquiv1 dot_S256x4_S256x8192_S4x8192_0_0_1_1_n_n 256 rfl rfl).symm c) = ix2 c q := by
  funext a
  match a with
  | ⟨0, _⟩ => exact Fin.ext ((dot_S256x4_S256x8192_S4x8192_0_0_1_1_n_n.rhsIdx_val_of_single (cr := 0) rfl _ _).trans (contrEquiv1_symm_val dot_S256x4_S256x8192_S4x8192_0_0_1_1_n_n 256 rfl rfl c))
  | ⟨1, _⟩ => exact Fin.ext (by simp [DotDims.rhsIdx, dot_S256x4_S256x8192_S4x8192_0_0_1_1_n_n]; rfl)

/-- The product of the transposed left block with the right block into a zero accumulator, at `(p, q)`: the sum
    over the contracted row coordinate of the operands' products. -/
theorem mmT256_apply {φ₁ φ₂ : FTy} (A : FVec Ideal S256x4 φ₁) (B : FVec Ideal S256x8192 φ₂) (p : Fin 4) (q : Fin 8192) :
    matmul (F := Ideal) dot_S256x4_S256x8192_S4x8192_0_0_1_1_n_n none A B (constant S4x8192 .f32 0x00000000#32) (ix2 p q)
      = ∑ c : Fin 256, A (ix2 c p) * B (ix2 c q) := by
  refine (Ideal.matmul_constant_zero_apply _ none A B (ix2 p q)).trans ?_
  rw [← Equiv.sum_comp (contrEquiv1 dot_S256x4_S256x8192_S4x8192_0_0_1_1_n_n 256 rfl rfl).symm]
  exact Finset.sum_congr rfl fun c _ => by rw [mmT256_lhs, mmT256_rhs]

theorem mm512_lhs (p : Fin 512) (q : Fin 4) (c : Fin 8192) :
    dot_S512x8192_S8192x4_S512x4_1_0_0_1_n_n.lhsIdx (ix2 p q) ((contrEquiv1 dot_S512x8192_S8192x4_S512x4_1_0_0_1_n_n 8192 rfl rfl).symm c) = ix2 p c := by
  funext a
  match a with
  | ⟨0, _⟩ => exact Fin.ext (by simp [DotDims.lhsIdx, dot_S512x8192_S8192x4_S512x4_1_0_0_1_n_n]; rfl)
  | ⟨1, _⟩ => exact Fin.ext ((dot_S512x8192_S8192x4_S512x4_1_0_0_1_n_n.lhsIdx_val_of_single (cl := 1) rfl _ _).trans (contrEquiv1_symm_val dot_S512x8192_S8192x4_S512x4_1_0_0_1_n_n 8192 rfl rfl c))

theorem mm512_rhs (p : Fin 512) (q : Fin 4) (c : Fin 8192) :
    dot_S512x8192_S8192x4_S512x4_1_0_0_1_n_n.rhsIdx (ix2 p q) ((contrEquiv1 dot_S512x8192_S8192x4_S512x4_1_0_0_1_n_n 8192 rfl rfl).symm c) = ix2 c q := by
  funext a
  match a with
  | ⟨0, _⟩ => exact Fin.ext ((dot_S512x8192_S8192x4_S512x4_1_0_0_1_n_n.rhsIdx_val_of_single (cr := 0) rfl _ _).trans (contrEquiv1_symm_val dot_S512x8192_S8192x4_S512x4_1_0_0_1_n_n 8192 rfl rfl c))
  | ⟨1, _⟩ => exact Fin.ext (by simp [DotDims.rhsIdx, dot_S512x8192_S8192x4_S512x4_1_0_0_1_n_n]; rfl)

/-- The block product into a zero accumulator, at `(p, q)`: the sum over the contracted coordinate of the
    operands' products. -/
theorem mm512_apply {φ₁ φ₂ : FTy} (A : FVec Ideal S512x8192 φ₁) (B : FVec Ideal S8192x4 φ₂) (p : Fin 512) (q : Fin 4) :
    matmul (F := Ideal) dot_S512x8192_S8192x4_S512x4_1_0_0_1_n_n none A B (constant S512x4 .f32 0x00000000#32) (ix2 p q)
      = ∑ c : Fin 8192, A (ix2 p c) * B (ix2 c q) := by
  refine (Ideal.matmul_constant_zero_apply _ none A B (ix2 p q)).trans ?_
  rw [← Equiv.sum_comp (contrEquiv1 dot_S512x8192_S8192x4_S512x4_1_0_0_1_n_n 8192 rfl rfl).symm]
  exact Finset.sum_congr rfl fun c _ => by rw [mm512_lhs, mm512_rhs]

theorem mmT512_lhs (p : Fin 4) (q : Fin 8192) (c : Fin 512) :
    dot_S512x4_S512x8192_S4x8192_0_0_1_1_n_n.lhsIdx (ix2 p q) ((contrEquiv1 dot_S512x4_S512x8192_S4x8192_0_0_1_1_n_n 512 rfl rfl).symm c) = ix2 c p := by
  funext a
  match a with
  | ⟨0, _⟩ => exact Fin.ext ((dot_S512x4_S512x8192_S4x8192_0_0_1_1_n_n.lhsIdx_val_of_single (cl := 0) rfl _ _).trans (contrEquiv1_symm_val dot_S512x4_S512x8192_S4x8192_0_0_1_1_n_n 512 rfl rfl c))
  | ⟨1, _⟩ => exact Fin.ext (by simp [DotDims.lhsIdx, dot_S512x4_S512x8192_S4x8192_0_0_1_1_n_n]; rfl)

theorem mmT512_rhs (p : Fin 4) (q : Fin 8192) (c : Fin 512) :
    dot_S512x4_S512x8192_S4x8192_0_0_1_1_n_n.rhsIdx (ix2 p q) ((contrEquiv1 dot_S512x4_S512x8192_S4x8192_0_0_1_1_n_n 512 rfl rfl).symm c) = ix2 c q := by
  funext a
  match a with
  | ⟨0, _⟩ => exact Fin.ext ((dot_S512x4_S512x8192_S4x8192_0_0_1_1_n_n.rhsIdx_val_of_single (cr := 0) rfl _ _).trans (contrEquiv1_symm_val dot_S512x4_S512x8192_S4x8192_0_0_1_1_n_n 512 rfl rfl c))
  | ⟨1, _⟩ => exact Fin.ext (by simp [DotDims.rhsIdx, dot_S512x4_S512x8192_S4x8192_0_0_1_1_n_n]; rfl)

/-- The product of the transposed left block with the right block into a zero accumulator, at `(p, q)`: the sum
    over the contracted row coordinate of the operands' products. -/
theorem mmT512_apply {φ₁ φ₂ : FTy} (A : FVec Ideal S512x4 φ₁) (B : FVec Ideal S512x8192 φ₂) (p : Fin 4) (q : Fin 8192) :
    matmul (F := Ideal) dot_S512x4_S512x8192_S4x8192_0_0_1_1_n_n none A B (constant S4x8192 .f32 0x00000000#32) (ix2 p q)
      = ∑ c : Fin 512, A (ix2 c p) * B (ix2 c q) := by
  refine (Ideal.matmul_constant_zero_apply _ none A B (ix2 p q)).trans ?_
  rw [← Equiv.sum_comp (contrEquiv1 dot_S512x4_S512x8192_S4x8192_0_0_1_1_n_n 512 rfl rfl).symm]
  exact Finset.sum_congr rfl fun c _ => by rw [mmT512_lhs, mmT512_rhs]

end Cert.KernelIdeal.Pay
-- ==== Proof.Pay.K0.lean ====
/-
  The first region's payloads (blocks of 256 rows) read at an index, at the ideal values: each as an expression in the
  extended reals of its arguments' entries, with every reduction and block product a `Fin`-indexed sum. A "low part"
  `x − x` is left as it stands (it is zero only for finite `x`).
-/
import proofs.«170901_g57982058496645_cont_sun_m_527_4_alg».proof.Proof.Pay.Ops

noncomputable section

open scoped BigOperators

namespace Cert.KernelIdeal.Pay

open Idealize.ShloMosaic Idealize.SL.Sem Idealize.ShloMosaic.ValueIdx Cert.KernelIdeal Cert.KernelIdeal.Gen

/-- The integer block read as extended reals: each entry is the integer it holds. -/
theorem k0_pay8_apply (v3 : Vec Ideal S256x8192 .i32) (p : Fin 256) (k : Fin 8192) :
    k0_pay8 (F := Ideal) v3 (ix2 p k) = (((v3 (ix2 p k)).toInt : ℝ) : EReal) := rfl

/-- The updated block of 256 rows: row `p`, column `q` is the old entry plus
    `(s₀ − (u₀ + u₂)) · a₂(0, q) + (u₁ + u₃) · a₂(1, q)`, with `s₀` the sum of the one-row matrix and
    `u_j = ∑ₖ M(p, k) · t(k, j)` the row's product with the four-column matrix. -/
theorem k0_pay9_apply (v3 : Vec Ideal S256x8192 .i32) (v6 : Vec Ideal S1x8192 .f32) (v11 : Vec Ideal S8192x4 .bf16)
    (v16 : Vec Ideal S2x8 .f32) (v20 : Vec Ideal S256x8 .f32) (p : Fin 256) (q : Fin 8) :
    k0_pay9 (F := Ideal) v3 v6 v11 v16 v20 (ix2 p q)
      = v20 (ix2 p q)
        + ((∑ k : Fin 8192, v6 (ix2 (0 : Fin 1) k))
            - ((∑ k : Fin 8192, (((v3 (ix2 p k)).toInt : ℝ) : EReal) * v11 (ix2 k (0 : Fin 4)))
              + (∑ k : Fin 8192, (((v3 (ix2 p k)).toInt : ℝ) : EReal) * v11 (ix2 k (2 : Fin 4)))))
          * v16 (ix2 (0 : Fin 2) q)
        + ((∑ k : Fin 8192, (((v3 (ix2 p k)).toInt : ℝ) : EReal) * v11 (ix2 k (1 : Fin 4)))
            + (∑ k : Fin 8192, (((v3 (ix2 p k)).toInt : ℝ) : EReal) * v11 (ix2 k (3 : Fin 4))))
          * v16 (ix2 (1 : Fin 2) q) := by
  unfold k0_pay9
  dsimp only
  simp only [addf_apply, mulf_apply, subf_apply, broadcast_apply, shapeCast_self,
    broadcastTo_a1_ab_apply, broadcastTo_1b_ab_apply,
    slice_col_apply 0 _ slices_S256x2_o0_0_S256x1 p (0 : Fin 1) (0 : Fin 2) rfl,
    slice_col_apply 1 _ slices_S256x2_o0_1_S256x1 p (0 : Fin 1) (1 : Fin 2) rfl,
    slice_row_apply 0 _ slices_S2x8_o0_0_S1x8 (0 : Fin 1) q (0 : Fin 2) rfl,
    slice_row_apply 1 _ slices_S2x8_o1_0_S1x8 (0 : Fin 1) q (1 : Fin 2) rfl,
    slice2_axis1_apply 0 _ slices_S256x4_o0_0_S256x2 p (0 : Fin 2) (0 : Fin 4) rfl,
    slice2_axis1_apply 0 _ slices_S256x4_o0_0_S256x2 p (1 : Fin 2) (1 : Fin 4) rfl,
    slice2_axis1_apply 2 _ slices_S256x4_o0_2_S256x2 p (0 : Fin 2) (2 : Fin 4) rfl,
    slice2_axis1_apply 2 _ slices_S256x4_o0_2_S256x2 p (1 : Fin 2) (3 : Fin 4) rfl,
    mm256_apply, k0_pay8_apply]
  rw [total_S1x8192 v6 _ _]

/-- The accumulated four rows: row `r`, column `k` gains `∑_c h(c, r) · M(c, k)`, where `h(c, ·)` is
    `(g₀(c), g₁(c), g₀(c) − g₀(c), g₁(c) − g₁(c))` and `g_e(c) = ∑_q a(c, q) · d(q, e)`. -/
theorem k0_pay1_apply (v4 : FVec Ideal S256x8192 .bf16) (v35 : FVec Ideal S256x8 .f32) (v39 : Vec Ideal S8x2 .f32)
    (v62 : Vec Ideal S4x8192 .f32) (r : Fin 4) (k : Fin 8192) :
    k0_pay1 (F := Ideal) v4 v35 v39 v62 (ix2 r k)
      = v62 (ix2 r k)
        + ∑ c : Fin 256,
            ![∑ q : Fin 8, v35 (ix2 c q) * v39 (ix2 q (0 : Fin 2)),
              ∑ q : Fin 8, v35 (ix2 c q) * v39 (ix2 q (1 : Fin 2)),
              (∑ q : Fin 8, v35 (ix2 c q) * v39 (ix2 q (0 : Fin 2))) - ∑ q : Fin 8, v35 (ix2 c q) * v39 (ix2 q (0 : Fin 2)),
              (∑ q : Fin 8, v35 (ix2 c q) * v39 (ix2 q (1 : Fin 2))) - ∑ q : Fin 8, v35 (ix2 c q) * v39 (ix2 q (1 : Fin 2))] r
              * v4 (ix2 c k) := by
  unfold k0_pay1
  dsimp only
  simp only [addf_apply, shapeCast_self]
  rw [mmT256_apply]
  refine congrArg (v62 (ix2 r k) + ·) (Finset.sum_congr rfl fun c _ => congrArg (· * v4 (ix2 c k)) ?_)
  rw [quad_cols_apply]
  simp only [truncf_apply, subf_apply, pair_cols_apply, Matrix.cons_val_zero, Matrix.cons_val_one, Matrix.head_cons,
    shapeCast_a_a1_apply]
  rw [rowSum_apply _ reduces_S256x8_S256 _ _ c, rowSum_apply _ reduces_S256x8_S256 _ _ c]
  simp only [mulf_apply, broadcastTo_1b_ab_apply, shapeCast_a_1a_apply, shapeCast_a1_a_apply, shapeCast_self,
    slice_col_apply 0 _ slices_S8x2_o0_0_S8x1 _ (0 : Fin 1) (0 : Fin 2) rfl,
    slice_col_apply 1 _ slices_S8x2_o0_1_S8x1 _ (0 : Fin 1) (1 : Fin 2) rfl]

/-- The column sums of the block added to the running column sums. -/
theorem k0_pay2_apply (v35 : FVec Ideal S256x8 .f32) (v67 : Vec Ideal S1x8 .f32) (u : Fin 1) (q : Fin 8) :
    k0_pay2 (F := Ideal) v35 v67 (ix2 u q) = v67 (ix2 u q) + ∑ c : Fin 256, v35 (ix2 c q) := by
  unfold k0_pay2
  dsimp only
  simp only [addf_apply, shapeCast_self, shapeCast_a_1a_apply]
  rw [colSum_apply _ reduces_S256x8_S8 _ _ q]

/-- The finish of a step: row `e` of the state plus `c_e = ∑_q cs(q) · w₀(q, e)` plus the two accumulated rows
    `e` and `e + 2` (here given as two separate two-row arrays). -/
theorem k0_pay3_apply (v77 : Vec Ideal S8x2 .f32) (v79 : Vec Ideal S1x8 .f32) (v96 v97 v102 : Vec Ideal S2x8192 .f32)
    (e : Fin 2) (k : Fin 8192) :
    k0_pay3 (F := Ideal) v77 v79 v96 v97 v102 (ix2 e k)
      = v102 (ix2 e k)
        + ![∑ q : Fin 8, v79 (ix2 (0 : Fin 1) q) * v77 (ix2 q (0 : Fin 2)),
            ∑ q : Fin 8, v79 (ix2 (0 : Fin 1) q) * v77 (ix2 q (1 : Fin 2))] e
        + (v96 (ix2 e k) + v97 (ix2 e k)) := by
  unfold k0_pay3
  dsimp only
  simp only [addf_apply, shapeCast_self, pair_rows_apply, broadcast_apply]
  rw [total_S1x8 _ _ _, total_S1x8 _ _ _]
  simp only [mulf_apply, shapeCast_a_1a_apply, shapeCast_a1_a_apply, shapeCast_self,
    slice_col_apply 0 _ slices_S8x2_o0_0_S8x1 _ (0 : Fin 1) (0 : Fin 2) rfl,
    slice_col_apply 1 _ slices_S8x2_o0_1_S8x1 _ (0 : Fin 1) (1 : Fin 2) rfl]

/-- The two-column state beside its low part: columns 0, 1 are the state's, columns 2, 3 the state less itself. -/
theorem k0_pay4_apply (v77 : Vec Ideal S8192x2 .f32) (k : Fin 8192) (j : Fin 4) :
    k0_pay4 (F := Ideal) v77 (ix2 k j)
      = ![v77 (ix2 k (0 : Fin 2)), v77 (ix2 k (1 : Fin 2)),
          v77 (ix2 k (0 : Fin 2)) - v77 (ix2 k (0 : Fin 2)), v77 (ix2 k (1 : Fin 2)) - v77 (ix2 k (1 : Fin 2))] j := by
  unfold k0_pay4
  simp only [shapeCast_self]
  rw [quad_cols_apply]
  rfl

/-- The two-column state transposed. -/
theorem k0_pay5_apply (v77 : Vec Ideal S8192x2 .f32) (e : Fin 2) (k : Fin 8192) :
    k0_pay5 (F := Ideal) v77 (ix2 e k) = v77 (ix2 k e) := by
  unfold k0_pay5
  simp only [shapeCast_self]
  exact transpose_ix2_apply v77 _ e k

/-- The zero array. -/
theorem k0_pay6_apply (r : Fin 4) (k : Fin 8192) : k0_pay6 (F := Ideal) (ix2 r k) = 0 := by
  unfold k0_pay6
  simp only [shapeCast_self, broadcast_apply]
  exact Ideal.ofBits_zero_f32

/-- The zero row. -/
theorem k0_pay7_apply (u : Fin 1) (q : Fin 8) : k0_pay7 (F := Ideal) (ix2 u q) = 0 := by
  unfold k0_pay7
  simp only [shapeCast_self, broadcast_apply]
  exact Ideal.ofBits_zero_f32

end Cert.KernelIdeal.Pay
-- ==== Proof.Spec.Machine.lean ====
/-
  The kernel's block-by-block arrangement of one message-passing step, over the real numbers.

  The label matrix is cut into `NB` blocks of `B` rows: `M b r k`.  One pass over the blocks carries a state:
  the worker array `A` (rows rewritten block by block), the task-side accumulator `Vv` (four rows: the products
  with the hi parts of `g`, then with the lo parts), the column sums `Cs` of the rewritten worker rows, the wide
  task state `T` (two rows) and its hi/lo column copy `Rh` (four columns: the hi parts, then the lo parts).
  `blockStep` is the work at one block; `finish` folds the accumulators into the task state at the end of a pass
  and rebuilds the hi/lo copy.  At the ideal instance a value's hi part is the value and its lo part is the
  value minus itself; over the reals that is zero, and the definitions below keep the subtraction as written so
  that they match the program text.
-/
import Mathlib

namespace Cert.Spec

variable {NB B K Q : Type} [Fintype NB] [Fintype B] [Fintype K] [Fintype Q] [DecidableEq NB]

/-- The carried state of one pass. -/
structure MState (NB B K Q : Type) where
  A : NB → B → Q → ℝ
  Vv : Fin 4 → K → ℝ
  Cs : Q → ℝ
  T : Fin 2 → K → ℝ
  Rh : K → Fin 4 → ℝ

/-- The hi/lo copy of a wide task state: columns 0, 1 the values, columns 2, 3 the values minus themselves. -/
def hilo (T : Fin 2 → K → ℝ) : K → Fin 4 → ℝ := fun k j =>
  match j with
  | 0 => T 0 k
  | 1 => T 1 k
  | 2 => T 0 k - T 0 k
  | 3 => T 1 k - T 1 k

/-- The block's rows of the worker array after the worker update:
    `a + (s0 - u0) ⊗ A2[0] + u1 ⊗ A2[1]` with `s0` the sum of row 0 of the wide task state and
    `u_j = (M_b · Rh)_j + (M_b · Rh)_{j+2}`. -/
def rowsNew (M : NB → B → K → ℝ) (A2 : Fin 2 → Q → ℝ) (s : MState NB B K Q) (b : NB) : B → Q → ℝ := fun r q =>
  s.A b r q
    + ((∑ k, s.T 0 k) - ((∑ k, M b r k * s.Rh k 0) + (∑ k, M b r k * s.Rh k 2))) * A2 0 q
    + ((∑ k, M b r k * s.Rh k 1) + (∑ k, M b r k * s.Rh k 3)) * A2 1 q

/-- `g_j = rows · D[:, j]` and its hi/lo columns. -/
def gcol (D : Q → Fin 2 → ℝ) (a' : B → Q → ℝ) (r : B) (j : Fin 2) : ℝ := ∑ q, a' r q * D q j
def ghl (D : Q → Fin 2 → ℝ) (a' : B → Q → ℝ) (r : B) : Fin 4 → ℝ := fun j =>
  match j with
  | 0 => gcol D a' r 0
  | 1 => gcol D a' r 1
  | 2 => gcol D a' r 0 - gcol D a' r 0
  | 3 => gcol D a' r 1 - gcol D a' r 1

/-- The work at block `b`. -/
def blockStep (M : NB → B → K → ℝ) (A2 : Fin 2 → Q → ℝ) (D : Q → Fin 2 → ℝ) (b : NB) (s : MState NB B K Q) : MState NB B K Q where
  A := fun b' => if b' = b then rowsNew M A2 s b else s.A b'
  Vv := fun j k => s.Vv j k + ∑ r, ghl D (rowsNew M A2 s b) r j * M b r k
  Cs := fun q => s.Cs q + ∑ r, rowsNew M A2 s b r q
  T := s.T
  Rh := s.Rh

/-- The end of a pass: `T_j += (Cs · W0[:, j]) + Vv_j + Vv_{j+2}`, the hi/lo copy rebuilt. -/
def finishT (W0 : Q → Fin 2 → ℝ) (s : MState NB B K Q) : Fin 2 → K → ℝ := fun j k =>
  s.T j k + (∑ q, s.Cs q * W0 q j) + (s.Vv (Fin.castLE (by omega) j) k + s.Vv ⟨j.val + 2, by omega⟩ k)

/-- The accumulators zeroed (the start of a pass). -/
def zeroAcc (s : MState NB B K Q) : MState NB B K Q := { s with Vv := fun _ _ => 0, Cs := fun _ => 0 }

end Cert.Spec
-- ==== Proof.Corr.Coe.lean ====
import proofs.«170901_g57982058496645_cont_sun_m_527_4_alg».proof.Proof.Spec.Closed

/-!
# Real matrices as float matrices

`c2 f` is the float matrix whose entry `(p, q)` is the real `f p q` seen as an extended real
(the same function at every float format, since at the ideal values a format is only a label).
A float matrix all of whose entries are reals is `c2` of its real parts, and a float matrix that
reads `f p q` at every `(p, q)` is `c2 f`.
-/

noncomputable section

namespace Cert.Corr

open Idealize.ShloMosaic Idealize.ShloMosaic.ValueIdx Cert.Spec

variable {a b : ℕ} {φ : FTy}

/-- A real matrix as a float matrix of format `φ`. -/
def c2 (f : Fin a → Fin b → ℝ) : FVec Ideal ⟨2, ![a, b]⟩ φ :=
  fun i => ((f (i 0) (i 1) : ℝ) : EReal)

/-- `c2 f` at `(p, q)` is `f p q`. -/
theorem c2_apply (f : Fin a → Fin b → ℝ) (p : Fin a) (q : Fin b) :
    c2 (φ := φ) f (ix2 p q) = ((f p q : ℝ) : EReal) := rfl

/-- `c2 f` at any index. -/
theorem c2_apply' (f : Fin a → Fin b → ℝ) (i : (⟨2, ![a, b]⟩ : Shape).Idx) :
    c2 (φ := φ) f i = ((f (i 0) (i 1) : ℝ) : EReal) := rfl

/-- The format is only a label: `c2 f` at two formats is the same function. -/
theorem c2_format (f : Fin a → Fin b → ℝ) (ψ : FTy) :
    (c2 (φ := φ) f : (⟨2, ![a, b]⟩ : Shape).Idx → EReal) = c2 (φ := ψ) f := rfl

/-- A float matrix that reads `f p q` at every `(p, q)` is `c2 f`. -/
theorem ext_c2 {x : FVec Ideal ⟨2, ![a, b]⟩ φ} {f : Fin a → Fin b → ℝ}
    (h : ∀ p q, x (ix2 p q) = ((f p q : ℝ) : EReal)) : x = c2 f := by
  funext i
  obtain ⟨p, q, rfl⟩ : ∃ (p : Fin a) (q : Fin b), i = ix2 p q := ⟨i 0, i 1, eq_ix2 i⟩
  exact h p q

/-- The real parts of a float matrix, at any format (at `.f32` this is `Cert.Spec.real2`). -/
def r2 (x : FVec Ideal ⟨2, ![a, b]⟩ φ) : Fin a → Fin b → ℝ := fun p q => (x (ix2 p q)).toReal

theorem r2_eq_real2 (x : FVec Ideal ⟨2, ![a, b]⟩ .f32) : r2 x = real2 x := rfl

/-- The real parts of `c2 f` are `f`. -/
theorem r2_c2 (f : Fin a → Fin b → ℝ) : r2 (c2 (φ := φ) f) = f := by
  funext p q
  exact EReal.toReal_coe (f p q)

theorem real2_c2 (f : Fin a → Fin b → ℝ) : real2 (c2 (φ := .f32) f) = f := r2_c2 f

/-- A float matrix all of whose entries are reals is `c2` of its real parts. -/
theorem eq_c2_r2 (x : FVec Ideal ⟨2, ![a, b]⟩ φ) (h : ∀ i, ∃ r : ℝ, x i = (r : EReal)) : x = c2 (r2 x) :=
  ext_c2 fun p q => (coe_toReal_of_real (h (ix2 p q))).symm

/-- The same at `.f32`, with `Cert.Spec.real2`. -/
theorem eq_c2_of_real (x : FVec Ideal ⟨2, ![a, b]⟩ .f32) (h : ∀ i, ∃ r : ℝ, x i = (r : EReal)) :
    x = c2 (real2 x) := eq_c2_r2 x h

/-- Every entry of `c2 f` is a real. -/
theorem c2_real (f : Fin a → Fin b → ℝ) (i : (⟨2, ![a, b]⟩ : Shape).Idx) :
    ∃ r : ℝ, c2 (φ := φ) f i = (r : EReal) := ⟨_, rfl⟩

/-- `c2` is injective. -/
theorem c2_inj {f g : Fin a → Fin b → ℝ} (h : c2 (φ := φ) f = c2 (φ := φ) g) : f = g := by
  funext p q
  exact EReal.coe_injective (congrFun h (ix2 p q))

end Cert.Corr

end
-- ==== Proof.Corr.K0.lean ====
import proofs.«170901_g57982058496645_cont_sun_m_527_4_alg».proof.Proof.Pay.K0
import proofs.«170901_g57982058496645_cont_sun_m_527_4_alg».proof.Proof.Spec.Machine
import proofs.«170901_g57982058496645_cont_sun_m_527_4_alg».proof.Proof.Corr.Coe

/-!
# The first region's payloads on real data

Each value the body of the first region stores, computed from matrices of reals (and from an
arbitrary integer block, read through its entries' signed values), is the matrix of reals given by
the corresponding formula of the block machine: the block's new rows, the task-side accumulator,
the column sums, the end-of-pass fold, the hi/lo copy, the transposed task array and the zeroed
accumulators.  The coercion from reals to extended reals commutes with sums, products and
differences, so each statement is the entrywise formula with the coercion moved outside.
-/

noncomputable section

namespace Cert.Corr

open Idealize.ShloMosaic Idealize.SL.Sem Idealize.ShloMosaic.ValueIdx Cert.KernelIdeal Cert.KernelIdeal.Gen
open Cert.KernelIdeal.Pay Cert.Spec

/-- The four entries "x, y, x minus itself, y minus itself" of coerced reals. -/
theorem quad_coe (x y : ℝ) (r : Fin 4) :
    ![((x : ℝ) : EReal), ((y : ℝ) : EReal), ((x : ℝ) : EReal) - ((x : ℝ) : EReal),
        ((y : ℝ) : EReal) - ((y : ℝ) : EReal)] r
      = ((![x, y, x - x, y - y] r : ℝ) : EReal) := by
  match r with
  | ⟨0, _⟩ => rfl
  | ⟨1, _⟩ => rfl
  | ⟨2, _⟩ => exact (EReal.coe_sub x x).symm
  | ⟨3, _⟩ => exact (EReal.coe_sub y y).symm

/-- The two entries "x, y" of coerced reals. -/
theorem pair_coe (x y : ℝ) (e : Fin 2) : ![((x : ℝ) : EReal), ((y : ℝ) : EReal)] e = ((![x, y] e : ℝ) : EReal) := by
  match e with
  | ⟨0, _⟩ => rfl
  | ⟨1, _⟩ => rfl

/-- A function of a two-valued index is the pair of its values. -/
theorem pair_eta (f : Fin 2 → ℝ) (e : Fin 2) : ![f 0, f 1] e = f e := by
  match e with
  | ⟨0, _⟩ => rfl
  | ⟨1, _⟩ => rfl

/-- The hi/lo copy of a wide state, entry by entry. -/
theorem hilo_eq {K : Type} (T : Fin 2 → K → ℝ) (k : K) (r : Fin 4) :
    hilo T k r = ![T 0 k, T 1 k, T 0 k - T 0 k, T 1 k - T 1 k] r := by
  match r with
  | ⟨0, _⟩ => rfl
  | ⟨1, _⟩ => rfl
  | ⟨2, _⟩ => rfl
  | ⟨3, _⟩ => rfl

/-- The hi/lo columns of `g`, entry by entry. -/
theorem ghl_eq {B Q : Type} [Fintype Q] (D : Q → Fin 2 → ℝ) (a' : B → Q → ℝ) (c : B) (r : Fin 4) :
    ghl D a' c r = ![gcol D a' c 0, gcol D a' c 1, gcol D a' c 0 - gcol D a' c 0,
      gcol D a' c 1 - gcol D a' c 1] r := by
  match r with
  | ⟨0, _⟩ => rfl
  | ⟨1, _⟩ => rfl
  | ⟨2, _⟩ => rfl
  | ⟨3, _⟩ => rfl

/-- `g` of coerced reals is the coercion of `g`. -/
theorem gcol_coe {B : Type} (D : Fin 8 → Fin 2 → ℝ) (a' : B → Fin 8 → ℝ) (c : B) (j : Fin 2) :
    (∑ q : Fin 8, ((a' c q : ℝ) : EReal) * ((D q j : ℝ) : EReal)) = ((gcol D a' c j : ℝ) : EReal) := by
  unfold gcol
  rw [coe_sum]
  simp only [EReal.coe_mul]

/-- The label block read as a float matrix: the signed values of its entries. -/
theorem k0_pay8_c2 (x0 : Vec Ideal S256x8192 .i32) :
    k0_pay8 (F := Ideal) x0 = c2 (φ := .bf16) (fun r k => ((x0 (ix2 r k)).toInt : ℝ)) :=
  ext_c2 fun p k => k0_pay8_apply x0 p k

/-- The block's new rows: the formula of `rowsNew`, with `Mb r k` the signed value of the
integer block's entry, `T0` row 0 of the wide task state, `Rh` its hi/lo copy. -/
theorem k0_pay9_c2 (x0 : Vec Ideal S256x8192 .i32) (T0 : Fin 8192 → ℝ) (Rh : Fin 8192 → Fin 4 → ℝ)
    (A2 : Fin 2 → Fin 8 → ℝ) (rows : Fin 256 → Fin 8 → ℝ) :
    k0_pay9 (F := Ideal) x0 (c2 (φ := .f32) fun (_ : Fin 1) k => T0 k) (c2 (φ := .bf16) Rh) (c2 (φ := .f32) A2) (c2 (φ := .f32) rows)
      = c2 (φ := .f32) (fun r q => rows r q
          + ((∑ k, T0 k) - ((∑ k, ((x0 (ix2 r k)).toInt : ℝ) * Rh k 0) + (∑ k, ((x0 (ix2 r k)).toInt : ℝ) * Rh k 2)))
            * A2 0 q
          + ((∑ k, ((x0 (ix2 r k)).toInt : ℝ) * Rh k 1) + (∑ k, ((x0 (ix2 r k)).toInt : ℝ) * Rh k 3)) * A2 1 q) := by
  refine ext_c2 fun p q => ?_
  rw [k0_pay9_apply]
  simp only [c2_apply, EReal.coe_add, EReal.coe_sub, EReal.coe_mul, coe_sum]

/-- The same as the block machine's `rowsNew`. -/
theorem k0_pay9_rowsNew {NB : Type} (x0 : Vec Ideal S256x8192 .i32) (M : NB → Fin 256 → Fin 8192 → ℝ)
    (A2 : Fin 2 → Fin 8 → ℝ) (s : MState NB (Fin 256) (Fin 8192) (Fin 8)) (b : NB)
    (hM : ∀ r k, M b r k = ((x0 (ix2 r k)).toInt : ℝ)) :
    k0_pay9 (F := Ideal) x0 (c2 (φ := .f32) fun (_ : Fin 1) k => s.T 0 k) (c2 (φ := .bf16) s.Rh) (c2 (φ := .f32) A2) (c2 (φ := .f32) (s.A b))
      = c2 (φ := .f32) (rowsNew M A2 s b) := by
  rw [k0_pay9_c2]
  refine congrArg (c2 (φ := .f32)) (funext fun r => funext fun q => ?_)
  simp only [rowsNew, hM]

/-- The task-side accumulator after the block: row `j`, column `k` gains `∑ r, ghl D a' r j * Mb r k`. -/
theorem k0_pay1_c2 (x0 : Vec Ideal S256x8192 .i32) (a' : Fin 256 → Fin 8 → ℝ) (D : Fin 8 → Fin 2 → ℝ)
    (Vv : Fin 4 → Fin 8192 → ℝ) :
    k0_pay1 (F := Ideal) (k0_pay8 x0) (c2 (φ := .f32) a') (c2 (φ := .f32) D) (c2 (φ := .f32) Vv)
      = c2 (φ := .f32) (fun j k => Vv j k + ∑ r, ghl D a' r j * ((x0 (ix2 r k)).toInt : ℝ)) := by
  refine ext_c2 fun j k => ?_
  rw [k0_pay1_apply]
  simp only [c2_apply, k0_pay8_apply, gcol_coe, quad_coe, ← ghl_eq]
  rw [EReal.coe_add, coe_sum]
  simp only [EReal.coe_mul]

/-- The column sums after the block. -/
theorem k0_pay2_c2 (a' : Fin 256 → Fin 8 → ℝ) (Cs : Fin 8 → ℝ) :
    k0_pay2 (F := Ideal) (c2 (φ := .f32) a') (c2 (φ := .f32) fun (_ : Fin 1) q => Cs q)
      = c2 (φ := .f32) (fun (_ : Fin 1) q => Cs q + ∑ r, a' r q) := by
  refine ext_c2 fun u q => ?_
  rw [k0_pay2_apply]
  simp only [c2_apply, EReal.coe_add, coe_sum]

/-- The end of a pass: the fold of the accumulators into the wide task state, with `Vlo` rows 0, 1 and
`Vhi` rows 2, 3 of the task-side accumulator. -/
theorem k0_pay3_c2 (W0 : Fin 8 → Fin 2 → ℝ) (Cs : Fin 8 → ℝ) (Vlo Vhi T : Fin 2 → Fin 8192 → ℝ) :
    k0_pay3 (F := Ideal) (c2 (φ := .f32) W0) (c2 (φ := .f32) fun (_ : Fin 1) q => Cs q) (c2 (φ := .f32) Vlo) (c2 (φ := .f32) Vhi) (c2 (φ := .f32) T)
      = c2 (φ := .f32) (fun j k => T j k + (∑ q, Cs q * W0 q j) + (Vlo j k + Vhi j k)) := by
  refine ext_c2 fun j k => ?_
  rw [k0_pay3_apply]
  have h : ∀ e : Fin 2, (∑ q : Fin 8, ((Cs q : ℝ) : EReal) * ((W0 q e : ℝ) : EReal))
      = ((∑ q : Fin 8, Cs q * W0 q e : ℝ) : EReal) := fun e => by
    rw [coe_sum]; simp only [EReal.coe_mul]
  simp only [c2_apply, h, pair_coe]
  rw [pair_eta (fun e => ∑ q : Fin 8, Cs q * W0 q e) j]
  simp only [EReal.coe_add]

/-- The same as the block machine's `finishT`. -/
theorem k0_pay3_finishT {NB : Type} (W0 : Fin 8 → Fin 2 → ℝ) (s : MState NB (Fin 256) (Fin 8192) (Fin 8)) :
    k0_pay3 (F := Ideal) (c2 (φ := .f32) W0) (c2 (φ := .f32) fun (_ : Fin 1) q => s.Cs q)
        (c2 (φ := .f32) fun (j : Fin 2) k => s.Vv (Fin.castLE (by omega) j) k)
        (c2 (φ := .f32) fun (j : Fin 2) k => s.Vv ⟨j.val + 2, by omega⟩ k) (c2 (φ := .f32) s.T)
      = c2 (φ := .f32) (finishT W0 s) := by
  rw [k0_pay3_c2]
  rfl

/-- The hi/lo column copy of the initial task array. -/
theorem k0_pay4_c2 (t0 : Fin 8192 → Fin 2 → ℝ) :
    k0_pay4 (F := Ideal) (c2 (φ := .f32) t0) = c2 (φ := .bf16) (hilo fun j k => t0 k j) := by
  refine ext_c2 fun k r => ?_
  rw [k0_pay4_apply]
  simp only [c2_apply, quad_coe, ← hilo_eq (fun j k => t0 k j)]

/-- The initial task array transposed. -/
theorem k0_pay5_c2 (t0 : Fin 8192 → Fin 2 → ℝ) :
    k0_pay5 (F := Ideal) (c2 (φ := .f32) t0) = c2 (φ := .f32) (fun j k => t0 k j) :=
  ext_c2 fun j k => k0_pay5_apply (c2 (φ := .f32) t0) j k

/-- The task-side accumulator zeroed. -/
theorem k0_pay6_c2 : k0_pay6 (F := Ideal) = c2 (φ := .f32) (fun _ _ => (0 : ℝ)) :=
  ext_c2 fun j k => (k0_pay6_apply j k).trans EReal.coe_zero.symm

/-- The column-sum accumulator zeroed. -/
theorem k0_pay7_c2 : k0_pay7 (F := Ideal) = c2 (φ := .f32) (fun _ _ => (0 : ℝ)) :=
  ext_c2 fun u q => (k0_pay7_apply u q).trans EReal.coe_zero.symm

end Cert.Corr

end
-- ==== Proof.Spec.Pass.lean ====
import proofs.«170901_g57982058496645_cont_sun_m_527_4_alg».proof.Proof.Spec.Step
import proofs.«170901_g57982058496645_cont_sun_m_527_4_alg».proof.Proof.Spec.Machine

/-!
# One pass over the blocks is one step

The blocks are indexed by Fin n and visited in order.  Each block's rows of the worker array are
rewritten exactly once, from the task state and its hi/lo copy, which a pass does not touch; the two
accumulators collect, block after block, the sums over the rows already rewritten.  So after the first
m blocks the state is known in closed form, and after all n blocks, folding the accumulators into the
task state gives exactly one step in the arrangement aKer / tKer of the whole label matrix, its rows
indexed by the pairs (block, row in block).  The lo parts are a value minus itself, which is zero.
-/

namespace Cert.Spec

open Finset

variable {n : ℕ} {B K Q : Type} [Fintype B] [Fintype K] [Fintype Q]

/-- The first m blocks of a pass, in order. -/
def prefixBlocks (M : Fin n → B → K → ℝ) (A2 : Fin 2 → Q → ℝ) (D : Q → Fin 2 → ℝ) (m : ℕ)
    (s : MState (Fin n) B K Q) : MState (Fin n) B K Q :=
  ((List.finRange n).take m).foldl (fun s b => blockStep M A2 D b s) s

/-- All the blocks of a pass, in order. -/
def passBlocks (M : Fin n → B → K → ℝ) (A2 : Fin 2 → Q → ℝ) (D : Q → Fin 2 → ℝ)
    (s : MState (Fin n) B K Q) : MState (Fin n) B K Q :=
  (List.finRange n).foldl (fun s b => blockStep M A2 D b s) s

theorem prefixBlocks_zero (M : Fin n → B → K → ℝ) (A2 : Fin 2 → Q → ℝ) (D : Q → Fin 2 → ℝ)
    (s : MState (Fin n) B K Q) : prefixBlocks M A2 D 0 s = s := by
  simp [prefixBlocks]

theorem prefixBlocks_succ (M : Fin n → B → K → ℝ) (A2 : Fin 2 → Q → ℝ) (D : Q → Fin 2 → ℝ)
    (s : MState (Fin n) B K Q) (m : ℕ) (h : m < n) :
    prefixBlocks M A2 D (m + 1) s = blockStep M A2 D ⟨m, h⟩ (prefixBlocks M A2 D m s) := by
  unfold prefixBlocks
  rw [List.take_succ, List.foldl_append]
  simp [h]

theorem prefixBlocks_full (M : Fin n → B → K → ℝ) (A2 : Fin 2 → Q → ℝ) (D : Q → Fin 2 → ℝ)
    (s : MState (Fin n) B K Q) : prefixBlocks M A2 D n s = passBlocks M A2 D s := by
  unfold prefixBlocks passBlocks
  rw [List.take_of_length_le (by simp)]

/-! ## Sums over the blocks already visited -/

theorem sum_lt_succ (X : Fin n → ℝ) (m : ℕ) (h : m < n) :
    (∑ b : Fin n, if b.val < m + 1 then X b else 0)
      = (∑ b : Fin n, if b.val < m then X b else 0) + X ⟨m, h⟩ := by
  have hb : ∀ b : Fin n, (if b.val < m + 1 then X b else 0)
      = (if b.val < m then X b else 0) + (if b = ⟨m, h⟩ then X b else 0) := by
    intro b
    by_cases h1 : b.val < m
    · have h2 : b ≠ ⟨m, h⟩ := by
        intro e
        rw [e] at h1
        exact lt_irrefl _ h1
      have h3 : b.val < m + 1 := Nat.lt_succ_of_lt h1
      simp [h1, h2, h3]
    · by_cases h2 : b = ⟨m, h⟩
      · subst h2
        simp
      · have h3 : ¬ b.val < m + 1 := by
          intro h3
          apply h2
          apply Fin.ext
          simp only
          omega
        simp [h1, h2, h3]
  simp only [hb, Finset.sum_add_distrib, Finset.sum_ite_eq', Finset.mem_univ, if_true]

theorem sum_lt_full (X : Fin n → ℝ) :
    (∑ b : Fin n, if b.val < n then X b else 0) = ∑ b : Fin n, X b := by
  simp

/-! ## The state after the first m blocks -/

/-- A block's new rows depend on the state only through that block's rows, the task state and
    its hi/lo copy. -/
theorem rowsNew_congr (M : Fin n → B → K → ℝ) (A2 : Fin 2 → Q → ℝ) {s s' : MState (Fin n) B K Q}
    (b : Fin n) (hA : s'.A b = s.A b) (hT : s'.T = s.T) (hR : s'.Rh = s.Rh) :
    rowsNew M A2 s' b = rowsNew M A2 s b := by
  funext r q
  simp only [rowsNew, hA, hT, hR]

/-- The closed form of the state after the first m blocks: the task state and its hi/lo copy are
    untouched, the blocks below m carry their new rows and the others their old rows, and the
    accumulators have gained the sums over the blocks below m. -/
theorem prefixBlocks_inv (M : Fin n → B → K → ℝ) (A2 : Fin 2 → Q → ℝ) (D : Q → Fin 2 → ℝ)
    (s : MState (Fin n) B K Q) (m : ℕ) (hm : m ≤ n) :
    (prefixBlocks M A2 D m s).T = s.T ∧ (prefixBlocks M A2 D m s).Rh = s.Rh ∧
    (∀ b : Fin n, (prefixBlocks M A2 D m s).A b
        = if b.val < m then rowsNew M A2 s b else s.A b) ∧
    (∀ j k, (prefixBlocks M A2 D m s).Vv j k
        = s.Vv j k + ∑ b : Fin n,
            if b.val < m then ∑ r, ghl D (rowsNew M A2 s b) r j * M b r k else 0) ∧
    (∀ q, (prefixBlocks M A2 D m s).Cs q
        = s.Cs q + ∑ b : Fin n, if b.val < m then ∑ r, rowsNew M A2 s b r q else 0) := by
  induction m with
  | zero =>
    rw [prefixBlocks_zero]
    simp
  | succ m ih =>
    have h : m < n := hm
    obtain ⟨hT, hR, hA, hV, hC⟩ := ih (Nat.le_of_lt h)
    have hrow : rowsNew M A2 (prefixBlocks M A2 D m s) ⟨m, h⟩ = rowsNew M A2 s ⟨m, h⟩ := by
      apply rowsNew_congr M A2 _ _ hT hR
      rw [hA]
      simp
    rw [prefixBlocks_succ M A2 D s m h]
    refine ⟨hT, hR, ?_, ?_, ?_⟩
    · intro b
      show (if b = ⟨m, h⟩ then rowsNew M A2 (prefixBlocks M A2 D m s) ⟨m, h⟩
          else (prefixBlocks M A2 D m s).A b) = _
      rw [hrow, hA]
      by_cases h2 : b = ⟨m, h⟩
      · subst h2
        simp
      · have h3 : b.val < m + 1 ↔ b.val < m := by
          constructor
          · intro h3
            have : b.val ≠ m := fun e => h2 (Fin.ext e)
            omega
          · intro h3
            omega
        simp only [h2, if_false, h3]
    · intro j k
      show (prefixBlocks M A2 D m s).Vv j k
          + ∑ r, ghl D (rowsNew M A2 (prefixBlocks M A2 D m s) ⟨m, h⟩) r j * M ⟨m, h⟩ r k = _
      rw [hrow, hV,
        sum_lt_succ (fun b => ∑ r, ghl D (rowsNew M A2 s b) r j * M b r k) m h, add_assoc]
    · intro q
      show (prefixBlocks M A2 D m s).Cs q
          + ∑ r, rowsNew M A2 (prefixBlocks M A2 D m s) ⟨m, h⟩ r q = _
      rw [hrow, hC, sum_lt_succ (fun b => ∑ r, rowsNew M A2 s b r q) m h, add_assoc]

theorem prefixBlocks_T (M : Fin n → B → K → ℝ) (A2 : Fin 2 → Q → ℝ) (D : Q → Fin 2 → ℝ)
    (s : MState (Fin n) B K Q) (m : ℕ) (hm : m ≤ n) : (prefixBlocks M A2 D m s).T = s.T :=
  (prefixBlocks_inv M A2 D s m hm).1

theorem prefixBlocks_Rh (M : Fin n → B → K → ℝ) (A2 : Fin 2 → Q → ℝ) (D : Q → Fin 2 → ℝ)
    (s : MState (Fin n) B K Q) (m : ℕ) (hm : m ≤ n) : (prefixBlocks M A2 D m s).Rh = s.Rh :=
  (prefixBlocks_inv M A2 D s m hm).2.1

theorem prefixBlocks_A (M : Fin n → B → K → ℝ) (A2 : Fin 2 → Q → ℝ) (D : Q → Fin 2 → ℝ)
    (s : MState (Fin n) B K Q) (m : ℕ) (hm : m ≤ n) (b : Fin n) :
    (prefixBlocks M A2 D m s).A b = if b.val < m then rowsNew M A2 s b else s.A b :=
  (prefixBlocks_inv M A2 D s m hm).2.2.1 b

theorem prefixBlocks_Vv (M : Fin n → B → K → ℝ) (A2 : Fin 2 → Q → ℝ) (D : Q → Fin 2 → ℝ)
    (s : MState (Fin n) B K Q) (m : ℕ) (hm : m ≤ n) (j : Fin 4) (k : K) :
    (prefixBlocks M A2 D m s).Vv j k = s.Vv j k + ∑ b : Fin n,
      if b.val < m then ∑ r, ghl D (rowsNew M A2 s b) r j * M b r k else 0 :=
  (prefixBlocks_inv M A2 D s m hm).2.2.2.1 j k

theorem prefixBlocks_Cs (M : Fin n → B → K → ℝ) (A2 : Fin 2 → Q → ℝ) (D : Q → Fin 2 → ℝ)
    (s : MState (Fin n) B K Q) (m : ℕ) (hm : m ≤ n) (q : Q) :
    (prefixBlocks M A2 D m s).Cs q = s.Cs q + ∑ b : Fin n,
      if b.val < m then ∑ r, rowsNew M A2 s b r q else 0 :=
  (prefixBlocks_inv M A2 D s m hm).2.2.2.2 q

/-- The block visited next still carries its old rows, so its new rows are those computed from
    the state the pass started from. -/
theorem rowsNew_prefixBlocks (M : Fin n → B → K → ℝ) (A2 : Fin 2 → Q → ℝ) (D : Q → Fin 2 → ℝ)
    (s : MState (Fin n) B K Q) (m : ℕ) (hm : m ≤ n) (b : Fin n) (hb : m ≤ b.val) :
    rowsNew M A2 (prefixBlocks M A2 D m s) b = rowsNew M A2 s b := by
  apply rowsNew_congr M A2 b _ (prefixBlocks_T M A2 D s m hm) (prefixBlocks_Rh M A2 D s m hm)
  rw [prefixBlocks_A M A2 D s m hm, if_neg (not_lt.mpr hb)]

/-! ## A whole pass -/

/-- The label matrix, the worker array and the task state with the rows indexed by the pairs
    (block, row in block) and the task state transposed: the arguments of a step. -/
abbrev flatM (M : Fin n → B → K → ℝ) : Fin n × B → K → ℝ := fun p k => M p.1 p.2 k
abbrev flatA (s : MState (Fin n) B K Q) : Fin n × B → Q → ℝ := fun p q => s.A p.1 p.2 q
abbrev colT (s : MState (Fin n) B K Q) : K → Fin 2 → ℝ := fun k j => s.T j k

theorem hilo_0 (T : Fin 2 → K → ℝ) (k : K) : hilo T k 0 = T 0 k := rfl
theorem hilo_1 (T : Fin 2 → K → ℝ) (k : K) : hilo T k 1 = T 1 k := rfl
theorem hilo_2 (T : Fin 2 → K → ℝ) (k : K) : hilo T k 2 = 0 := sub_self _
theorem hilo_3 (T : Fin 2 → K → ℝ) (k : K) : hilo T k 3 = 0 := sub_self _

/-- The hi columns of g are g and its lo columns are zero. -/
theorem ghl_hi (D : Q → Fin 2 → ℝ) (a' : B → Q → ℝ) (r : B) (j : Fin 2) :
    ghl D a' r (Fin.castLE (by omega) j) = gcol D a' r j := by
  fin_cases j <;> rfl

theorem ghl_lo (D : Q → Fin 2 → ℝ) (a' : B → Q → ℝ) (r : B) (j : Fin 2) :
    ghl D a' r ⟨j.val + 2, by omega⟩ = 0 := by
  fin_cases j <;> exact sub_self _

/-- With the hi/lo copy that of the task state, a block's new rows are the rows of the step's new
    worker array: the lo columns contribute nothing. -/
theorem rowsNew_eq_aKer (M : Fin n → B → K → ℝ) (A2 : Fin 2 → Q → ℝ) (s : MState (Fin n) B K Q)
    (hR : s.Rh = hilo s.T) (b : Fin n) (r : B) (q : Q) :
    rowsNew M A2 s b r q = aKer (flatM M) A2 (flatA s) (colT s) (b, r) q := by
  simp only [rowsNew, aKer, flatM, flatA, colT, hR, hilo_0, hilo_1, hilo_2, hilo_3, mul_zero,
    Finset.sum_const_zero, add_zero]

theorem zeroAcc_T (s : MState (Fin n) B K Q) : (zeroAcc s).T = s.T := rfl
theorem zeroAcc_Rh (s : MState (Fin n) B K Q) : (zeroAcc s).Rh = s.Rh := rfl
theorem zeroAcc_A (s : MState (Fin n) B K Q) : (zeroAcc s).A = s.A := rfl
theorem zeroAcc_Vv (s : MState (Fin n) B K Q) (j : Fin 4) (k : K) : (zeroAcc s).Vv j k = 0 := rfl
theorem zeroAcc_Cs (s : MState (Fin n) B K Q) (q : Q) : (zeroAcc s).Cs q = 0 := rfl

theorem rowsNew_zeroAcc (M : Fin n → B → K → ℝ) (A2 : Fin 2 → Q → ℝ) (s : MState (Fin n) B K Q)
    (b : Fin n) : rowsNew M A2 (zeroAcc s) b = rowsNew M A2 s b := rfl

/-- After a pass every block carries its new rows. -/
theorem passBlocks_A (M : Fin n → B → K → ℝ) (A2 : Fin 2 → Q → ℝ) (D : Q → Fin 2 → ℝ)
    (s : MState (Fin n) B K Q) (b : Fin n) :
    (passBlocks M A2 D s).A b = rowsNew M A2 s b := by
  rw [← prefixBlocks_full, (prefixBlocks_inv M A2 D s n le_rfl).2.2.1 b, if_pos b.isLt]

theorem passBlocks_T (M : Fin n → B → K → ℝ) (A2 : Fin 2 → Q → ℝ) (D : Q → Fin 2 → ℝ)
    (s : MState (Fin n) B K Q) : (passBlocks M A2 D s).T = s.T := by
  rw [← prefixBlocks_full]
  exact (prefixBlocks_inv M A2 D s n le_rfl).1

theorem passBlocks_Rh (M : Fin n → B → K → ℝ) (A2 : Fin 2 → Q → ℝ) (D : Q → Fin 2 → ℝ)
    (s : MState (Fin n) B K Q) : (passBlocks M A2 D s).Rh = s.Rh := by
  rw [← prefixBlocks_full]
  exact (prefixBlocks_inv M A2 D s n le_rfl).2.1

theorem passBlocks_Vv (M : Fin n → B → K → ℝ) (A2 : Fin 2 → Q → ℝ) (D : Q → Fin 2 → ℝ)
    (s : MState (Fin n) B K Q) (j : Fin 4) (k : K) :
    (passBlocks M A2 D s).Vv j k
      = s.Vv j k + ∑ b : Fin n, ∑ r, ghl D (rowsNew M A2 s b) r j * M b r k := by
  rw [← prefixBlocks_full, (prefixBlocks_inv M A2 D s n le_rfl).2.2.2.1 j k, sum_lt_full]

theorem passBlocks_Cs (M : Fin n → B → K → ℝ) (A2 : Fin 2 → Q → ℝ) (D : Q → Fin 2 → ℝ)
    (s : MState (Fin n) B K Q) (q : Q) :
    (passBlocks M A2 D s).Cs q = s.Cs q + ∑ b : Fin n, ∑ r, rowsNew M A2 s b r q := by
  rw [← prefixBlocks_full, (prefixBlocks_inv M A2 D s n le_rfl).2.2.2.2 q, sum_lt_full]

/-- The worker array after a pass is the step's new worker array. -/
theorem pass_A (M : Fin n → B → K → ℝ) (A2 : Fin 2 → Q → ℝ) (D : Q → Fin 2 → ℝ)
    (s : MState (Fin n) B K Q) (hR : s.Rh = hilo s.T) (b : Fin n) (r : B) (q : Q) :
    (passBlocks M A2 D (zeroAcc s)).A b r q = aKer (flatM M) A2 (flatA s) (colT s) (b, r) q := by
  rw [passBlocks_A, rowsNew_zeroAcc, rowsNew_eq_aKer M A2 s hR]

/-- The task state after a pass, the accumulators folded in, is the step's new task state. -/
theorem pass_T (M : Fin n → B → K → ℝ) (A2 : Fin 2 → Q → ℝ) (W : Fin 2 → Q → Fin 2 → ℝ)
    (D : Q → Fin 2 → ℝ) (hD : ∀ q j, D q j = W 1 q j - W 0 q j)
    (s : MState (Fin n) B K Q) (hR : s.Rh = hilo s.T) (j : Fin 2) (k : K) :
    finishT (W 0) (passBlocks M A2 D (zeroAcc s)) j k
      = tKer (flatM M) W (aKer (flatM M) A2 (flatA s) (colT s)) (colT s) k j := by
  have hrow : ∀ b r q, rowsNew M A2 (zeroAcc s) b r q
      = aKer (flatM M) A2 (flatA s) (colT s) (b, r) q :=
    fun b r q => rowsNew_eq_aKer M A2 s hR b r q
  simp only [finishT, passBlocks_T, passBlocks_Vv, passBlocks_Cs, ghl_hi, ghl_lo, zero_mul,
    Finset.sum_const_zero, add_zero, zeroAcc_T, zeroAcc_Vv, zeroAcc_Cs, zero_add, tKer,
    Fintype.sum_prod_type, gcol, hD, hrow]

/-! ## The passes iterated -/

/-- One pass: the accumulators zeroed, all the blocks in order, then the accumulators folded into the
    task state and the hi/lo copy rebuilt from it. -/
def onePass (M : Fin n → B → K → ℝ) (A2 : Fin 2 → Q → ℝ) (W : Fin 2 → Q → Fin 2 → ℝ)
    (s : MState (Fin n) B K Q) : MState (Fin n) B K Q :=
  let s' := passBlocks M A2 (fun q j => W 1 q j - W 0 q j) (zeroAcc s)
  { s' with T := finishT (W 0) s', Rh := hilo (finishT (W 0) s') }

/-- The pair a step acts on, read off a machine state. -/
def toPair (s : MState (Fin n) B K Q) : (Fin n × B → Q → ℝ) × (K → Fin 2 → ℝ) :=
  (flatA s, colT s)

theorem onePass_Rh (M : Fin n → B → K → ℝ) (A2 : Fin 2 → Q → ℝ) (W : Fin 2 → Q → Fin 2 → ℝ)
    (s : MState (Fin n) B K Q) : (onePass M A2 W s).Rh = hilo (onePass M A2 W s).T := rfl

/-- One pass is one step. -/
theorem toPair_onePass (M : Fin n → B → K → ℝ) (A2 : Fin 2 → Q → ℝ) (W : Fin 2 → Q → Fin 2 → ℝ)
    (s : MState (Fin n) B K Q) (hR : s.Rh = hilo s.T) :
    toPair (onePass M A2 W s) = stepKer (flatM M) A2 W (toPair s) := by
  refine Prod.ext ?_ ?_
  · funext p q
    obtain ⟨b, r⟩ := p
    exact pass_A M A2 _ s hR b r q
  · funext k j
    exact pass_T M A2 W _ (fun _ _ => rfl) s hR j k

/-- m passes are m steps, and the hi/lo copy stays that of the task state. -/
theorem toPair_iterate (M : Fin n → B → K → ℝ) (A2 : Fin 2 → Q → ℝ) (W : Fin 2 → Q → Fin 2 → ℝ)
    (s : MState (Fin n) B K Q) (hR : s.Rh = hilo s.T) (m : ℕ) :
    toPair ((onePass M A2 W)^[m] s) = (stepKer (flatM M) A2 W)^[m] (toPair s)
      ∧ ((onePass M A2 W)^[m] s).Rh = hilo ((onePass M A2 W)^[m] s).T := by
  induction m with
  | zero => exact ⟨rfl, hR⟩
  | succ m ih =>
    rw [Function.iterate_succ_apply', Function.iterate_succ_apply']
    exact ⟨by rw [toPair_onePass M A2 W _ ih.2, ih.1], onePass_Rh M A2 W _⟩

/-- The worker array after m passes is that of m steps. -/
theorem passes_A (M : Fin n → B → K → ℝ) (A2 : Fin 2 → Q → ℝ) (W : Fin 2 → Q → Fin 2 → ℝ)
    (s : MState (Fin n) B K Q) (hR : s.Rh = hilo s.T) (m : ℕ) (b : Fin n) (r : B) (q : Q) :
    ((onePass M A2 W)^[m] s).A b r q
      = ((stepKer (flatM M) A2 W)^[m] (flatA s, colT s)).1 (b, r) q :=
  congrFun (congrFun (congrArg Prod.fst (toPair_iterate M A2 W s hR m).1) (b, r)) q

/-- The task state after m passes is that of m steps, transposed. -/
theorem passes_T (M : Fin n → B → K → ℝ) (A2 : Fin 2 → Q → ℝ) (W : Fin 2 → Q → Fin 2 → ℝ)
    (s : MState (Fin n) B K Q) (hR : s.Rh = hilo s.T) (m : ℕ) (j : Fin 2) (k : K) :
    ((onePass M A2 W)^[m] s).T j k
      = ((stepKer (flatM M) A2 W)^[m] (flatA s, colT s)).2 k j :=
  congrFun (congrFun (congrArg Prod.snd (toPair_iterate M A2 W s hR m).1) k) j

end Cert.Spec
-- ==== Proof.Spec.Glue.lean ====
import proofs.«170901_g57982058496645_cont_sun_m_527_4_alg».proof.Proof.Spec.Pass
import proofs.«170901_g57982058496645_cont_sun_m_527_4_alg».proof.Proof.Spec.Closed

/-!
# Two ways of cutting the rows, five steps

A step does not care how the rows of the label matrix are named: renaming them through a bijection
renames the rows of the new worker array and leaves the new task state alone, because the task state
only sees sums over all the rows.  The rows are first cut as 16 blocks of 256 and one pass is run, then
cut as 8 blocks of 512 and four passes are run; each pass is one step of the renamed matrices, so the
whole is five steps of the matrices with their rows named by 0 … 4095.
-/

noncomputable section

namespace Cert.Spec

open Finset

section Reindex

variable {P P' K Q : Type} [Fintype P] [Fintype P'] [Fintype K] [Fintype Q]

/-- A pair (worker array, task state) with the worker rows renamed through e. -/
def reidx (e : P' ≃ P) (x : (P → Q → ℝ) × (K → Fin 2 → ℝ)) : (P' → Q → ℝ) × (K → Fin 2 → ℝ) :=
  (fun p' q => x.1 (e p') q, x.2)

/-- A step of the renamed matrices is the renamed step. -/
theorem stepKer_reidx (e : P' ≃ P) (M : P → K → ℝ) (A2 : Fin 2 → Q → ℝ) (W : Fin 2 → Q → Fin 2 → ℝ)
    (x : (P → Q → ℝ) × (K → Fin 2 → ℝ)) :
    stepKer (fun p' k => M (e p') k) A2 W (reidx e x) = reidx e (stepKer M A2 W x) := by
  refine Prod.ext rfl ?_
  funext k j
  show tKer (fun p' k => M (e p') k) W (fun p' q => aKer M A2 x.1 x.2 (e p') q) x.2 k j
      = tKer M W (aKer M A2 x.1 x.2) x.2 k j
  simp only [tKer]
  rw [Equiv.sum_comp e (fun p => (∑ q, aKer M A2 x.1 x.2 p q * (W 1 q j - W 0 q j)) * M p k)]
  congr 2
  exact Finset.sum_congr rfl fun q _ => by
    rw [Equiv.sum_comp e (fun p => aKer M A2 x.1 x.2 p q)]

/-- The same for any number of steps. -/
theorem stepKer_iterate_reidx (e : P' ≃ P) (M : P → K → ℝ) (A2 : Fin 2 → Q → ℝ)
    (W : Fin 2 → Q → Fin 2 → ℝ) (x : (P → Q → ℝ) × (K → Fin 2 → ℝ)) (m : ℕ) :
    (stepKer (fun p' k => M (e p') k) A2 W)^[m] (reidx e x)
      = reidx e ((stepKer M A2 W)^[m] x) := by
  induction m with
  | zero => rfl
  | succ m ih =>
    rw [Function.iterate_succ_apply', Function.iterate_succ_apply', ih, stepKer_reidx]

end Reindex

section Blocks

variable {n : ℕ} {B P K Q : Type} [Fintype B] [Fintype P] [Fintype K] [Fintype Q]

/-- The label matrix cut into blocks along a naming e of its rows by (block, row in block). -/
def blockM (e : Fin n × B ≃ P) (M : P → K → ℝ) : Fin n → B → K → ℝ := fun b r k => M (e (b, r)) k

theorem flatM_blockM (e : Fin n × B ≃ P) (M : P → K → ℝ) :
    flatM (blockM e M) = fun p k => M (e p) k := rfl

/-- Passes over the blocks of a cut are steps of the uncut matrices: if a machine state holds the
    pair x with its rows cut along e, then after m passes it holds x after m steps, cut along e. -/
theorem toPair_passes_reidx (e : Fin n × B ≃ P) (M : P → K → ℝ) (A2 : Fin 2 → Q → ℝ)
    (W : Fin 2 → Q → Fin 2 → ℝ) (s : MState (Fin n) B K Q) (hR : s.Rh = hilo s.T)
    (x : (P → Q → ℝ) × (K → Fin 2 → ℝ)) (hx : toPair s = reidx e x) (m : ℕ) :
    toPair ((onePass (blockM e M) A2 W)^[m] s) = reidx e ((stepKer M A2 W)^[m] x) := by
  rw [(toPair_iterate (blockM e M) A2 W s hR m).1, flatM_blockM, hx, stepKer_iterate_reidx]

end Blocks

section Regions

/-- The 4096 rows cut as 16 blocks of 256, and as 8 blocks of 512: row r of block b is row
    r + 256 * b, respectively r + 512 * b. -/
def e16 : Fin 16 × Fin 256 ≃ Fin 4096 := finProdFinEquiv
def e8 : Fin 8 × Fin 512 ≃ Fin 4096 := finProdFinEquiv

theorem e16_val (b : Fin 16) (r : Fin 256) : (e16 (b, r)).val = r.val + 256 * b.val := rfl
theorem e8_val (b : Fin 8) (r : Fin 512) : (e8 (b, r)).val = r.val + 512 * b.val := rfl
theorem e16_symm_fst_val (p : Fin 4096) : (e16.symm p).1.val = p.val / 256 := rfl
theorem e16_symm_snd_val (p : Fin 4096) : (e16.symm p).2.val = p.val % 256 := rfl
theorem e8_symm_fst_val (p : Fin 4096) : (e8.symm p).1.val = p.val / 512 := rfl
theorem e8_symm_snd_val (p : Fin 4096) : (e8.symm p).2.val = p.val % 512 := rfl

variable (M : Fin 4096 → Fin 8192 → ℝ) (A2 : Fin 2 → Fin 8 → ℝ) (W : Fin 2 → Fin 8 → Fin 2 → ℝ)
  (a0 : Fin 4096 → Fin 8 → ℝ) (t0 : Fin 8192 → Fin 2 → ℝ)

/-- The state the first region starts from: the initial matrices with the rows cut in 16, the
    accumulators anything. -/
def s0 (v : Fin 4 → Fin 8192 → ℝ) (c : Fin 8 → ℝ) : MState (Fin 16) (Fin 256) (Fin 8192) (Fin 8) where
  A := fun b r q => a0 (e16 (b, r)) q
  Vv := v
  Cs := c
  T := fun j k => t0 k j
  Rh := hilo fun j k => t0 k j

/-- The state the second region starts from: what one pass over the 16 blocks left, the rows cut
    in 8 instead, the accumulators anything. -/
def s1 (v : Fin 4 → Fin 8192 → ℝ) (c : Fin 8 → ℝ) (v' : Fin 4 → Fin 8192 → ℝ) (c' : Fin 8 → ℝ) :
    MState (Fin 8) (Fin 512) (Fin 8192) (Fin 8) where
  A := fun b r q => (onePass (blockM e16 M) A2 W (s0 a0 t0 v c)).A
    (e16.symm (e8 (b, r))).1 (e16.symm (e8 (b, r))).2 q
  Vv := v'
  Cs := c'
  T := (onePass (blockM e16 M) A2 W (s0 a0 t0 v c)).T
  Rh := hilo (onePass (blockM e16 M) A2 W (s0 a0 t0 v c)).T

theorem toPair_s0 (v : Fin 4 → Fin 8192 → ℝ) (c : Fin 8 → ℝ) :
    toPair (s0 a0 t0 v c) = reidx e16 (a0, t0) := rfl

/-- After the first region the state holds one step, the rows cut in 16. -/
theorem toPair_region1 (v : Fin 4 → Fin 8192 → ℝ) (c : Fin 8 → ℝ) :
    toPair (onePass (blockM e16 M) A2 W (s0 a0 t0 v c))
      = reidx e16 (stepKer M A2 W (a0, t0)) :=
  toPair_passes_reidx e16 M A2 W (s0 a0 t0 v c) rfl (a0, t0) rfl 1

/-- The second region starts from one step, the rows cut in 8. -/
theorem toPair_s1 (v : Fin 4 → Fin 8192 → ℝ) (c : Fin 8 → ℝ) (v' : Fin 4 → Fin 8192 → ℝ)
    (c' : Fin 8 → ℝ) :
    toPair (s1 M A2 W a0 t0 v c v' c') = reidx e8 (stepKer M A2 W (a0, t0)) := by
  have h1 := toPair_region1 M A2 W a0 t0 v c
  refine Prod.ext ?_ ?_
  · funext p q
    have h := congrFun (congrFun (congrArg Prod.fst h1) (e16.symm (e8 p))) q
    simp only [toPair, flatA, reidx, Equiv.apply_symm_apply] at h
    exact h
  · have h2 := congrArg Prod.snd h1
    exact h2

/-- One pass over 16 blocks of 256 rows then four passes over 8 blocks of 512 rows are five steps. -/
theorem toPair_region2 (v : Fin 4 → Fin 8192 → ℝ) (c : Fin 8 → ℝ) (v' : Fin 4 → Fin 8192 → ℝ)
    (c' : Fin 8 → ℝ) :
    toPair ((onePass (blockM e8 M) A2 W)^[4] (s1 M A2 W a0 t0 v c v' c'))
      = reidx e8 ((stepKer M A2 W)^[5] (a0, t0)) := by
  rw [toPair_passes_reidx e8 M A2 W (s1 M A2 W a0 t0 v c v' c') rfl _
    (toPair_s1 M A2 W a0 t0 v c v' c') 4]
  rfl

theorem region2_A (v : Fin 4 → Fin 8192 → ℝ) (c : Fin 8 → ℝ) (v' : Fin 4 → Fin 8192 → ℝ)
    (c' : Fin 8 → ℝ) (b : Fin 8) (r : Fin 512) (q : Fin 8) :
    ((onePass (blockM e8 M) A2 W)^[4] (s1 M A2 W a0 t0 v c v' c')).A b r q
      = ((stepKer M A2 W)^[5] (a0, t0)).1 (e8 (b, r)) q :=
  congrFun (congrFun (congrArg Prod.fst (toPair_region2 M A2 W a0 t0 v c v' c')) (b, r)) q

theorem region2_T (v : Fin 4 → Fin 8192 → ℝ) (c : Fin 8 → ℝ) (v' : Fin 4 → Fin 8192 → ℝ)
    (c' : Fin 8 → ℝ) (j : Fin 2) (k : Fin 8192) :
    ((onePass (blockM e8 M) A2 W)^[4] (s1 M A2 W a0 t0 v c v' c')).T j k
      = ((stepKer M A2 W)^[5] (a0, t0)).2 k j :=
  congrFun (congrFun (congrArg Prod.snd (toPair_region2 M A2 W a0 t0 v c v' c')) k) j

end Regions

section Closed

open Idealize.ShloMosaic Idealize.ShloMosaic.ValueIdx

variable (x0 : IVec ⟨2, ![4096, 8192]⟩ 32) (x1 : FVec Ideal ⟨3, ![2, 8, 2]⟩ .f32)
  (x2 : FVec Ideal ⟨3, ![2, 1, 8]⟩ .f32) (x3 : FVec Ideal ⟨2, ![4096, 8]⟩ .f32)
  (x4 : FVec Ideal ⟨2, ![8192, 2]⟩ .f32)

/-- The state after both regions, from the five argument arrays read as real matrices. -/
abbrev finalState (v : Fin 4 → Fin 8192 → ℝ) (c : Fin 8 → ℝ) (v' : Fin 4 → Fin 8192 → ℝ)
    (c' : Fin 8 → ℝ) : MState (Fin 8) (Fin 512) (Fin 8192) (Fin 8) :=
  (onePass (blockM e8 (realM x0)) (realA2 x2) (realW x1))^[4]
    (s1 (realM x0) (realA2 x2) (realW x1) (real2 x3) (real2 x4) v c v' c')

/-- The first result array, entry by entry, is the final worker array: row r of block b is row
    r + 512 * b. -/
theorem out0_eq_final_block (v : Fin 4 → Fin 8192 → ℝ) (c : Fin 8 → ℝ) (v' : Fin 4 → Fin 8192 → ℝ)
    (c' : Fin 8 → ℝ) (b : Fin 8) (r : Fin 512) (q : Fin 8) :
    out0 x0 x1 x2 x3 x4 (ix2 (e8 (b, r)) q)
      = (((finalState x0 x1 x2 x3 x4 v c v' c').A b r q : ℝ) : EReal) := by
  show (((refOut x0 x1 x2 x3 x4).1 (e8 (b, r)) q : ℝ) : EReal) = _
  rw [refOut_eq_ker, region2_A]

/-- The same with the row given: row p is row p % 512 of block p / 512. -/
theorem out0_eq_final (v : Fin 4 → Fin 8192 → ℝ) (c : Fin 8 → ℝ) (v' : Fin 4 → Fin 8192 → ℝ)
    (c' : Fin 8 → ℝ) (p : Fin 4096) (q : Fin 8) :
    out0 x0 x1 x2 x3 x4 (ix2 p q)
      = (((finalState x0 x1 x2 x3 x4 v c v' c').A (e8.symm p).1 (e8.symm p).2 q : ℝ) : EReal) := by
  rw [← out0_eq_final_block, Prod.mk.eta, Equiv.apply_symm_apply]

/-- The second result array, entry by entry, is the final task state, transposed. -/
theorem out1_eq_final (v : Fin 4 → Fin 8192 → ℝ) (c : Fin 8 → ℝ) (v' : Fin 4 → Fin 8192 → ℝ)
    (c' : Fin 8 → ℝ) (k : Fin 8192) (j : Fin 2) :
    out1 x0 x1 x2 x3 x4 (ix2 k j)
      = (((finalState x0 x1 x2 x3 x4 v c v' c').T j k : ℝ) : EReal) := by
  show (((refOut x0 x1 x2 x3 x4).2 k j : ℝ) : EReal) = _
  rw [refOut_eq_ker, region2_T]

end Closed

end Cert.Spec

end
-- ==== Proof.Val.Inv0.lean ====
/-
  The first region at the ideal instance, on real data: after each grid point the carried buffers hold the
  (coerced) state of the block machine after that many blocks; after the last point the worker array's buffer
  holds the worker array of one whole pass and the task buffer its task state.
-/
import proofs.«170901_g57982058496645_cont_sun_m_527_4_alg».proof.Proof.K0.Next
import proofs.«170901_g57982058496645_cont_sun_m_527_4_alg».proof.Proof.Corr.K0
import proofs.«170901_g57982058496645_cont_sun_m_527_4_alg».proof.Proof.Spec.Glue

set_option maxRecDepth 16384

noncomputable section

namespace Cert.KernelIdeal.Val

open Cert.KernelIdeal Cert.KernelIdeal.Gen Cert.KernelIdeal.Hand Cert.Spec Cert.Corr
open Idealize.ShloMosaic Idealize.ShloMosaic.ValueIdx Idealize.ShloMosaic.TcCoe
open Idealize.SL Idealize.SL.Sem

/-- The worker array's buffer holding the coerced blocks `A`. -/
def cA16 (A : Fin 16 → Fin 256 → Fin 8 → ℝ) : Vec Ideal S4096x8 .f32 :=
  c2 (φ := .f32) (fun p q => A (e16.symm p).1 (e16.symm p).2 q)

/-- The carried buffers hold the coerced machine state. -/
structure Good (S : St0 Ideal) (ms : MState (Fin 16) (Fin 256) (Fin 8192) (Fin 8)) : Prop where
  oA : S.oA = cA16 ms.A
  sV : S.sV = c2 (φ := .f32) ms.Vv
  sC : S.sC = c2 (φ := .f32) (fun (_ : Fin 1) q => ms.Cs q)
  sT : S.sT = c2 (φ := .f32) ms.T
  sR : S.sR = c2 (φ := .bf16) ms.Rh

/-! ### Loads of coerced buffers -/

theorem ld_row0 (T : Fin 2 → Fin 8192 → ℝ) :
    View.ld (Val := Elt Ideal) (e' := .f32) (c2 (φ := .f32) T) row0R = c2 (φ := .f32) (fun (_ : Fin 1) k => T 0 k) := by
  funext y
  show ((T ((row0R.idx y) 0) ((row0R.idx y) 1) : ℝ) : EReal) = ((T 0 (y 1) : ℝ) : EReal)
  have hy : (y 0).val < 1 := (y 0).isLt
  have h0 : ((row0R.idx y) 0 : Fin 2) = (0 : Fin 2) := Fin.ext (by show 0 + 1 * (y 0).val = 0; omega)
  have h1 : ((row0R.idx y) 1 : Fin 8192) = y 1 := Fin.ext (by show 0 + 1 * (y 1).val = (y 1).val; omega)
  rw [h0, h1]

theorem ld_v01 (Vv : Fin 4 → Fin 8192 → ℝ) :
    View.ld (Val := Elt Ideal) (e' := .f32) (c2 (φ := .f32) Vv) v01R = c2 (φ := .f32) (fun (j : Fin 2) k => Vv (Fin.castLE (by omega) j) k) := by
  funext y
  show ((Vv ((v01R.idx y) 0) ((v01R.idx y) 1) : ℝ) : EReal) = ((Vv (Fin.castLE (show 2 ≤ 4 by omega) (y 0 : Fin 2)) (y 1) : ℝ) : EReal)
  have h0 : ((v01R.idx y) 0 : Fin 4) = Fin.castLE (show 2 ≤ 4 by omega) (y 0 : Fin 2) := Fin.ext (by show 0 + 1 * (y 0).val = (y 0).val; omega)
  have h1 : ((v01R.idx y) 1 : Fin 8192) = y 1 := Fin.ext (by show 0 + 1 * (y 1).val = (y 1).val; omega)
  rw [h0, h1]

theorem ld_v23 (Vv : Fin 4 → Fin 8192 → ℝ) :
    View.ld (Val := Elt Ideal) (e' := .f32) (c2 (φ := .f32) Vv) v23R = c2 (φ := .f32) (fun (j : Fin 2) k => Vv ⟨j.val + 2, by omega⟩ k) := by
  funext y
  have hy : (y 0).val < 2 := (y 0).isLt
  show ((Vv ((v23R.idx y) 0) ((v23R.idx y) 1) : ℝ) : EReal) = ((Vv (⟨(y 0).val + 2, by omega⟩ : Fin 4) (y 1) : ℝ) : EReal)
  have h0 : ((v23R.idx y) 0 : Fin 4) = (⟨(y 0).val + 2, by omega⟩ : Fin 4) := Fin.ext (by show 2 + 1 * (y 0).val = (y 0).val + 2; omega)
  have h1 : ((v23R.idx y) 1 : Fin 8192) = y 1 := Fin.ext (by show 0 + 1 * (y 1).val = (y 1).val; omega)
  rw [h0, h1]

/-- The point's rows of the worker buffer are the point's block. -/
theorem ld_rows (A : Fin 16 → Fin 256 → Fin 8 → ℝ) (i : grid0.Coords) (n : Fin 16)
    (h0 : k0_off1 i 0 = 256 * n.val) (h1 : k0_off1 i 1 = 0) :
    View.ld (Val := Elt Ideal) (e' := .f32) (cA16 A) (rowsR i) = c2 (φ := .f32) (A n) := by
  funext y
  show ((A (e16.symm (((rowsR i).idx y) 0)).1 (e16.symm (((rowsR i).idx y) 0)).2 (((rowsR i).idx y) 1) : ℝ) : EReal)
      = ((A n (y 0) (y 1) : ℝ) : EReal)
  have hp : ((rowsR i).idx y) 0 = e16 (n, y 0) := Fin.ext (by
    show k0_off1 i 0 + 1 * (y 0).val = (y 0).val + 256 * n.val; omega)
  have hq : ((rowsR i).idx y) 1 = y 1 := Fin.ext (by show k0_off1 i 1 + 1 * (y 1).val = (y 1).val; omega)
  rw [hp, hq, Equiv.symm_apply_apply]

/-- Rewriting the point's rows of the worker buffer rewrites the point's block. -/
theorem overlay_rows (A : Fin 16 → Fin 256 → Fin 8 → ℝ) (a' : Fin 256 → Fin 8 → ℝ) (i : grid0.Coords) (n : Fin 16)
    (h0 : k0_off1 i 0 = 256 * n.val) (h1 : k0_off1 i 1 = 0) :
    (rowsR i).overlay (cA16 A) (c2 (φ := .f32) a') = cA16 (fun b => if b = n then a' else A b) := by
  funext j
  obtain ⟨p, q, rfl⟩ : ∃ (p : Fin 4096) (q : Fin 8), j = ix2 p q := ⟨j 0, j 1, eq_ix2 j⟩
  by_cases hb : (e16.symm p).1 = n
  · -- inside the block
    have hj : ix2 p q = (rowsR i).emb (ix2 (e16.symm p).2 q) := by
      funext a; apply Fin.ext
      match a with
      | ⟨0, _⟩ =>
        show p.val = k0_off1 i 0 + 1 * (e16.symm p).2.val
        have := e16_symm_fst_val p; have := e16_symm_snd_val p; have hb' := congrArg Fin.val hb
        omega
      | ⟨1, _⟩ => show q.val = k0_off1 i 1 + 1 * q.val; omega
    rw [hj, Rect.overlay_emb]
    show ((a' (e16.symm p).2 q : ℝ) : EReal) = _
    rw [← hj]
    show _ = (((if (e16.symm p).1 = n then a' else A (e16.symm p).1) (e16.symm p).2 q : ℝ) : EReal)
    rw [if_pos hb]
  · -- outside
    have hnm : ix2 p q ∉ (rowsR i).set := by
      rw [Rect.mem_set_unit]
      intro h
      have h' := h 0
      have : k0_off1 i 0 ≤ p.val ∧ p.val < k0_off1 i 0 + 256 := h'
      apply hb; apply Fin.ext
      have := e16_symm_fst_val p
      omega
    rw [Rect.overlay_of_not_mem _ _ _ hnm]
    show ((A (e16.symm p).1 (e16.symm p).2 q : ℝ) : EReal) = (((if (e16.symm p).1 = n then a' else A (e16.symm p).1) (e16.symm p).2 q : ℝ) : EReal)
    rw [if_neg hb]

/-! ### One point -/

variable (M : Fin 16 → Fin 256 → Fin 8192 → ℝ) (A2 : Fin 2 → Fin 8 → ℝ) (D : Fin 8 → Fin 2 → ℝ)

/-- The point's rewritten rows are the machine's. -/
theorem rows0_eq (i : grid0.Coords) (n : Fin 16) (h0 : k0_off1 i 0 = 256 * n.val) (h1 : k0_off1 i 1 = 0)
    (xb : Vec Ideal S256x8192 .i32) (hM : ∀ r k, M n r k = ((xb (ix2 r k)).toInt : ℝ))
    (p : St0 Ideal) (ms : MState (Fin 16) (Fin 256) (Fin 8192) (Fin 8)) (hp : Good p ms) :
    rows0 i xb (c2 (φ := .f32) A2) p.oA p.sT p.sR = c2 (φ := .f32) (rowsNew M A2 ms n) := by
  unfold rows0
  rw [hp.sT, hp.sR, hp.oA, ld_row0, ld_rows ms.A i n h0 h1]
  exact k0_pay9_rowsNew xb M A2 ms n hM

/-- A middle point steps the machine by one block. -/
theorem good_nextB (i : grid0.Coords) (n : Fin 16) (h0 : k0_off1 i 0 = 256 * n.val) (h1 : k0_off1 i 1 = 0)
    (xb : Vec Ideal S256x8192 .i32) (hM : ∀ r k, M n r k = ((xb (ix2 r k)).toInt : ℝ))
    (p : St0 Ideal) (ms : MState (Fin 16) (Fin 256) (Fin 8192) (Fin 8)) (hp : Good p ms) :
    Good (nextB i xb (c2 (φ := .f32) A2) (c2 (φ := .f32) D) p) (blockStep M A2 D n ms) := by
  have hr := rows0_eq M A2 i n h0 h1 xb hM p ms hp
  refine ⟨?_, ?_, ?_, hp.sT, hp.sR⟩
  · show (rowsR i).overlay p.oA (rows0 i xb (c2 (φ := .f32) A2) p.oA p.sT p.sR) = _
    rw [hr, hp.oA, overlay_rows ms.A _ i n h0 h1]
    rfl
  · show k0_pay1 (k0_pay8 xb) (rows0 i xb (c2 (φ := .f32) A2) p.oA p.sT p.sR) (c2 (φ := .f32) D) p.sV = _
    rw [hr, hp.sV, k0_pay1_c2]
    show _ = c2 (φ := .f32) (fun j k => ms.Vv j k + ∑ r, ghl D (rowsNew M A2 ms n) r j * M n r k)
    simp only [hM]
  · show k0_pay2 (rows0 i xb (c2 (φ := .f32) A2) p.oA p.sT p.sR) p.sC = _
    rw [hr, hp.sC, k0_pay2_c2]
    rfl

/-- The last point's worker rows and accumulators are a middle point's; its task state is the finished one. -/
theorem nextC_oA (i : grid0.Coords) (x0 : Vec Ideal S256x8192 .i32) (x1 : Vec Ideal S2x8 .f32) (x2 x3 : Vec Ideal S8x2 .f32) (p : St0 Ideal) :
    (nextC i x0 x1 x2 x3 p).oA = (nextB i x0 x1 x2 p).oA := rfl
theorem nextC_o8 (i : grid0.Coords) (x0 : Vec Ideal S256x8192 .i32) (x1 : Vec Ideal S2x8 .f32) (x2 x3 : Vec Ideal S8x2 .f32) (p : St0 Ideal) :
    (nextC i x0 x1 x2 x3 p).o8 = fin0 x3 (nextB i x0 x1 x2 p).sC (nextB i x0 x1 x2 p).sV p.sT := rfl

/-- The invariant along an equation of machine states. -/
theorem Good.congr {S : St0 Ideal} {ms ms' : MState (Fin 16) (Fin 256) (Fin 8192) (Fin 8)} (h : Good S ms) (e : ms = ms') : Good S ms' := e ▸ h

/-! ### All the points -/

variable (W : Fin 2 → Fin 8 → Fin 2 → ℝ) (a0 : Fin 4096 → Fin 8 → ℝ) (t0 : Fin 8192 → Fin 2 → ℝ)

theorem cA16_s0 : cA16 (s0 a0 t0 (fun _ _ => 0) (fun _ => 0)).A = c2 (φ := .f32) a0 := by
  unfold cA16 s0
  simp only [Prod.mk.eta, Equiv.apply_symm_apply]

/-- Where the point's rows sit in the worker buffer. -/
theorem off0 : ∀ t : Fin cfg0.N, k0_off1 (grid0.coords t) 0 = 256 * t.val ∧ k0_off1 (grid0.coords t) 1 = 0 :=
  (by decide +kernel : ∀ t : Fin grid0.N, k0_off1 (grid0.coords t) 0 = 256 * t.val ∧ k0_off1 (grid0.coords t) 1 = 0)

section Points

variable (V : (c : Dev nD) → (b : Ref sig .tc) → Buf (Elt Ideal) ((c : Thread nD τ).loc b)) (c : Dev nD)
variable (hx0 : ∀ (t : Fin cfg0.N) (r : Fin 256) (k : Fin 8192), M ⟨t.val, lt_of_lt_of_eq t.isLt N0_16⟩ r k = ((iblk0 V c 0 t (ix2 r k)).toInt : ℝ))
variable (hx1 : ∀ t : Fin cfg0.N, iblk0 V c 1 t = c2 (φ := .f32) A2)
variable (hx2 : ∀ t : Fin cfg0.N, iblk0 V c 2 t = c2 (φ := .f32) (fun q j => W 1 q j - W 0 q j))
variable (hx3 : ∀ t : Fin cfg0.N, iblk0 V c 3 t = c2 (φ := .f32) (W 0))
variable (hx4 : ∀ t : Fin cfg0.N, iblk0 V c 4 t = c2 (φ := .f32) a0)
variable (hx5 : ∀ t : Fin cfg0.N, iblk0 V c 5 t = c2 (φ := .f32) t0)

include hx0 hx1 hx2 hx4 hx5 in
/-- After each point but the last the buffers hold the machine's state after that many blocks. -/
theorem inv0 : ∀ (n : ℕ) (hn : n < cfg0.N), n < 15 →
    Good (outsAt0 V c n hn) (prefixBlocks M A2 (fun q j => W 1 q j - W 0 q j) (n + 1) (s0 a0 t0 (fun _ _ => 0) (fun _ => 0)))
  | 0, hn, _ => by
    have e : outsAt0 V c 0 hn = atA V c ⟨0, hn⟩ rfl := rfl
    rw [e]; unfold atA; rw [caseA_eq, hx1, hx2, hx4, hx5]
    rw [prefixBlocks_succ M A2 _ (s0 a0 t0 (fun _ _ => 0) (fun _ => 0)) 0 (by omega), prefixBlocks_zero]
    have hp0 : Good (⟨k0_pay8 (F := Ideal) (iblk0 V c 0 ⟨0, hn⟩), c2 (φ := .f32) a0, MO8.view.read (Elt Ideal) MO8.view.junk, k0_pay6 (F := Ideal), k0_pay7 (F := Ideal),
        k0_pay5 (F := Ideal) (c2 (φ := .f32) t0), k0_pay4 (F := Ideal) (c2 (φ := .f32) t0)⟩ : St0 Ideal) (s0 a0 t0 (fun _ _ => 0) (fun _ => 0)) := by
      refine ⟨?_, ?_, ?_, ?_, ?_⟩
      · exact (cA16_s0 a0 t0).symm
      · exact k0_pay6_c2
      · exact k0_pay7_c2
      · exact k0_pay5_c2 t0
      · exact k0_pay4_c2 t0
    have h := good_nextB M A2 (fun q j => W 1 q j - W 0 q j) (grid0.coords ⟨0, hn⟩) ⟨0, by omega⟩ (off0 ⟨0, hn⟩).1 (off0 ⟨0, hn⟩).2
      (iblk0 V c 0 ⟨0, hn⟩) (hx0 ⟨0, hn⟩) _ _ hp0
    exact ⟨h.oA, h.sV, h.sC, h.sT, h.sR⟩
  | n + 1, hn, h15 => by
    have ih := inv0 n (Nat.lt_of_succ_lt hn) (by omega)
    have e := outsAt0_B V c ⟨n + 1, hn⟩ (Nat.succ_ne_zero n) (by show n + 1 ≠ 15; omega)
    dsimp only at e
    rw [e]; unfold atB; rw [caseB_eq, hx1, hx2]
    rw [prefixBlocks_succ M A2 _ (s0 a0 t0 (fun _ _ => 0) (fun _ => 0)) (n + 1) (by omega)]
    exact good_nextB M A2 (fun q j => W 1 q j - W 0 q j) (grid0.coords ⟨n + 1, hn⟩) ⟨n + 1, by omega⟩ (off0 ⟨n + 1, hn⟩).1 (off0 ⟨n + 1, hn⟩).2
      (iblk0 V c 0 ⟨n + 1, hn⟩) (hx0 ⟨n + 1, hn⟩) _ _ ih

set_option maxHeartbeats 2000000 in
include hx0 hx1 hx2 hx3 hx4 hx5 in
/-- After the last point: the worker buffer holds the pass's worker array, the task buffer its task state. -/
theorem last0 (h15 : 15 < cfg0.N) :
    (outsAt0 V c 15 h15).oA = cA16 (onePass M A2 W (s0 a0 t0 (fun _ _ => 0) (fun _ => 0))).A
    ∧ (outsAt0 V c 15 h15).o8 = c2 (φ := .f32) (onePass M A2 W (s0 a0 t0 (fun _ _ => 0) (fun _ => 0))).T := by
  have ih := inv0 M A2 W a0 t0 V c hx0 hx1 hx2 hx4 hx5 14 (by omega) (by omega)
  have e := outsAt0_C V c ⟨15, h15⟩ (Nat.succ_ne_zero 14) rfl
  dsimp only at e
  rw [e]; unfold atC; rw [caseC_eq, hx1, hx2, hx3]
  have hB := good_nextB M A2 (fun q j => W 1 q j - W 0 q j) (grid0.coords ⟨15, h15⟩) ⟨15, by omega⟩ (off0 ⟨15, h15⟩).1 (off0 ⟨15, h15⟩).2
    (iblk0 V c 0 ⟨15, h15⟩) (hx0 ⟨15, h15⟩) _ _ ih
  have hfull : blockStep M A2 (fun q j => W 1 q j - W 0 q j) ⟨15, by omega⟩ (prefixBlocks M A2 (fun q j => W 1 q j - W 0 q j) (14 + 1) (s0 a0 t0 (fun _ _ => 0) (fun _ => 0)))
      = passBlocks M A2 (fun q j => W 1 q j - W 0 q j) (s0 a0 t0 (fun _ _ => 0) (fun _ => 0)) :=
    (prefixBlocks_succ M A2 _ (s0 a0 t0 (fun _ _ => 0) (fun _ => 0)) 15 (by omega)).symm.trans (prefixBlocks_full M A2 _ _)
  replace hB := hB.congr hfull
  have hone : onePass M A2 W (s0 a0 t0 (fun _ _ => 0) (fun _ => 0))
      = { passBlocks M A2 (fun q j => W 1 q j - W 0 q j) (s0 a0 t0 (fun _ _ => 0) (fun _ => 0)) with
          T := finishT (W 0) (passBlocks M A2 (fun q j => W 1 q j - W 0 q j) (s0 a0 t0 (fun _ _ => 0) (fun _ => 0))),
          Rh := hilo (finishT (W 0) (passBlocks M A2 (fun q j => W 1 q j - W 0 q j) (s0 a0 t0 (fun _ _ => 0) (fun _ => 0)))) } := rfl
  rw [hone]
  constructor
  · exact (nextC_oA _ _ _ _ _ _).trans hB.oA
  · refine (nextC_o8 _ _ _ _ _ _).trans ?_
    unfold fin0
    rw [hB.sC, hB.sV, ih.sT, ld_v01, ld_v23]
    exact k0_pay3_finishT (W 0) (passBlocks M A2 (fun q j => W 1 q j - W 0 q j) (s0 a0 t0 (fun _ _ => 0) (fun _ => 0)))

end Points

end Cert.KernelIdeal.Val

end
-- ==== Proof.Val.HostPre.lean ====
/-
  The three small parameter blocks the host operations compute before the first region, from the two weight arrays:
  the first-update weights `[2, 1, 8]` cast to `[2, 8]`; plane `0` of the second-update weights `[2, 8, 2]` as an
  `[8, 2]` matrix; and plane `1` less plane `0`. Each is read entry by entry, and for real-valued weights each is
  the float matrix of the corresponding real matrix. Then the run of the eight operations from any contents: the three
  blocks hold these values and the five argument arrays are unchanged.
-/
import proofs.«170901_g57982058496645_cont_sun_m_527_4_alg».proof.Proof.Gen.KernelIdeal.Launch
import proofs.«170901_g57982058496645_cont_sun_m_527_4_alg».proof.Proof.Corr.Coe
import proofs.«170901_g57982058496645_cont_sun_m_527_4_alg».proof.Proof.Spec.Closed
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Idealize.ShloMosaic Idealize.SL.Sem Idealize.ShloMosaic.ValueIdx Cert.KernelIdeal Cert.KernelIdeal.Gen
open Cert.Spec Cert.Corr

/-- The first-update weights `[2, 1, 8]` cast to `[2, 8]` read, at `(e, q)`, the entry `(e, 0, q)`. -/
theorem castA2_apply (x2 : FVec Ideal S2x1x8 .f32) (e : Fin 2) (q : Fin 8) :
    shapeCast S2x8 x2 shapeCasts_S2x1x8_S2x8 (ix2 e q) = x2 (ix3 e (0 : Fin 1) q) :=
  shapeCast_apply x2 _ _ _ (by
    rw [Shape.rowMajor_val_three, Shape.rowMajor_val_two]
    show (e.val * 1 + 0) * 8 + q.val = e.val * 8 + q.val
    omega)

/-- Plane `0` of the second-update weights `[2, 8, 2]`, cast to `[8, 2]`, reads at `(q, j)` the entry `(0, q, j)`. -/
theorem plane0_apply (x1 : FVec Ideal S2x8x2 .f32) (q : Fin 8) (j : Fin 2) :
    shapeCast S8x2 (extractStridedSlice S1x8x2 ![0, 0, 0] x1 slices_S2x8x2_S1x8x2_0_0_0) shapeCasts_S1x8x2_S8x2 (ix2 q j)
      = x1 (ix3 (0 : Fin 2) q j) :=
  (shapeCast_1ab_ab_apply _ _ q j).trans
    (extractStridedSlice_apply _ x1 _ _ (ix3 (0 : Fin 2) q j) fun a => by
      match a with
      | ⟨0, _⟩ => rfl
      | ⟨1, _⟩ => exact (Nat.zero_add _).symm
      | ⟨2, _⟩ => exact (Nat.zero_add _).symm)

/-- Plane `1` likewise reads the entry `(1, q, j)`. -/
theorem plane1_apply (x1 : FVec Ideal S2x8x2 .f32) (q : Fin 8) (j : Fin 2) :
    shapeCast S8x2 (extractStridedSlice S1x8x2 ![1, 0, 0] x1 slices_S2x8x2_S1x8x2_1_0_0) shapeCasts_S1x8x2_S8x2 (ix2 q j)
      = x1 (ix3 (1 : Fin 2) q j) :=
  (shapeCast_1ab_ab_apply _ _ q j).trans
    (extractStridedSlice_apply _ x1 _ _ (ix3 (1 : Fin 2) q j) fun a => by
      match a with
      | ⟨0, _⟩ => rfl
      | ⟨1, _⟩ => exact (Nat.zero_add _).symm
      | ⟨2, _⟩ => exact (Nat.zero_add _).symm)

/-- For real-valued weights, the first-update weights cast to `[2, 8]` are the real matrix `A2 e q` as a float matrix. -/
theorem hostA2 (x2 : FVec Ideal S2x1x8 .f32) (hx2 : ∀ i, ∃ r : ℝ, x2 i = (r : EReal)) :
    shapeCast S2x8 x2 shapeCasts_S2x1x8_S2x8 = c2 (realA2 x2) :=
  ext_c2 fun e q => (castA2_apply x2 e q).trans (coe_toReal_of_real (hx2 _)).symm

/-- For real-valued weights, plane `0` of the second-update weights is the real matrix `W 0 q j` as a float matrix. -/
theorem hostW0 (x1 : FVec Ideal S2x8x2 .f32) (hx1 : ∀ i, ∃ r : ℝ, x1 i = (r : EReal)) :
    shapeCast S8x2 (extractStridedSlice S1x8x2 ![0, 0, 0] x1 slices_S2x8x2_S1x8x2_0_0_0) shapeCasts_S1x8x2_S8x2
      = c2 (realW x1 0) :=
  ext_c2 fun q j => (plane0_apply x1 q j).trans (coe_toReal_of_real (hx1 _)).symm

/-- For real-valued weights, plane `1` less plane `0` of the second-update weights is the real matrix
    `W 1 q j − W 0 q j` as a float matrix. -/
theorem hostD (x1 : FVec Ideal S2x8x2 .f32) (hx1 : ∀ i, ∃ r : ℝ, x1 i = (r : EReal)) :
    subf (shapeCast S8x2 (extractStridedSlice S1x8x2 ![1, 0, 0] x1 slices_S2x8x2_S1x8x2_1_0_0) shapeCasts_S1x8x2_S8x2)
        (shapeCast S8x2 (extractStridedSlice S1x8x2 ![0, 0, 0] x1 slices_S2x8x2_S1x8x2_0_0_0) shapeCasts_S1x8x2_S8x2)
      = c2 (fun q j => realW x1 1 q j - realW x1 0 q j) :=
  ext_c2 fun q j => by
    rw [subf_apply, plane1_apply, plane0_apply, EReal.coe_sub]
    show _ = ((x1 (ix3 (1 : Fin 2) q j)).toReal : EReal) - ((x1 (ix3 (0 : Fin 2) q j)).toReal : EReal)
    rw [coe_toReal_of_real (hx1 _), coe_toReal_of_real (hx1 _)]

/-! ## The eight host operations run from any contents -/

section Run
variable (V0 : Valuation τ sig (Elt Ideal))

/-- After the host operations the first parameter block holds the first-update weights cast to `[2, 8]`. -/
theorem after_v0 : StableHlo.after (hostOps0 (F := Ideal)) V0 (Proc.devRef .tc main_call0_v0)
    = shapeCast S2x8 (V0 (Proc.devRef .tc main_arg2)) shapeCasts_S2x1x8_S2x8 := by
  after_results
  rfl

/-- After the host operations the second parameter block holds plane `1` less plane `0` of the second-update weights. -/
theorem after_v5 : StableHlo.after (hostOps0 (F := Ideal)) V0 (Proc.devRef .tc main_call0_v5)
    = (subf (shapeCast S8x2 (extractStridedSlice S1x8x2 ![1, 0, 0] (V0 (Proc.devRef .tc main_arg1) : FVec Ideal S2x8x2 .f32) slices_S2x8x2_S1x8x2_1_0_0) shapeCasts_S1x8x2_S8x2)
        (shapeCast S8x2 (extractStridedSlice S1x8x2 ![0, 0, 0] (V0 (Proc.devRef .tc main_arg1) : FVec Ideal S2x8x2 .f32) slices_S2x8x2_S1x8x2_0_0_0) shapeCasts_S1x8x2_S8x2)
        : FVec Ideal S8x2 .f32) := by
  after_results
  rfl

/-- After the host operations the third parameter block holds plane `0` of the second-update weights. -/
theorem after_v7 : StableHlo.after (hostOps0 (F := Ideal)) V0 (Proc.devRef .tc main_call0_v7)
    = shapeCast S8x2 (extractStridedSlice S1x8x2 ![0, 0, 0] (V0 (Proc.devRef .tc main_arg1)) slices_S2x8x2_S1x8x2_0_0_0) shapeCasts_S1x8x2_S8x2 := by
  after_results
  rfl

/-! The host operations write none of the five argument arrays. -/

theorem after_arg0 : StableHlo.after (hostOps0 (F := Ideal)) V0 (Proc.devRef .tc main_arg0) = V0 (Proc.devRef .tc main_arg0) := by
  after_results <;> rfl

theorem after_arg1 : StableHlo.after (hostOps0 (F := Ideal)) V0 (Proc.devRef .tc main_arg1) = V0 (Proc.devRef .tc main_arg1) := by
  after_results <;> rfl

theorem after_arg2 : StableHlo.after (hostOps0 (F := Ideal)) V0 (Proc.devRef .tc main_arg2) = V0 (Proc.devRef .tc main_arg2) := by
  after_results <;> rfl

theorem after_arg3 : StableHlo.after (hostOps0 (F := Ideal)) V0 (Proc.devRef .tc main_arg3) = V0 (Proc.devRef .tc main_arg3) := by
  after_results <;> rfl

theorem after_arg4 : StableHlo.after (hostOps0 (F := Ideal)) V0 (Proc.devRef .tc main_arg4) = V0 (Proc.devRef .tc main_arg4) := by
  after_results <;> rfl

end Run

end Cert.KernelIdeal.Val
-- ==== Proof.K0.Blocks.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K0.Outs
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's input blocks

  The label window's block at point `t` is rows `256 t … 256 t + 255` of the label matrix; every other input
  window's block is its whole array at every point.  -/

open Idealize.ShloMosaic.ValueIdx

variable (V : (c : Dev nD) → (b : Ref sig .tc) → Buf (Elt F) ((c : Thread nD τ).loc b))

theorem idxin0_1 : ∀ t : Fin cfg0.N, win0_1.index t (0 : Fin 2) = 0 ∧ win0_1.index t (1 : Fin 2) = 0 :=
  (by decide +kernel : ∀ t : Fin grid0.N, _)
/-- Input window 1's block is its whole array at every point. -/
theorem iblk0_1_eq (c : Dev nD) (t : Fin cfg0.N) : iblk0 V c 1 t = V c (Pipeline.arrRef spec0 1) := by
  obtain ⟨e0, e1⟩ := idxin0_1 t
  funext j
  show V c (Pipeline.arrRef spec0 1) (((cfg0.win 1).blk t).view.emb j) = V c (Pipeline.arrRef spec0 1) j
  have h : ((cfg0.win 1).blk t).view.emb j = j := by
    funext a; apply Fin.ext
    match a with
    | ⟨0, _⟩ => show win0_1.index t (0 : Fin 2) * 2 + 1 * (j 0).val = (j 0).val; omega
    | ⟨1, _⟩ => show win0_1.index t (1 : Fin 2) * 8 + 1 * (j 1).val = (j 1).val; omega
  rw [h]

theorem idxin0_2 : ∀ t : Fin cfg0.N, win0_2.index t (0 : Fin 2) = 0 ∧ win0_2.index t (1 : Fin 2) = 0 :=
  (by decide +kernel : ∀ t : Fin grid0.N, _)
/-- Input window 2's block is its whole array at every point. -/
theorem iblk0_2_eq (c : Dev nD) (t : Fin cfg0.N) : iblk0 V c 2 t = V c (Pipeline.arrRef spec0 2) := by
  obtain ⟨e0, e1⟩ := idxin0_2 t
  funext j
  show V c (Pipeline.arrRef spec0 2) (((cfg0.win 2).blk t).view.emb j) = V c (Pipeline.arrRef spec0 2) j
  have h : ((cfg0.win 2).blk t).view.emb j = j := by
    funext a; apply Fin.ext
    match a with
    | ⟨0, _⟩ => show win0_2.index t (0 : Fin 2) * 8 + 1 * (j 0).val = (j 0).val; omega
    | ⟨1, _⟩ => show win0_2.index t (1 : Fin 2) * 2 + 1 * (j 1).val = (j 1).val; omega
  rw [h]

theorem idxin0_3 : ∀ t : Fin cfg0.N, win0_3.index t (0 : Fin 2) = 0 ∧ win0_3.index t (1 : Fin 2) = 0 :=
  (by decide +kernel : ∀ t : Fin grid0.N, _)
/-- Input window 3's block is its whole array at every point. -/
theorem iblk0_3_eq (c : Dev nD) (t : Fin cfg0.N) : iblk0 V c 3 t = V c (Pipeline.arrRef spec0 3) := by
  obtain ⟨e0, e1⟩ := idxin0_3 t
  funext j
  show V c (Pipeline.arrRef spec0 3) (((cfg0.win 3).blk t).view.emb j) = V c (Pipeline.arrRef spec0 3) j
  have h : ((cfg0.win 3).blk t).view.emb j = j := by
    funext a; apply Fin.ext
    match a with
    | ⟨0, _⟩ => show win0_3.index t (0 : Fin 2) * 8 + 1 * (j 0).val = (j 0).val; omega
    | ⟨1, _⟩ => show win0_3.index t (1 : Fin 2) * 2 + 1 * (j 1).val = (j 1).val; omega
  rw [h]

theorem idxin0_4 : ∀ t : Fin cfg0.N, win0_4.index t (0 : Fin 2) = 0 ∧ win0_4.index t (1 : Fin 2) = 0 :=
  (by decide +kernel : ∀ t : Fin grid0.N, _)
/-- Input window 4's block is its whole array at every point. -/
theorem iblk0_4_eq (c : Dev nD) (t : Fin cfg0.N) : iblk0 V c 4 t = V c (Pipeline.arrRef spec0 4) := by
  obtain ⟨e0, e1⟩ := idxin0_4 t
  funext j
  show V c (Pipeline.arrRef spec0 4) (((cfg0.win 4).blk t).view.emb j) = V c (Pipeline.arrRef spec0 4) j
  have h : ((cfg0.win 4).blk t).view.emb j = j := by
    funext a; apply Fin.ext
    match a with
    | ⟨0, _⟩ => show win0_4.index t (0 : Fin 2) * 4096 + 1 * (j 0).val = (j 0).val; omega
    | ⟨1, _⟩ => show win0_4.index t (1 : Fin 2) * 8 + 1 * (j 1).val = (j 1).val; omega
  rw [h]

theorem idxin0_5 : ∀ t : Fin cfg0.N, win0_5.index t (0 : Fin 2) = 0 ∧ win0_5.index t (1 : Fin 2) = 0 :=
  (by decide +kernel : ∀ t : Fin grid0.N, _)
/-- Input window 5's block is its whole array at every point. -/
theorem iblk0_5_eq (c : Dev nD) (t : Fin cfg0.N) : iblk0 V c 5 t = V c (Pipeline.arrRef spec0 5) := by
  obtain ⟨e0, e1⟩ := idxin0_5 t
  funext j
  show V c (Pipeline.arrRef spec0 5) (((cfg0.win 5).blk t).view.emb j) = V c (Pipeline.arrRef spec0 5) j
  have h : ((cfg0.win 5).blk t).view.emb j = j := by
    funext a; apply Fin.ext
    match a with
    | ⟨0, _⟩ => show win0_5.index t (0 : Fin 2) * 8192 + 1 * (j 0).val = (j 0).val; omega
    | ⟨1, _⟩ => show win0_5.index t (1 : Fin 2) * 2 + 1 * (j 1).val = (j 1).val; omega
  rw [h]

theorem idxin0_0 : ∀ t : Fin cfg0.N, win0_0.index t (0 : Fin 2) = t.val ∧ win0_0.index t (1 : Fin 2) = 0 :=
  (by decide +kernel : ∀ t : Fin grid0.N, _)

/-- The label block at point `t`, entry by entry. -/
theorem iblk0_0_apply (c : Dev nD) (t : Fin cfg0.N) (r : Fin 256) (k : Fin 8192) :
    iblk0 V c 0 t (ix2 r k) = V c main_arg0 (ix2 (⟨r.val + 256 * t.val, by have := t.isLt; have hN : cfg0.N = 16 := N_0; omega⟩ : Fin 4096) k) := by
  obtain ⟨e0, e1⟩ := idxin0_0 t
  show V c main_arg0 (((cfg0.win 0).blk t).view.emb (ix2 r k)) = _
  have h : ((cfg0.win 0).blk t).view.emb (ix2 r k) = ix2 (⟨r.val + 256 * t.val, by have := t.isLt; have hN : cfg0.N = 16 := N_0; omega⟩ : Fin 4096) k := by
    funext a; apply Fin.ext
    match a with
    | ⟨0, _⟩ => show win0_0.index t (0 : Fin 2) * 256 + 1 * r.val = r.val + 256 * t.val; omega
    | ⟨1, _⟩ => show win0_0.index t (1 : Fin 2) * 8192 + 1 * k.val = k.val; omega
  rw [h]

end Cert.KernelIdeal.Hand

end
-- ==== Proof.Val.In0.lean ====
/-
  The first region's input blocks on real data. The region finds each buffer at what the eight host operations leave:
  the three parameter blocks at the cast and cut weights, the five arguments unchanged. For real-valued float
  arguments each float input window's block, at every grid point, is the float matrix of the corresponding real
  matrix; the label window's block at point `t` is block `t` of the label matrix cut into 16 blocks of 256 rows.
-/
import proofs.«170901_g57982058496645_cont_sun_m_527_4_alg».proof.Proof.Val.HostPre
import proofs.«170901_g57982058496645_cont_sun_m_527_4_alg».proof.Proof.K0.Blocks
import proofs.«170901_g57982058496645_cont_sun_m_527_4_alg».proof.Proof.Spec.Glue
import proofs.«170901_g57982058496645_cont_sun_m_527_4_alg».proof.Proof.Spec.Closed
import proofs.«170901_g57982058496645_cont_sun_m_527_4_alg».proof.Proof.Corr.Coe

set_option maxRecDepth 16384

noncomputable section

namespace Cert.KernelIdeal.Val

open Cert.KernelIdeal Cert.KernelIdeal.Gen Cert.KernelIdeal.Hand Cert.Spec Cert.Corr
open Idealize.ShloMosaic Idealize.ShloMosaic.TcCoe Idealize.ShloMosaic.ValueIdx Idealize.SL.Sem

variable (V0 : Dev nD → Valuation τ sig (Elt Ideal))

/-- What the first region finds in each buffer: the contents after the eight host operations. -/
abbrev Vin : (c : Dev nD) → (b : Ref sig .tc) → Buf (Elt Ideal) ((c : Thread nD τ).loc b) :=
  fun c b => StableHlo.after (hostOps0 (F := Ideal)) (V0 c) (Proc.devRef .tc b)

/-- The five arguments as the launch has them. -/
abbrev arg0 (c : Dev nD) : IVec ⟨2, ![4096, 8192]⟩ 32 := V0 c (Proc.devRef .tc main_arg0)
abbrev arg1 (c : Dev nD) : FVec Ideal S2x8x2 .f32 := V0 c (Proc.devRef .tc main_arg1)
abbrev arg2 (c : Dev nD) : FVec Ideal S2x1x8 .f32 := V0 c (Proc.devRef .tc main_arg2)
abbrev arg3 (c : Dev nD) : FVec Ideal S4096x8 .f32 := V0 c (Proc.devRef .tc main_arg3)
abbrev arg4 (c : Dev nD) : FVec Ideal S8192x2 .f32 := V0 c (Proc.devRef .tc main_arg4)

variable (c : Dev nD)

/-- The first parameter block's window: the real matrix `A2`. -/
theorem in0_hx1 (hr2 : ∀ i, ∃ r : ℝ, arg2 V0 c i = (r : EReal)) :
    ∀ t : Fin cfg0.N, iblk0 (Vin V0) c 1 t = c2 (φ := .f32) (realA2 (arg2 V0 c)) := by
  intro t
  rw [iblk0_1_eq]
  show StableHlo.after (hostOps0 (F := Ideal)) (V0 c) (Proc.devRef .tc main_call0_v0) = _
  rw [after_v0]
  exact hostA2 (arg2 V0 c) hr2

/-- The second parameter block's window: the real matrix `W 1 − W 0`. -/
theorem in0_hx2 (hr1 : ∀ i, ∃ r : ℝ, arg1 V0 c i = (r : EReal)) :
    ∀ t : Fin cfg0.N, iblk0 (Vin V0) c 2 t
      = c2 (φ := .f32) (fun q j => realW (arg1 V0 c) 1 q j - realW (arg1 V0 c) 0 q j) := by
  intro t
  rw [iblk0_2_eq]
  show StableHlo.after (hostOps0 (F := Ideal)) (V0 c) (Proc.devRef .tc main_call0_v5) = _
  rw [after_v5]
  exact hostD (arg1 V0 c) hr1

/-- The third parameter block's window: the real matrix `W 0`. -/
theorem in0_hx3 (hr1 : ∀ i, ∃ r : ℝ, arg1 V0 c i = (r : EReal)) :
    ∀ t : Fin cfg0.N, iblk0 (Vin V0) c 3 t = c2 (φ := .f32) (realW (arg1 V0 c) 0) := by
  intro t
  rw [iblk0_3_eq]
  show StableHlo.after (hostOps0 (F := Ideal)) (V0 c) (Proc.devRef .tc main_call0_v7) = _
  rw [after_v7]
  exact hostW0 (arg1 V0 c) hr1

/-- The initial worker array's window: its real matrix. -/
theorem in0_hx4 (hr3 : ∀ i, ∃ r : ℝ, arg3 V0 c i = (r : EReal)) :
    ∀ t : Fin cfg0.N, iblk0 (Vin V0) c 4 t = c2 (φ := .f32) (real2 (arg3 V0 c)) := by
  intro t
  rw [iblk0_4_eq]
  show StableHlo.after (hostOps0 (F := Ideal)) (V0 c) (Proc.devRef .tc main_arg3) = _
  rw [after_arg3]
  exact eq_c2_of_real (arg3 V0 c) hr3

/-- The initial task state's window: its real matrix. -/
theorem in0_hx5 (hr4 : ∀ i, ∃ r : ℝ, arg4 V0 c i = (r : EReal)) :
    ∀ t : Fin cfg0.N, iblk0 (Vin V0) c 5 t = c2 (φ := .f32) (real2 (arg4 V0 c)) := by
  intro t
  rw [iblk0_5_eq]
  show StableHlo.after (hostOps0 (F := Ideal)) (V0 c) (Proc.devRef .tc main_arg4) = _
  rw [after_arg4]
  exact eq_c2_of_real (arg4 V0 c) hr4

/-- The label window's block at point `t` is block `t` of the label matrix. -/
theorem in0_hx0 : ∀ (t : Fin cfg0.N) (r : Fin 256) (k : Fin 8192),
    blockM e16 (realM (arg0 V0 c)) ⟨t.val, lt_of_lt_of_eq t.isLt N0_16⟩ r k
      = ((iblk0 (Vin V0) c 0 t (ix2 r k)).toInt : ℝ) := by
  intro t r k
  rw [iblk0_0_apply]
  show realM (arg0 V0 c) (e16 (⟨t.val, lt_of_lt_of_eq t.isLt N0_16⟩, r)) k
    = (((StableHlo.after (hostOps0 (F := Ideal)) (V0 c) (Proc.devRef .tc main_arg0)) (ix2 _ k)).toInt : ℝ)
  rw [after_arg0]
  have he : e16 (⟨t.val, lt_of_lt_of_eq t.isLt N0_16⟩, r)
      = (⟨r.val + 256 * t.val, by have := t.isLt; have hN : cfg0.N = 16 := N_0; omega⟩ : Fin 4096) := Fin.ext (e16_val _ r)
  rw [he]
  rfl

end Cert.KernelIdeal.Val

end
-- ==== Proof.Val.Top0.lean ====
/-
  The first region on a memory whose float arguments are finite: what it leaves in its three output arrays,
  and the three parameter blocks the host operations cut, as coerced real data.
-/
import proofs.«170901_g57982058496645_cont_sun_m_527_4_alg».proof.Proof.MainK
import proofs.«170901_g57982058496645_cont_sun_m_527_4_alg».proof.Proof.K0.Final
import proofs.«170901_g57982058496645_cont_sun_m_527_4_alg».proof.Proof.Val.Inv0
import proofs.«170901_g57982058496645_cont_sun_m_527_4_alg».proof.Proof.Val.In0

set_option maxRecDepth 16384

noncomputable section

namespace Cert.KernelIdeal.Val

open Cert.KernelIdeal Cert.KernelIdeal.Gen Cert.KernelIdeal.Hand Cert.Spec Cert.Corr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The five argument arrays on core `c`. -/
abbrev X0 : IVec S4096x8192 32 := m ((c.tc : Thread nD τ).loc main_arg0)
abbrev X1 : FVec Ideal S2x8x2 .f32 := m ((c.tc : Thread nD τ).loc main_arg1)
abbrev X2 : FVec Ideal S2x1x8 .f32 := m ((c.tc : Thread nD τ).loc main_arg2)
abbrev X3 : FVec Ideal S4096x8 .f32 := m ((c.tc : Thread nD τ).loc main_arg3)
abbrev X4 : FVec Ideal S8192x2 .f32 := m ((c.tc : Thread nD τ).loc main_arg4)

/-- The real data of the step. -/
abbrev Mr := realM (X0 m c)
abbrev A2r := realA2 (X2 m c)
abbrev Wr := realW (X1 m c)
abbrev a0r := real2 (X3 m c)
abbrev t0r := real2 (X4 m c)

/-- One pass over the 16 blocks of 256 rows. -/
abbrev P1 := onePass (blockM e16 (Mr m c)) (A2r m c) (Wr m c) (s0 (a0r m c) (t0r m c) (fun _ _ => 0) (fun _ => 0))

variable (hr1 : ∀ i, ∃ r : ℝ, X1 m c i = (r : EReal)) (hr2 : ∀ i, ∃ r : ℝ, X2 m c i = (r : EReal))
  (hr3 : ∀ i, ∃ r : ℝ, X3 m c i = (r : EReal)) (hr4 : ∀ i, ∃ r : ℝ, X4 m c i = (r : EReal))

include hr1 hr2 hr3 hr4 in
/-- After the first region: the worker array of one pass, -/
theorem v8_1_eq : V2 m ρ c main_call0_v8_1 = cA16 (P1 m c).A := by
  have h := (last0 (blockM e16 (Mr m c)) (A2r m c) (Wr m c) (a0r m c) (t0r m c) (V1 m ρ) c
    (in0_hx0 (W0 m ρ) c) (in0_hx1 (W0 m ρ) c hr2) (in0_hx2 (W0 m ρ) c hr1) (in0_hx3 (W0 m ρ) c hr1)
    (in0_hx4 (W0 m ρ) c hr3) (in0_hx5 (W0 m ρ) c hr4) (by rw [N0_16]; omega)).1
  exact ((W2_arr m ρ c 7).trans (final0_7 (V1 m ρ) c)).trans h

include hr1 hr2 hr3 hr4 in
/-- its task state (kept wide), -/
theorem v8_2_eq : V2 m ρ c main_call0_v8_2 = c2 (φ := .f32) (P1 m c).T := by
  have h := (last0 (blockM e16 (Mr m c)) (A2r m c) (Wr m c) (a0r m c) (t0r m c) (V1 m ρ) c
    (in0_hx0 (W0 m ρ) c) (in0_hx1 (W0 m ρ) c hr2) (in0_hx2 (W0 m ρ) c hr1) (in0_hx3 (W0 m ρ) c hr1)
    (in0_hx4 (W0 m ρ) c hr3) (in0_hx5 (W0 m ρ) c hr4) (by rw [N0_16]; omega)).2
  exact ((W2_arr m ρ c 8).trans (final0_8 (V1 m ρ) c)).trans h

/-- and the label matrix as reals. -/
theorem v8_0_eq : V2 m ρ c main_call0_v8_0 = c2 (φ := .bf16) (Mr m c) := by
  refine ((W2_arr m ρ c 6).trans (final0_6 (V1 m ρ) c)).trans (ext_c2 fun p k => ?_)
  show FloatOps.sitofp (F := Ideal) .bf16 (V1 m ρ c main_arg0 (ix2 p k)) = _
  rw [show V1 m ρ c main_arg0 = X0 m c from after_arg0 (W0 m ρ c)]
  rfl

/-- The three parameter blocks reach the second region as the host operations left them. -/
theorem v0_eq2 : V2 m ρ c main_call0_v0 = V1 m ρ c main_call0_v0 :=
  (W2_arr m ρ c 1).trans (((dat0 (V1 m ρ) c).arrAt_in 1 rfl _).trans (A_eq0 (V1 m ρ) c 1))
theorem v5_eq2 : V2 m ρ c main_call0_v5 = V1 m ρ c main_call0_v5 :=
  (W2_arr m ρ c 2).trans (((dat0 (V1 m ρ) c).arrAt_in 2 rfl _).trans (A_eq0 (V1 m ρ) c 2))
theorem v7_eq2 : V2 m ρ c main_call0_v7 = V1 m ρ c main_call0_v7 :=
  (W2_arr m ρ c 3).trans (((dat0 (V1 m ρ) c).arrAt_in 3 rfl _).trans (A_eq0 (V1 m ρ) c 3))

end Cert.KernelIdeal.Val

end
-- ==== Proof.K1.Next.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.Outs
import proofs.«170901_g57982058496645_cont_sun_m_527_4_alg».proof.Proof.LibWritesCongr
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's cases as explicit state transitions

  What each case's stores leave, with every load read back: the carried state after a point is a function of
  the point's input blocks and the state before it, written over the body's pure payloads.  -/

/-- Row 0 of the wide task state, the point's rows of the worker array, and the two halves of the accumulator. -/
abbrev row0R1 : Rect S2x8192 := Rect.unit (s := S2x8192) ![0, 0] S1x8192.size inb_S2x8192_S1x8192_0_0
abbrev rowsR1 (i : grid1.Coords) : Rect S4096x8 := Rect.unit (s := S4096x8) (k1_off1 i) S512x8.size (k1_off1_inb i)
abbrev v01R1 : Rect S4x8192 := Rect.unit (s := S4x8192) ![0, 0] S2x8192.size inb_S4x8192_S2x8192_0_0
abbrev v23R1 : Rect S4x8192 := Rect.unit (s := S4x8192) ![2, 0] S2x8192.size inb_S4x8192_S2x8192_2_0

/-- The point's rewritten rows of the worker array. -/
def rows1 (i : grid1.Coords) (x0 : Vec F S512x8192 .bf16) (x1 : Vec F S2x8 .f32) (sA : Vec F S4096x8 .f32) (sT : Vec F S2x8192 .f32)
    (sR : Vec F S8192x4 .bf16) : Vec F S512x8 .f32 :=
  k1_pay10 x0 (View.ld sT row0R1) sR x1 (View.ld sA (rowsR1 i))

/-- The wide task state after the step is finished. -/
def fin1 (x3 : Vec F S8x2 .f32) (sC : Vec F S1x8 .f32) (sV : Vec F S4x8192 .f32) (sT : Vec F S2x8192 .f32) : Vec F S2x8192 .f32 :=
  k1_pay2 x3 sC (View.ld sV v01R1) (View.ld sV v23R1) sT

/-- A middle block of a step. -/
def nextC1 (i : grid1.Coords) (x0 : Vec F S512x8192 .bf16) (x1 : Vec F S2x8 .f32) (x2 : Vec F S8x2 .f32) (p : St1 F) : St1 F where
  o8 := p.o8
  o9 := p.o9
  sA := (rowsR1 i).overlay p.sA (k1_pay11 (rows1 i x0 x1 p.sA p.sT p.sR))
  sV := k1_pay12 (k1_pay9 x0) (rows1 i x0 x1 p.sA p.sT p.sR) x2 p.sV
  sC := k1_pay13 (rows1 i x0 x1 p.sA p.sT p.sR) p.sC
  sT := p.sT
  sR := p.sR

/-- The first block of a later step: the two accumulators zeroed, then the block's work. -/
def nextB1 (i : grid1.Coords) (x0 : Vec F S512x8192 .bf16) (x1 : Vec F S2x8 .f32) (x2 : Vec F S8x2 .f32) (p : St1 F) : St1 F where
  o8 := p.o8
  o9 := p.o9
  sA := (rowsR1 i).overlay p.sA (k1_pay11 (rows1 i x0 x1 p.sA p.sT p.sR))
  sV := k1_pay12 (k1_pay9 x0) (rows1 i x0 x1 p.sA p.sT p.sR) x2 k1_pay7
  sC := k1_pay13 (rows1 i x0 x1 p.sA p.sT p.sR) k1_pay8
  sT := p.sT
  sR := p.sR

/-- The first point of all: the state initialised from the worker and task arguments, the accumulators zeroed,
    then the block's work. -/
def nextA1 (i : grid1.Coords) (x0 : Vec F S512x8192 .bf16) (x1 : Vec F S2x8 .f32) (x2 : Vec F S8x2 .f32) (x4 : Vec F S4096x8 .f32)
    (x5 : Vec F S2x8192 .f32) : St1 F where
  o8 := MP8.view.read (Elt F) MP8.view.junk
  o9 := MP9.view.read (Elt F) MP9.view.junk
  sA := (rowsR1 i).overlay (k1_pay4 x4) (k1_pay11 (rows1 i x0 x1 (k1_pay4 x4) (k1_pay5 x5) (k1_pay6 (k1_pay5 x5))))
  sV := k1_pay12 (k1_pay9 x0) (rows1 i x0 x1 (k1_pay4 x4) (k1_pay5 x5) (k1_pay6 (k1_pay5 x5))) x2 k1_pay7
  sC := k1_pay13 (rows1 i x0 x1 (k1_pay4 x4) (k1_pay5 x5) (k1_pay6 (k1_pay5 x5))) k1_pay8
  sT := k1_pay5 x5
  sR := k1_pay6 (k1_pay5 x5)

/-- The last block of a step that is not the last: the block's work, then the step finished and the hi/lo copy
    rebuilt. -/
def nextD1 (i : grid1.Coords) (x0 : Vec F S512x8192 .bf16) (x1 : Vec F S2x8 .f32) (x2 x3 : Vec F S8x2 .f32) (p : St1 F) : St1 F where
  o8 := p.o8
  o9 := p.o9
  sA := (rowsR1 i).overlay p.sA (k1_pay11 (rows1 i x0 x1 p.sA p.sT p.sR))
  sV := k1_pay12 (k1_pay9 x0) (rows1 i x0 x1 p.sA p.sT p.sR) x2 p.sV
  sC := k1_pay13 (rows1 i x0 x1 p.sA p.sT p.sR) p.sC
  sT := fin1 x3 (k1_pay13 (rows1 i x0 x1 p.sA p.sT p.sR) p.sC) (k1_pay12 (k1_pay9 x0) (rows1 i x0 x1 p.sA p.sT p.sR) x2 p.sV) p.sT
  sR := k1_pay3 (fin1 x3 (k1_pay13 (rows1 i x0 x1 p.sA p.sT p.sR) p.sC) (k1_pay12 (k1_pay9 x0) (rows1 i x0 x1 p.sA p.sT p.sR) x2 p.sV) p.sT)

/-- The last point of all: as the last block of a step, then the worker array and the task state (transposed
    back) stored to the outputs' buffers. -/
def nextE1 (i : grid1.Coords) (x0 : Vec F S512x8192 .bf16) (x1 : Vec F S2x8 .f32) (x2 x3 : Vec F S8x2 .f32) (p : St1 F) : St1 F where
  o8 := (rowsR1 i).overlay p.sA (k1_pay11 (rows1 i x0 x1 p.sA p.sT p.sR))
  o9 := k1_pay1 (fin1 x3 (k1_pay13 (rows1 i x0 x1 p.sA p.sT p.sR) p.sC) (k1_pay12 (k1_pay9 x0) (rows1 i x0 x1 p.sA p.sT p.sR) x2 p.sV) p.sT)
  sA := (rowsR1 i).overlay p.sA (k1_pay11 (rows1 i x0 x1 p.sA p.sT p.sR))
  sV := k1_pay12 (k1_pay9 x0) (rows1 i x0 x1 p.sA p.sT p.sR) x2 p.sV
  sC := k1_pay13 (rows1 i x0 x1 p.sA p.sT p.sR) p.sC
  sT := fin1 x3 (k1_pay13 (rows1 i x0 x1 p.sA p.sT p.sR) p.sC) (k1_pay12 (k1_pay9 x0) (rows1 i x0 x1 p.sA p.sT p.sR) x2 p.sV) p.sT
  sR := k1_pay3 (fin1 x3 (k1_pay13 (rows1 i x0 x1 p.sA p.sT p.sR) p.sC) (k1_pay12 (k1_pay9 x0) (rows1 i x0 x1 p.sA p.sT p.sR) x2 p.sV) p.sT)

set_option maxHeartbeats 4000000 in
theorem caseC1_eq (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) :
    caseC1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p = nextC1 i x0 x1 x2 p := by
  unfold caseC1 run1_C nextC1 rows1
  dsimp only
  try sl_unfold_run_names
  have hA : View.read (Elt F) (View.whole cc1_scratch0) (hsc1_0.unread p.sA) = p.sA := hsc1_0.read_unread _
  have hV : View.read (Elt F) (View.whole cc1_scratch1) (hsc1_1.unread p.sV) = p.sV := hsc1_1.read_unread _
  have hC : View.read (Elt F) (View.whole cc1_scratch2) (hsc1_2.unread p.sC) = p.sC := hsc1_2.read_unread _
  simp only [View.readAt_eq_ld, Memref.IsWhole.read_unread, Cert.Lib.read_writes_cons_overlay, View.writes_nil,
    Cert.Lib.overlay_whole2, Cert.Lib.ld_whole2, Cert.Lib.readCov_whole2, hA, hV, hC]
  try rfl

set_option maxHeartbeats 4000000 in
theorem caseB1_eq (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) :
    caseB1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p = nextB1 i x0 x1 x2 p := by
  unfold caseB1 run1_B nextB1 rows1
  dsimp only
  try sl_unfold_run_names
  have hA : View.read (Elt F) (View.whole cc1_scratch0) (hsc1_0.unread p.sA) = p.sA := hsc1_0.read_unread _
  simp only [View.readAt_eq_ld, Memref.IsWhole.read_unread, Cert.Lib.read_writes_cons_overlay, View.writes_nil,
    Cert.Lib.overlay_whole2, Cert.Lib.ld_whole2, Cert.Lib.readCov_whole2, hA]
  try rfl

set_option maxHeartbeats 4000000 in
theorem caseA1_eq (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : cond1_0 i) (hc1 : cond1_1 i) (hc2 : ¬cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) :
    caseA1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 = nextA1 i x0 x1 x2 x4 x5 := by
  unfold caseA1 run1_A nextA1 rows1
  dsimp only
  try sl_unfold_run_names
  simp only [View.readAt_eq_ld, Memref.IsWhole.read_unread, Cert.Lib.read_writes_cons_overlay, View.writes_nil,
    Cert.Lib.overlay_whole2, Cert.Lib.ld_whole2, Cert.Lib.readCov_whole2]
  try rfl

set_option maxHeartbeats 4000000 in
theorem caseD1_eq (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : ¬cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) :
    caseD1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p = nextD1 i x0 x1 x2 x3 p := by
  unfold caseD1 run1_D nextD1 fin1 rows1
  dsimp only
  try sl_unfold_run_names
  have hA : View.read (Elt F) (View.whole cc1_scratch0) (hsc1_0.unread p.sA) = p.sA := hsc1_0.read_unread _
  have hV : View.read (Elt F) (View.whole cc1_scratch1) (hsc1_1.unread p.sV) = p.sV := hsc1_1.read_unread _
  have hC : View.read (Elt F) (View.whole cc1_scratch2) (hsc1_2.unread p.sC) = p.sC := hsc1_2.read_unread _
  have hT : View.read (Elt F) (View.whole cc1_scratch3) (hsc1_3.unread p.sT) = p.sT := hsc1_3.read_unread _
  have hR : View.read (Elt F) (View.whole cc1_scratch4) (hsc1_4.unread p.sR) = p.sR := hsc1_4.read_unread _
  simp only [View.readAt_eq_ld, Memref.IsWhole.read_unread, Cert.Lib.read_writes_cons_overlay, View.writes_nil,
    Cert.Lib.overlay_whole2, Cert.Lib.ld_whole2, Cert.Lib.readCov_whole2, hA, hV, hC, hT, hR]
  try rfl

set_option maxHeartbeats 4000000 in
theorem caseE1_eq (c : Dev nD) (i : grid1.Coords) (arg2 : Memref sig .tc .vmem S512x8192 .bf16) (harg2 : arg2.IsWhole) (arg3 : Memref sig .tc .vmem S2x8 .f32) (harg3 : arg3.IsWhole) (arg4 : Memref sig .tc .vmem S8x2 .f32) (harg4 : arg4.IsWhole) (arg5 : Memref sig .tc .vmem S8x2 .f32) (harg5 : arg5.IsWhole) (arg6 : Memref sig .tc .vmem S4096x8 .f32) (harg6 : arg6.IsWhole) (arg7 : Memref sig .tc .vmem S2x8192 .f32) (harg7 : arg7.IsWhole) (arg8 : Memref sig .tc .vmem S4096x8 .f32) (harg8 : arg8.IsWhole) (arg9 : Memref sig .tc .vmem S8192x2 .f32) (harg9 : arg9.IsWhole) (arg10 : Memref sig .tc .vmem S4096x8 .f32) (harg10 : arg10.IsWhole) (arg11 : Memref sig .tc .vmem S4x8192 .f32) (harg11 : arg11.IsWhole) (arg12 : Memref sig .tc .vmem S1x8 .f32) (harg12 : arg12.IsWhole) (arg13 : Memref sig .tc .vmem S2x8192 .f32) (harg13 : arg13.IsWhole) (arg14 : Memref sig .tc .vmem S8192x4 .bf16) (harg14 : arg14.IsWhole) (hc0 : ¬cond1_0 i) (hc1 : ¬cond1_1 i) (hc2 : cond1_2 i) (hc3 : cond1_3 i) (x0 : Vec F S512x8192 .bf16) (x1 : Vec F S2x8 .f32) (x2 : Vec F S8x2 .f32) (x3 : Vec F S8x2 .f32) (x4 : Vec F S4096x8 .f32) (x5 : Vec F S2x8192 .f32) (p : St1 F) :
    caseE1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 p = nextE1 i x0 x1 x2 x3 p := by
  unfold caseE1 run1_E nextE1 fin1 rows1
  dsimp only
  try sl_unfold_run_names
  have hA : View.read (Elt F) (View.whole cc1_scratch0) (hsc1_0.unread p.sA) = p.sA := hsc1_0.read_unread _
  have hV : View.read (Elt F) (View.whole cc1_scratch1) (hsc1_1.unread p.sV) = p.sV := hsc1_1.read_unread _
  have hC : View.read (Elt F) (View.whole cc1_scratch2) (hsc1_2.unread p.sC) = p.sC := hsc1_2.read_unread _
  have hT : View.read (Elt F) (View.whole cc1_scratch3) (hsc1_3.unread p.sT) = p.sT := hsc1_3.read_unread _
  have hR : View.read (Elt F) (View.whole cc1_scratch4) (hsc1_4.unread p.sR) = p.sR := hsc1_4.read_unread _
  simp only [View.readAt_eq_ld, Memref.IsWhole.read_unread, Cert.Lib.read_writes_cons_overlay, View.writes_nil,
    Cert.Lib.overlay_whole2, Cert.Lib.ld_whole2, Cert.Lib.readCov_whole2, hA, hV, hC, hT, hR]
  try rfl

end Cert.KernelIdeal.Hand

end
-- ==== Proof.Pay.K1.lean ====
/-
  The second region's payloads (blocks of 512 rows) read at an index, at the ideal values: each as an expression in the
  extended reals of its arguments' entries, with every reduction and block product a `Fin`-indexed sum. A "low part"
  `x − x` is left as it stands (it is zero only for finite `x`).
-/
import proofs.«170901_g57982058496645_cont_sun_m_527_4_alg».proof.Proof.Pay.Ops

noncomputable section

open scoped BigOperators

namespace Cert.KernelIdeal.Pay

open Idealize.ShloMosaic Idealize.SL.Sem Idealize.ShloMosaic.ValueIdx Cert.KernelIdeal Cert.KernelIdeal.Gen

/-- The two-row state transposed to two columns. -/
theorem k1_pay1_apply (v89 : Vec Ideal S2x8192 .f32) (k : Fin 8192) (e : Fin 2) :
    k1_pay1 (F := Ideal) v89 (ix2 k e) = v89 (ix2 e k) := by
  unfold k1_pay1
  exact transpose_ix2_apply v89 _ k e

/-- The finish of a step: row `e` of the state plus `c_e = ∑_q cs(q) · w₀(q, e)` plus the two accumulated rows
    `e` and `e + 2` (here given as two separate two-row arrays). -/
theorem k1_pay2_apply (v87 : Vec Ideal S8x2 .f32) (v89 : Vec Ideal S1x8 .f32) (v106 v107 v112 : Vec Ideal S2x8192 .f32)
    (e : Fin 2) (k : Fin 8192) :
    k1_pay2 (F := Ideal) v87 v89 v106 v107 v112 (ix2 e k)
      = v112 (ix2 e k)
        + ![∑ q : Fin 8, v89 (ix2 (0 : Fin 1) q) * v87 (ix2 q (0 : Fin 2)),
            ∑ q : Fin 8, v89 (ix2 (0 : Fin 1) q) * v87 (ix2 q (1 : Fin 2))] e
        + (v106 (ix2 e k) + v107 (ix2 e k)) := by
  unfold k1_pay2
  dsimp only
  simp only [addf_apply, shapeCast_self, pair_rows_apply, broadcast_apply]
  rw [total_S1x8 _ _ _, total_S1x8 _ _ _]
  simp only [mulf_apply, shapeCast_a_1a_apply, shapeCast_a1_a_apply, shapeCast_self,
    slice_col_apply 0 _ slices_S8x2_o0_0_S8x1 _ (0 : Fin 1) (0 : Fin 2) rfl,
    slice_col_apply 1 _ slices_S8x2_o0_1_S8x1 _ (0 : Fin 1) (1 : Fin 2) rfl]

/-- The two-row state over its low part, transposed: columns 0, 1 are the state's rows, columns 2, 3 the rows less
    themselves. -/
theorem k1_pay3_apply (v118 : Vec Ideal S2x8192 .f32) (k : Fin 8192) (j : Fin 4) :
    k1_pay3 (F := Ideal) v118 (ix2 k j)
      = ![v118 (ix2 (0 : Fin 2) k), v118 (ix2 (1 : Fin 2) k),
          v118 (ix2 (0 : Fin 2) k) - v118 (ix2 (0 : Fin 2) k), v118 (ix2 (1 : Fin 2) k) - v118 (ix2 (1 : Fin 2) k)] j := by
  unfold k1_pay3
  simp only [shapeCast_self]
  refine (transpose_ix2_apply _ _ k j).trans ?_
  rw [quad_rows_apply]
  rfl

/-- The whole worker array, unchanged. -/
theorem k1_pay4_apply (v87 : Vec Ideal S4096x8 .f32) (p : Fin 4096) (q : Fin 8) :
    k1_pay4 (F := Ideal) v87 (ix2 p q) = v87 (ix2 p q) := by
  unfold k1_pay4
  simp only [shapeCast_self]

/-- The two-row state, unchanged. -/
theorem k1_pay5_apply (v92 : Vec Ideal S2x8192 .f32) (e : Fin 2) (k : Fin 8192) :
    k1_pay5 (F := Ideal) v92 (ix2 e k) = v92 (ix2 e k) := by
  unfold k1_pay5
  simp only [shapeCast_self]

/-- The two-row state over its low part, transposed (as `k1_pay3`). -/
theorem k1_pay6_apply (v97 : Vec Ideal S2x8192 .f32) (k : Fin 8192) (j : Fin 4) :
    k1_pay6 (F := Ideal) v97 (ix2 k j)
      = ![v97 (ix2 (0 : Fin 2) k), v97 (ix2 (1 : Fin 2) k),
          v97 (ix2 (0 : Fin 2) k) - v97 (ix2 (0 : Fin 2) k), v97 (ix2 (1 : Fin 2) k) - v97 (ix2 (1 : Fin 2) k)] j := by
  unfold k1_pay6
  simp only [shapeCast_self]
  refine (transpose_ix2_apply _ _ k j).trans ?_
  rw [quad_rows_apply]
  rfl

/-- The zero array. -/
theorem k1_pay7_apply (r : Fin 4) (k : Fin 8192) : k1_pay7 (F := Ideal) (ix2 r k) = 0 := by
  unfold k1_pay7
  simp only [shapeCast_self, broadcast_apply]
  exact Ideal.ofBits_zero_f32

/-- The zero row. -/
theorem k1_pay8_apply (u : Fin 1) (q : Fin 8) : k1_pay8 (F := Ideal) (ix2 u q) = 0 := by
  unfold k1_pay8
  simp only [shapeCast_self, broadcast_apply]
  exact Ideal.ofBits_zero_f32

/-- The cached block of the matrix, unchanged. -/
theorem k1_pay9_apply (v8 : Vec Ideal S512x8192 .bf16) (p : Fin 512) (k : Fin 8192) :
    k1_pay9 (F := Ideal) v8 (ix2 p k) = v8 (ix2 p k) := by
  unfold k1_pay9
  simp only [shapeCast_self]

/-- The updated block of 512 rows: row `p`, column `q` is the old entry plus
    `(s₀ − (u₀ + u₂)) · a₂(0, q) + (u₁ + u₃) · a₂(1, q)`, with `s₀` the sum of the one-row matrix and
    `u_j = ∑ₖ M(p, k) · t(k, j)` the row's product with the four-column matrix. -/
theorem k1_pay10_apply (v8 : Vec Ideal S512x8192 .bf16) (v10 : Vec Ideal S1x8192 .f32) (v15 : Vec Ideal S8192x4 .bf16)
    (v20 : Vec Ideal S2x8 .f32) (v24 : Vec Ideal S512x8 .f32) (p : Fin 512) (q : Fin 8) :
    k1_pay10 (F := Ideal) v8 v10 v15 v20 v24 (ix2 p q)
      = v24 (ix2 p q)
        + ((∑ k : Fin 8192, v10 (ix2 (0 : Fin 1) k))
            - ((∑ k : Fin 8192, v8 (ix2 p k) * v15 (ix2 k (0 : Fin 4)))
              + (∑ k : Fin 8192, v8 (ix2 p k) * v15 (ix2 k (2 : Fin 4)))))
          * v20 (ix2 (0 : Fin 2) q)
        + ((∑ k : Fin 8192, v8 (ix2 p k) * v15 (ix2 k (1 : Fin 4)))
            + (∑ k : Fin 8192, v8 (ix2 p k) * v15 (ix2 k (3 : Fin 4))))
          * v20 (ix2 (1 : Fin 2) q) := by
  unfold k1_pay10
  dsimp only
  simp only [addf_apply, mulf_apply, subf_apply, broadcast_apply, shapeCast_self,
    broadcastTo_a1_ab_apply, broadcastTo_1b_ab_apply,
    slice_col_apply 0 _ slices_S512x2_o0_0_S512x1 p (0 : Fin 1) (0 : Fin 2) rfl,
    slice_col_apply 1 _ slices_S512x2_o0_1_S512x1 p (0 : Fin 1) (1 : Fin 2) rfl,
    slice_row_apply 0 _ slices_S2x8_o0_0_S1x8 (0 : Fin 1) q (0 : Fin 2) rfl,
    slice_row_apply 1 _ slices_S2x8_o1_0_S1x8 (0 : Fin 1) q (1 : Fin 2) rfl,
    slice2_axis1_apply 0 _ slices_S512x4_o0_0_S512x2 p (0 : Fin 2) (0 : Fin 4) rfl,
    slice2_axis1_apply 0 _ slices_S512x4_o0_0_S512x2 p (1 : Fin 2) (1 : Fin 4) rfl,
    slice2_axis1_apply 2 _ slices_S512x4_o0_2_S512x2 p (0 : Fin 2) (2 : Fin 4) rfl,
    slice2_axis1_apply 2 _ slices_S512x4_o0_2_S512x2 p (1 : Fin 2) (3 : Fin 4) rfl,
    mm512_apply, k1_pay9_apply]
  rw [total_S1x8192 v10 _ _]

/-- The updated block, unchanged. -/
theorem k1_pay11_apply (v38 : FVec Ideal S512x8 .f32) (p : Fin 512) (q : Fin 8) :
    k1_pay11 (F := Ideal) v38 (ix2 p q) = v38 (ix2 p q) := by
  unfold k1_pay11
  simp only [shapeCast_self]

/-- The accumulated four rows: row `r`, column `k` gains `∑_c h(c, r) · M(c, k)`, where `h(c, ·)` is
    `(g₀(c), g₁(c), g₀(c) − g₀(c), g₁(c) − g₁(c))` and `g_e(c) = ∑_q a(c, q) · d(q, e)`. -/
theorem k1_pay12_apply (v9 : FVec Ideal S512x8192 .bf16) (v38 : FVec Ideal S512x8 .f32) (v44 : Vec Ideal S8x2 .f32)
    (v67 : Vec Ideal S4x8192 .f32) (r : Fin 4) (k : Fin 8192) :
    k1_pay12 (F := Ideal) v9 v38 v44 v67 (ix2 r k)
      = v67 (ix2 r k)
        + ∑ c : Fin 512,
            ![∑ q : Fin 8, v38 (ix2 c q) * v44 (ix2 q (0 : Fin 2)),
              ∑ q : Fin 8, v38 (ix2 c q) * v44 (ix2 q (1 : Fin 2)),
              (∑ q : Fin 8, v38 (ix2 c q) * v44 (ix2 q (0 : Fin 2))) - ∑ q : Fin 8, v38 (ix2 c q) * v44 (ix2 q (0 : Fin 2)),
              (∑ q : Fin 8, v38 (ix2 c q) * v44 (ix2 q (1 : Fin 2))) - ∑ q : Fin 8, v38 (ix2 c q) * v44 (ix2 q (1 : Fin 2))] r
              * v9 (ix2 c k) := by
  unfold k1_pay12
  dsimp only
  simp only [addf_apply, shapeCast_self]
  rw [mmT512_apply]
  refine congrArg (v67 (ix2 r k) + ·) (Finset.sum_congr rfl fun c _ => congrArg (· * v9 (ix2 c k)) ?_)
  rw [quad_cols_apply]
  simp only [truncf_apply, subf_apply, pair_cols_apply, Matrix.cons_val_zero, Matrix.cons_val_one, Matrix.head_cons,
    shapeCast_a_a1_apply]
  rw [rowSum_apply _ reduces_S512x8_S512 _ _ c, rowSum_apply _ reduces_S512x8_S512 _ _ c]
  simp only [mulf_apply, broadcastTo_1b_ab_apply, shapeCast_a_1a_apply, shapeCast_a1_a_apply, shapeCast_self,
    slice_col_apply 0 _ slices_S8x2_o0_0_S8x1 _ (0 : Fin 1) (0 : Fin 2) rfl,
    slice_col_apply 1 _ slices_S8x2_o0_1_S8x1 _ (0 : Fin 1) (1 : Fin 2) rfl]

/-- The column sums of the block added to the running column sums. -/
theorem k1_pay13_apply (v38 : FVec Ideal S512x8 .f32) (v72 : Vec Ideal S1x8 .f32) (u : Fin 1) (q : Fin 8) :
    k1_pay13 (F := Ideal) v38 v72 (ix2 u q) = v72 (ix2 u q) + ∑ c : Fin 512, v38 (ix2 c q) := by
  unfold k1_pay13
  dsimp only
  simp only [addf_apply, shapeCast_self, shapeCast_a_1a_apply]
  rw [colSum_apply _ reduces_S512x8_S8 _ _ q]

end Cert.KernelIdeal.Pay
-- ==== Proof.Corr.K1.lean ====
import proofs.«170901_g57982058496645_cont_sun_m_527_4_alg».proof.Proof.Pay.K1
import proofs.«170901_g57982058496645_cont_sun_m_527_4_alg».proof.Proof.Corr.K0

/-!
# The second region's payloads on real data

The same correspondences as for the first region, at blocks of 512 rows.  The label block is now
the cached float copy, a matrix of reals `Mb`; the hi/lo copy is rebuilt from the wide task
state; four payloads are plain copies.
-/

noncomputable section

namespace Cert.Corr

open Idealize.ShloMosaic Idealize.SL.Sem Idealize.ShloMosaic.ValueIdx Cert.KernelIdeal Cert.KernelIdeal.Gen
open Cert.KernelIdeal.Pay Cert.Spec

/-- Two float matrices with the same entries are equal. -/
theorem ext2 {a b : ℕ} {α : Type} {x y : (⟨2, ![a, b]⟩ : Shape).Idx → α} (h : ∀ p q, x (ix2 p q) = y (ix2 p q)) :
    x = y := by
  funext i
  obtain ⟨p, q, rfl⟩ : ∃ (p : Fin a) (q : Fin b), i = ix2 p q := ⟨i 0, i 1, eq_ix2 i⟩
  exact h p q

/-- The copy of the whole worker array. -/
theorem k1_pay4_id (v : Vec Ideal S4096x8 .f32) : k1_pay4 (F := Ideal) v = v := ext2 (k1_pay4_apply v)

/-- The copy of the wide task state. -/
theorem k1_pay5_id (v : Vec Ideal S2x8192 .f32) : k1_pay5 (F := Ideal) v = v := ext2 (k1_pay5_apply v)

/-- The copy of the cached label block. -/
theorem k1_pay9_id (v : Vec Ideal S512x8192 .bf16) : k1_pay9 (F := Ideal) v = v := ext2 (k1_pay9_apply v)

/-- The copy of the block's new rows. -/
theorem k1_pay11_id (v : FVec Ideal S512x8 .f32) : k1_pay11 (F := Ideal) v = v := ext2 (k1_pay11_apply v)

/-- The wide task state transposed back. -/
theorem k1_pay1_c2 (T : Fin 2 → Fin 8192 → ℝ) :
    k1_pay1 (F := Ideal) (c2 (φ := .f32) T) = c2 (φ := .f32) (fun k j => T j k) :=
  ext_c2 fun k j => k1_pay1_apply (c2 (φ := .f32) T) k j

/-- The block's new rows: the formula of `rowsNew`, with `Mb` the cached label block. -/
theorem k1_pay10_c2 (Mb : Fin 512 → Fin 8192 → ℝ) (T0 : Fin 8192 → ℝ) (Rh : Fin 8192 → Fin 4 → ℝ)
    (A2 : Fin 2 → Fin 8 → ℝ) (rows : Fin 512 → Fin 8 → ℝ) :
    k1_pay10 (F := Ideal) (c2 (φ := .bf16) Mb) (c2 (φ := .f32) fun (_ : Fin 1) k => T0 k) (c2 (φ := .bf16) Rh)
        (c2 (φ := .f32) A2) (c2 (φ := .f32) rows)
      = c2 (φ := .f32) (fun r q => rows r q
          + ((∑ k, T0 k) - ((∑ k, Mb r k * Rh k 0) + (∑ k, Mb r k * Rh k 2))) * A2 0 q
          + ((∑ k, Mb r k * Rh k 1) + (∑ k, Mb r k * Rh k 3)) * A2 1 q) := by
  refine ext_c2 fun p q => ?_
  rw [k1_pay10_apply]
  simp only [c2_apply, EReal.coe_add, EReal.coe_sub, EReal.coe_mul, coe_sum]

/-- The same as the block machine's `rowsNew`. -/
theorem k1_pay10_rowsNew {NB : Type} (M : NB → Fin 512 → Fin 8192 → ℝ)
    (A2 : Fin 2 → Fin 8 → ℝ) (s : MState NB (Fin 512) (Fin 8192) (Fin 8)) (b : NB) :
    k1_pay10 (F := Ideal) (c2 (φ := .bf16) (M b)) (c2 (φ := .f32) fun (_ : Fin 1) k => s.T 0 k)
        (c2 (φ := .bf16) s.Rh) (c2 (φ := .f32) A2) (c2 (φ := .f32) (s.A b))
      = c2 (φ := .f32) (rowsNew M A2 s b) := by
  rw [k1_pay10_c2]
  rfl

/-- The task-side accumulator after the block. -/
theorem k1_pay12_c2 (Mb : Fin 512 → Fin 8192 → ℝ) (a' : Fin 512 → Fin 8 → ℝ) (D : Fin 8 → Fin 2 → ℝ)
    (Vv : Fin 4 → Fin 8192 → ℝ) :
    k1_pay12 (F := Ideal) (c2 (φ := .bf16) Mb) (c2 (φ := .f32) a') (c2 (φ := .f32) D) (c2 (φ := .f32) Vv)
      = c2 (φ := .f32) (fun j k => Vv j k + ∑ r, ghl D a' r j * Mb r k) := by
  refine ext_c2 fun j k => ?_
  rw [k1_pay12_apply]
  simp only [c2_apply, gcol_coe, quad_coe, ← ghl_eq]
  rw [EReal.coe_add, coe_sum]
  simp only [EReal.coe_mul]

/-- The column sums after the block. -/
theorem k1_pay13_c2 (a' : Fin 512 → Fin 8 → ℝ) (Cs : Fin 8 → ℝ) :
    k1_pay13 (F := Ideal) (c2 (φ := .f32) a') (c2 (φ := .f32) fun (_ : Fin 1) q => Cs q)
      = c2 (φ := .f32) (fun (_ : Fin 1) q => Cs q + ∑ r, a' r q) := by
  refine ext_c2 fun u q => ?_
  rw [k1_pay13_apply]
  simp only [c2_apply, EReal.coe_add, coe_sum]

/-- The end of a pass: the fold of the accumulators into the wide task state. -/
theorem k1_pay2_c2 (W0 : Fin 8 → Fin 2 → ℝ) (Cs : Fin 8 → ℝ) (Vlo Vhi T : Fin 2 → Fin 8192 → ℝ) :
    k1_pay2 (F := Ideal) (c2 (φ := .f32) W0) (c2 (φ := .f32) fun (_ : Fin 1) q => Cs q) (c2 (φ := .f32) Vlo)
        (c2 (φ := .f32) Vhi) (c2 (φ := .f32) T)
      = c2 (φ := .f32) (fun j k => T j k + (∑ q, Cs q * W0 q j) + (Vlo j k + Vhi j k)) := by
  refine ext_c2 fun j k => ?_
  rw [k1_pay2_apply]
  have h : ∀ e : Fin 2, (∑ q : Fin 8, ((Cs q : ℝ) : EReal) * ((W0 q e : ℝ) : EReal))
      = ((∑ q : Fin 8, Cs q * W0 q e : ℝ) : EReal) := fun e => by
    rw [coe_sum]; simp only [EReal.coe_mul]
  simp only [c2_apply, h, pair_coe]
  rw [pair_eta (fun e => ∑ q : Fin 8, Cs q * W0 q e) j]
  simp only [EReal.coe_add]

/-- The same as the block machine's `finishT`. -/
theorem k1_pay2_finishT {NB : Type} (W0 : Fin 8 → Fin 2 → ℝ) (s : MState NB (Fin 512) (Fin 8192) (Fin 8)) :
    k1_pay2 (F := Ideal) (c2 (φ := .f32) W0) (c2 (φ := .f32) fun (_ : Fin 1) q => s.Cs q)
        (c2 (φ := .f32) fun (j : Fin 2) k => s.Vv (Fin.castLE (by omega) j) k)
        (c2 (φ := .f32) fun (j : Fin 2) k => s.Vv ⟨j.val + 2, by omega⟩ k) (c2 (φ := .f32) s.T)
      = c2 (φ := .f32) (finishT W0 s) := by
  rw [k1_pay2_c2]
  rfl

/-- The hi/lo column copy rebuilt from the wide task state (after the end-of-pass fold). -/
theorem k1_pay3_c2 (T : Fin 2 → Fin 8192 → ℝ) :
    k1_pay3 (F := Ideal) (c2 (φ := .f32) T) = c2 (φ := .bf16) (hilo T) := by
  refine ext_c2 fun k r => ?_
  rw [k1_pay3_apply]
  simp only [c2_apply, quad_coe, ← hilo_eq T]

/-- The hi/lo column copy built from the wide task state (at the start). -/
theorem k1_pay6_c2 (T : Fin 2 → Fin 8192 → ℝ) :
    k1_pay6 (F := Ideal) (c2 (φ := .f32) T) = c2 (φ := .bf16) (hilo T) := by
  refine ext_c2 fun k r => ?_
  rw [k1_pay6_apply]
  simp only [c2_apply, quad_coe, ← hilo_eq T]

/-- The task-side accumulator zeroed. -/
theorem k1_pay7_c2 : k1_pay7 (F := Ideal) = c2 (φ := .f32) (fun _ _ => (0 : ℝ)) :=
  ext_c2 fun j k => (k1_pay7_apply j k).trans EReal.coe_zero.symm

/-- The column-sum accumulator zeroed. -/
theorem k1_pay8_c2 : k1_pay8 (F := Ideal) = c2 (φ := .f32) (fun _ _ => (0 : ℝ)) :=
  ext_c2 fun u q => (k1_pay8_apply u q).trans EReal.coe_zero.symm

end Cert.Corr

end
-- ==== Proof.Val.Inv1.lean ====
/-
  The second region at the ideal instance, on real data: after each grid point the carried buffers hold the
  (coerced) state of the block machine — within a pass, the state after that many blocks from zeroed
  accumulators; at the end of a pass, the state after the whole pass — and after the last point the two output
  buffers hold the worker array and the transposed task state after four passes.
-/
import proofs.«170901_g57982058496645_cont_sun_m_527_4_alg».proof.Proof.K1.Next
import proofs.«170901_g57982058496645_cont_sun_m_527_4_alg».proof.Proof.Corr.K1
import proofs.«170901_g57982058496645_cont_sun_m_527_4_alg».proof.Proof.Spec.Glue

set_option maxRecDepth 16384

noncomputable section

namespace Cert.KernelIdeal.Val

open Cert.KernelIdeal Cert.KernelIdeal.Gen Cert.KernelIdeal.Hand Cert.Spec Cert.Corr
open Idealize.ShloMosaic Idealize.ShloMosaic.ValueIdx Idealize.ShloMosaic.TcCoe
open Idealize.SL Idealize.SL.Sem

/-- The worker array's buffer holding the coerced blocks `A`. -/
def cA8 (A : Fin 8 → Fin 512 → Fin 8 → ℝ) : Vec Ideal S4096x8 .f32 :=
  c2 (φ := .f32) (fun p q => A (e8.symm p).1 (e8.symm p).2 q)

/-- The carried buffers hold the coerced machine state. -/
structure Good1 (S : St1 Ideal) (ms : MState (Fin 8) (Fin 512) (Fin 8192) (Fin 8)) : Prop where
  sA : S.sA = cA8 ms.A
  sV : S.sV = c2 (φ := .f32) ms.Vv
  sC : S.sC = c2 (φ := .f32) (fun (_ : Fin 1) q => ms.Cs q)
  sT : S.sT = c2 (φ := .f32) ms.T
  sR : S.sR = c2 (φ := .bf16) ms.Rh

/-! ### Loads of coerced buffers -/

theorem ld_row0_1 (T : Fin 2 → Fin 8192 → ℝ) :
    View.ld (Val := Elt Ideal) (e' := .f32) (c2 (φ := .f32) T) row0R1 = c2 (φ := .f32) (fun (_ : Fin 1) k => T 0 k) := by
  funext y
  show ((T ((row0R1.idx y) 0) ((row0R1.idx y) 1) : ℝ) : EReal) = ((T 0 (y 1) : ℝ) : EReal)
  have hy : (y 0).val < 1 := (y 0).isLt
  have h0 : ((row0R1.idx y) 0 : Fin 2) = (0 : Fin 2) := Fin.ext (by show 0 + 1 * (y 0).val = 0; omega)
  have h1 : ((row0R1.idx y) 1 : Fin 8192) = y 1 := Fin.ext (by show 0 + 1 * (y 1).val = (y 1).val; omega)
  rw [h0, h1]

theorem ld_v01_1 (Vv : Fin 4 → Fin 8192 → ℝ) :
    View.ld (Val := Elt Ideal) (e' := .f32) (c2 (φ := .f32) Vv) v01R1 = c2 (φ := .f32) (fun (j : Fin 2) k => Vv (Fin.castLE (by omega) j) k) := by
  funext y
  show ((Vv ((v01R1.idx y) 0) ((v01R1.idx y) 1) : ℝ) : EReal) = ((Vv (Fin.castLE (show 2 ≤ 4 by omega) (y 0 : Fin 2)) (y 1) : ℝ) : EReal)
  have h0 : ((v01R1.idx y) 0 : Fin 4) = Fin.castLE (show 2 ≤ 4 by omega) (y 0 : Fin 2) := Fin.ext (by show 0 + 1 * (y 0).val = (y 0).val; omega)
  have h1 : ((v01R1.idx y) 1 : Fin 8192) = y 1 := Fin.ext (by show 0 + 1 * (y 1).val = (y 1).val; omega)
  rw [h0, h1]

theorem ld_v23_1 (Vv : Fin 4 → Fin 8192 → ℝ) :
    View.ld (Val := Elt Ideal) (e' := .f32) (c2 (φ := .f32) Vv) v23R1 = c2 (φ := .f32) (fun (j : Fin 2) k => Vv ⟨j.val + 2, by omega⟩ k) := by
  funext y
  have hy : (y 0).val < 2 := (y 0).isLt
  show ((Vv ((v23R1.idx y) 0) ((v23R1.idx y) 1) : ℝ) : EReal) = ((Vv (⟨(y 0).val + 2, by omega⟩ : Fin 4) (y 1) : ℝ) : EReal)
  have h0 : ((v23R1.idx y) 0 : Fin 4) = (⟨(y 0).val + 2, by omega⟩ : Fin 4) := Fin.ext (by show 2 + 1 * (y 0).val = (y 0).val + 2; omega)
  have h1 : ((v23R1.idx y) 1 : Fin 8192) = y 1 := Fin.ext (by show 0 + 1 * (y 1).val = (y 1).val; omega)
  rw [h0, h1]

/-- The point's rows of the worker buffer are the point's block. -/
theorem ld_rows1 (A : Fin 8 → Fin 512 → Fin 8 → ℝ) (i : grid1.Coords) (n : Fin 8)
    (h0 : k1_off1 i 0 = 512 * n.val) (h1 : k1_off1 i 1 = 0) :
    View.ld (Val := Elt Ideal) (e' := .f32) (cA8 A) (rowsR1 i) = c2 (φ := .f32) (A n) := by
  funext y
  show ((A (e8.symm (((rowsR1 i).idx y) 0)).1 (e8.symm (((rowsR1 i).idx y) 0)).2 (((rowsR1 i).idx y) 1) : ℝ) : EReal)
      = ((A n (y 0) (y 1) : ℝ) : EReal)
  have hp : ((rowsR1 i).idx y) 0 = e8 (n, y 0) := Fin.ext (by
    show k1_off1 i 0 + 1 * (y 0).val = (y 0).val + 512 * n.val; omega)
  have hq : ((rowsR1 i).idx y) 1 = y 1 := Fin.ext (by show k1_off1 i 1 + 1 * (y 1).val = (y 1).val; omega)
  rw [hp, hq, Equiv.symm_apply_apply]

/-- Rewriting the point's rows of the worker buffer rewrites the point's block. -/
theorem overlay_rows1 (A : Fin 8 → Fin 512 → Fin 8 → ℝ) (a' : Fin 512 → Fin 8 → ℝ) (i : grid1.Coords) (n : Fin 8)
    (h0 : k1_off1 i 0 = 512 * n.val) (h1 : k1_off1 i 1 = 0) :
    (rowsR1 i).overlay (cA8 A) (c2 (φ := .f32) a') = cA8 (fun b => if b = n then a' else A b) := by
  funext j
  obtain ⟨p, q, rfl⟩ : ∃ (p : Fin 4096) (q : Fin 8), j = ix2 p q := ⟨j 0, j 1, eq_ix2 j⟩
  by_cases hb : (e8.symm p).1 = n
  · have hj : ix2 p q = (rowsR1 i).emb (ix2 (e8.symm p).2 q) := by
      funext a; apply Fin.ext
      match a with
      | ⟨0, _⟩ =>
        show p.val = k1_off1 i 0 + 1 * (e8.symm p).2.val
        have := e8_symm_fst_val p; have := e8_symm_snd_val p; have hb' := congrArg Fin.val hb
        omega
      | ⟨1, _⟩ => show q.val = k1_off1 i 1 + 1 * q.val; omega
    rw [hj, Rect.overlay_emb]
    show ((a' (e8.symm p).2 q : ℝ) : EReal) = _
    rw [← hj]
    show _ = (((if (e8.symm p).1 = n then a' else A (e8.symm p).1) (e8.symm p).2 q : ℝ) : EReal)
    rw [if_pos hb]
  · have hnm : ix2 p q ∉ (rowsR1 i).set := by
      rw [Rect.mem_set_unit]
      intro h
      have h' := h 0
      have : k1_off1 i 0 ≤ p.val ∧ p.val < k1_off1 i 0 + 512 := h'
      apply hb; apply Fin.ext
      have := e8_symm_fst_val p
      omega
    rw [Rect.overlay_of_not_mem _ _ _ hnm]
    show ((A (e8.symm p).1 (e8.symm p).2 q : ℝ) : EReal) = (((if (e8.symm p).1 = n then a' else A (e8.symm p).1) (e8.symm p).2 q : ℝ) : EReal)
    rw [if_neg hb]

/-! ### One point -/

variable (M : Fin 8 → Fin 512 → Fin 8192 → ℝ) (A2 : Fin 2 → Fin 8 → ℝ) (D : Fin 8 → Fin 2 → ℝ)

/-- The point's rewritten rows are the machine's. -/
theorem rows1_eq (i : grid1.Coords) (n : Fin 8) (h0 : k1_off1 i 0 = 512 * n.val) (h1 : k1_off1 i 1 = 0)
    (p : St1 Ideal) (ms : MState (Fin 8) (Fin 512) (Fin 8192) (Fin 8)) (hp : Good1 p ms) :
    rows1 i (c2 (φ := .bf16) (M n)) (c2 (φ := .f32) A2) p.sA p.sT p.sR = c2 (φ := .f32) (rowsNew M A2 ms n) := by
  unfold rows1
  rw [hp.sT, hp.sR, hp.sA, ld_row0_1, ld_rows1 ms.A i n h0 h1]
  exact k1_pay10_rowsNew M A2 ms n

/-- A middle block steps the machine by one block. -/
theorem good_nextC1 (i : grid1.Coords) (n : Fin 8) (h0 : k1_off1 i 0 = 512 * n.val) (h1 : k1_off1 i 1 = 0)
    (p : St1 Ideal) (ms : MState (Fin 8) (Fin 512) (Fin 8192) (Fin 8)) (hp : Good1 p ms) :
    Good1 (nextC1 i (c2 (φ := .bf16) (M n)) (c2 (φ := .f32) A2) (c2 (φ := .f32) D) p) (blockStep M A2 D n ms) := by
  have hr := rows1_eq M A2 i n h0 h1 p ms hp
  refine ⟨?_, ?_, ?_, hp.sT, hp.sR⟩
  · show (rowsR1 i).overlay p.sA (k1_pay11 (rows1 i (c2 (φ := .bf16) (M n)) (c2 (φ := .f32) A2) p.sA p.sT p.sR)) = _
    rw [hr, k1_pay11_id, hp.sA, overlay_rows1 ms.A _ i n h0 h1]
    rfl
  · show k1_pay12 (k1_pay9 (c2 (φ := .bf16) (M n))) (rows1 i (c2 (φ := .bf16) (M n)) (c2 (φ := .f32) A2) p.sA p.sT p.sR)
        (c2 (φ := .f32) D) p.sV = _
    rw [hr, k1_pay9_id, hp.sV, k1_pay12_c2]
    rfl
  · show k1_pay13 (rows1 i (c2 (φ := .bf16) (M n)) (c2 (φ := .f32) A2) p.sA p.sT p.sR) p.sC = _
    rw [hr, hp.sC, k1_pay13_c2]
    rfl

/-- The first block of a later pass: the accumulators are zeroed first. -/
theorem good_nextB1 (i : grid1.Coords) (n : Fin 8) (h0 : k1_off1 i 0 = 512 * n.val) (h1 : k1_off1 i 1 = 0)
    (p : St1 Ideal) (ms : MState (Fin 8) (Fin 512) (Fin 8192) (Fin 8)) (hp : Good1 p ms) :
    Good1 (nextB1 i (c2 (φ := .bf16) (M n)) (c2 (φ := .f32) A2) (c2 (φ := .f32) D) p)
      (blockStep M A2 D n (zeroAcc ms)) := by
  have hp' : Good1 (⟨p.o8, p.o9, p.sA, k1_pay7 (F := Ideal), k1_pay8 (F := Ideal), p.sT, p.sR⟩ : St1 Ideal) (zeroAcc ms) :=
    ⟨hp.sA, k1_pay7_c2, k1_pay8_c2, hp.sT, hp.sR⟩
  exact good_nextC1 M A2 D i n h0 h1 _ _ hp'

variable (W0 : Fin 8 → Fin 2 → ℝ)

/-- The machine state after the end-of-pass fold. -/
def finished (s : MState (Fin 8) (Fin 512) (Fin 8192) (Fin 8)) : MState (Fin 8) (Fin 512) (Fin 8192) (Fin 8) :=
  { s with T := finishT W0 s, Rh := hilo (finishT W0 s) }

theorem finished_A (s : MState (Fin 8) (Fin 512) (Fin 8192) (Fin 8)) : (finished W0 s).A = s.A := rfl
theorem finished_Vv (s : MState (Fin 8) (Fin 512) (Fin 8192) (Fin 8)) : (finished W0 s).Vv = s.Vv := rfl
theorem finished_Cs (s : MState (Fin 8) (Fin 512) (Fin 8192) (Fin 8)) : (finished W0 s).Cs = s.Cs := rfl
theorem finished_T (s : MState (Fin 8) (Fin 512) (Fin 8192) (Fin 8)) : (finished W0 s).T = finishT W0 s := rfl
theorem finished_Rh (s : MState (Fin 8) (Fin 512) (Fin 8192) (Fin 8)) : (finished W0 s).Rh = hilo (finishT W0 s) := rfl

section Fields
variable {F : FTy → Type} [FloatOps F] (i : grid1.Coords) (x0 : Vec F S512x8192 .bf16) (x1 : Vec F S2x8 .f32)
  (x2 x3 : Vec F S8x2 .f32) (p : St1 F)

theorem nextD1_sA : (nextD1 i x0 x1 x2 x3 p).sA = (nextC1 i x0 x1 x2 p).sA := rfl
theorem nextD1_sV : (nextD1 i x0 x1 x2 x3 p).sV = (nextC1 i x0 x1 x2 p).sV := rfl
theorem nextD1_sC : (nextD1 i x0 x1 x2 x3 p).sC = (nextC1 i x0 x1 x2 p).sC := rfl
theorem nextD1_sT : (nextD1 i x0 x1 x2 x3 p).sT
    = fin1 x3 (nextC1 i x0 x1 x2 p).sC (nextC1 i x0 x1 x2 p).sV (nextC1 i x0 x1 x2 p).sT := rfl
theorem nextD1_sR : (nextD1 i x0 x1 x2 x3 p).sR = k1_pay3 (nextD1 i x0 x1 x2 x3 p).sT := rfl
theorem nextE1_o8 : (nextE1 i x0 x1 x2 x3 p).o8 = (nextD1 i x0 x1 x2 x3 p).sA := rfl
theorem nextE1_o9 : (nextE1 i x0 x1 x2 x3 p).o9 = k1_pay1 (nextD1 i x0 x1 x2 x3 p).sT := rfl
end Fields

/-- The end-of-pass fold of the buffers is the machine's. -/
theorem fin1_eq (S : St1 Ideal) (ms : MState (Fin 8) (Fin 512) (Fin 8192) (Fin 8)) (hS : Good1 S ms) :
    fin1 (c2 (φ := .f32) W0) S.sC S.sV S.sT = c2 (φ := .f32) (finishT W0 ms) := by
  unfold fin1
  rw [hS.sC, hS.sV, hS.sT, ld_v01_1, ld_v23_1]
  exact k1_pay2_finishT W0 ms

/-- The last block of a pass: the block's work, then the fold and the hi/lo copy rebuilt. -/
theorem good_nextD1 (i : grid1.Coords) (n : Fin 8) (h0 : k1_off1 i 0 = 512 * n.val) (h1 : k1_off1 i 1 = 0)
    (p : St1 Ideal) (ms : MState (Fin 8) (Fin 512) (Fin 8192) (Fin 8)) (hp : Good1 p ms) :
    Good1 (nextD1 i (c2 (φ := .bf16) (M n)) (c2 (φ := .f32) A2) (c2 (φ := .f32) D) (c2 (φ := .f32) W0) p)
      (finished W0 (blockStep M A2 D n ms)) := by
  have hC := good_nextC1 M A2 D i n h0 h1 p ms hp
  have hf := fin1_eq W0 _ _ hC
  have hT : (nextD1 i (c2 (φ := .bf16) (M n)) (c2 (φ := .f32) A2) (c2 (φ := .f32) D) (c2 (φ := .f32) W0) p).sT
      = c2 (φ := .f32) (finishT W0 (blockStep M A2 D n ms)) := by
    rw [nextD1_sT]; exact hf
  refine ⟨?_, ?_, ?_, ?_, ?_⟩
  · rw [nextD1_sA, finished_A]; exact hC.sA
  · rw [nextD1_sV, finished_Vv]; exact hC.sV
  · rw [nextD1_sC, finished_Cs]; exact hC.sC
  · rw [finished_T]; exact hT
  · rw [nextD1_sR, hT, k1_pay3_c2, finished_Rh]

/-- The last point of all: as the last block of a pass, and the two outputs' buffers stored. -/
theorem good_nextE1 (i : grid1.Coords) (n : Fin 8) (h0 : k1_off1 i 0 = 512 * n.val) (h1 : k1_off1 i 1 = 0)
    (p : St1 Ideal) (ms : MState (Fin 8) (Fin 512) (Fin 8192) (Fin 8)) (hp : Good1 p ms) :
    (nextE1 i (c2 (φ := .bf16) (M n)) (c2 (φ := .f32) A2) (c2 (φ := .f32) D) (c2 (φ := .f32) W0) p).o8
        = cA8 (finished W0 (blockStep M A2 D n ms)).A
      ∧ (nextE1 i (c2 (φ := .bf16) (M n)) (c2 (φ := .f32) A2) (c2 (φ := .f32) D) (c2 (φ := .f32) W0) p).o9
        = c2 (φ := .f32) (fun k j => (finished W0 (blockStep M A2 D n ms)).T j k) := by
  have hD := good_nextD1 M A2 D W0 i n h0 h1 p ms hp
  refine ⟨?_, ?_⟩
  · rw [nextE1_o8]; exact hD.sA
  · rw [nextE1_o9, hD.sT, k1_pay1_c2]

/-! ### All the points -/

section Points

variable (W : Fin 2 → Fin 8 → Fin 2 → ℝ) (s1 : MState (Fin 8) (Fin 512) (Fin 8192) (Fin 8))

/-- Where the point's rows sit in the worker buffer. -/
theorem off1 : ∀ t : Fin cfg1.N, k1_off1 (grid1.coords t) 0 = 512 * (t.val % 8) ∧ k1_off1 (grid1.coords t) 1 = 0 :=
  (by decide +kernel : ∀ t : Fin grid1.N, k1_off1 (grid1.coords t) 0 = 512 * (t.val % 8) ∧ k1_off1 (grid1.coords t) 1 = 0)

/-- The machine state after point `n`: within a pass, that many blocks from zeroed accumulators; at the end
    of a pass, the whole pass. -/
def stAfter (n : ℕ) : MState (Fin 8) (Fin 512) (Fin 8192) (Fin 8) :=
  if n % 8 = 7 then (onePass M A2 W)^[n / 8 + 1] s1
  else prefixBlocks M A2 (fun q j => W 1 q j - W 0 q j) (n % 8 + 1) (zeroAcc ((onePass M A2 W)^[n / 8] s1))

/-- The machine state before point `n + 1`, as the point finds it. -/
theorem stAfter_pre0 (n : ℕ) (h : (n + 1) % 8 = 0) :
    stAfter M A2 W s1 n = (onePass M A2 W)^[(n + 1) / 8] s1 := by
  have h7 : n % 8 = 7 := by omega
  have hd : (n + 1) / 8 = n / 8 + 1 := by omega
  unfold stAfter
  rw [if_pos h7, hd]

theorem stAfter_pre (n : ℕ) (h : (n + 1) % 8 ≠ 0) :
    stAfter M A2 W s1 n = prefixBlocks M A2 (fun q j => W 1 q j - W 0 q j) ((n + 1) % 8)
      (zeroAcc ((onePass M A2 W)^[(n + 1) / 8] s1)) := by
  have h7 : n % 8 ≠ 7 := by omega
  have hm : (n + 1) % 8 = n % 8 + 1 := by omega
  have hd : (n + 1) / 8 = n / 8 := by omega
  unfold stAfter
  rw [if_neg h7, hm, hd]

theorem prefixBlocks_of_eq_zero (Dd : Fin 8 → Fin 2 → ℝ) (s : MState (Fin 8) (Fin 512) (Fin 8192) (Fin 8)) (m : ℕ)
    (h : m = 0) : prefixBlocks M A2 Dd m s = s := by
  subst h; exact prefixBlocks_zero M A2 Dd s

theorem prefixBlocks_of_eq_full (Dd : Fin 8 → Fin 2 → ℝ) (s : MState (Fin 8) (Fin 512) (Fin 8192) (Fin 8)) (m : ℕ)
    (h : m = 8) : prefixBlocks M A2 Dd m s = passBlocks M A2 Dd s := by
  subst h; exact prefixBlocks_full M A2 Dd s

/-- After a first or middle block. -/
theorem stAfter_mid (n : ℕ) (h7 : n % 8 ≠ 7) :
    stAfter M A2 W s1 n = blockStep M A2 (fun q j => W 1 q j - W 0 q j) ⟨n % 8, Nat.mod_lt _ (by decide)⟩
      (prefixBlocks M A2 (fun q j => W 1 q j - W 0 q j) (n % 8) (zeroAcc ((onePass M A2 W)^[n / 8] s1))) := by
  unfold stAfter
  rw [if_neg h7, prefixBlocks_succ]

/-- After the last block of a pass. -/
theorem stAfter_last (n : ℕ) (h7 : n % 8 = 7) :
    stAfter M A2 W s1 n = finished (W 0) (blockStep M A2 (fun q j => W 1 q j - W 0 q j) ⟨n % 8, Nat.mod_lt _ (by decide)⟩
      (prefixBlocks M A2 (fun q j => W 1 q j - W 0 q j) (n % 8) (zeroAcc ((onePass M A2 W)^[n / 8] s1)))) := by
  unfold stAfter
  rw [if_pos h7, Function.iterate_succ_apply', ← prefixBlocks_succ,
    prefixBlocks_of_eq_full M A2 _ _ (n % 8 + 1) (by omega)]
  rfl

variable (V : (c : Dev nD) → (b : Ref sig .tc) → Buf (Elt Ideal) ((c : Thread nD τ).loc b)) (c : Dev nD)
variable (hR : s1.Rh = hilo s1.T)
variable (hy0 : ∀ t : Fin cfg1.N, iblk1 V c 0 t = c2 (φ := .bf16) (M ⟨t.val % 8, Nat.mod_lt _ (by decide)⟩))
variable (hy1 : ∀ t : Fin cfg1.N, iblk1 V c 1 t = c2 (φ := .f32) A2)
variable (hy2 : ∀ t : Fin cfg1.N, iblk1 V c 2 t = c2 (φ := .f32) (fun q j => W 1 q j - W 0 q j))
variable (hy3 : ∀ t : Fin cfg1.N, iblk1 V c 3 t = c2 (φ := .f32) (W 0))
variable (hy4 : ∀ t : Fin cfg1.N, iblk1 V c 4 t = cA8 s1.A)
variable (hy5 : ∀ t : Fin cfg1.N, iblk1 V c 5 t = c2 (φ := .f32) s1.T)

include hR hy0 hy1 hy2 hy3 hy4 hy5 in
/-- After each point but the last the buffers hold the machine's state. -/
theorem inv1 : ∀ (n : ℕ) (hn : n < cfg1.N), n < 31 → Good1 (outsAt1 V c n hn) (stAfter M A2 W s1 n)
  | 0, hn, _ => by
    have e : outsAt1 V c 0 hn = atA1 V c ⟨0, hn⟩ rfl := rfl
    rw [e]; unfold atA1; rw [caseA1_eq, hy0, hy1, hy2, hy4, hy5]
    rw [stAfter_mid M A2 W s1 0 (by decide), prefixBlocks_of_eq_zero M A2 _ _ (0 % 8) rfl,
      show (onePass M A2 W)^[0 / 8] s1 = s1 from rfl]
    have hp0 : Good1 (⟨MP8.view.read (Elt Ideal) MP8.view.junk, MP9.view.read (Elt Ideal) MP9.view.junk,
        k1_pay4 (F := Ideal) (cA8 s1.A), k1_pay7 (F := Ideal), k1_pay8 (F := Ideal), k1_pay5 (F := Ideal) (c2 (φ := .f32) s1.T),
        k1_pay6 (F := Ideal) (k1_pay5 (F := Ideal) (c2 (φ := .f32) s1.T))⟩ : St1 Ideal) (zeroAcc s1) := by
      refine ⟨?_, ?_, ?_, ?_, ?_⟩
      · exact k1_pay4_id (cA8 s1.A)
      · exact k1_pay7_c2
      · exact k1_pay8_c2
      · exact k1_pay5_id (c2 (φ := .f32) s1.T)
      · show k1_pay6 (F := Ideal) (k1_pay5 (F := Ideal) (c2 (φ := .f32) s1.T)) = c2 (φ := .bf16) s1.Rh
        rw [k1_pay5_id, k1_pay6_c2, hR]
    exact good_nextC1 M A2 (fun q j => W 1 q j - W 0 q j) (grid1.coords ⟨0, hn⟩) ⟨0 % 8, Nat.mod_lt _ (by decide)⟩
      (off1 ⟨0, hn⟩).1 (off1 ⟨0, hn⟩).2 _ _ hp0
  | n + 1, hn, h31 => by
    have ih := inv1 n (Nat.lt_of_succ_lt hn) (by omega)
    by_cases hl : (n + 1) % 8 = 7
    · -- the last block of a pass that is not the last
      have e := outsAt1_D V c ⟨n + 1, hn⟩ hl (by show n + 1 ≠ 31; omega)
      dsimp only at e
      rw [e]; unfold atD1; rw [caseD1_eq, hy0, hy1, hy2, hy3]
      rw [stAfter_last M A2 W s1 (n + 1) hl]
      rw [stAfter_pre M A2 W s1 n (by omega)] at ih
      exact good_nextD1 M A2 (fun q j => W 1 q j - W 0 q j) (W 0) (grid1.coords ⟨n + 1, hn⟩)
        ⟨(n + 1) % 8, Nat.mod_lt _ (by decide)⟩ (off1 ⟨n + 1, hn⟩).1 (off1 ⟨n + 1, hn⟩).2 _ _ ih
    · by_cases hm : (n + 1) % 8 = 0
      · -- the first block of a later pass
        have e := outsAt1_B V c ⟨n + 1, hn⟩ (Nat.succ_ne_zero n) hm
        dsimp only at e
        rw [e]; unfold atB1; rw [caseB1_eq, hy0, hy1, hy2]
        rw [stAfter_mid M A2 W s1 (n + 1) hl, prefixBlocks_of_eq_zero M A2 _ _ ((n + 1) % 8) hm]
        rw [stAfter_pre0 M A2 W s1 n hm] at ih
        exact good_nextB1 M A2 (fun q j => W 1 q j - W 0 q j) (grid1.coords ⟨n + 1, hn⟩)
          ⟨(n + 1) % 8, Nat.mod_lt _ (by decide)⟩ (off1 ⟨n + 1, hn⟩).1 (off1 ⟨n + 1, hn⟩).2 _ _ ih
      · -- a middle block
        have e := outsAt1_C V c ⟨n + 1, hn⟩ hm hl
        dsimp only at e
        rw [e]; unfold atC1; rw [caseC1_eq, hy0, hy1, hy2]
        rw [stAfter_mid M A2 W s1 (n + 1) hl]
        rw [stAfter_pre M A2 W s1 n hm] at ih
        exact good_nextC1 M A2 (fun q j => W 1 q j - W 0 q j) (grid1.coords ⟨n + 1, hn⟩)
          ⟨(n + 1) % 8, Nat.mod_lt _ (by decide)⟩ (off1 ⟨n + 1, hn⟩).1 (off1 ⟨n + 1, hn⟩).2 _ _ ih

include hR hy0 hy1 hy2 hy3 hy4 hy5 in
/-- After the last point: the two outputs' buffers hold the worker array and the transposed task state after
    four passes. -/
theorem last1 (h31 : 31 < cfg1.N) :
    (outsAt1 V c 31 h31).o8 = cA8 ((onePass M A2 W)^[4] s1).A
      ∧ (outsAt1 V c 31 h31).o9 = c2 (φ := .f32) (fun k j => ((onePass M A2 W)^[4] s1).T j k) := by
  have ih := inv1 M A2 W s1 V c hR hy0 hy1 hy2 hy3 hy4 hy5 30 (by omega) (by omega)
  have e := outsAt1_E V c ⟨31, h31⟩ rfl
  dsimp only at e
  rw [e]; unfold atE1; rw [caseE1_eq, hy0, hy1, hy2, hy3]
  rw [stAfter_pre M A2 W s1 30 (by decide)] at ih
  have hE := good_nextE1 M A2 (fun q j => W 1 q j - W 0 q j) (W 0) (grid1.coords ⟨31, h31⟩)
    ⟨31 % 8, Nat.mod_lt _ (by decide)⟩ (off1 ⟨31, h31⟩).1 (off1 ⟨31, h31⟩).2 _ _ ih
  have hs : (onePass M A2 W)^[4] s1 = stAfter M A2 W s1 31 := by
    unfold stAfter; rw [if_pos (by decide)]
  rw [hs, stAfter_last M A2 W s1 31 (by decide)]
  exact hE

end Points

end Cert.KernelIdeal.Val

end
-- ==== Proof.K1.Blocks.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.Outs
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's input blocks

  The grid is 4 by 8, the second coordinate running fastest: point t is at block t % 8 of pass t / 8.  The
  label window's block at point t is rows 512 (t % 8) … 512 (t % 8) + 511 of the label matrix; every other
  input window's block is its whole array at every point.  The rows of the worker buffer a point loads and
  stores start at the same offset 512 (t % 8).  -/

open Idealize.ShloMosaic.ValueIdx

variable (V : (c : Dev nD) → (b : Ref sig .tc) → Buf (Elt F) ((c : Thread nD τ).loc b))

theorem idxin1_1 : ∀ t : Fin cfg1.N, win1_1.index t (0 : Fin 2) = 0 ∧ win1_1.index t (1 : Fin 2) = 0 :=
  (by decide +kernel : ∀ t : Fin grid1.N, _)
/-- Input window 1's block is its whole array at every point. -/
theorem iblk1_1_eq (c : Dev nD) (t : Fin cfg1.N) : iblk1 V c 1 t = V c (Pipeline.arrRef spec1 1) := by
  obtain ⟨e0, e1⟩ := idxin1_1 t
  funext j
  show V c (Pipeline.arrRef spec1 1) (((cfg1.win 1).blk t).view.emb j) = V c (Pipeline.arrRef spec1 1) j
  have h : ((cfg1.win 1).blk t).view.emb j = j := by
    funext a; apply Fin.ext
    match a with
    | ⟨0, _⟩ => show win1_1.index t (0 : Fin 2) * 2 + 1 * (j 0).val = (j 0).val; omega
    | ⟨1, _⟩ => show win1_1.index t (1 : Fin 2) * 8 + 1 * (j 1).val = (j 1).val; omega
  rw [h]

theorem idxin1_2 : ∀ t : Fin cfg1.N, win1_2.index t (0 : Fin 2) = 0 ∧ win1_2.index t (1 : Fin 2) = 0 :=
  (by decide +kernel : ∀ t : Fin grid1.N, _)
/-- Input window 2's block is its whole array at every point. -/
theorem iblk1_2_eq (c : Dev nD) (t : Fin cfg1.N) : iblk1 V c 2 t = V c (Pipeline.arrRef spec1 2) := by
  obtain ⟨e0, e1⟩ := idxin1_2 t
  funext j
  show V c (Pipeline.arrRef spec1 2) (((cfg1.win 2).blk t).view.emb j) = V c (Pipeline.arrRef spec1 2) j
  have h : ((cfg1.win 2).blk t).view.emb j = j := by
    funext a; apply Fin.ext
    match a with
    | ⟨0, _⟩ => show win1_2.index t (0 : Fin 2) * 8 + 1 * (j 0).val = (j 0).val; omega
    | ⟨1, _⟩ => show win1_2.index t (1 : Fin 2) * 2 + 1 * (j 1).val = (j 1).val; omega
  rw [h]

theorem idxin1_3 : ∀ t : Fin cfg1.N, win1_3.index t (0 : Fin 2) = 0 ∧ win1_3.index t (1 : Fin 2) = 0 :=
  (by decide +kernel : ∀ t : Fin grid1.N, _)
/-- Input window 3's block is its whole array at every point. -/
theorem iblk1_3_eq (c : Dev nD) (t : Fin cfg1.N) : iblk1 V c 3 t = V c (Pipeline.arrRef spec1 3) := by
  obtain ⟨e0, e1⟩ := idxin1_3 t
  funext j
  show V c (Pipeline.arrRef spec1 3) (((cfg1.win 3).blk t).view.emb j) = V c (Pipeline.arrRef spec1 3) j
  have h : ((cfg1.win 3).blk t).view.emb j = j := by
    funext a; apply Fin.ext
    match a with
    | ⟨0, _⟩ => show win1_3.index t (0 : Fin 2) * 8 + 1 * (j 0).val = (j 0).val; omega
    | ⟨1, _⟩ => show win1_3.index t (1 : Fin 2) * 2 + 1 * (j 1).val = (j 1).val; omega
  rw [h]

theorem idxin1_4 : ∀ t : Fin cfg1.N, win1_4.index t (0 : Fin 2) = 0 ∧ win1_4.index t (1 : Fin 2) = 0 :=
  (by decide +kernel : ∀ t : Fin grid1.N, _)
/-- Input window 4's block is its whole array at every point. -/
theorem iblk1_4_eq (c : Dev nD) (t : Fin cfg1.N) : iblk1 V c 4 t = V c (Pipeline.arrRef spec1 4) := by
  obtain ⟨e0, e1⟩ := idxin1_4 t
  funext j
  show V c (Pipeline.arrRef spec1 4) (((cfg1.win 4).blk t).view.emb j) = V c (Pipeline.arrRef spec1 4) j
  have h : ((cfg1.win 4).blk t).view.emb j = j := by
    funext a; apply Fin.ext
    match a with
    | ⟨0, _⟩ => show win1_4.index t (0 : Fin 2) * 4096 + 1 * (j 0).val = (j 0).val; omega
    | ⟨1, _⟩ => show win1_4.index t (1 : Fin 2) * 8 + 1 * (j 1).val = (j 1).val; omega
  rw [h]

theorem idxin1_5 : ∀ t : Fin cfg1.N, win1_5.index t (0 : Fin 2) = 0 ∧ win1_5.index t (1 : Fin 2) = 0 :=
  (by decide +kernel : ∀ t : Fin grid1.N, _)
/-- Input window 5's block is its whole array at every point. -/
theorem iblk1_5_eq (c : Dev nD) (t : Fin cfg1.N) : iblk1 V c 5 t = V c (Pipeline.arrRef spec1 5) := by
  obtain ⟨e0, e1⟩ := idxin1_5 t
  funext j
  show V c (Pipeline.arrRef spec1 5) (((cfg1.win 5).blk t).view.emb j) = V c (Pipeline.arrRef spec1 5) j
  have h : ((cfg1.win 5).blk t).view.emb j = j := by
    funext a; apply Fin.ext
    match a with
    | ⟨0, _⟩ => show win1_5.index t (0 : Fin 2) * 2 + 1 * (j 0).val = (j 0).val; omega
    | ⟨1, _⟩ => show win1_5.index t (1 : Fin 2) * 8192 + 1 * (j 1).val = (j 1).val; omega
  rw [h]

theorem idxin1_0 : ∀ t : Fin cfg1.N, win1_0.index t (0 : Fin 2) = t.val % 8 ∧ win1_0.index t (1 : Fin 2) = 0 :=
  (by decide +kernel : ∀ t : Fin grid1.N, _)

/-- The label block at point t, entry by entry. -/
theorem iblk1_0_apply (c : Dev nD) (t : Fin cfg1.N) (r : Fin 512) (k : Fin 8192) :
    iblk1 V c 0 t (ix2 r k) = V c main_call0_v8_0 (ix2 (⟨r.val + 512 * (t.val % 8), by have := r.isLt; omega⟩ : Fin 4096) k) := by
  obtain ⟨e0, e1⟩ := idxin1_0 t
  show V c main_call0_v8_0 (((cfg1.win 0).blk t).view.emb (ix2 r k)) = _
  have h : ((cfg1.win 0).blk t).view.emb (ix2 r k) = ix2 (⟨r.val + 512 * (t.val % 8), by have := r.isLt; omega⟩ : Fin 4096) k := by
    funext a; apply Fin.ext
    match a with
    | ⟨0, _⟩ => show win1_0.index t (0 : Fin 2) * 512 + 1 * r.val = r.val + 512 * (t.val % 8); omega
    | ⟨1, _⟩ => show win1_0.index t (1 : Fin 2) * 8192 + 1 * k.val = k.val; omega
  rw [h]

/-- Where the point's rows sit in the worker buffer. -/
theorem off1 : ∀ t : Fin cfg1.N, k1_off1 (grid1.coords t) 0 = 512 * (t.val % 8) ∧ k1_off1 (grid1.coords t) 1 = 0 :=
  (by decide +kernel : ∀ t : Fin grid1.N, k1_off1 (grid1.coords t) 0 = 512 * (t.val % 8) ∧ k1_off1 (grid1.coords t) 1 = 0)

end Cert.KernelIdeal.Hand

end
-- ==== Proof.K1.Final.lean ====
import proofs.«170901_g57982058496645_cont_sun_m_527_4_alg».proof.Proof.Gen.KernelIdeal.Launch
import proofs.«170901_g57982058496645_cont_sun_m_527_4_alg».proof.Proof.Gen.KernelIdeal.Skeleton
import proofs.«170901_g57982058496645_cont_sun_m_527_4_alg».proof.Proof.Gen.KernelIdeal.Points
import Idealize.ShloMosaic.Lib.Pipeline.FrameBody
import Idealize.ShloMosaic.Lib.Tactic
import proofs.«170901_g57982058496645_cont_sun_m_527_4_alg».proof.Proof.K1.Outs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the second region leaves in its output arrays

  The worker array and the task state (transposed back to one row per task) are written back once, whole, at
  the last point: they end holding the last point's buffers.  -/

variable (V : (c : Dev nD) → (b : Ref sig .tc) → Buf (Elt F) ((c : Thread nD τ).loc b))

/-- Output window 6's block is the whole array at every point, -/
theorem idx1_6 : ∀ t : Fin cfg1.N, win1_6.index t (0 : Fin 2) = 0 ∧ win1_6.index t (1 : Fin 2) = 0 :=
  (by decide +kernel : ∀ t : Fin grid1.N, _)
theorem blk1_6_emb (t : Fin cfg1.N) (j : S4096x8.Idx) : ((cfg1.win 6).blk t).view.emb j = j := by
  obtain ⟨e0, e1⟩ := idx1_6 t
  funext a; apply Fin.ext
  match a with
  | ⟨0, _⟩ => show win1_6.index t (0 : Fin 2) * 4096 + 1 * (j 0).val = (j 0).val; omega
  | ⟨1, _⟩ => show win1_6.index t (1 : Fin 2) * 8 + 1 * (j 1).val = (j 1).val; omega
/-- so the last point's block, the one written back, covers the array: -/
theorem covers1_6 (i : S4096x8.Idx) : ∃ t : Fin cfg1.N, (cfg1.win 6).flush t = true ∧ i ∈ ((cfg1.win 6).blk t).view.set := by
  have h31 : 31 < cfg1.N := by rw [N1_32]; omega
  refine ⟨⟨31, h31⟩, (flush1_6 _).mpr (by rfl), ?_⟩
  show i ∈ ((View.whole main_v0_0).slice (win1_6.rect ⟨31, h31⟩)).set
  rw [View.set_slice_whole, Rect.mem_set_unit]
  obtain ⟨e0, e1⟩ := idx1_6 ⟨31, h31⟩
  intro a
  match a with
  | ⟨0, _⟩ => show win1_6.index _ (0 : Fin 2) * 4096 ≤ (i 0).val ∧ (i 0).val < win1_6.index _ (0 : Fin 2) * 4096 + 4096; have hi0 : (i 0).val < 4096 := (i 0).isLt; omega
  | ⟨1, _⟩ => show win1_6.index _ (1 : Fin 2) * 8 ≤ (i 1).val ∧ (i 1).val < win1_6.index _ (1 : Fin 2) * 8 + 8; have hi1 : (i 1).val < 8 := (i 1).isLt; omega
/-- the array ends holding what the last point left in the buffer. -/
theorem final1_6 (c : Dev nD) : (dat1 V c).arrAt 6 cfg1.N = (outsAt1 V c 31 (by rw [N1_32]; omega)).o8 := by
  refine (dat1 V c).arrAt_eq_of_cover 6 _ (fun t hf => ?_) covers1_6
  have ht : t.val = 31 := by have := (flush1_6 t).mp hf; have := t.isLt; have hN : cfg1.N = 32 := N_1; omega
  obtain ⟨tv, htv⟩ := t
  dsimp only at ht; subst ht
  show (cfg1.win 6).cut (grid1.coords ⟨31, htv⟩) ((dat1 V c).after 6 ⟨31, htv⟩) = _
  rw [after1_6]
  funext j
  show _ = (outsAt1 V c 31 _).o8 (((cfg1.win 6).blk ⟨31, htv⟩).view.emb j)
  rw [blk1_6_emb]

/-- Output window 7's block is the whole array at every point, -/
theorem idx1_7 : ∀ t : Fin cfg1.N, win1_7.index t (0 : Fin 2) = 0 ∧ win1_7.index t (1 : Fin 2) = 0 :=
  (by decide +kernel : ∀ t : Fin grid1.N, _)
theorem blk1_7_emb (t : Fin cfg1.N) (j : S8192x2.Idx) : ((cfg1.win 7).blk t).view.emb j = j := by
  obtain ⟨e0, e1⟩ := idx1_7 t
  funext a; apply Fin.ext
  match a with
  | ⟨0, _⟩ => show win1_7.index t (0 : Fin 2) * 8192 + 1 * (j 0).val = (j 0).val; omega
  | ⟨1, _⟩ => show win1_7.index t (1 : Fin 2) * 2 + 1 * (j 1).val = (j 1).val; omega
/-- so the last point's block, the one written back, covers the array: -/
theorem covers1_7 (i : S8192x2.Idx) : ∃ t : Fin cfg1.N, (cfg1.win 7).flush t = true ∧ i ∈ ((cfg1.win 7).blk t).view.set := by
  have h31 : 31 < cfg1.N := by rw [N1_32]; omega
  refine ⟨⟨31, h31⟩, (flush1_7 _).mpr (by rfl), ?_⟩
  show i ∈ ((View.whole main_v0_1).slice (win1_7.rect ⟨31, h31⟩)).set
  rw [View.set_slice_whole, Rect.mem_set_unit]
  obtain ⟨e0, e1⟩ := idx1_7 ⟨31, h31⟩
  intro a
  match a with
  | ⟨0, _⟩ => show win1_7.index _ (0 : Fin 2) * 8192 ≤ (i 0).val ∧ (i 0).val < win1_7.index _ (0 : Fin 2) * 8192 + 8192; have hi0 : (i 0).val < 8192 := (i 0).isLt; omega
  | ⟨1, _⟩ => show win1_7.index _ (1 : Fin 2) * 2 ≤ (i 1).val ∧ (i 1).val < win1_7.index _ (1 : Fin 2) * 2 + 2; have hi1 : (i 1).val < 2 := (i 1).isLt; omega
/-- the array ends holding what the last point left in the buffer. -/
theorem final1_7 (c : Dev nD) : (dat1 V c).arrAt 7 cfg1.N = (outsAt1 V c 31 (by rw [N1_32]; omega)).o9 := by
  refine (dat1 V c).arrAt_eq_of_cover 7 _ (fun t hf => ?_) covers1_7
  have ht : t.val = 31 := by have := (flush1_7 t).mp hf; have := t.isLt; have hN : cfg1.N = 32 := N_1; omega
  obtain ⟨tv, htv⟩ := t
  dsimp only at ht; subst ht
  show (cfg1.win 7).cut (grid1.coords ⟨31, htv⟩) ((dat1 V c).after 7 ⟨31, htv⟩) = _
  rw [after1_7]
  funext j
  show _ = (outsAt1 V c 31 _).o9 (((cfg1.win 7).blk ⟨31, htv⟩).view.emb j)
  rw [blk1_7_emb]

end Cert.KernelIdeal.Hand

end
-- ==== Proof.Val.Top1.lean ====
/-
  The second region on a memory whose float arguments are finite: its input blocks as coerced real data, what
  it leaves in the two result arrays, and from that the whole program's results: each result array is the
  closed form (five message-passing steps of the real data, coerced back) of the five argument arrays as
  launched, and the arguments end as launched.
-/
import proofs.«170901_g57982058496645_cont_sun_m_527_4_alg».proof.Proof.Val.Top0
import proofs.«170901_g57982058496645_cont_sun_m_527_4_alg».proof.Proof.Val.Inv1
import proofs.«170901_g57982058496645_cont_sun_m_527_4_alg».proof.Proof.K1.Blocks
import proofs.«170901_g57982058496645_cont_sun_m_527_4_alg».proof.Proof.K1.Final
import proofs.«170901_g57982058496645_cont_sun_m_527_4_alg».proof.Proof.Spec.Finite
import proofs.«170901_g57982058496645_cont_sun_m_527_4_alg».proof.Proof.Alg

set_option maxRecDepth 16384

noncomputable section

namespace Cert.KernelIdeal.Val

open Cert.KernelIdeal Cert.KernelIdeal.Gen Cert.KernelIdeal.Hand Cert.Spec Cert.Corr
open Idealize.ShloMosaic Idealize.ShloMosaic.TcCoe Idealize.ShloMosaic.ValueIdx Idealize.SL.Sem

/-! ### The two cuts of the worker array, and the closed forms -/

/-- The worker array one pass over the 16 blocks leaves is the worker array the second region starts
    from: the same rows, cut in 8 instead of 16. -/
theorem cA16_eq_cA8 (M : Fin 4096 → Fin 8192 → ℝ) (A2 : Fin 2 → Fin 8 → ℝ) (W : Fin 2 → Fin 8 → Fin 2 → ℝ)
    (a0 : Fin 4096 → Fin 8 → ℝ) (t0 : Fin 8192 → Fin 2 → ℝ) (v : Fin 4 → Fin 8192 → ℝ) (c : Fin 8 → ℝ)
    (v' : Fin 4 → Fin 8192 → ℝ) (c' : Fin 8 → ℝ) :
    cA16 (onePass (blockM e16 M) A2 W (s0 a0 t0 v c)).A = cA8 (s1 M A2 W a0 t0 v c v' c').A := by
  unfold cA16 cA8 s1
  simp only [Prod.mk.eta, Equiv.apply_symm_apply]

/-- The final worker array, coerced, is the first closed form. -/
theorem cA8_final (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) (v : Fin 4 → Fin 8192 → ℝ) (c : Fin 8 → ℝ)
    (v' : Fin 4 → Fin 8192 → ℝ) (c' : Fin 8 → ℝ) :
    cA8 (finalState x0 x1 x2 x3 x4 v c v' c').A = out0 x0 x1 x2 x3 x4 := by
  funext i
  obtain ⟨p, q, rfl⟩ : ∃ (p : Fin 4096) (q : Fin 8), i = ix2 p q := ⟨i 0, i 1, eq_ix2 i⟩
  exact (out0_eq_final x0 x1 x2 x3 x4 v c v' c' p q).symm

/-- The final task state, transposed and coerced, is the second closed form. -/
theorem c2_final_T (x0 : IVec ⟨2, ![4096, 8192]⟩ 32) (x1 : FVec Ideal ⟨3, ![2, 8, 2]⟩ .f32)
    (x2 : FVec Ideal ⟨3, ![2, 1, 8]⟩ .f32) (x3 : FVec Ideal ⟨2, ![4096, 8]⟩ .f32)
    (x4 : FVec Ideal ⟨2, ![8192, 2]⟩ .f32) (v : Fin 4 → Fin 8192 → ℝ) (c : Fin 8 → ℝ)
    (v' : Fin 4 → Fin 8192 → ℝ) (c' : Fin 8 → ℝ) :
    c2 (φ := .f32) (fun k j => (finalState x0 x1 x2 x3 x4 v c v' c').T j k) = out1 x0 x1 x2 x3 x4 := by
  funext i
  obtain ⟨k, j, rfl⟩ : ∃ (k : Fin 8192) (j : Fin 2), i = ix2 k j := ⟨i 0, i 1, eq_ix2 i⟩
  exact (out1_eq_final x0 x1 x2 x3 x4 v c v' c' k j).symm

variable (m : (ℓ : Loc nD τ sig) → Buf (Elt Ideal) ℓ) (ρ : Dev nD → PrngReg) (c : Dev nD)

/-- The state the second region starts from: what one pass over the 16 blocks left, the rows cut in 8. -/
abbrev S1 : MState (Fin 8) (Fin 512) (Fin 8192) (Fin 8) :=
  s1 (Mr m c) (A2r m c) (Wr m c) (a0r m c) (t0r m c) (fun _ _ => 0) (fun _ => 0) (fun _ _ => 0) (fun _ => 0)

/-! ### The second region's input blocks on real data -/

/-- The label window's block at point t is block t % 8 of the label matrix cut into 8 blocks of 512 rows. -/
theorem in1_hy0 : ∀ t : Fin cfg1.N, iblk1 (V2 m ρ) c 0 t
    = c2 (φ := .bf16) (blockM e8 (Mr m c) ⟨t.val % 8, Nat.mod_lt _ (by decide)⟩) := by
  intro t
  funext i
  obtain ⟨r, k, rfl⟩ : ∃ (r : Fin 512) (k : Fin 8192), i = ix2 r k := ⟨i 0, i 1, eq_ix2 i⟩
  rw [iblk1_0_apply]
  show V2 m ρ c main_call0_v8_0 (ix2 _ k) = ((Mr m c (e8 (⟨t.val % 8, Nat.mod_lt _ (by decide)⟩, r)) k : ℝ) : EReal)
  rw [v8_0_eq]
  have he : e8 (⟨t.val % 8, Nat.mod_lt _ (by decide)⟩, r)
      = (⟨r.val + 512 * (t.val % 8), by have := r.isLt; omega⟩ : Fin 4096) := Fin.ext (e8_val _ r)
  rw [he]
  rfl

/-- The first parameter block's window: the real matrix A2. -/
theorem in1_hy1 (hr2 : ∀ i, ∃ r : ℝ, X2 m c i = (r : EReal)) :
    ∀ t : Fin cfg1.N, iblk1 (V2 m ρ) c 1 t = c2 (φ := .f32) (A2r m c) := by
  intro t
  rw [iblk1_1_eq]
  show V2 m ρ c main_call0_v0 = _
  rw [v0_eq2]
  show StableHlo.after (hostOps0 (F := Ideal)) (W0 m ρ c) (Proc.devRef .tc main_call0_v0) = _
  rw [after_v0]
  exact hostA2 (X2 m c) hr2

/-- The second parameter block's window: the real matrix W 1 − W 0. -/
theorem in1_hy2 (hr1 : ∀ i, ∃ r : ℝ, X1 m c i = (r : EReal)) :
    ∀ t : Fin cfg1.N, iblk1 (V2 m ρ) c 2 t = c2 (φ := .f32) (fun q j => Wr m c 1 q j - Wr m c 0 q j) := by
  intro t
  rw [iblk1_2_eq]
  show V2 m ρ c main_call0_v5 = _
  rw [v5_eq2]
  show StableHlo.after (hostOps0 (F := Ideal)) (W0 m ρ c) (Proc.devRef .tc main_call0_v5) = _
  rw [after_v5]
  exact hostD (X1 m c) hr1

/-- The third parameter block's window: the real matrix W 0. -/
theorem in1_hy3 (hr1 : ∀ i, ∃ r : ℝ, X1 m c i = (r : EReal)) :
    ∀ t : Fin cfg1.N, iblk1 (V2 m ρ) c 3 t = c2 (φ := .f32) (Wr m c 0) := by
  intro t
  rw [iblk1_3_eq]
  show V2 m ρ c main_call0_v7 = _
  rw [v7_eq2]
  show StableHlo.after (hostOps0 (F := Ideal)) (W0 m ρ c) (Proc.devRef .tc main_call0_v7) = _
  rw [after_v7]
  exact hostW0 (X1 m c) hr1

variable (hr1 : ∀ i, ∃ r : ℝ, X1 m c i = (r : EReal)) (hr2 : ∀ i, ∃ r : ℝ, X2 m c i = (r : EReal))
  (hr3 : ∀ i, ∃ r : ℝ, X3 m c i = (r : EReal)) (hr4 : ∀ i, ∃ r : ℝ, X4 m c i = (r : EReal))

include hr1 hr2 hr3 hr4 in
/-- The worker array's window: what the first region left, the rows cut in 8. -/
theorem in1_hy4 : ∀ t : Fin cfg1.N, iblk1 (V2 m ρ) c 4 t = cA8 (S1 m c).A := by
  intro t
  rw [iblk1_4_eq]
  show V2 m ρ c main_call0_v8_1 = _
  rw [v8_1_eq m ρ c hr1 hr2 hr3 hr4]
  exact cA16_eq_cA8 _ _ _ _ _ _ _ _ _

include hr1 hr2 hr3 hr4 in
/-- The task state's window: what the first region left. -/
theorem in1_hy5 : ∀ t : Fin cfg1.N, iblk1 (V2 m ρ) c 5 t = c2 (φ := .f32) (S1 m c).T := by
  intro t
  rw [iblk1_5_eq]
  show V2 m ρ c main_call0_v8_2 = _
  rw [v8_2_eq m ρ c hr1 hr2 hr3 hr4]
  rfl

/-! ### The two results -/

include hr1 hr2 hr3 hr4 in
/-- After the second region the first result array holds the first closed form, -/
theorem v0_0_eq : V3 m ρ c main_v0_0 = out0 (X0 m c) (X1 m c) (X2 m c) (X3 m c) (X4 m c) := by
  have h := (last1 (blockM e8 (Mr m c)) (A2r m c) (Wr m c) (S1 m c) (V2 m ρ) c rfl
    (in1_hy0 m ρ c) (in1_hy1 m ρ c hr2) (in1_hy2 m ρ c hr1) (in1_hy3 m ρ c hr1)
    (in1_hy4 m ρ c hr1 hr2 hr3 hr4) (in1_hy5 m ρ c hr1 hr2 hr3 hr4) (by rw [N1_32]; omega)).1
  exact (((W3_arr m ρ c 6).trans (final1_6 (V2 m ρ) c)).trans h).trans
    (cA8_final (X0 m c) (X1 m c) (X2 m c) (X3 m c) (X4 m c) _ _ _ _)

include hr1 hr2 hr3 hr4 in
/-- and the second result array the second. -/
theorem v0_1_eq : V3 m ρ c main_v0_1 = out1 (X0 m c) (X1 m c) (X2 m c) (X3 m c) (X4 m c) := by
  have h := (last1 (blockM e8 (Mr m c)) (A2r m c) (Wr m c) (S1 m c) (V2 m ρ) c rfl
    (in1_hy0 m ρ c) (in1_hy1 m ρ c hr2) (in1_hy2 m ρ c hr1) (in1_hy3 m ρ c hr1)
    (in1_hy4 m ρ c hr1 hr2 hr3 hr4) (in1_hy5 m ρ c hr1 hr2 hr3 hr4) (by rw [N1_32]; omega)).2
  exact (((W3_arr m ρ c 7).trans (final1_7 (V2 m ρ) c)).trans h).trans
    (c2_final_T (X0 m c) (X1 m c) (X2 m c) (X3 m c) (X4 m c) _ _ _ _)

/-- Every weakly fair execution of the idealized program, from a memory whose float arguments are finite,
    terminates without a fault with both results at the closed forms of the arguments as launched and the
    arguments unchanged. -/
theorem kernel_results : Cert.Proof.Alg.KernelValue := fun m g hpre =>
  (θ_run defs _ _).mono (fun r h c => by
    obtain ⟨f1, f2, f3, f4⟩ := finite_of_pre _ _ _ _ _ (hpre c)
    exact ⟨(h c _ (mem_uc main_v0_0 (by decide))).trans (v0_0_eq m g c f1 f2 f3 f4),
      (h c _ (mem_uc main_v0_1 (by decide))).trans (v0_1_eq m g c f1 f2 f3 f4),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c)⟩) (run_all m g)

end Cert.KernelIdeal.Val

end
-- ==== Proof.lean ====
/-
  The certificate of the message-passing kernel against its reference.

  Both kernel programs (the printed one at the bit-level instance, the idealized one on the extended reals) are
  two regions after eight host operations; each region's body is run once per control case and the carried
  buffers followed point by point, which gives the three frames.  At the ideal instance, on finite inputs, the
  first region computes one message-passing step block by block (16 blocks of 256 rows) and the second region
  four more (8 blocks of 512 rows each); over the reals the kernel's arrangement of a step — the mask of label 0
  taken as all-ones minus the label matrix, the two rank-one worker messages, the column sums for the label-0
  task messages — equals the reference's, so the two programs end with the same arrays.  The idealized kernel
  differs from the printed one by five removed bf16 round trips, each the identity on the extended reals.
-/
import proofs.«170901_g57982058496645_cont_sun_m_527_4_alg».proof.Defs
import proofs.«170901_g57982058496645_cont_sun_m_527_4_alg».proof.Proof.RefFrame
import proofs.«170901_g57982058496645_cont_sun_m_527_4_alg».proof.Proof.MainB
import proofs.«170901_g57982058496645_cont_sun_m_527_4_alg».proof.Proof.MainK
import proofs.«170901_g57982058496645_cont_sun_m_527_4_alg».proof.Proof.Alg
import proofs.«170901_g57982058496645_cont_sun_m_527_4_alg».proof.Proof.Val.Top1

noncomputable section

namespace Cert.Proof

open Idealize.ShloMosaic Idealize.SL.Sem

theorem claim : Cert.Claim :=
  Cert.Proof.Alg.claim_of
    (fun m ρ _ => Cert.Kernel.Hand.frame (F := Bits) m ρ)
    (fun m ρ _ => Cert.KernelIdeal.Hand.frame (F := Ideal) m ρ)
    Cert.KernelIdeal.Val.kernel_results

end Cert.Proof

end
